-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x4096x2048 : Shape := ⟨4, ![1, 1, 4096, 2048]⟩
abbrev S1x8x4096x1 : Shape := ⟨4, ![1, 8, 4096, 1]⟩
abbrev S1x8x2048x4096 : Shape := ⟨4, ![1, 8, 2048, 4096]⟩
abbrev S_ : Shape := ⟨0, ![]⟩

class Facts : Prop where
  bcast_S_S1x1x4096x2048 : S_.BroadcastsInDim S1x1x4096x2048 (![] : Fin 0 → Fin S1x1x4096x2048.rank)
  reducesTo_S1x1x4096x2048_S_d0_1_2_3 : S1x1x4096x2048.ReducesTo [0, 1, 2, 3] S_
  h_S_ : 0 < S_.numel
  bcast_S_S1x8x4096x1 : S_.BroadcastsInDim S1x8x4096x1 (![] : Fin 0 → Fin S1x8x4096x1.rank)
  reducesTo_S1x8x4096x1_S_d0_1_2_3 : S1x8x4096x1.ReducesTo [0, 1, 2, 3] S_
  bcast_S_S1x8x2048x4096 : S_.BroadcastsInDim S1x8x2048x4096 (![] : Fin 0 → Fin S1x8x2048x4096.rank)
  reducesTo_S1x8x2048x4096_S_d0_1_2_3 : S1x8x2048x4096.ReducesTo [0, 1, 2, 3] S_

variable [Facts]

def fn {F : FTy → Type} [FloatOps F] (main_arg0 : FVec F S1x1x4096x2048 .f32) (main_arg1 : FVec F S1x8x4096x1 .f32) (main_arg2 : FVec F S1x8x2048x4096 .f32) : IVec S_ 1 :=
  let main_v0 : FVec F S1x1x4096x2048 .f32 := Host.absf main_arg0
  let main_cst : FVec F S_ .f32 := constant S_ .f32 0x7F800000#32
  let main_v1 : FVec F S1x1x4096x2048 .f32 := broadcastInDim S1x1x4096x2048 ![] bcast_S_S1x1x4096x2048 main_cst
  let main_v2 : IVec S1x1x4096x2048 1 := cmpf .olt main_v0 main_v1
  let main_c : IVec S_ 1 := constantI S_ 1 1#1
  let main_v3 : IVec S_ 1 := (fun x v => Host.reduce IntOp.andi x v reducesTo_S1x1x4096x2048_S_d0_1_2_3 h_S_) main_v2 main_c
  let main_v4 : FVec F S1x8x4096x1 .f32 := Host.absf main_arg1
  let main_cst_0 : FVec F S_ .f32 := constant S_ .f32 0x7F800000#32
  let main_v5 : FVec F S1x8x4096x1 .f32 := broadcastInDim S1x8x4096x1 ![] bcast_S_S1x8x4096x1 main_cst_0
  let main_v6 : IVec S1x8x4096x1 1 := cmpf .olt main_v4 main_v5
  let main_c_1 : IVec S_ 1 := constantI S_ 1 1#1
  let main_v7 : IVec S_ 1 := (fun x v => Host.reduce IntOp.andi x v reducesTo_S1x8x4096x1_S_d0_1_2_3 h_S_) main_v6 main_c_1
  let main_v8 : IVec S_ 1 := andi main_v3 main_v7
  let main_v9 : FVec F S1x8x2048x4096 .f32 := Host.absf main_arg2
  let main_cst_2 : FVec F S_ .f32 := constant S_ .f32 0x7F800000#32
  let main_v10 : FVec F S1x8x2048x4096 .f32 := broadcastInDim S1x8x2048x4096 ![] bcast_S_S1x8x2048x4096 main_cst_2
  let main_v11 : IVec S1x8x2048x4096 1 := cmpf .olt main_v9 main_v10
  let main_c_3 : IVec S_ 1 := constantI S_ 1 1#1
  let main_v12 : IVec S_ 1 := (fun x v => Host.reduce IntOp.andi x v reducesTo_S1x8x2048x4096_S_d0_1_2_3 h_S_) main_v11 main_c_3
  let main_v13 : IVec S_ 1 := andi main_v8 main_v12
  main_v13
-- ==== Kernel.lean ====
abbrev S1x1x4096x2048 : Shape := ⟨4, ![1, 1, 4096, 2048]⟩
abbrev S1x8x4096x1 : Shape := ⟨4, ![1, 8, 4096, 1]⟩
abbrev S1x8x2048x4096 : Shape := ⟨4, ![1, 8, 2048, 4096]⟩
abbrev S4096x2048 : Shape := ⟨2, ![4096, 2048]⟩
abbrev S8x4096 : Shape := ⟨2, ![8, 4096]⟩
abbrev S8x2048x4096 : Shape := ⟨3, ![8, 2048, 4096]⟩
abbrev S16384x4096 : Shape := ⟨2, ![16384, 4096]⟩
abbrev S2048x16 : Shape := ⟨2, ![2048, 16]⟩
abbrev S64x16 : Shape := ⟨2, ![64, 16]⟩
abbrev S_ : Shape := ⟨0, ![]⟩
abbrev S16 : Shape := ⟨1, ![16]⟩
abbrev S1x16 : Shape := ⟨2, ![1, 16]⟩
abbrev S1x1 : Shape := ⟨2, ![1, 1]⟩
abbrev S8x2048 : Shape := ⟨2, ![8, 2048]⟩
abbrev S1x2048x1024 : Shape := ⟨3, ![1, 2048, 1024]⟩
abbrev S7x2048 : Shape := ⟨2, ![7, 2048]⟩
abbrev S8x256 : Shape := ⟨2, ![8, 256]⟩
abbrev S256x2048 : Shape := ⟨2, ![256, 2048]⟩
abbrev S1x2048 : Shape := ⟨2, ![1, 2048]⟩
abbrev S2048x1024 : Shape := ⟨2, ![2048, 1024]⟩
abbrev S2048 : Shape := ⟨1, ![2048]⟩
abbrev S1x7x2048 : Shape := ⟨3, ![1, 7, 2048]⟩
abbrev S1 : Shape := ⟨1, ![1]⟩
abbrev S1x1x1 : Shape := ⟨3, ![1, 1, 1]⟩
abbrev S2048x1 : Shape := ⟨2, ![2048, 1]⟩
abbrev S1x2048x16 : Shape := ⟨3, ![1, 2048, 16]⟩

abbrev nBuf : Table → Nat
  | .hbm => 14
  | .local .tc .vmem => 12
  | .local .scVector .vmem => 3
  | _ => 0

abbrev bufTy : (tb : Table) → Fin (nBuf tb) → BufTy
  | .hbm, ⟨0, _⟩ => ⟨S1x1x4096x2048, .f32⟩
  | .hbm, ⟨1, _⟩ => ⟨S1x8x4096x1, .f32⟩
  | .hbm, ⟨2, _⟩ => ⟨S1x8x2048x4096, .f32⟩
  | .hbm, ⟨3, _⟩ => ⟨S4096x2048, .f32⟩
  | .hbm, ⟨4, _⟩ => ⟨S8x4096, .f32⟩
  | .hbm, ⟨5, _⟩ => ⟨S8x2048x4096, .f32⟩
  | .hbm, ⟨6, _⟩ => ⟨S16384x4096, .f32⟩
  | .hbm, ⟨7, _⟩ => ⟨S2048x16, .f32⟩
  | .hbm, ⟨8, _⟩ => ⟨S1x1, .f32⟩
  | .hbm, ⟨9, _⟩ => ⟨S8x2048, .f32⟩
  | .hbm, ⟨10, _⟩ => ⟨S1x2048, .f32⟩
  | .hbm, ⟨11, _⟩ => ⟨S2048x1, .f32⟩
  | .hbm, ⟨12, _⟩ => ⟨S1x1, .f32⟩
  | .hbm, ⟨13, _⟩ => ⟨S_, .f32⟩
  | .local .tc .vmem, ⟨0, _⟩ => ⟨S8x4096, .f32⟩
  | .local .tc .vmem, ⟨1, _⟩ => ⟨S4096x2048, .f32⟩
  | .local .tc .vmem, ⟨2, _⟩ => ⟨S1x2048x1024, .f32⟩
  | .local .tc .vmem, ⟨3, _⟩ => ⟨S1x2048x1024, .f32⟩
  | .local .tc .vmem, ⟨4, _⟩ => ⟨S1x1, .f32⟩
  | .local .tc .vmem, ⟨5, _⟩ => ⟨S8x2048, .f32⟩
  | .local .tc .vmem, ⟨6, _⟩ => ⟨S8x2048, .f32⟩
  | .local .tc .vmem, ⟨7, _⟩ => ⟨S7x2048, .f32⟩
  | .local .tc .vmem, ⟨8, _⟩ => ⟨S1x1, .f32⟩
  | .local .tc .vmem, ⟨9, _⟩ => ⟨S2048x1, .f32⟩
  | .local .tc .vmem, ⟨10, _⟩ => ⟨S2048x16, .f32⟩
  | .local .tc .vmem, ⟨11, _⟩ => ⟨S1x1, .f32⟩
  | .local .scVector .vmem, ⟨0, _⟩ => ⟨S8x4096, .f32⟩
  | .local .scVector .vmem, ⟨1, _⟩ => ⟨S8x4096, .f32⟩
  | .local .scVector .vmem, ⟨2, _⟩ => ⟨S64x16, .f32⟩
  | _, _ => ⟨S1x1x4096x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v3_scv : Ref sig .scVector := ⟨.hbm, 6, rfl⟩
abbrev main_v4_scv : Ref sig .scVector := ⟨.hbm, 7, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg4_0 : Ref sig .tc := ⟨.vmem, 5, rfl⟩
abbrev cc1_scratch0 : Ref sig .tc := ⟨.vmem, 6, rfl⟩
abbrev cc1_scratch1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem4_0 : DmaSem sig := 8
abbrev cc2_sem0_0 : DmaSem sig := 9
abbrev cc2_sem1_0 : DmaSem sig := 10
abbrev cc2_sem2_0 : DmaSem sig := 11
abbrev cc2_sem3_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32 : BitVec 32 := 0#32
  ![v2.toNat, 0]
def k0_off2 (i : grid0.Coords) (c8_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v5 : BitVec 32 := Scalar.addi v2 c8_i32
  let c0_i32_1 : BitVec 32 := 0#32
  ![v5.toNat, 0]
@[reducible] def k0_t1_loop : Scf.Loop 32 :=
  let c0_i32_12 : BitVec 32 := 0#32
  let c32_i32 : BitVec 32 := 32#32
  let v18 : BitVec 32 := Scalar.addi c0_i32_12 c32_i32
  let c1_i32 : BitVec 32 := 1#32
  ⟨c0_i32_12, v18, c1_i32⟩
def k0_off3 (k0_t1 : Fin k0_t1_loop.trips) (c0_i32_871 : BitVec 32) : Fin 2 → Nat :=
  let c0_i32_873 : BitVec 32 := 0#32
  let v1389 : Index := Scalar.indexCast c0_i32_873
  let c0_i32_12 : BitVec 32 := 0#32
  let c1_i32 : BitVec 32 := 1#32
  let arg9 : BitVec 32 := Scf.iv c0_i32_12 c1_i32 k0_t1
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![0, v1390.toNat]
@[reducible] def k0_t2_loop : Scf.Loop 32 :=
  let c0_i32_23 : BitVec 32 := 0#32
  let c32_i32_24 : BitVec 32 := 32#32
  let v39 : BitVec 32 := Scalar.addi c0_i32_23 c32_i32_24
  let c1_i32_25 : BitVec 32 := 1#32
  ⟨c0_i32_23, v39, c1_i32_25⟩
def k0_off4 (k0_t2 : Fin k0_t2_loop.trips) (c0_i32_871 : BitVec 32) : Fin 2 → Nat :=
  let c1_i32_873 : BitVec 32 := 1#32
  let v1389 : Index := Scalar.indexCast c1_i32_873
  let c0_i32_23 : BitVec 32 := 0#32
  let c1_i32_25 : BitVec 32 := 1#32
  let arg9 : BitVec 32 := Scf.iv c0_i32_23 c1_i32_25 k0_t2
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![1, v1390.toNat]
@[reducible] def k0_t3_loop : Scf.Loop 32 :=
  let c0_i32_37 : BitVec 32 := 0#32
  let c32_i32_38 : BitVec 32 := 32#32
  let v60 : BitVec 32 := Scalar.addi c0_i32_37 c32_i32_38
  let c1_i32_39 : BitVec 32 := 1#32
  ⟨c0_i32_37, v60, c1_i32_39⟩
def k0_off5 (k0_t3 : Fin k0_t3_loop.trips) (c0_i32_871 : BitVec 32) : Fin 2 → Nat :=
  let c2_i32_873 : BitVec 32 := 2#32
  let v1389 : Index := Scalar.indexCast c2_i32_873
  let c0_i32_37 : BitVec 32 := 0#32
  let c1_i32_39 : BitVec 32 := 1#32
  let arg9 : BitVec 32 := Scf.iv c0_i32_37 c1_i32_39 k0_t3
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![2, v1390.toNat]
@[reducible] def k0_t4_loop : Scf.Loop 32 :=
  let c0_i32_51 : BitVec 32 := 0#32
  let c32_i32_52 : BitVec 32 := 32#32
  let v81 : BitVec 32 := Scalar.addi c0_i32_51 c32_i32_52
  let c1_i32_53 : BitVec 32 := 1#32
  ⟨c0_i32_51, v81, c1_i32_53⟩
def k0_off6 (k0_t4 : Fin k0_t4_loop.trips) (c0_i32_871 : BitVec 32) : Fin 2 → Nat :=
  let c3_i32_873 : BitVec 32 := 3#32
  let v1389 : Index := Scalar.indexCast c3_i32_873
  let c0_i32_51 : BitVec 32 := 0#32
  let c1_i32_53 : BitVec 32 := 1#32
  let arg9 : BitVec 32 := Scf.iv c0_i32_51 c1_i32_53 k0_t4
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![3, v1390.toNat]
@[reducible] def k0_t5_loop : Scf.Loop 32 :=
  let c0_i32_64 : BitVec 32 := 0#32
  let c32_i32_65 : BitVec 32 := 32#32
  let v102 : BitVec 32 := Scalar.addi c0_i32_64 c32_i32_65
  let c1_i32_66 : BitVec 32 := 1#32
  ⟨c0_i32_64, v102, c1_i32_66⟩
def k0_off7 (k0_t5 : Fin k0_t5_loop.trips) (c0_i32_871 : BitVec 32) : Fin 2 → Nat :=
  let c4_i32_873 : BitVec 32 := 4#32
  let v1389 : Index := Scalar.indexCast c4_i32_873
  let c0_i32_64 : BitVec 32 := 0#32
  let c1_i32_66 : BitVec 32 := 1#32
  let arg9 : BitVec 32 := Scf.iv c0_i32_64 c1_i32_66 k0_t5
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![4, v1390.toNat]
@[reducible] def k0_t6_loop : Scf.Loop 32 :=
  let c0_i32_77 : BitVec 32 := 0#32
  let c32_i32_78 : BitVec 32 := 32#32
  let v123 : BitVec 32 := Scalar.addi c0_i32_77 c32_i32_78
  let c1_i32_79 : BitVec 32 := 1#32
  ⟨c0_i32_77, v123, c1_i32_79⟩
def k0_off8 (k0_t6 : Fin k0_t6_loop.trips) (c0_i32_871 : BitVec 32) : Fin 2 → Nat :=
  let c5_i32_873 : BitVec 32 := 5#32
  let v1389 : Index := Scalar.indexCast c5_i32_873
  let c0_i32_77 : BitVec 32 := 0#32
  let c1_i32_79 : BitVec 32 := 1#32
  let arg9 : BitVec 32 := Scf.iv c0_i32_77 c1_i32_79 k0_t6
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![5, v1390.toNat]
@[reducible] def k0_t7_loop : Scf.Loop 32 :=
  let c0_i32_90 : BitVec 32 := 0#32
  let c32_i32_91 : BitVec 32 := 32#32
  let v144 : BitVec 32 := Scalar.addi c0_i32_90 c32_i32_91
  let c1_i32_92 : BitVec 32 := 1#32
  ⟨c0_i32_90, v144, c1_i32_92⟩
def k0_off9 (k0_t7 : Fin k0_t7_loop.trips) (c0_i32_871 : BitVec 32) : Fin 2 → Nat :=
  let c6_i32_873 : BitVec 32 := 6#32
  let v1389 : Index := Scalar.indexCast c6_i32_873
  let c0_i32_90 : BitVec 32 := 0#32
  let c1_i32_92 : BitVec 32 := 1#32
  let arg9 : BitVec 32 := Scf.iv c0_i32_90 c1_i32_92 k0_t7
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![6, v1390.toNat]
@[reducible] def k0_t8_loop : Scf.Loop 32 :=
  let c0_i32_103 : BitVec 32 := 0#32
  let c32_i32_104 : BitVec 32 := 32#32
  let v165 : BitVec 32 := Scalar.addi c0_i32_103 c32_i32_104
  let c1_i32_105 : BitVec 32 := 1#32
  ⟨c0_i32_103, v165, c1_i32_105⟩
def k0_off10 (k0_t8 : Fin k0_t8_loop.trips) (c0_i32_871 : BitVec 32) : Fin 2 → Nat :=
  let c7_i32_873 : BitVec 32 := 7#32
  let v1389 : Index := Scalar.indexCast c7_i32_873
  let c0_i32_103 : BitVec 32 := 0#32
  let c1_i32_105 : BitVec 32 := 1#32
  let arg9 : BitVec 32 := Scf.iv c0_i32_103 c1_i32_105 k0_t8
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![7, v1390.toNat]
@[reducible] def k0_t9_loop : Scf.Loop 32 :=
  let c0_i32_120 : BitVec 32 := 0#32
  let c32_i32_121 : BitVec 32 := 32#32
  let v191 : BitVec 32 := Scalar.addi c0_i32_120 c32_i32_121
  let c1_i32_122 : BitVec 32 := 1#32
  ⟨c0_i32_120, v191, c1_i32_122⟩
def k0_off11 (k0_t9 : Fin k0_t9_loop.trips) (c0_i32_871 : BitVec 32) : Fin 2 → Nat :=
  let c0_i32_873 : BitVec 32 := 0#32
  let v1389 : Index := Scalar.indexCast c0_i32_873
  let c0_i32_120 : BitVec 32 := 0#32
  let c1_i32_122 : BitVec 32 := 1#32
  let arg9 : BitVec 32 := Scf.iv c0_i32_120 c1_i32_122 k0_t9
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![0, v1390.toNat]
@[reducible] def k0_t10_loop : Scf.Loop 32 :=
  let c0_i32_134 : BitVec 32 := 0#32
  let c32_i32_135 : BitVec 32 := 32#32
  let v212 : BitVec 32 := Scalar.addi c0_i32_134 c32_i32_135
  let c1_i32_136 : BitVec 32 := 1#32
  ⟨c0_i32_134, v212, c1_i32_136⟩
def k0_off12 (k0_t10 : Fin k0_t10_loop.trips) (c0_i32_871 : BitVec 32) : Fin 2 → Nat :=
  let c1_i32_873 : BitVec 32 := 1#32
  let v1389 : Index := Scalar.indexCast c1_i32_873
  let c0_i32_134 : BitVec 32 := 0#32
  let c1_i32_136 : BitVec 32 := 1#32
  let arg9 : BitVec 32 := Scf.iv c0_i32_134 c1_i32_136 k0_t10
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![1, v1390.toNat]
@[reducible] def k0_t11_loop : Scf.Loop 32 :=
  let c0_i32_147 : BitVec 32 := 0#32
  let c32_i32_148 : BitVec 32 := 32#32
  let v233 : BitVec 32 := Scalar.addi c0_i32_147 c32_i32_148
  let c1_i32_149 : BitVec 32 := 1#32
  ⟨c0_i32_147, v233, c1_i32_149⟩
def k0_off13 (k0_t11 : Fin k0_t11_loop.trips) (c0_i32_871 : BitVec 32) : Fin 2 → Nat :=
  let c2_i32_873 : BitVec 32 := 2#32
  let v1389 : Index := Scalar.indexCast c2_i32_873
  let c0_i32_147 : BitVec 32 := 0#32
  let c1_i32_149 : BitVec 32 := 1#32
  let arg9 : BitVec 32 := Scf.iv c0_i32_147 c1_i32_149 k0_t11
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![2, v1390.toNat]
@[reducible] def k0_t12_loop : Scf.Loop 32 :=
  let c0_i32_160 : BitVec 32 := 0#32
  let c32_i32_161 : BitVec 32 := 32#32
  let v254 : BitVec 32 := Scalar.addi c0_i32_160 c32_i32_161
  let c1_i32_162 : BitVec 32 := 1#32
  ⟨c0_i32_160, v254, c1_i32_162⟩
def k0_off14 (k0_t12 : Fin k0_t12_loop.trips) (c0_i32_871 : BitVec 32) : Fin 2 → Nat :=
  let c3_i32_873 : BitVec 32 := 3#32
  let v1389 : Index := Scalar.indexCast c3_i32_873
  let c0_i32_160 : BitVec 32 := 0#32
  let c1_i32_162 : BitVec 32 := 1#32
  let arg9 : BitVec 32 := Scf.iv c0_i32_160 c1_i32_162 k0_t12
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![3, v1390.toNat]
@[reducible] def k0_t13_loop : Scf.Loop 32 :=
  let c0_i32_173 : BitVec 32 := 0#32
  let c32_i32_174 : BitVec 32 := 32#32
  let v275 : BitVec 32 := Scalar.addi c0_i32_173 c32_i32_174
  let c1_i32_175 : BitVec 32 := 1#32
  ⟨c0_i32_173, v275, c1_i32_175⟩
def k0_off15 (k0_t13 : Fin k0_t13_loop.trips) (c0_i32_871 : BitVec 32) : Fin 2 → Nat :=
  let c4_i32_873 : BitVec 32 := 4#32
  let v1389 : Index := Scalar.indexCast c4_i32_873
  let c0_i32_173 : BitVec 32 := 0#32
  let c1_i32_175 : BitVec 32 := 1#32
  let arg9 : BitVec 32 := Scf.iv c0_i32_173 c1_i32_175 k0_t13
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![4, v1390.toNat]
@[reducible] def k0_t14_loop : Scf.Loop 32 :=
  let c0_i32_186 : BitVec 32 := 0#32
  let c32_i32_187 : BitVec 32 := 32#32
  let v296 : BitVec 32 := Scalar.addi c0_i32_186 c32_i32_187
  let c1_i32_188 : BitVec 32 := 1#32
  ⟨c0_i32_186, v296, c1_i32_188⟩
def k0_off16 (k0_t14 : Fin k0_t14_loop.trips) (c0_i32_871 : BitVec 32) : Fin 2 → Nat :=
  let c5_i32_873 : BitVec 32 := 5#32
  let v1389 : Index := Scalar.indexCast c5_i32_873
  let c0_i32_186 : BitVec 32 := 0#32
  let c1_i32_188 : BitVec 32 := 1#32
  let arg9 : BitVec 32 := Scf.iv c0_i32_186 c1_i32_188 k0_t14
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![5, v1390.toNat]
@[reducible] def k0_t15_loop : Scf.Loop 32 :=
  let c0_i32_199 : BitVec 32 := 0#32
  let c32_i32_200 : BitVec 32 := 32#32
  let v317 : BitVec 32 := Scalar.addi c0_i32_199 c32_i32_200
  let c1_i32_201 : BitVec 32 := 1#32
  ⟨c0_i32_199, v317, c1_i32_201⟩
def k0_off17 (k0_t15 : Fin k0_t15_loop.trips) (c0_i32_871 : BitVec 32) : Fin 2 → Nat :=
  let c6_i32_873 : BitVec 32 := 6#32
  let v1389 : Index := Scalar.indexCast c6_i32_873
  let c0_i32_199 : BitVec 32 := 0#32
  let c1_i32_201 : BitVec 32 := 1#32
  let arg9 : BitVec 32 := Scf.iv c0_i32_199 c1_i32_201 k0_t15
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![6, v1390.toNat]
@[reducible] def k0_t16_loop : Scf.Loop 32 :=
  let c0_i32_212 : BitVec 32 := 0#32
  let c32_i32_213 : BitVec 32 := 32#32
  let v338 : BitVec 32 := Scalar.addi c0_i32_212 c32_i32_213
  let c1_i32_214 : BitVec 32 := 1#32
  ⟨c0_i32_212, v338, c1_i32_214⟩
def k0_off18 (k0_t16 : Fin k0_t16_loop.trips) (c0_i32_871 : BitVec 32) : Fin 2 → Nat :=
  let c7_i32_873 : BitVec 32 := 7#32
  let v1389 : Index := Scalar.indexCast c7_i32_873
  let c0_i32_212 : BitVec 32 := 0#32
  let c1_i32_214 : BitVec 32 := 1#32
  let arg9 : BitVec 32 := Scf.iv c0_i32_212 c1_i32_214 k0_t16
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![7, v1390.toNat]
@[reducible] def k0_t17_loop : Scf.Loop 32 :=
  let c0_i32_229 : BitVec 32 := 0#32
  let c32_i32_230 : BitVec 32 := 32#32
  let v364 : BitVec 32 := Scalar.addi c0_i32_229 c32_i32_230
  let c1_i32_231 : BitVec 32 := 1#32
  ⟨c0_i32_229, v364, c1_i32_231⟩
def k0_off19 (k0_t17 : Fin k0_t17_loop.trips) (c0_i32_871 : BitVec 32) : Fin 2 → Nat :=
  let c0_i32_873 : BitVec 32 := 0#32
  let v1389 : Index := Scalar.indexCast c0_i32_873
  let c0_i32_229 : BitVec 32 := 0#32
  let c1_i32_231 : BitVec 32 := 1#32
  let arg9 : BitVec 32 := Scf.iv c0_i32_229 c1_i32_231 k0_t17
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![0, v1390.toNat]
@[reducible] def k0_t18_loop : Scf.Loop 32 :=
  let c0_i32_243 : BitVec 32 := 0#32
  let c32_i32_244 : BitVec 32 := 32#32
  let v385 : BitVec 32 := Scalar.addi c0_i32_243 c32_i32_244
  let c1_i32_245 : BitVec 32 := 1#32
  ⟨c0_i32_243, v385, c1_i32_245⟩
def k0_off20 (k0_t18 : Fin k0_t18_loop.trips) (c0_i32_871 : BitVec 32) : Fin 2 → Nat :=
  let c1_i32_873 : BitVec 32 := 1#32
  let v1389 : Index := Scalar.indexCast c1_i32_873
  let c0_i32_243 : BitVec 32 := 0#32
  let c1_i32_245 : BitVec 32 := 1#32
  let arg9 : BitVec 32 := Scf.iv c0_i32_243 c1_i32_245 k0_t18
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![1, v1390.toNat]
@[reducible] def k0_t19_loop : Scf.Loop 32 :=
  let c0_i32_256 : BitVec 32 := 0#32
  let c32_i32_257 : BitVec 32 := 32#32
  let v406 : BitVec 32 := Scalar.addi c0_i32_256 c32_i32_257
  let c1_i32_258 : BitVec 32 := 1#32
  ⟨c0_i32_256, v406, c1_i32_258⟩
def k0_off21 (k0_t19 : Fin k0_t19_loop.trips) (c0_i32_871 : BitVec 32) : Fin 2 → Nat :=
  let c2_i32_873 : BitVec 32 := 2#32
  let v1389 : Index := Scalar.indexCast c2_i32_873
  let c0_i32_256 : BitVec 32 := 0#32
  let c1_i32_258 : BitVec 32 := 1#32
  let arg9 : BitVec 32 := Scf.iv c0_i32_256 c1_i32_258 k0_t19
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![2, v1390.toNat]
@[reducible] def k0_t20_loop : Scf.Loop 32 :=
  let c0_i32_269 : BitVec 32 := 0#32
  let c32_i32_270 : BitVec 32 := 32#32
  let v427 : BitVec 32 := Scalar.addi c0_i32_269 c32_i32_270
  let c1_i32_271 : BitVec 32 := 1#32
  ⟨c0_i32_269, v427, c1_i32_271⟩
def k0_off22 (k0_t20 : Fin k0_t20_loop.trips) (c0_i32_871 : BitVec 32) : Fin 2 → Nat :=
  let c3_i32_873 : BitVec 32 := 3#32
  let v1389 : Index := Scalar.indexCast c3_i32_873
  let c0_i32_269 : BitVec 32 := 0#32
  let c1_i32_271 : BitVec 32 := 1#32
  let arg9 : BitVec 32 := Scf.iv c0_i32_269 c1_i32_271 k0_t20
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![3, v1390.toNat]
@[reducible] def k0_t21_loop : Scf.Loop 32 :=
  let c0_i32_282 : BitVec 32 := 0#32
  let c32_i32_283 : BitVec 32 := 32#32
  let v448 : BitVec 32 := Scalar.addi c0_i32_282 c32_i32_283
  let c1_i32_284 : BitVec 32 := 1#32
  ⟨c0_i32_282, v448, c1_i32_284⟩
def k0_off23 (k0_t21 : Fin k0_t21_loop.trips) (c0_i32_871 : BitVec 32) : Fin 2 → Nat :=
  let c4_i32_873 : BitVec 32 := 4#32
  let v1389 : Index := Scalar.indexCast c4_i32_873
  let c0_i32_282 : BitVec 32 := 0#32
  let c1_i32_284 : BitVec 32 := 1#32
  let arg9 : BitVec 32 := Scf.iv c0_i32_282 c1_i32_284 k0_t21
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![4, v1390.toNat]
@[reducible] def k0_t22_loop : Scf.Loop 32 :=
  let c0_i32_295 : BitVec 32 := 0#32
  let c32_i32_296 : BitVec 32 := 32#32
  let v469 : BitVec 32 := Scalar.addi c0_i32_295 c32_i32_296
  let c1_i32_297 : BitVec 32 := 1#32
  ⟨c0_i32_295, v469, c1_i32_297⟩
def k0_off24 (k0_t22 : Fin k0_t22_loop.trips) (c0_i32_871 : BitVec 32) : Fin 2 → Nat :=
  let c5_i32_873 : BitVec 32 := 5#32
  let v1389 : Index := Scalar.indexCast c5_i32_873
  let c0_i32_295 : BitVec 32 := 0#32
  let c1_i32_297 : BitVec 32 := 1#32
  let arg9 : BitVec 32 := Scf.iv c0_i32_295 c1_i32_297 k0_t22
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![5, v1390.toNat]
@[reducible] def k0_t23_loop : Scf.Loop 32 :=
  let c0_i32_308 : BitVec 32 := 0#32
  let c32_i32_309 : BitVec 32 := 32#32
  let v490 : BitVec 32 := Scalar.addi c0_i32_308 c32_i32_309
  let c1_i32_310 : BitVec 32 := 1#32
  ⟨c0_i32_308, v490, c1_i32_310⟩
def k0_off25 (k0_t23 : Fin k0_t23_loop.trips) (c0_i32_871 : BitVec 32) : Fin 2 → Nat :=
  let c6_i32_873 : BitVec 32 := 6#32
  let v1389 : Index := Scalar.indexCast c6_i32_873
  let c0_i32_308 : BitVec 32 := 0#32
  let c1_i32_310 : BitVec 32 := 1#32
  let arg9 : BitVec 32 := Scf.iv c0_i32_308 c1_i32_310 k0_t23
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![6, v1390.toNat]
@[reducible] def k0_t24_loop : Scf.Loop 32 :=
  let c0_i32_321 : BitVec 32 := 0#32
  let c32_i32_322 : BitVec 32 := 32#32
  let v511 : BitVec 32 := Scalar.addi c0_i32_321 c32_i32_322
  let c1_i32_323 : BitVec 32 := 1#32
  ⟨c0_i32_321, v511, c1_i32_323⟩
def k0_off26 (k0_t24 : Fin k0_t24_loop.trips) (c0_i32_871 : BitVec 32) : Fin 2 → Nat :=
  let c7_i32_873 : BitVec 32 := 7#32
  let v1389 : Index := Scalar.indexCast c7_i32_873
  let c0_i32_321 : BitVec 32 := 0#32
  let c1_i32_323 : BitVec 32 := 1#32
  let arg9 : BitVec 32 := Scf.iv c0_i32_321 c1_i32_323 k0_t24
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![7, v1390.toNat]
@[reducible] def k0_t25_loop : Scf.Loop 32 :=
  let c0_i32_339 : BitVec 32 := 0#32
  let c32_i32_340 : BitVec 32 := 32#32
  let v537 : BitVec 32 := Scalar.addi c0_i32_339 c32_i32_340
  let c1_i32_341 : BitVec 32 := 1#32
  ⟨c0_i32_339, v537, c1_i32_341⟩
def k0_off27 (k0_t25 : Fin k0_t25_loop.trips) (c0_i32_871 : BitVec 32) : Fin 2 → Nat :=
  let c0_i32_873 : BitVec 32 := 0#32
  let v1389 : Index := Scalar.indexCast c0_i32_873
  let c0_i32_339 : BitVec 32 := 0#32
  let c1_i32_341 : BitVec 32 := 1#32
  let arg9 : BitVec 32 := Scf.iv c0_i32_339 c1_i32_341 k0_t25
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![0, v1390.toNat]
@[reducible] def k0_t26_loop : Scf.Loop 32 :=
  let c0_i32_353 : BitVec 32 := 0#32
  let c32_i32_354 : BitVec 32 := 32#32
  let v558 : BitVec 32 := Scalar.addi c0_i32_353 c32_i32_354
  let c1_i32_355 : BitVec 32 := 1#32
  ⟨c0_i32_353, v558, c1_i32_355⟩
def k0_off28 (k0_t26 : Fin k0_t26_loop.trips) (c0_i32_871 : BitVec 32) : Fin 2 → Nat :=
  let c1_i32_873 : BitVec 32 := 1#32
  let v1389 : Index := Scalar.indexCast c1_i32_873
  let c0_i32_353 : BitVec 32 := 0#32
  let c1_i32_355 : BitVec 32 := 1#32
  let arg9 : BitVec 32 := Scf.iv c0_i32_353 c1_i32_355 k0_t26
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![1, v1390.toNat]
@[reducible] def k0_t27_loop : Scf.Loop 32 :=
  let c0_i32_366 : BitVec 32 := 0#32
  let c32_i32_367 : BitVec 32 := 32#32
  let v579 : BitVec 32 := Scalar.addi c0_i32_366 c32_i32_367
  let c1_i32_368 : BitVec 32 := 1#32
  ⟨c0_i32_366, v579, c1_i32_368⟩
def k0_off29 (k0_t27 : Fin k0_t27_loop.trips) (c0_i32_871 : BitVec 32) : Fin 2 → Nat :=
  let c2_i32_873 : BitVec 32 := 2#32
  let v1389 : Index := Scalar.indexCast c2_i32_873
  let c0_i32_366 : BitVec 32 := 0#32
  let c1_i32_368 : BitVec 32 := 1#32
  let arg9 : BitVec 32 := Scf.iv c0_i32_366 c1_i32_368 k0_t27
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![2, v1390.toNat]
@[reducible] def k0_t28_loop : Scf.Loop 32 :=
  let c0_i32_379 : BitVec 32 := 0#32
  let c32_i32_380 : BitVec 32 := 32#32
  let v600 : BitVec 32 := Scalar.addi c0_i32_379 c32_i32_380
  let c1_i32_381 : BitVec 32 := 1#32
  ⟨c0_i32_379, v600, c1_i32_381⟩
def k0_off30 (k0_t28 : Fin k0_t28_loop.trips) (c0_i32_871 : BitVec 32) : Fin 2 → Nat :=
  let c3_i32_873 : BitVec 32 := 3#32
  let v1389 : Index := Scalar.indexCast c3_i32_873
  let c0_i32_379 : BitVec 32 := 0#32
  let c1_i32_381 : BitVec 32 := 1#32
  let arg9 : BitVec 32 := Scf.iv c0_i32_379 c1_i32_381 k0_t28
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![3, v1390.toNat]
@[reducible] def k0_t29_loop : Scf.Loop 32 :=
  let c0_i32_392 : BitVec 32 := 0#32
  let c32_i32_393 : BitVec 32 := 32#32
  let v621 : BitVec 32 := Scalar.addi c0_i32_392 c32_i32_393
  let c1_i32_394 : BitVec 32 := 1#32
  ⟨c0_i32_392, v621, c1_i32_394⟩
def k0_off31 (k0_t29 : Fin k0_t29_loop.trips) (c0_i32_871 : BitVec 32) : Fin 2 → Nat :=
  let c4_i32_873 : BitVec 32 := 4#32
  let v1389 : Index := Scalar.indexCast c4_i32_873
  let c0_i32_392 : BitVec 32 := 0#32
  let c1_i32_394 : BitVec 32 := 1#32
  let arg9 : BitVec 32 := Scf.iv c0_i32_392 c1_i32_394 k0_t29
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![4, v1390.toNat]
@[reducible] def k0_t30_loop : Scf.Loop 32 :=
  let c0_i32_405 : BitVec 32 := 0#32
  let c32_i32_406 : BitVec 32 := 32#32
  let v642 : BitVec 32 := Scalar.addi c0_i32_405 c32_i32_406
  let c1_i32_407 : BitVec 32 := 1#32
  ⟨c0_i32_405, v642, c1_i32_407⟩
def k0_off32 (k0_t30 : Fin k0_t30_loop.trips) (c0_i32_871 : BitVec 32) : Fin 2 → Nat :=
  let c5_i32_873 : BitVec 32 := 5#32
  let v1389 : Index := Scalar.indexCast c5_i32_873
  let c0_i32_405 : BitVec 32 := 0#32
  let c1_i32_407 : BitVec 32 := 1#32
  let arg9 : BitVec 32 := Scf.iv c0_i32_405 c1_i32_407 k0_t30
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![5, v1390.toNat]
@[reducible] def k0_t31_loop : Scf.Loop 32 :=
  let c0_i32_418 : BitVec 32 := 0#32
  let c32_i32_419 : BitVec 32 := 32#32
  let v663 : BitVec 32 := Scalar.addi c0_i32_418 c32_i32_419
  let c1_i32_420 : BitVec 32 := 1#32
  ⟨c0_i32_418, v663, c1_i32_420⟩
def k0_off33 (k0_t31 : Fin k0_t31_loop.trips) (c0_i32_871 : BitVec 32) : Fin 2 → Nat :=
  let c6_i32_873 : BitVec 32 := 6#32
  let v1389 : Index := Scalar.indexCast c6_i32_873
  let c0_i32_418 : BitVec 32 := 0#32
  let c1_i32_420 : BitVec 32 := 1#32
  let arg9 : BitVec 32 := Scf.iv c0_i32_418 c1_i32_420 k0_t31
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![6, v1390.toNat]
@[reducible] def k0_t32_loop : Scf.Loop 32 :=
  let c0_i32_431 : BitVec 32 := 0#32
  let c32_i32_432 : BitVec 32 := 32#32
  let v684 : BitVec 32 := Scalar.addi c0_i32_431 c32_i32_432
  let c1_i32_433 : BitVec 32 := 1#32
  ⟨c0_i32_431, v684, c1_i32_433⟩
def k0_off34 (k0_t32 : Fin k0_t32_loop.trips) (c0_i32_871 : BitVec 32) : Fin 2 → Nat :=
  let c7_i32_873 : BitVec 32 := 7#32
  let v1389 : Index := Scalar.indexCast c7_i32_873
  let c0_i32_431 : BitVec 32 := 0#32
  let c1_i32_433 : BitVec 32 := 1#32
  let arg9 : BitVec 32 := Scf.iv c0_i32_431 c1_i32_433 k0_t32
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![7, v1390.toNat]
@[reducible] def k0_t33_loop : Scf.Loop 32 :=
  let c0_i32_448 : BitVec 32 := 0#32
  let c32_i32_449 : BitVec 32 := 32#32
  let v710 : BitVec 32 := Scalar.addi c0_i32_448 c32_i32_449
  let c1_i32_450 : BitVec 32 := 1#32
  ⟨c0_i32_448, v710, c1_i32_450⟩
def k0_off35 (k0_t33 : Fin k0_t33_loop.trips) (c0_i32_871 : BitVec 32) : Fin 2 → Nat :=
  let c0_i32_873 : BitVec 32 := 0#32
  let v1389 : Index := Scalar.indexCast c0_i32_873
  let c0_i32_448 : BitVec 32 := 0#32
  let c1_i32_450 : BitVec 32 := 1#32
  let arg9 : BitVec 32 := Scf.iv c0_i32_448 c1_i32_450 k0_t33
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![0, v1390.toNat]
@[reducible] def k0_t34_loop : Scf.Loop 32 :=
  let c0_i32_462 : BitVec 32 := 0#32
  let c32_i32_463 : BitVec 32 := 32#32
  let v731 : BitVec 32 := Scalar.addi c0_i32_462 c32_i32_463
  let c1_i32_464 : BitVec 32 := 1#32
  ⟨c0_i32_462, v731, c1_i32_464⟩
def k0_off36 (k0_t34 : Fin k0_t34_loop.trips) (c0_i32_871 : BitVec 32) : Fin 2 → Nat :=
  let c1_i32_873 : BitVec 32 := 1#32
  let v1389 : Index := Scalar.indexCast c1_i32_873
  let c0_i32_462 : BitVec 32 := 0#32
  let c1_i32_464 : BitVec 32 := 1#32
  let arg9 : BitVec 32 := Scf.iv c0_i32_462 c1_i32_464 k0_t34
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![1, v1390.toNat]
@[reducible] def k0_t35_loop : Scf.Loop 32 :=
  let c0_i32_475 : BitVec 32 := 0#32
  let c32_i32_476 : BitVec 32 := 32#32
  let v752 : BitVec 32 := Scalar.addi c0_i32_475 c32_i32_476
  let c1_i32_477 : BitVec 32 := 1#32
  ⟨c0_i32_475, v752, c1_i32_477⟩
def k0_off37 (k0_t35 : Fin k0_t35_loop.trips) (c0_i32_871 : BitVec 32) : Fin 2 → Nat :=
  let c2_i32_873 : BitVec 32 := 2#32
  let v1389 : Index := Scalar.indexCast c2_i32_873
  let c0_i32_475 : BitVec 32 := 0#32
  let c1_i32_477 : BitVec 32 := 1#32
  let arg9 : BitVec 32 := Scf.iv c0_i32_475 c1_i32_477 k0_t35
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![2, v1390.toNat]
@[reducible] def k0_t36_loop : Scf.Loop 32 :=
  let c0_i32_488 : BitVec 32 := 0#32
  let c32_i32_489 : BitVec 32 := 32#32
  let v773 : BitVec 32 := Scalar.addi c0_i32_488 c32_i32_489
  let c1_i32_490 : BitVec 32 := 1#32
  ⟨c0_i32_488, v773, c1_i32_490⟩
def k0_off38 (k0_t36 : Fin k0_t36_loop.trips) (c0_i32_871 : BitVec 32) : Fin 2 → Nat :=
  let c3_i32_873 : BitVec 32 := 3#32
  let v1389 : Index := Scalar.indexCast c3_i32_873
  let c0_i32_488 : BitVec 32 := 0#32
  let c1_i32_490 : BitVec 32 := 1#32
  let arg9 : BitVec 32 := Scf.iv c0_i32_488 c1_i32_490 k0_t36
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![3, v1390.toNat]
@[reducible] def k0_t37_loop : Scf.Loop 32 :=
  let c0_i32_501 : BitVec 32 := 0#32
  let c32_i32_502 : BitVec 32 := 32#32
  let v794 : BitVec 32 := Scalar.addi c0_i32_501 c32_i32_502
  let c1_i32_503 : BitVec 32 := 1#32
  ⟨c0_i32_501, v794, c1_i32_503⟩
def k0_off39 (k0_t37 : Fin k0_t37_loop.trips) (c0_i32_871 : BitVec 32) : Fin 2 → Nat :=
  let c4_i32_873 : BitVec 32 := 4#32
  let v1389 : Index := Scalar.indexCast c4_i32_873
  let c0_i32_501 : BitVec 32 := 0#32
  let c1_i32_503 : BitVec 32 := 1#32
  let arg9 : BitVec 32 := Scf.iv c0_i32_501 c1_i32_503 k0_t37
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![4, v1390.toNat]
@[reducible] def k0_t38_loop : Scf.Loop 32 :=
  let c0_i32_514 : BitVec 32 := 0#32
  let c32_i32_515 : BitVec 32 := 32#32
  let v815 : BitVec 32 := Scalar.addi c0_i32_514 c32_i32_515
  let c1_i32_516 : BitVec 32 := 1#32
  ⟨c0_i32_514, v815, c1_i32_516⟩
def k0_off40 (k0_t38 : Fin k0_t38_loop.trips) (c0_i32_871 : BitVec 32) : Fin 2 → Nat :=
  let c5_i32_873 : BitVec 32 := 5#32
  let v1389 : Index := Scalar.indexCast c5_i32_873
  let c0_i32_514 : BitVec 32 := 0#32
  let c1_i32_516 : BitVec 32 := 1#32
  let arg9 : BitVec 32 := Scf.iv c0_i32_514 c1_i32_516 k0_t38
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![5, v1390.toNat]
@[reducible] def k0_t39_loop : Scf.Loop 32 :=
  let c0_i32_527 : BitVec 32 := 0#32
  let c32_i32_528 : BitVec 32 := 32#32
  let v836 : BitVec 32 := Scalar.addi c0_i32_527 c32_i32_528
  let c1_i32_529 : BitVec 32 := 1#32
  ⟨c0_i32_527, v836, c1_i32_529⟩
def k0_off41 (k0_t39 : Fin k0_t39_loop.trips) (c0_i32_871 : BitVec 32) : Fin 2 → Nat :=
  let c6_i32_873 : BitVec 32 := 6#32
  let v1389 : Index := Scalar.indexCast c6_i32_873
  let c0_i32_527 : BitVec 32 := 0#32
  let c1_i32_529 : BitVec 32 := 1#32
  let arg9 : BitVec 32 := Scf.iv c0_i32_527 c1_i32_529 k0_t39
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![6, v1390.toNat]
@[reducible] def k0_t40_loop : Scf.Loop 32 :=
  let c0_i32_540 : BitVec 32 := 0#32
  let c32_i32_541 : BitVec 32 := 32#32
  let v857 : BitVec 32 := Scalar.addi c0_i32_540 c32_i32_541
  let c1_i32_542 : BitVec 32 := 1#32
  ⟨c0_i32_540, v857, c1_i32_542⟩
def k0_off42 (k0_t40 : Fin k0_t40_loop.trips) (c0_i32_871 : BitVec 32) : Fin 2 → Nat :=
  let c7_i32_873 : BitVec 32 := 7#32
  let v1389 : Index := Scalar.indexCast c7_i32_873
  let c0_i32_540 : BitVec 32 := 0#32
  let c1_i32_542 : BitVec 32 := 1#32
  let arg9 : BitVec 32 := Scf.iv c0_i32_540 c1_i32_542 k0_t40
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![7, v1390.toNat]
@[reducible] def k0_t41_loop : Scf.Loop 32 :=
  let c0_i32_557 : BitVec 32 := 0#32
  let c32_i32_558 : BitVec 32 := 32#32
  let v883 : BitVec 32 := Scalar.addi c0_i32_557 c32_i32_558
  let c1_i32_559 : BitVec 32 := 1#32
  ⟨c0_i32_557, v883, c1_i32_559⟩
def k0_off43 (k0_t41 : Fin k0_t41_loop.trips) (c0_i32_871 : BitVec 32) : Fin 2 → Nat :=
  let c0_i32_873 : BitVec 32 := 0#32
  let v1389 : Index := Scalar.indexCast c0_i32_873
  let c0_i32_557 : BitVec 32 := 0#32
  let c1_i32_559 : BitVec 32 := 1#32
  let arg9 : BitVec 32 := Scf.iv c0_i32_557 c1_i32_559 k0_t41
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![0, v1390.toNat]
@[reducible] def k0_t42_loop : Scf.Loop 32 :=
  let c0_i32_571 : BitVec 32 := 0#32
  let c32_i32_572 : BitVec 32 := 32#32
  let v904 : BitVec 32 := Scalar.addi c0_i32_571 c32_i32_572
  let c1_i32_573 : BitVec 32 := 1#32
  ⟨c0_i32_571, v904, c1_i32_573⟩
def k0_off44 (k0_t42 : Fin k0_t42_loop.trips) (c0_i32_871 : BitVec 32) : Fin 2 → Nat :=
  let c1_i32_873 : BitVec 32 := 1#32
  let v1389 : Index := Scalar.indexCast c1_i32_873
  let c0_i32_571 : BitVec 32 := 0#32
  let c1_i32_573 : BitVec 32 := 1#32
  let arg9 : BitVec 32 := Scf.iv c0_i32_571 c1_i32_573 k0_t42
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![1, v1390.toNat]
@[reducible] def k0_t43_loop : Scf.Loop 32 :=
  let c0_i32_584 : BitVec 32 := 0#32
  let c32_i32_585 : BitVec 32 := 32#32
  let v925 : BitVec 32 := Scalar.addi c0_i32_584 c32_i32_585
  let c1_i32_586 : BitVec 32 := 1#32
  ⟨c0_i32_584, v925, c1_i32_586⟩
def k0_off45 (k0_t43 : Fin k0_t43_loop.trips) (c0_i32_871 : BitVec 32) : Fin 2 → Nat :=
  let c2_i32_873 : BitVec 32 := 2#32
  let v1389 : Index := Scalar.indexCast c2_i32_873
  let c0_i32_584 : BitVec 32 := 0#32
  let c1_i32_586 : BitVec 32 := 1#32
  let arg9 : BitVec 32 := Scf.iv c0_i32_584 c1_i32_586 k0_t43
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![2, v1390.toNat]
@[reducible] def k0_t44_loop : Scf.Loop 32 :=
  let c0_i32_597 : BitVec 32 := 0#32
  let c32_i32_598 : BitVec 32 := 32#32
  let v946 : BitVec 32 := Scalar.addi c0_i32_597 c32_i32_598
  let c1_i32_599 : BitVec 32 := 1#32
  ⟨c0_i32_597, v946, c1_i32_599⟩
def k0_off46 (k0_t44 : Fin k0_t44_loop.trips) (c0_i32_871 : BitVec 32) : Fin 2 → Nat :=
  let c3_i32_873 : BitVec 32 := 3#32
  let v1389 : Index := Scalar.indexCast c3_i32_873
  let c0_i32_597 : BitVec 32 := 0#32
  let c1_i32_599 : BitVec 32 := 1#32
  let arg9 : BitVec 32 := Scf.iv c0_i32_597 c1_i32_599 k0_t44
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![3, v1390.toNat]
@[reducible] def k0_t45_loop : Scf.Loop 32 :=
  let c0_i32_610 : BitVec 32 := 0#32
  let c32_i32_611 : BitVec 32 := 32#32
  let v967 : BitVec 32 := Scalar.addi c0_i32_610 c32_i32_611
  let c1_i32_612 : BitVec 32 := 1#32
  ⟨c0_i32_610, v967, c1_i32_612⟩
def k0_off47 (k0_t45 : Fin k0_t45_loop.trips) (c0_i32_871 : BitVec 32) : Fin 2 → Nat :=
  let c4_i32_873 : BitVec 32 := 4#32
  let v1389 : Index := Scalar.indexCast c4_i32_873
  let c0_i32_610 : BitVec 32 := 0#32
  let c1_i32_612 : BitVec 32 := 1#32
  let arg9 : BitVec 32 := Scf.iv c0_i32_610 c1_i32_612 k0_t45
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![4, v1390.toNat]
@[reducible] def k0_t46_loop : Scf.Loop 32 :=
  let c0_i32_623 : BitVec 32 := 0#32
  let c32_i32_624 : BitVec 32 := 32#32
  let v988 : BitVec 32 := Scalar.addi c0_i32_623 c32_i32_624
  let c1_i32_625 : BitVec 32 := 1#32
  ⟨c0_i32_623, v988, c1_i32_625⟩
def k0_off48 (k0_t46 : Fin k0_t46_loop.trips) (c0_i32_871 : BitVec 32) : Fin 2 → Nat :=
  let c5_i32_873 : BitVec 32 := 5#32
  let v1389 : Index := Scalar.indexCast c5_i32_873
  let c0_i32_623 : BitVec 32 := 0#32
  let c1_i32_625 : BitVec 32 := 1#32
  let arg9 : BitVec 32 := Scf.iv c0_i32_623 c1_i32_625 k0_t46
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![5, v1390.toNat]
@[reducible] def k0_t47_loop : Scf.Loop 32 :=
  let c0_i32_636 : BitVec 32 := 0#32
  let c32_i32_637 : BitVec 32 := 32#32
  let v1009 : BitVec 32 := Scalar.addi c0_i32_636 c32_i32_637
  let c1_i32_638 : BitVec 32 := 1#32
  ⟨c0_i32_636, v1009, c1_i32_638⟩
def k0_off49 (k0_t47 : Fin k0_t47_loop.trips) (c0_i32_871 : BitVec 32) : Fin 2 → Nat :=
  let c6_i32_873 : BitVec 32 := 6#32
  let v1389 : Index := Scalar.indexCast c6_i32_873
  let c0_i32_636 : BitVec 32 := 0#32
  let c1_i32_638 : BitVec 32 := 1#32
  let arg9 : BitVec 32 := Scf.iv c0_i32_636 c1_i32_638 k0_t47
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![6, v1390.toNat]
@[reducible] def k0_t48_loop : Scf.Loop 32 :=
  let c0_i32_649 : BitVec 32 := 0#32
  let c32_i32_650 : BitVec 32 := 32#32
  let v1030 : BitVec 32 := Scalar.addi c0_i32_649 c32_i32_650
  let c1_i32_651 : BitVec 32 := 1#32
  ⟨c0_i32_649, v1030, c1_i32_651⟩
def k0_off50 (k0_t48 : Fin k0_t48_loop.trips) (c0_i32_871 : BitVec 32) : Fin 2 → Nat :=
  let c7_i32_873 : BitVec 32 := 7#32
  let v1389 : Index := Scalar.indexCast c7_i32_873
  let c0_i32_649 : BitVec 32 := 0#32
  let c1_i32_651 : BitVec 32 := 1#32
  let arg9 : BitVec 32 := Scf.iv c0_i32_649 c1_i32_651 k0_t48
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![7, v1390.toNat]
@[reducible] def k0_t49_loop : Scf.Loop 32 :=
  let c0_i32_666 : BitVec 32 := 0#32
  let c32_i32_667 : BitVec 32 := 32#32
  let v1056 : BitVec 32 := Scalar.addi c0_i32_666 c32_i32_667
  let c1_i32_668 : BitVec 32 := 1#32
  ⟨c0_i32_666, v1056, c1_i32_668⟩
def k0_off51 (k0_t49 : Fin k0_t49_loop.trips) (c0_i32_871 : BitVec 32) : Fin 2 → Nat :=
  let c0_i32_873 : BitVec 32 := 0#32
  let v1389 : Index := Scalar.indexCast c0_i32_873
  let c0_i32_666 : BitVec 32 := 0#32
  let c1_i32_668 : BitVec 32 := 1#32
  let arg9 : BitVec 32 := Scf.iv c0_i32_666 c1_i32_668 k0_t49
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![0, v1390.toNat]
@[reducible] def k0_t50_loop : Scf.Loop 32 :=
  let c0_i32_680 : BitVec 32 := 0#32
  let c32_i32_681 : BitVec 32 := 32#32
  let v1077 : BitVec 32 := Scalar.addi c0_i32_680 c32_i32_681
  let c1_i32_682 : BitVec 32 := 1#32
  ⟨c0_i32_680, v1077, c1_i32_682⟩
def k0_off52 (k0_t50 : Fin k0_t50_loop.trips) (c0_i32_871 : BitVec 32) : Fin 2 → Nat :=
  let c1_i32_873 : BitVec 32 := 1#32
  let v1389 : Index := Scalar.indexCast c1_i32_873
  let c0_i32_680 : BitVec 32 := 0#32
  let c1_i32_682 : BitVec 32 := 1#32
  let arg9 : BitVec 32 := Scf.iv c0_i32_680 c1_i32_682 k0_t50
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![1, v1390.toNat]
@[reducible] def k0_t51_loop : Scf.Loop 32 :=
  let c0_i32_693 : BitVec 32 := 0#32
  let c32_i32_694 : BitVec 32 := 32#32
  let v1098 : BitVec 32 := Scalar.addi c0_i32_693 c32_i32_694
  let c1_i32_695 : BitVec 32 := 1#32
  ⟨c0_i32_693, v1098, c1_i32_695⟩
def k0_off53 (k0_t51 : Fin k0_t51_loop.trips) (c0_i32_871 : BitVec 32) : Fin 2 → Nat :=
  let c2_i32_873 : BitVec 32 := 2#32
  let v1389 : Index := Scalar.indexCast c2_i32_873
  let c0_i32_693 : BitVec 32 := 0#32
  let c1_i32_695 : BitVec 32 := 1#32
  let arg9 : BitVec 32 := Scf.iv c0_i32_693 c1_i32_695 k0_t51
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![2, v1390.toNat]
@[reducible] def k0_t52_loop : Scf.Loop 32 :=
  let c0_i32_706 : BitVec 32 := 0#32
  let c32_i32_707 : BitVec 32 := 32#32
  let v1119 : BitVec 32 := Scalar.addi c0_i32_706 c32_i32_707
  let c1_i32_708 : BitVec 32 := 1#32
  ⟨c0_i32_706, v1119, c1_i32_708⟩
def k0_off54 (k0_t52 : Fin k0_t52_loop.trips) (c0_i32_871 : BitVec 32) : Fin 2 → Nat :=
  let c3_i32_873 : BitVec 32 := 3#32
  let v1389 : Index := Scalar.indexCast c3_i32_873
  let c0_i32_706 : BitVec 32 := 0#32
  let c1_i32_708 : BitVec 32 := 1#32
  let arg9 : BitVec 32 := Scf.iv c0_i32_706 c1_i32_708 k0_t52
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![3, v1390.toNat]
@[reducible] def k0_t53_loop : Scf.Loop 32 :=
  let c0_i32_719 : BitVec 32 := 0#32
  let c32_i32_720 : BitVec 32 := 32#32
  let v1140 : BitVec 32 := Scalar.addi c0_i32_719 c32_i32_720
  let c1_i32_721 : BitVec 32 := 1#32
  ⟨c0_i32_719, v1140, c1_i32_721⟩
def k0_off55 (k0_t53 : Fin k0_t53_loop.trips) (c0_i32_871 : BitVec 32) : Fin 2 → Nat :=
  let c4_i32_873 : BitVec 32 := 4#32
  let v1389 : Index := Scalar.indexCast c4_i32_873
  let c0_i32_719 : BitVec 32 := 0#32
  let c1_i32_721 : BitVec 32 := 1#32
  let arg9 : BitVec 32 := Scf.iv c0_i32_719 c1_i32_721 k0_t53
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![4, v1390.toNat]
@[reducible] def k0_t54_loop : Scf.Loop 32 :=
  let c0_i32_732 : BitVec 32 := 0#32
  let c32_i32_733 : BitVec 32 := 32#32
  let v1161 : BitVec 32 := Scalar.addi c0_i32_732 c32_i32_733
  let c1_i32_734 : BitVec 32 := 1#32
  ⟨c0_i32_732, v1161, c1_i32_734⟩
def k0_off56 (k0_t54 : Fin k0_t54_loop.trips) (c0_i32_871 : BitVec 32) : Fin 2 → Nat :=
  let c5_i32_873 : BitVec 32 := 5#32
  let v1389 : Index := Scalar.indexCast c5_i32_873
  let c0_i32_732 : BitVec 32 := 0#32
  let c1_i32_734 : BitVec 32 := 1#32
  let arg9 : BitVec 32 := Scf.iv c0_i32_732 c1_i32_734 k0_t54
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![5, v1390.toNat]
@[reducible] def k0_t55_loop : Scf.Loop 32 :=
  let c0_i32_745 : BitVec 32 := 0#32
  let c32_i32_746 : BitVec 32 := 32#32
  let v1182 : BitVec 32 := Scalar.addi c0_i32_745 c32_i32_746
  let c1_i32_747 : BitVec 32 := 1#32
  ⟨c0_i32_745, v1182, c1_i32_747⟩
def k0_off57 (k0_t55 : Fin k0_t55_loop.trips) (c0_i32_871 : BitVec 32) : Fin 2 → Nat :=
  let c6_i32_873 : BitVec 32 := 6#32
  let v1389 : Index := Scalar.indexCast c6_i32_873
  let c0_i32_745 : BitVec 32 := 0#32
  let c1_i32_747 : BitVec 32 := 1#32
  let arg9 : BitVec 32 := Scf.iv c0_i32_745 c1_i32_747 k0_t55
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![6, v1390.toNat]
@[reducible] def k0_t56_loop : Scf.Loop 32 :=
  let c0_i32_758 : BitVec 32 := 0#32
  let c32_i32_759 : BitVec 32 := 32#32
  let v1203 : BitVec 32 := Scalar.addi c0_i32_758 c32_i32_759
  let c1_i32_760 : BitVec 32 := 1#32
  ⟨c0_i32_758, v1203, c1_i32_760⟩
def k0_off58 (k0_t56 : Fin k0_t56_loop.trips) (c0_i32_871 : BitVec 32) : Fin 2 → Nat :=
  let c7_i32_873 : BitVec 32 := 7#32
  let v1389 : Index := Scalar.indexCast c7_i32_873
  let c0_i32_758 : BitVec 32 := 0#32
  let c1_i32_760 : BitVec 32 := 1#32
  let arg9 : BitVec 32 := Scf.iv c0_i32_758 c1_i32_760 k0_t56
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![7, v1390.toNat]
@[reducible] def k0_t57_loop : Scf.Loop 32 :=
  let c0_i32_773 : BitVec 32 := 0#32
  let c32_i32_774 : BitVec 32 := 32#32
  let v1226 : BitVec 32 := Scalar.addi c0_i32_773 c32_i32_774
  let c1_i32_775 : BitVec 32 := 1#32
  ⟨c0_i32_773, v1226, c1_i32_775⟩
def k0_off59 (k0_t57 : Fin k0_t57_loop.trips) (c0_i32_871 : BitVec 32) : Fin 2 → Nat :=
  let c0_i32_873 : BitVec 32 := 0#32
  let v1389 : Index := Scalar.indexCast c0_i32_873
  let c0_i32_773 : BitVec 32 := 0#32
  let c1_i32_775 : BitVec 32 := 1#32
  let arg9 : BitVec 32 := Scf.iv c0_i32_773 c1_i32_775 k0_t57
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![0, v1390.toNat]
@[reducible] def k0_t58_loop : Scf.Loop 32 :=
  let c0_i32_787 : BitVec 32 := 0#32
  let c32_i32_788 : BitVec 32 := 32#32
  let v1247 : BitVec 32 := Scalar.addi c0_i32_787 c32_i32_788
  let c1_i32_789 : BitVec 32 := 1#32
  ⟨c0_i32_787, v1247, c1_i32_789⟩
def k0_off60 (k0_t58 : Fin k0_t58_loop.trips) (c0_i32_871 : BitVec 32) : Fin 2 → Nat :=
  let c1_i32_873 : BitVec 32 := 1#32
  let v1389 : Index := Scalar.indexCast c1_i32_873
  let c0_i32_787 : BitVec 32 := 0#32
  let c1_i32_789 : BitVec 32 := 1#32
  let arg9 : BitVec 32 := Scf.iv c0_i32_787 c1_i32_789 k0_t58
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![1, v1390.toNat]
@[reducible] def k0_t59_loop : Scf.Loop 32 :=
  let c0_i32_800 : BitVec 32 := 0#32
  let c32_i32_801 : BitVec 32 := 32#32
  let v1268 : BitVec 32 := Scalar.addi c0_i32_800 c32_i32_801
  let c1_i32_802 : BitVec 32 := 1#32
  ⟨c0_i32_800, v1268, c1_i32_802⟩
def k0_off61 (k0_t59 : Fin k0_t59_loop.trips) (c0_i32_871 : BitVec 32) : Fin 2 → Nat :=
  let c2_i32_873 : BitVec 32 := 2#32
  let v1389 : Index := Scalar.indexCast c2_i32_873
  let c0_i32_800 : BitVec 32 := 0#32
  let c1_i32_802 : BitVec 32 := 1#32
  let arg9 : BitVec 32 := Scf.iv c0_i32_800 c1_i32_802 k0_t59
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![2, v1390.toNat]
@[reducible] def k0_t60_loop : Scf.Loop 32 :=
  let c0_i32_813 : BitVec 32 := 0#32
  let c32_i32_814 : BitVec 32 := 32#32
  let v1289 : BitVec 32 := Scalar.addi c0_i32_813 c32_i32_814
  let c1_i32_815 : BitVec 32 := 1#32
  ⟨c0_i32_813, v1289, c1_i32_815⟩
def k0_off62 (k0_t60 : Fin k0_t60_loop.trips) (c0_i32_871 : BitVec 32) : Fin 2 → Nat :=
  let c3_i32_873 : BitVec 32 := 3#32
  let v1389 : Index := Scalar.indexCast c3_i32_873
  let c0_i32_813 : BitVec 32 := 0#32
  let c1_i32_815 : BitVec 32 := 1#32
  let arg9 : BitVec 32 := Scf.iv c0_i32_813 c1_i32_815 k0_t60
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![3, v1390.toNat]
@[reducible] def k0_t61_loop : Scf.Loop 32 :=
  let c0_i32_826 : BitVec 32 := 0#32
  let c32_i32_827 : BitVec 32 := 32#32
  let v1310 : BitVec 32 := Scalar.addi c0_i32_826 c32_i32_827
  let c1_i32_828 : BitVec 32 := 1#32
  ⟨c0_i32_826, v1310, c1_i32_828⟩
def k0_off63 (k0_t61 : Fin k0_t61_loop.trips) (c0_i32_871 : BitVec 32) : Fin 2 → Nat :=
  let c4_i32_873 : BitVec 32 := 4#32
  let v1389 : Index := Scalar.indexCast c4_i32_873
  let c0_i32_826 : BitVec 32 := 0#32
  let c1_i32_828 : BitVec 32 := 1#32
  let arg9 : BitVec 32 := Scf.iv c0_i32_826 c1_i32_828 k0_t61
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![4, v1390.toNat]
@[reducible] def k0_t62_loop : Scf.Loop 32 :=
  let c0_i32_839 : BitVec 32 := 0#32
  let c32_i32_840 : BitVec 32 := 32#32
  let v1331 : BitVec 32 := Scalar.addi c0_i32_839 c32_i32_840
  let c1_i32_841 : BitVec 32 := 1#32
  ⟨c0_i32_839, v1331, c1_i32_841⟩
def k0_off64 (k0_t62 : Fin k0_t62_loop.trips) (c0_i32_871 : BitVec 32) : Fin 2 → Nat :=
  let c5_i32_873 : BitVec 32 := 5#32
  let v1389 : Index := Scalar.indexCast c5_i32_873
  let c0_i32_839 : BitVec 32 := 0#32
  let c1_i32_841 : BitVec 32 := 1#32
  let arg9 : BitVec 32 := Scf.iv c0_i32_839 c1_i32_841 k0_t62
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![5, v1390.toNat]
@[reducible] def k0_t63_loop : Scf.Loop 32 :=
  let c0_i32_852 : BitVec 32 := 0#32
  let c32_i32_853 : BitVec 32 := 32#32
  let v1352 : BitVec 32 := Scalar.addi c0_i32_852 c32_i32_853
  let c1_i32_854 : BitVec 32 := 1#32
  ⟨c0_i32_852, v1352, c1_i32_854⟩
def k0_off65 (k0_t63 : Fin k0_t63_loop.trips) (c0_i32_871 : BitVec 32) : Fin 2 → Nat :=
  let c6_i32_873 : BitVec 32 := 6#32
  let v1389 : Index := Scalar.indexCast c6_i32_873
  let c0_i32_852 : BitVec 32 := 0#32
  let c1_i32_854 : BitVec 32 := 1#32
  let arg9 : BitVec 32 := Scf.iv c0_i32_852 c1_i32_854 k0_t63
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![6, v1390.toNat]
@[reducible] def k0_t64_loop : Scf.Loop 32 :=
  let c0_i32_865 : BitVec 32 := 0#32
  let c32_i32_866 : BitVec 32 := 32#32
  let v1373 : BitVec 32 := Scalar.addi c0_i32_865 c32_i32_866
  let c1_i32_867 : BitVec 32 := 1#32
  ⟨c0_i32_865, v1373, c1_i32_867⟩
def k0_off66 (k0_t64 : Fin k0_t64_loop.trips) (c0_i32_871 : BitVec 32) : Fin 2 → Nat :=
  let c7_i32_873 : BitVec 32 := 7#32
  let v1389 : Index := Scalar.indexCast c7_i32_873
  let c0_i32_865 : BitVec 32 := 0#32
  let c1_i32_867 : BitVec 32 := 1#32
  let arg9 : BitVec 32 := Scf.iv c0_i32_865 c1_i32_867 k0_t64
  let c8_i32_870 : BitVec 32 := 8#32
  let v1386 : BitVec 32 := Scalar.muli arg9 c8_i32_870
  let v1387 : BitVec 32 := Scalar.addi v1386 c0_i32_871
  let c16_i32_872 : BitVec 32 := 16#32
  let v1388 : BitVec 32 := Scalar.muli v1387 c16_i32_872
  let v1390 : Index := Scalar.indexCast v1388
  ![7, v1390.toNat]
def k0_off67 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_870_r0 : BitVec 32 := 0#32
  ![v2.toNat, 0]
abbrev grid1 : Pipeline.Grid := ⟨2, ![7, 4], ![false, false]⟩

def k1_cond2 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c16_i32 : BitVec 32 := 16#32
  let v5 : BitVec 1 := Scalar.cmpi .slt v1 c16_i32
  let v6 : BitVec 32 := Scalar.extui v5
  let c0_i32_1 : BitVec 32 := 0#32
  let v7 : BitVec 1 := Scalar.cmpi .ne v6 c0_i32_1
  v7

def k1_off1 (i : grid1.Coords) : Fin 2 → Nat :=
  let c0_7 : Index := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c256_i32 : BitVec 32 := 256#32
  let v22 : BitVec 32 := Scalar.muli v1 c256_i32
  let v23 : Index := Scalar.indexCast v22
  ![0, v23.toNat]
def k1_off2 (i : grid1.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c256_i32_8 : BitVec 32 := 256#32
  let v26 : BitVec 32 := Scalar.muli v1 c256_i32_8
  let v27 : Index := Scalar.indexCast v26
  let c0_9 : Index := 0#32
  ![v27.toNat, 0]
def k1_off3 (i : grid1.Coords) : Fin 2 → Nat :=
  let arg0 : BitVec 32 := BitVec.ofNat 32 (i 0).val
  let v8 : Index := Scalar.indexCast arg0
  let c0 : Index := 0#32
  ![v8.toNat, 0]
def k1_cond3 (i : grid1.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c27_i32 : BitVec 32 := 27#32
  let v19 : BitVec 1 := Scalar.cmpi .eq v1 c27_i32
  let v20 : BitVec 32 := Scalar.extui v19
  let c0_i32_6 : BitVec 32 := 0#32
  let v21 : BitVec 1 := Scalar.cmpi .ne v20 c0_i32_6
  v21

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S4096x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S8x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev grid2 : Pipeline.Grid := .none

abbrev stage2_0 : Fin 1 → Memref sig .tc .vmem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2048x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2048x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1x1x4096x2048_S4096x2048 : S1x1x4096x2048.ShapeCasts S4096x2048
  shapeCasts_S1x8x4096x1_S8x4096 : S1x8x4096x1.ShapeCasts S8x4096
  shapeCasts_S1x8x2048x4096_S8x2048x4096 : S1x8x2048x4096.ShapeCasts S8x2048x4096
  shapeCasts_S1x8x2048x4096_S16384x4096 : S1x8x2048x4096.ShapeCasts S16384x4096
  h_S1x16 : 0 < S1x16.numel
  shapeCasts_S1x16_S16 : S1x16.ShapeCasts S16
  inb_S64x16_S1x16_0_0 : ∀ a, (![0, 0] : Fin 2 → Nat) a + S1x16.size a ≤ S64x16.size a
  shapeCasts_S16_S1x16 : S16.ShapeCasts S1x16
  inb_S64x16_S1x16_1_0 : ∀ a, (![1, 0] : Fin 2 → Nat) a + S1x16.size a ≤ S64x16.size a
  inb_S64x16_S1x16_2_0 : ∀ a, (![2, 0] : Fin 2 → Nat) a + S1x16.size a ≤ S64x16.size a
  inb_S64x16_S1x16_3_0 : ∀ a, (![3, 0] : Fin 2 → Nat) a + S1x16.size a ≤ S64x16.size a
  inb_S64x16_S1x16_4_0 : ∀ a, (![4, 0] : Fin 2 → Nat) a + S1x16.size a ≤ S64x16.size a
  inb_S64x16_S1x16_5_0 : ∀ a, (![5, 0] : Fin 2 → Nat) a + S1x16.size a ≤ S64x16.size a
  inb_S64x16_S1x16_6_0 : ∀ a, (![6, 0] : Fin 2 → Nat) a + S1x16.size a ≤ S64x16.size a
  inb_S64x16_S1x16_7_0 : ∀ a, (![7, 0] : Fin 2 → Nat) a + S1x16.size a ≤ S64x16.size a
  inb_S64x16_S1x16_8_0 : ∀ a, (![8, 0] : Fin 2 → Nat) a + S1x16.size a ≤ S64x16.size a
  inb_S64x16_S1x16_9_0 : ∀ a, (![9, 0] : Fin 2 → Nat) a + S1x16.size a ≤ S64x16.size a
  inb_S64x16_S1x16_10_0 : ∀ a, (![10, 0] : Fin 2 → Nat) a + S1x16.size a ≤ S64x16.size a
  inb_S64x16_S1x16_11_0 : ∀ a, (![11, 0] : Fin 2 → Nat) a + S1x16.size a ≤ S64x16.size a
  inb_S64x16_S1x16_12_0 : ∀ a, (![12, 0] : Fin 2 → Nat) a + S1x16.size a ≤ S64x16.size a
  inb_S64x16_S1x16_13_0 : ∀ a, (![13, 0] : Fin 2 → Nat) a + S1x16.size a ≤ S64x16.size a
  inb_S64x16_S1x16_14_0 : ∀ a, (![14, 0] : Fin 2 → Nat) a + S1x16.size a ≤ S64x16.size a
  inb_S64x16_S1x16_15_0 : ∀ a, (![15, 0] : Fin 2 → Nat) a + S1x16.size a ≤ S64x16.size a
  inb_S64x16_S1x16_16_0 : ∀ a, (![16, 0] : Fin 2 → Nat) a + S1x16.size a ≤ S64x16.size a
  inb_S64x16_S1x16_17_0 : ∀ a, (![17, 0] : Fin 2 → Nat) a + S1x16.size a ≤ S64x16.size a
  inb_S64x16_S1x16_18_0 : ∀ a, (![18, 0] : Fin 2 → Nat) a + S1x16.size a ≤ S64x16.size a
  inb_S64x16_S1x16_19_0 : ∀ a, (![19, 0] : Fin 2 → Nat) a + S1x16.size a ≤ S64x16.size a
  inb_S64x16_S1x16_20_0 : ∀ a, (![20, 0] : Fin 2 → Nat) a + S1x16.size a ≤ S64x16.size a
  inb_S64x16_S1x16_21_0 : ∀ a, (![21, 0] : Fin 2 → Nat) a + S1x16.size a ≤ S64x16.size a
  inb_S64x16_S1x16_22_0 : ∀ a, (![22, 0] : Fin 2 → Nat) a + S1x16.size a ≤ S64x16.size a
  inb_S64x16_S1x16_23_0 : ∀ a, (![23, 0] : Fin 2 → Nat) a + S1x16.size a ≤ S64x16.size a
  inb_S64x16_S1x16_24_0 : ∀ a, (![24, 0] : Fin 2 → Nat) a + S1x16.size a ≤ S64x16.size a
  inb_S64x16_S1x16_25_0 : ∀ a, (![25, 0] : Fin 2 → Nat) a + S1x16.size a ≤ S64x16.size a
  inb_S64x16_S1x16_26_0 : ∀ a, (![26, 0] : Fin 2 → Nat) a + S1x16.size a ≤ S64x16.size a
  inb_S64x16_S1x16_27_0 : ∀ a, (![27, 0] : Fin 2 → Nat) a + S1x16.size a ≤ S64x16.size a
  inb_S64x16_S1x16_28_0 : ∀ a, (![28, 0] : Fin 2 → Nat) a + S1x16.size a ≤ S64x16.size a
  inb_S64x16_S1x16_29_0 : ∀ a, (![29, 0] : Fin 2 → Nat) a + S1x16.size a ≤ S64x16.size a
  inb_S64x16_S1x16_30_0 : ∀ a, (![30, 0] : Fin 2 → Nat) a + S1x16.size a ≤ S64x16.size a
  inb_S64x16_S1x16_31_0 : ∀ a, (![31, 0] : Fin 2 → Nat) a + S1x16.size a ≤ S64x16.size a
  inb_S64x16_S1x16_32_0 : ∀ a, (![32, 0] : Fin 2 → Nat) a + S1x16.size a ≤ S64x16.size a
  inb_S64x16_S1x16_33_0 : ∀ a, (![33, 0] : Fin 2 → Nat) a + S1x16.size a ≤ S64x16.size a
  inb_S64x16_S1x16_34_0 : ∀ a, (![34, 0] : Fin 2 → Nat) a + S1x16.size a ≤ S64x16.size a
  inb_S64x16_S1x16_35_0 : ∀ a, (![35, 0] : Fin 2 → Nat) a + S1x16.size a ≤ S64x16.size a
  inb_S64x16_S1x16_36_0 : ∀ a, (![36, 0] : Fin 2 → Nat) a + S1x16.size a ≤ S64x16.size a
  inb_S64x16_S1x16_37_0 : ∀ a, (![37, 0] : Fin 2 → Nat) a + S1x16.size a ≤ S64x16.size a
  inb_S64x16_S1x16_38_0 : ∀ a, (![38, 0] : Fin 2 → Nat) a + S1x16.size a ≤ S64x16.size a
  inb_S64x16_S1x16_39_0 : ∀ a, (![39, 0] : Fin 2 → Nat) a + S1x16.size a ≤ S64x16.size a
  inb_S64x16_S1x16_40_0 : ∀ a, (![40, 0] : Fin 2 → Nat) a + S1x16.size a ≤ S64x16.size a
  inb_S64x16_S1x16_41_0 : ∀ a, (![41, 0] : Fin 2 → Nat) a + S1x16.size a ≤ S64x16.size a
  inb_S64x16_S1x16_42_0 : ∀ a, (![42, 0] : Fin 2 → Nat) a + S1x16.size a ≤ S64x16.size a
  inb_S64x16_S1x16_43_0 : ∀ a, (![43, 0] : Fin 2 → Nat) a + S1x16.size a ≤ S64x16.size a
  inb_S64x16_S1x16_44_0 : ∀ a, (![44, 0] : Fin 2 → Nat) a + S1x16.size a ≤ S64x16.size a
  inb_S64x16_S1x16_45_0 : ∀ a, (![45, 0] : Fin 2 → Nat) a + S1x16.size a ≤ S64x16.size a
  inb_S64x16_S1x16_46_0 : ∀ a, (![46, 0] : Fin 2 → Nat) a + S1x16.size a ≤ S64x16.size a
  inb_S64x16_S1x16_47_0 : ∀ a, (![47, 0] : Fin 2 → Nat) a + S1x16.size a ≤ S64x16.size a
  inb_S64x16_S1x16_48_0 : ∀ a, (![48, 0] : Fin 2 → Nat) a + S1x16.size a ≤ S64x16.size a
  inb_S64x16_S1x16_49_0 : ∀ a, (![49, 0] : Fin 2 → Nat) a + S1x16.size a ≤ S64x16.size a
  inb_S64x16_S1x16_50_0 : ∀ a, (![50, 0] : Fin 2 → Nat) a + S1x16.size a ≤ S64x16.size a
  inb_S64x16_S1x16_51_0 : ∀ a, (![51, 0] : Fin 2 → Nat) a + S1x16.size a ≤ S64x16.size a
  inb_S64x16_S1x16_52_0 : ∀ a, (![52, 0] : Fin 2 → Nat) a + S1x16.size a ≤ S64x16.size a
  inb_S64x16_S1x16_53_0 : ∀ a, (![53, 0] : Fin 2 → Nat) a + S1x16.size a ≤ S64x16.size a
  inb_S64x16_S1x16_54_0 : ∀ a, (![54, 0] : Fin 2 → Nat) a + S1x16.size a ≤ S64x16.size a
  inb_S64x16_S1x16_55_0 : ∀ a, (![55, 0] : Fin 2 → Nat) a + S1x16.size a ≤ S64x16.size a
  inb_S64x16_S1x16_56_0 : ∀ a, (![56, 0] : Fin 2 → Nat) a + S1x16.size a ≤ S64x16.size a
  inb_S64x16_S1x16_57_0 : ∀ a, (![57, 0] : Fin 2 → Nat) a + S1x16.size a ≤ S64x16.size a
  inb_S64x16_S1x16_58_0 : ∀ a, (![58, 0] : Fin 2 → Nat) a + S1x16.size a ≤ S64x16.size a
  inb_S64x16_S1x16_59_0 : ∀ a, (![59, 0] : Fin 2 → Nat) a + S1x16.size a ≤ S64x16.size a
  inb_S64x16_S1x16_60_0 : ∀ a, (![60, 0] : Fin 2 → Nat) a + S1x16.size a ≤ S64x16.size a
  inb_S64x16_S1x16_61_0 : ∀ a, (![61, 0] : Fin 2 → Nat) a + S1x16.size a ≤ S64x16.size a
  inb_S64x16_S1x16_62_0 : ∀ a, (![62, 0] : Fin 2 → Nat) a + S1x16.size a ≤ S64x16.size a
  inb_S64x16_S1x16_63_0 : ∀ a, (![63, 0] : Fin 2 → Nat) a + S1x16.size a ≤ S64x16.size a
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S7x2048_S7x2048_0_0 : ∀ a, (![0, 0] : Fin 2 → Nat) a + S7x2048.size a ≤ S7x2048.size a
  h_S7x2048 : 0 < S7x2048.numel
  shapeCasts_S7x2048_S7x2048 : S7x2048.ShapeCasts S7x2048
  h_S8x256 : 0 < S8x256.numel
  shapeCasts_S8x256_S8x256 : S8x256.ShapeCasts S8x256
  h_S256x2048 : 0 < S256x2048.numel
  shapeCasts_S256x2048_S256x2048 : S256x2048.ShapeCasts S256x2048
  h_S1x2048 : 0 < S1x2048.numel
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S2048x1024_S2048 : S2048x1024.Reduces [1] S2048
  shapeCasts_S2048_S1x2048 : S2048.ShapeCasts S1x2048
  shapeCasts_S1x2048_S1x2048 : S1x2048.ShapeCasts S1x2048
  inb_S8x2048_S7x2048_1_0 : ∀ a, (![1, 0] : Fin 2 → Nat) a + S7x2048.size a ≤ S8x2048.size a
  shapeCasts_S7x2048_S1x7x2048 : S7x2048.ShapeCasts S1x7x2048
  reduces_S1x7x2048_S1 : S1x7x2048.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  slices_S8x2048_S1x2048_0_0 : S8x2048.Slices ![0, 0] S1x2048
  shapeCasts_S1x2048_S2048x1 : S1x2048.ShapeCasts S2048x1
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x16 : S2048x1.Broadcasts S2048x16
  shapeCasts_S2048x16_S1x2048x16 : S2048x16.ShapeCasts S1x2048x16
  reduces_S1x2048x16_S1 : S1x2048x16.Reduces [1, 2] S1
  shapeCasts_S1x1_S1x1 : S1x1.ShapeCasts S1x1
  shapeCasts_S1x1_S_ : S1x1.ShapeCasts S_
  dot_S8x256_S256x2048_S8x2048_1_0_0_1_n_n_wf : DotDims.WF S8x256 S256x2048 S8x2048 [1] [0] [0] [1] [] []
  hcc0_scratch3 : 0 + S_.numel ≤ 13
  hcc0_scratch4 : 1 + S_.numel ≤ 13
  hcc0_scoped0 : 2 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S8x4096.size a ≤ S16384x4096.size a
  k0_off2_inb : ∀ i : grid0.Coords, ∀ (r : Fin 7), ∀ a, (k0_off2 i (BitVec.ofNat 32 (8 + 8 * r.val))) a + S8x4096.size a ≤ S16384x4096.size a
  k0_t1_ok : k0_t1_loop.OK
  k0_off3_inb : ∀ k0_t1 : Fin k0_t1_loop.trips, ∀ (r : Fin 8), ∀ a, (k0_off3 k0_t1 (BitVec.ofNat 32 r.val)) a + S1x16.size a ≤ S8x4096.size a
  k0_t2_ok : k0_t2_loop.OK
  k0_off4_inb : ∀ k0_t2 : Fin k0_t2_loop.trips, ∀ (r : Fin 8), ∀ a, (k0_off4 k0_t2 (BitVec.ofNat 32 r.val)) a + S1x16.size a ≤ S8x4096.size a
  k0_t3_ok : k0_t3_loop.OK
  k0_off5_inb : ∀ k0_t3 : Fin k0_t3_loop.trips, ∀ (r : Fin 8), ∀ a, (k0_off5 k0_t3 (BitVec.ofNat 32 r.val)) a + S1x16.size a ≤ S8x4096.size a
  k0_t4_ok : k0_t4_loop.OK
  k0_off6_inb : ∀ k0_t4 : Fin k0_t4_loop.trips, ∀ (r : Fin 8), ∀ a, (k0_off6 k0_t4 (BitVec.ofNat 32 r.val)) a + S1x16.size a ≤ S8x4096.size a
  k0_t5_ok : k0_t5_loop.OK
  k0_off7_inb : ∀ k0_t5 : Fin k0_t5_loop.trips, ∀ (r : Fin 8), ∀ a, (k0_off7 k0_t5 (BitVec.ofNat 32 r.val)) a + S1x16.size a ≤ S8x4096.size a
  k0_t6_ok : k0_t6_loop.OK
  k0_off8_inb : ∀ k0_t6 : Fin k0_t6_loop.trips, ∀ (r : Fin 8), ∀ a, (k0_off8 k0_t6 (BitVec.ofNat 32 r.val)) a + S1x16.size a ≤ S8x4096.size a
  k0_t7_ok : k0_t7_loop.OK
  k0_off9_inb : ∀ k0_t7 : Fin k0_t7_loop.trips, ∀ (r : Fin 8), ∀ a, (k0_off9 k0_t7 (BitVec.ofNat 32 r.val)) a + S1x16.size a ≤ S8x4096.size a
  k0_t8_ok : k0_t8_loop.OK
  k0_off10_inb : ∀ k0_t8 : Fin k0_t8_loop.trips, ∀ (r : Fin 8), ∀ a, (k0_off10 k0_t8 (BitVec.ofNat 32 r.val)) a + S1x16.size a ≤ S8x4096.size a
  k0_t9_ok : k0_t9_loop.OK
  k0_off11_inb : ∀ k0_t9 : Fin k0_t9_loop.trips, ∀ (r : Fin 8), ∀ a, (k0_off11 k0_t9 (BitVec.ofNat 32 r.val)) a + S1x16.size a ≤ S8x4096.size a
  k0_t10_ok : k0_t10_loop.OK
  k0_off12_inb : ∀ k0_t10 : Fin k0_t10_loop.trips, ∀ (r : Fin 8), ∀ a, (k0_off12 k0_t10 (BitVec.ofNat 32 r.val)) a + S1x16.size a ≤ S8x4096.size a
  k0_t11_ok : k0_t11_loop.OK
  k0_off13_inb : ∀ k0_t11 : Fin k0_t11_loop.trips, ∀ (r : Fin 8), ∀ a, (k0_off13 k0_t11 (BitVec.ofNat 32 r.val)) a + S1x16.size a ≤ S8x4096.size a
  k0_t12_ok : k0_t12_loop.OK
  k0_off14_inb : ∀ k0_t12 : Fin k0_t12_loop.trips, ∀ (r : Fin 8), ∀ a, (k0_off14 k0_t12 (BitVec.ofNat 32 r.val)) a + S1x16.size a ≤ S8x4096.size a
  k0_t13_ok : k0_t13_loop.OK
  k0_off15_inb : ∀ k0_t13 : Fin k0_t13_loop.trips, ∀ (r : Fin 8), ∀ a, (k0_off15 k0_t13 (BitVec.ofNat 32 r.val)) a + S1x16.size a ≤ S8x4096.size a
  k0_t14_ok : k0_t14_loop.OK
  k0_off16_inb : ∀ k0_t14 : Fin k0_t14_loop.trips, ∀ (r : Fin 8), ∀ a, (k0_off16 k0_t14 (BitVec.ofNat 32 r.val)) a + S1x16.size a ≤ S8x4096.size a
  k0_t15_ok : k0_t15_loop.OK
  k0_off17_inb : ∀ k0_t15 : Fin k0_t15_loop.trips, ∀ (r : Fin 8), ∀ a, (k0_off17 k0_t15 (BitVec.ofNat 32 r.val)) a + S1x16.size a ≤ S8x4096.size a
  k0_t16_ok : k0_t16_loop.OK
  k0_off18_inb : ∀ k0_t16 : Fin k0_t16_loop.trips, ∀ (r : Fin 8), ∀ a, (k0_off18 k0_t16 (BitVec.ofNat 32 r.val)) a + S1x16.size a ≤ S8x4096.size a
  k0_t17_ok : k0_t17_loop.OK
  k0_off19_inb : ∀ k0_t17 : Fin k0_t17_loop.trips, ∀ (r : Fin 8), ∀ a, (k0_off19 k0_t17 (BitVec.ofNat 32 r.val)) a + S1x16.size a ≤ S8x4096.size a
  k0_t18_ok : k0_t18_loop.OK
  k0_off20_inb : ∀ k0_t18 : Fin k0_t18_loop.trips, ∀ (r : Fin 8), ∀ a, (k0_off20 k0_t18 (BitVec.ofNat 32 r.val)) a + S1x16.size a ≤ S8x4096.size a
  k0_t19_ok : k0_t19_loop.OK
  k0_off21_inb : ∀ k0_t19 : Fin k0_t19_loop.trips, ∀ (r : Fin 8), ∀ a, (k0_off21 k0_t19 (BitVec.ofNat 32 r.val)) a + S1x16.size a ≤ S8x4096.size a
  k0_t20_ok : k0_t20_loop.OK
  k0_off22_inb : ∀ k0_t20 : Fin k0_t20_loop.trips, ∀ (r : Fin 8), ∀ a, (k0_off22 k0_t20 (BitVec.ofNat 32 r.val)) a + S1x16.size a ≤ S8x4096.size a
  k0_t21_ok : k0_t21_loop.OK
  k0_off23_inb : ∀ k0_t21 : Fin k0_t21_loop.trips, ∀ (r : Fin 8), ∀ a, (k0_off23 k0_t21 (BitVec.ofNat 32 r.val)) a + S1x16.size a ≤ S8x4096.size a
  k0_t22_ok : k0_t22_loop.OK
  k0_off24_inb : ∀ k0_t22 : Fin k0_t22_loop.trips, ∀ (r : Fin 8), ∀ a, (k0_off24 k0_t22 (BitVec.ofNat 32 r.val)) a + S1x16.size a ≤ S8x4096.size a
  k0_t23_ok : k0_t23_loop.OK
  k0_off25_inb : ∀ k0_t23 : Fin k0_t23_loop.trips, ∀ (r : Fin 8), ∀ a, (k0_off25 k0_t23 (BitVec.ofNat 32 r.val)) a + S1x16.size a ≤ S8x4096.size a
  k0_t24_ok : k0_t24_loop.OK
  k0_off26_inb : ∀ k0_t24 : Fin k0_t24_loop.trips, ∀ (r : Fin 8), ∀ a, (k0_off26 k0_t24 (BitVec.ofNat 32 r.val)) a + S1x16.size a ≤ S8x4096.size a
  k0_t25_ok : k0_t25_loop.OK
  k0_off27_inb : ∀ k0_t25 : Fin k0_t25_loop.trips, ∀ (r : Fin 8), ∀ a, (k0_off27 k0_t25 (BitVec.ofNat 32 r.val)) a + S1x16.size a ≤ S8x4096.size a
  k0_t26_ok : k0_t26_loop.OK
  k0_off28_inb : ∀ k0_t26 : Fin k0_t26_loop.trips, ∀ (r : Fin 8), ∀ a, (k0_off28 k0_t26 (BitVec.ofNat 32 r.val)) a + S1x16.size a ≤ S8x4096.size a
  k0_t27_ok : k0_t27_loop.OK
  k0_off29_inb : ∀ k0_t27 : Fin k0_t27_loop.trips, ∀ (r : Fin 8), ∀ a, (k0_off29 k0_t27 (BitVec.ofNat 32 r.val)) a + S1x16.size a ≤ S8x4096.size a
  k0_t28_ok : k0_t28_loop.OK
  k0_off30_inb : ∀ k0_t28 : Fin k0_t28_loop.trips, ∀ (r : Fin 8), ∀ a, (k0_off30 k0_t28 (BitVec.ofNat 32 r.val)) a + S1x16.size a ≤ S8x4096.size a
  k0_t29_ok : k0_t29_loop.OK
  k0_off31_inb : ∀ k0_t29 : Fin k0_t29_loop.trips, ∀ (r : Fin 8), ∀ a, (k0_off31 k0_t29 (BitVec.ofNat 32 r.val)) a + S1x16.size a ≤ S8x4096.size a
  k0_t30_ok : k0_t30_loop.OK
  k0_off32_inb : ∀ k0_t30 : Fin k0_t30_loop.trips, ∀ (r : Fin 8), ∀ a, (k0_off32 k0_t30 (BitVec.ofNat 32 r.val)) a + S1x16.size a ≤ S8x4096.size a
  k0_t31_ok : k0_t31_loop.OK
  k0_off33_inb : ∀ k0_t31 : Fin k0_t31_loop.trips, ∀ (r : Fin 8), ∀ a, (k0_off33 k0_t31 (BitVec.ofNat 32 r.val)) a + S1x16.size a ≤ S8x4096.size a
  k0_t32_ok : k0_t32_loop.OK
  k0_off34_inb : ∀ k0_t32 : Fin k0_t32_loop.trips, ∀ (r : Fin 8), ∀ a, (k0_off34 k0_t32 (BitVec.ofNat 32 r.val)) a + S1x16.size a ≤ S8x4096.size a
  k0_t33_ok : k0_t33_loop.OK
  k0_off35_inb : ∀ k0_t33 : Fin k0_t33_loop.trips, ∀ (r : Fin 8), ∀ a, (k0_off35 k0_t33 (BitVec.ofNat 32 r.val)) a + S1x16.size a ≤ S8x4096.size a
  k0_t34_ok : k0_t34_loop.OK
  k0_off36_inb : ∀ k0_t34 : Fin k0_t34_loop.trips, ∀ (r : Fin 8), ∀ a, (k0_off36 k0_t34 (BitVec.ofNat 32 r.val)) a + S1x16.size a ≤ S8x4096.size a
  k0_t35_ok : k0_t35_loop.OK
  k0_off37_inb : ∀ k0_t35 : Fin k0_t35_loop.trips, ∀ (r : Fin 8), ∀ a, (k0_off37 k0_t35 (BitVec.ofNat 32 r.val)) a + S1x16.size a ≤ S8x4096.size a
  k0_t36_ok : k0_t36_loop.OK
  k0_off38_inb : ∀ k0_t36 : Fin k0_t36_loop.trips, ∀ (r : Fin 8), ∀ a, (k0_off38 k0_t36 (BitVec.ofNat 32 r.val)) a + S1x16.size a ≤ S8x4096.size a
  k0_t37_ok : k0_t37_loop.OK
  k0_off39_inb : ∀ k0_t37 : Fin k0_t37_loop.trips, ∀ (r : Fin 8), ∀ a, (k0_off39 k0_t37 (BitVec.ofNat 32 r.val)) a + S1x16.size a ≤ S8x4096.size a
  k0_t38_ok : k0_t38_loop.OK
  k0_off40_inb : ∀ k0_t38 : Fin k0_t38_loop.trips, ∀ (r : Fin 8), ∀ a, (k0_off40 k0_t38 (BitVec.ofNat 32 r.val)) a + S1x16.size a ≤ S8x4096.size a
  k0_t39_ok : k0_t39_loop.OK
  k0_off41_inb : ∀ k0_t39 : Fin k0_t39_loop.trips, ∀ (r : Fin 8), ∀ a, (k0_off41 k0_t39 (BitVec.ofNat 32 r.val)) a + S1x16.size a ≤ S8x4096.size a
  k0_t40_ok : k0_t40_loop.OK
  k0_off42_inb : ∀ k0_t40 : Fin k0_t40_loop.trips, ∀ (r : Fin 8), ∀ a, (k0_off42 k0_t40 (BitVec.ofNat 32 r.val)) a + S1x16.size a ≤ S8x4096.size a
  k0_t41_ok : k0_t41_loop.OK
  k0_off43_inb : ∀ k0_t41 : Fin k0_t41_loop.trips, ∀ (r : Fin 8), ∀ a, (k0_off43 k0_t41 (BitVec.ofNat 32 r.val)) a + S1x16.size a ≤ S8x4096.size a
  k0_t42_ok : k0_t42_loop.OK
  k0_off44_inb : ∀ k0_t42 : Fin k0_t42_loop.trips, ∀ (r : Fin 8), ∀ a, (k0_off44 k0_t42 (BitVec.ofNat 32 r.val)) a + S1x16.size a ≤ S8x4096.size a
  k0_t43_ok : k0_t43_loop.OK
  k0_off45_inb : ∀ k0_t43 : Fin k0_t43_loop.trips, ∀ (r : Fin 8), ∀ a, (k0_off45 k0_t43 (BitVec.ofNat 32 r.val)) a + S1x16.size a ≤ S8x4096.size a
  k0_t44_ok : k0_t44_loop.OK
  k0_off46_inb : ∀ k0_t44 : Fin k0_t44_loop.trips, ∀ (r : Fin 8), ∀ a, (k0_off46 k0_t44 (BitVec.ofNat 32 r.val)) a + S1x16.size a ≤ S8x4096.size a
  k0_t45_ok : k0_t45_loop.OK
  k0_off47_inb : ∀ k0_t45 : Fin k0_t45_loop.trips, ∀ (r : Fin 8), ∀ a, (k0_off47 k0_t45 (BitVec.ofNat 32 r.val)) a + S1x16.size a ≤ S8x4096.size a
  k0_t46_ok : k0_t46_loop.OK
  k0_off48_inb : ∀ k0_t46 : Fin k0_t46_loop.trips, ∀ (r : Fin 8), ∀ a, (k0_off48 k0_t46 (BitVec.ofNat 32 r.val)) a + S1x16.size a ≤ S8x4096.size a
  k0_t47_ok : k0_t47_loop.OK
  k0_off49_inb : ∀ k0_t47 : Fin k0_t47_loop.trips, ∀ (r : Fin 8), ∀ a, (k0_off49 k0_t47 (BitVec.ofNat 32 r.val)) a + S1x16.size a ≤ S8x4096.size a
  k0_t48_ok : k0_t48_loop.OK
  k0_off50_inb : ∀ k0_t48 : Fin k0_t48_loop.trips, ∀ (r : Fin 8), ∀ a, (k0_off50 k0_t48 (BitVec.ofNat 32 r.val)) a + S1x16.size a ≤ S8x4096.size a
  k0_t49_ok : k0_t49_loop.OK
  k0_off51_inb : ∀ k0_t49 : Fin k0_t49_loop.trips, ∀ (r : Fin 8), ∀ a, (k0_off51 k0_t49 (BitVec.ofNat 32 r.val)) a + S1x16.size a ≤ S8x4096.size a
  k0_t50_ok : k0_t50_loop.OK
  k0_off52_inb : ∀ k0_t50 : Fin k0_t50_loop.trips, ∀ (r : Fin 8), ∀ a, (k0_off52 k0_t50 (BitVec.ofNat 32 r.val)) a + S1x16.size a ≤ S8x4096.size a
  k0_t51_ok : k0_t51_loop.OK
  k0_off53_inb : ∀ k0_t51 : Fin k0_t51_loop.trips, ∀ (r : Fin 8), ∀ a, (k0_off53 k0_t51 (BitVec.ofNat 32 r.val)) a + S1x16.size a ≤ S8x4096.size a
  k0_t52_ok : k0_t52_loop.OK
  k0_off54_inb : ∀ k0_t52 : Fin k0_t52_loop.trips, ∀ (r : Fin 8), ∀ a, (k0_off54 k0_t52 (BitVec.ofNat 32 r.val)) a + S1x16.size a ≤ S8x4096.size a
  k0_t53_ok : k0_t53_loop.OK
  k0_off55_inb : ∀ k0_t53 : Fin k0_t53_loop.trips, ∀ (r : Fin 8), ∀ a, (k0_off55 k0_t53 (BitVec.ofNat 32 r.val)) a + S1x16.size a ≤ S8x4096.size a
  k0_t54_ok : k0_t54_loop.OK
  k0_off56_inb : ∀ k0_t54 : Fin k0_t54_loop.trips, ∀ (r : Fin 8), ∀ a, (k0_off56 k0_t54 (BitVec.ofNat 32 r.val)) a + S1x16.size a ≤ S8x4096.size a
  k0_t55_ok : k0_t55_loop.OK
  k0_off57_inb : ∀ k0_t55 : Fin k0_t55_loop.trips, ∀ (r : Fin 8), ∀ a, (k0_off57 k0_t55 (BitVec.ofNat 32 r.val)) a + S1x16.size a ≤ S8x4096.size a
  k0_t56_ok : k0_t56_loop.OK
  k0_off58_inb : ∀ k0_t56 : Fin k0_t56_loop.trips, ∀ (r : Fin 8), ∀ a, (k0_off58 k0_t56 (BitVec.ofNat 32 r.val)) a + S1x16.size a ≤ S8x4096.size a
  k0_t57_ok : k0_t57_loop.OK
  k0_off59_inb : ∀ k0_t57 : Fin k0_t57_loop.trips, ∀ (r : Fin 8), ∀ a, (k0_off59 k0_t57 (BitVec.ofNat 32 r.val)) a + S1x16.size a ≤ S8x4096.size a
  k0_t58_ok : k0_t58_loop.OK
  k0_off60_inb : ∀ k0_t58 : Fin k0_t58_loop.trips, ∀ (r : Fin 8), ∀ a, (k0_off60 k0_t58 (BitVec.ofNat 32 r.val)) a + S1x16.size a ≤ S8x4096.size a
  k0_t59_ok : k0_t59_loop.OK
  k0_off61_inb : ∀ k0_t59 : Fin k0_t59_loop.trips, ∀ (r : Fin 8), ∀ a, (k0_off61 k0_t59 (BitVec.ofNat 32 r.val)) a + S1x16.size a ≤ S8x4096.size a
  k0_t60_ok : k0_t60_loop.OK
  k0_off62_inb : ∀ k0_t60 : Fin k0_t60_loop.trips, ∀ (r : Fin 8), ∀ a, (k0_off62 k0_t60 (BitVec.ofNat 32 r.val)) a + S1x16.size a ≤ S8x4096.size a
  k0_t61_ok : k0_t61_loop.OK
  k0_off63_inb : ∀ k0_t61 : Fin k0_t61_loop.trips, ∀ (r : Fin 8), ∀ a, (k0_off63 k0_t61 (BitVec.ofNat 32 r.val)) a + S1x16.size a ≤ S8x4096.size a
  k0_t62_ok : k0_t62_loop.OK
  k0_off64_inb : ∀ k0_t62 : Fin k0_t62_loop.trips, ∀ (r : Fin 8), ∀ a, (k0_off64 k0_t62 (BitVec.ofNat 32 r.val)) a + S1x16.size a ≤ S8x4096.size a
  k0_t63_ok : k0_t63_loop.OK
  k0_off65_inb : ∀ k0_t63 : Fin k0_t63_loop.trips, ∀ (r : Fin 8), ∀ a, (k0_off65 k0_t63 (BitVec.ofNat 32 r.val)) a + S1x16.size a ≤ S8x4096.size a
  k0_t64_ok : k0_t64_loop.OK
  k0_off66_inb : ∀ k0_t64 : Fin k0_t64_loop.trips, ∀ (r : Fin 8), ∀ a, (k0_off66 k0_t64 (BitVec.ofNat 32 r.val)) a + S1x16.size a ≤ S8x4096.size a
  k0_off67_inb : ∀ i : grid0.Coords, ∀ a, (k0_off67 i) a + S64x16.size a ≤ S2048x16.size a
  hrank1 : 0 < grid1.rank
  k1_off1_inb : ∀ i : grid1.Coords, ∀ (k1_h2 : k1_cond2 i = 1#1), ∀ a, (k1_off1 i) a + S8x256.size a ≤ S8x4096.size a
  k1_off2_inb : ∀ i : grid1.Coords, ∀ (k1_h2 : k1_cond2 i = 1#1), ∀ a, (k1_off2 i) a + S256x2048.size a ≤ S4096x2048.size a
  k1_off3_inb : ∀ i : grid1.Coords, ∀ a, (k1_off3 i) a + S1x2048.size a ≤ S7x2048.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x4096.size a ≤ S8x4096.size a
  hwx1_0 : ∀ i : grid1.Coords, EltTy.bits .f32 = 32 ∨ (Rect.block (s := S8x4096) S8x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x2048.size a ≤ S4096x2048.size a
  hwx1_1 : ∀ i : grid1.Coords, EltTy.bits .f32 = 32 ∨ (Rect.block (s := S4096x2048) S4096x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S8x2048x4096.size a
  hwx1_2 : ∀ i : grid1.Coords, EltTy.bits .f32 = 32 ∨ (Rect.block (s := S8x2048x4096) S1x2048x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x2048.size a ≤ S8x2048.size a
  hwx1_4 : ∀ i : grid1.Coords, EltTy.bits .f32 = 32 ∨ (Rect.block (s := S8x2048) S8x2048.size (cc1_transform_4 i) (hinb1_4 i)).WholeWords (EltTy.packing .f32)
  hstage2_0 : ∀ j, (stage2_0 j).IsWhole
  hstage2_1 : ∀ j, (stage2_1 j).IsWhole
  hstage2_2 : ∀ j, (stage2_2 j).IsWhole
  hstage2_3 : ∀ j, (stage2_3 j).IsWhole

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0
def dot_S8x256_S256x2048_S8x2048_1_0_0_1_n_n : DotDims S8x256 S256x2048 S8x2048 where
  lhsContracting := [1]
  rhsContracting := [0]
  lhsNonContracting := [0]
  rhsNonContracting := [1]
  lhsBatch := []
  rhsBatch := []
  wf := dot_S8x256_S256x2048_S8x2048_1_0_0_1_n_n_wf

abbrev win1_0 : Pipeline.Window sig grid1 :=
  Pipeline.Window.ofSpec (Memref.whole main_v1) S8x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_0) S1x1.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5_1) S8x2048.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond3 i == 1#1) | 4 => fun i => !(k1_cond3 i == 1#1) | ⟨_ + 5, h⟩ => absurd h (Nat.not_lt.2 (Nat.le_add_left _ _))

abbrev win2_0 : Pipeline.Window sig grid2 :=
  Pipeline.Window.whole (Memref.whole main_v5_0) false false (stage2_0 0) (sem2_0 0) (Memref.isWhole_whole _) (hstage2_0 0)

abbrev win2_1 : Pipeline.Window sig grid2 :=
  Pipeline.Window.whole (Memref.whole main_v7) false false (stage2_1 0) (sem2_1 0) (Memref.isWhole_whole _) (hstage2_1 0)

abbrev win2_2 : Pipeline.Window sig grid2 :=
  Pipeline.Window.whole (Memref.whole main_v4) false false (stage2_2 0) (sem2_2 0) (Memref.isWhole_whole _) (hstage2_2 0)

abbrev win2_3 : Pipeline.Window sig grid2 :=
  Pipeline.Window.whole (Memref.whole main_v8) true false (stage2_3 0) (sem2_3 0) (Memref.isWhole_whole _) (hstage2_3 0)

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1x1x4096x2048 : Shape := ⟨4, ![1, 1, 4096, 2048]⟩
abbrev S1x8x4096x1 : Shape := ⟨4, ![1, 8, 4096, 1]⟩
abbrev S1x8x2048x4096 : Shape := ⟨4, ![1, 8, 2048, 4096]⟩
abbrev S_ : Shape := ⟨0, ![]⟩
abbrev S1x4096x2048 : Shape := ⟨3, ![1, 4096, 2048]⟩
abbrev S1x8x4096x4096 : Shape := ⟨4, ![1, 8, 4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S1x1x4096x2048, .f32⟩
  | .hbm, ⟨1, _⟩ => ⟨S1x8x4096x1, .f32⟩
  | .hbm, ⟨2, _⟩ => ⟨S1x8x2048x4096, .f32⟩
  | .hbm, ⟨3, _⟩ => ⟨S_, .f32⟩
  | .hbm, ⟨4, _⟩ => ⟨S1x4096x2048, .f32⟩
  | .hbm, ⟨5, _⟩ => ⟨S1x8x4096x4096, .f32⟩
  | .hbm, ⟨6, _⟩ => ⟨S1x8x4096x4096, .f32⟩
  | .hbm, ⟨7, _⟩ => ⟨S1x8x4096x4096, .f32⟩
  | .hbm, ⟨8, _⟩ => ⟨S1x8x4096x4096, .f32⟩
  | .hbm, ⟨9, _⟩ => ⟨S_, .f32⟩
  | .hbm, ⟨10, _⟩ => ⟨S_, .f32⟩
  | _, _ => ⟨S1x1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  reducesTo_S1x1x4096x2048_S1x4096x2048_d1 : S1x1x4096x2048.ReducesTo [1] S1x4096x2048
  h_S_ : 0 < S_.numel
  transposes_S1x8x4096x4096_S1x8x4096x4096_0_1_3_2 : S1x8x4096x4096.Transposes [0, 1, 3, 2] S1x8x4096x4096
  bcast_S1x8x4096x1_S1x8x4096x4096_0_1_2_3 : S1x8x4096x1.BroadcastsInDim S1x8x4096x4096 (![0, 1, 2, 3] : Fin 4 → Fin S1x8x4096x4096.rank)
  reducesTo_S1x8x4096x4096_S_d0_1_2_3 : S1x8x4096x4096.ReducesTo [0, 1, 2, 3] S_
  dot_S1x8x2048x4096_S1x4096x2048_S1x8x4096x4096_2_2_13_1_0_0_wf : DotDims.WF S1x8x2048x4096 S1x4096x2048 S1x8x4096x4096 [2] [2] [1, 3] [1] [0] [0]

variable [Facts₀]

def dot_S1x8x2048x4096_S1x4096x2048_S1x8x4096x4096_2_2_13_1_0_0 : DotDims S1x8x2048x4096 S1x4096x2048 S1x8x4096x4096 where
  lhsContracting := [2]
  rhsContracting := [2]
  lhsNonContracting := [1, 3]
  rhsNonContracting := [1]
  lhsBatch := [0]
  rhsBatch := [0]
  wf := dot_S1x8x2048x4096_S1x4096x2048_S1x8x4096x4096_2_2_13_1_0_0_wf

class Facts : Prop extends Facts₀ where

variable [Facts]
-- ==== Proof.RefSide.lean ====
/-
  The reference program read back: its frame is its run with the result dropped.
-/
import proofs.«216131_g62878321214323_cont_9to1c4b_752_23_alg».proof.Defs
import proofs.«216131_g62878321214323_cont_9to1c4b_752_23_alg».proof.Proof.Gen.ReferenceIdeal
import proofs.«216131_g62878321214323_cont_9to1c4b_752_23_alg».proof.Proof.Gen.ReferenceIdeal.Run
import proofs.«216131_g62878321214323_cont_9to1c4b_752_23_alg».proof.Proof.Gen.ReferenceIdeal.Read
import proofs.«216131_g62878321214323_cont_9to1c4b_752_23_alg».proof.Proof.Gen.Pre_finite_inputs

noncomputable section

open Idealize.ShloMosaic Idealize.ShloMosaic.TcCoe Idealize.SL.Sem

namespace Cert.Proof.RefSide

/-- The reference runs to its end and leaves its arguments as they were: its generated run, the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.Spec.lean ====
/-
  The mathematics of the certificate, with no program in sight.

  Three arrays of extended reals are given: the hidden states, read as a matrix hid[t, h] of 4096 tokens by
  2048 features; the routing weights, read as sp[e, t] for 8 experts; and the expert matrices W[e, h, o] with
  4096 output columns. Both programs compute the one number

      Σ_{e, t, h, o} sp[e, t] · hid[t, h] · W[e, h, o].

  The reference contracts h first: Σ_{e, t, o} (Σ_h W[e, h, o] · hid[t, h]) · sp[e, t]. The kernel contracts t and o
  first, separately: with sh[e, h] = Σ_t sp[e, t] · hid[t, h] (the routed hidden states) and the row sums
  Σ_o W[e, h, o] of each expert matrix, the number is Σ_{e, h} sh[e, h] · Σ_o W[e, h, o]. Expert 0's row sums are
  kept as 16 lane sums per row (column o = 16 q + l goes to lane l), experts 1 to 7's as whole row sums ws.

  The two arrangements are equal by distributivity, which the extended reals have only away from the
  infinities: the law is proved for arrays all of whose entries are real numbers ("AllReal"), by choosing the
  real entries, moving the coercion out of every sum and product, and rearranging finite sums in ℝ.
-/
import Idealize.ShloMosaic.PureOps.Ideal
import Idealize.ShloMosaic.PureOps.Ideal.Laws
import Idealize.ShloMosaic.Lib.ValueIdx

noncomputable section

open scoped BigOperators

namespace Cert.Proof.Spec

open Idealize.ShloMosaic Idealize.ShloMosaic.ValueIdx

/-! ## Index vocabulary -/

/-- Expert e' + 1 of the eight, for e' among the last seven. -/
abbrev succ8 (e' : Fin 7) : Fin 8 := ⟨e'.val + 1, by omega⟩

/-- Column 16 q + l of the 4096: piece q of 256, lane l of 16. -/
abbrev col (q : Fin 256) (l : Fin 16) : Fin 4096 := ⟨16 * q.val + l.val, by omega⟩

theorem succ8_eq_succ (e' : Fin 7) : succ8 e' = e'.succ := rfl

/-- The columns are the pairs (piece, lane). -/
def colEquiv : Fin 256 × Fin 16 ≃ Fin 4096 where
  toFun p := col p.1 p.2
  invFun o := (⟨o.val / 16, by omega⟩, ⟨o.val % 16, by omega⟩)
  left_inv p := by
    obtain ⟨q, l⟩ := p
    refine Prod.ext (Fin.ext ?_) (Fin.ext ?_)
    · show (16 * q.val + l.val) / 16 = q.val
      omega
    · show (16 * q.val + l.val) % 16 = l.val
      omega
  right_inv o := Fin.ext (by
    show 16 * (o.val / 16) + o.val % 16 = o.val
    omega)

/-- A sum over the columns is the sum over the lanes of the sums over the pieces. -/
theorem sum_col {M : Type*} [AddCommMonoid M] (f : Fin 4096 → M) :
    ∑ o, f o = ∑ l : Fin 16, ∑ q : Fin 256, f (col q l) := by
  rw [← Equiv.sum_comp colEquiv f, Fintype.sum_prod_type, Finset.sum_comm]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-! ## The three arrays read as matrices, and the two arrangements of the sum -/

abbrev S1x1x4096x2048 : Shape := ⟨4, ![1, 1, 4096, 2048]⟩
abbrev S1x8x4096x1 : Shape := ⟨4, ![1, 8, 4096, 1]⟩
abbrev S1x8x2048x4096 : Shape := ⟨4, ![1, 8, 2048, 4096]⟩

section
variable (x0 : S1x1x4096x2048.Idx → EReal) (x1 : S1x8x4096x1.Idx → EReal) (x2 : S1x8x2048x4096.Idx → EReal)

/-- The hidden state of token t, feature h. -/
def hid (t : Fin 4096) (h : Fin 2048) : EReal := x0 (ix4 (0 : Fin 1) (0 : Fin 1) t h)
/-- The routing weight of expert e for token t. -/
def sp (e : Fin 8) (t : Fin 4096) : EReal := x1 (ix4 (0 : Fin 1) e t (0 : Fin 1))
/-- Expert e's matrix at feature h, output column o. -/
def W (e : Fin 8) (h : Fin 2048) (o : Fin 4096) : EReal := x2 (ix4 (0 : Fin 1) e h o)

/-- Lane l of row h of expert 0: the sum of the row's entries at the columns 16 q + l. -/
def laneSum (h : Fin 2048) (l : Fin 16) : EReal := ∑ q : Fin 256, W x2 0 h (col q l)
/-- The hidden states routed to expert e: Σ_t sp[e, t] · hid[t, h]. -/
def sh (e : Fin 8) (h : Fin 2048) : EReal := ∑ t : Fin 4096, sp x1 e t * hid x0 t h
/-- Row h of expert e' + 1 summed over its columns. -/
def ws (e' : Fin 7) (h : Fin 2048) : EReal := ∑ o : Fin 4096, W x2 (succ8 e') h o
/-- Experts 1 to 7: Σ_{e', h} sh[e' + 1, h] · ws[e', h]. -/
def part : EReal := ∑ e' : Fin 7, ∑ h : Fin 2048, sh x0 x1 (succ8 e') h * ws x2 e' h
/-- Expert 0, lane by lane: Σ_{h, l} laneSum[h, l] · sh[0, h]. -/
def contrib : EReal := ∑ h : Fin 2048, ∑ l : Fin 16, laneSum x2 h l * sh x0 x1 0 h
/-- The kernel's arrangement of the number. -/
def kernelVal : EReal := part x0 x1 x2 + contrib x0 x1 x2
/-- The reference's arrangement: Σ_{e, t, o} (Σ_h W[e, h, o] · hid[t, h]) · sp[e, t]. -/
def refVal : EReal :=
  ∑ e : Fin 8, ∑ t : Fin 4096, ∑ o : Fin 4096, (∑ h : Fin 2048, W x2 e h o * hid x0 t h) * sp x1 e t

end

/-! ## The law in ℝ, over any finite index sets -/

section Real
variable {T H O : Type} [Fintype T] [Fintype H] [Fintype O]

/-- One expert: contracting the features first, or the tokens and the columns first, gives the same number. -/
theorem expert_law (a : T → H → ℝ) (b : T → ℝ) (c : H → O → ℝ) :
    ∑ t, ∑ o, (∑ h, c h o * a t h) * b t = ∑ h, (∑ t, b t * a t h) * (∑ o, c h o) :=
  calc ∑ t, ∑ o, (∑ h, c h o * a t h) * b t
      = ∑ t, ∑ o, ∑ h, b t * a t h * c h o := by
        refine Finset.sum_congr rfl fun t _ => Finset.sum_congr rfl fun o _ => ?_
        rw [Finset.sum_mul]
        exact Finset.sum_congr rfl fun h _ => by ring
    _ = ∑ t, ∑ h, ∑ o, b t * a t h * c h o := Finset.sum_congr rfl fun t _ => Finset.sum_comm
    _ = ∑ h, ∑ t, ∑ o, b t * a t h * c h o := Finset.sum_comm
    _ = ∑ h, (∑ t, b t * a t h) * (∑ o, c h o) := by
        refine Finset.sum_congr rfl fun h _ => ?_
        rw [Finset.sum_mul_sum]

end Real

/-- The whole law in ℝ: experts 1 to 7 by whole row sums, expert 0 by lane sums, against the reference's order. -/
theorem real_law (a : Fin 4096 → Fin 2048 → ℝ) (b : Fin 8 → Fin 4096 → ℝ) (c : Fin 8 → Fin 2048 → Fin 4096 → ℝ) :
    (∑ e' : Fin 7, ∑ h : Fin 2048, (∑ t : Fin 4096, b (succ8 e') t * a t h) * (∑ o : Fin 4096, c (succ8 e') h o))
      + (∑ h : Fin 2048, ∑ l : Fin 16, (∑ q : Fin 256, c 0 h (col q l)) * (∑ t : Fin 4096, b 0 t * a t h))
    = ∑ e : Fin 8, ∑ t : Fin 4096, ∑ o : Fin 4096, (∑ h : Fin 2048, c e h o * a t h) * b e t := by
  have hexp : ∀ e : Fin 8, ∑ t : Fin 4096, ∑ o : Fin 4096, (∑ h : Fin 2048, c e h o * a t h) * b e t
      = ∑ h : Fin 2048, (∑ t : Fin 4096, b e t * a t h) * (∑ o : Fin 4096, c e h o) :=
    fun e => expert_law a (b e) (c e)
  have hlane : ∀ h : Fin 2048, ∑ l : Fin 16, (∑ q : Fin 256, c 0 h (col q l)) * (∑ t : Fin 4096, b 0 t * a t h)
      = (∑ t : Fin 4096, b 0 t * a t h) * (∑ o : Fin 4096, c 0 h o) := by
    intro h
    rw [← Finset.sum_mul, ← sum_col (fun o => c 0 h o), mul_comm]
  rw [Finset.sum_congr rfl fun e _ => hexp e, Fin.sum_univ_succ, Finset.sum_congr rfl fun h _ => hlane h, add_comm]
  rfl

/-! ## The law in the extended reals, for arrays of real numbers -/

/-- Every entry of the array is a real number (neither infinity). -/
def AllReal {ι : Type} (x : ι → EReal) : Prop := ∀ i, ∃ r : ℝ, x i = (r : EReal)

/-- The coercion of the reals into the extended reals goes through a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- THE LAW: on arrays of real numbers the kernel's arrangement is the reference's. -/
theorem kernelVal_eq_refVal (x0 : S1x1x4096x2048.Idx → EReal) (x1 : S1x8x4096x1.Idx → EReal)
    (x2 : S1x8x2048x4096.Idx → EReal) (h0 : AllReal x0) (h1 : AllReal x1) (h2 : AllReal x2) :
    kernelVal x0 x1 x2 = refVal x0 x1 x2 := by
  choose a ha using h0
  choose b hb using h1
  choose c hc using h2
  unfold kernelVal part contrib refVal laneSum sh ws hid sp W
  simp only [ha, hb, hc, ← EReal.coe_mul, ← coe_sum, ← EReal.coe_add]
  exact congrArg Real.toEReal
    (real_law (fun t h => a (ix4 (0 : Fin 1) (0 : Fin 1) t h)) (fun e t => b (ix4 (0 : Fin 1) e t (0 : Fin 1)))
      (fun e h o => c (ix4 (0 : Fin 1) e h o)))

end Cert.Proof.Spec

end
-- ==== Proof.SpecRef.lean ====
/-
  The reference program's result is the reference's arrangement of the sum.

  Read off the generated stage-by-stage description of the reference: the result is 0 plus the sum, over every
  index (a, e, t, o) of the product array, of (Σ_h W[e, h, o] · (0 + Σ over the unit axis of hid[t, h])) · sp[e, t].
  Only 0 + x = x, sums over one-element ranges, and the reindexing of a sum over rank-4 indices by coordinates
  are used: no finiteness. With the law of the specification the kernel's arrangement follows, for arrays of
  real numbers.
-/
import proofs.«216131_g62878321214323_cont_9to1c4b_752_23_alg».proof.Proof.Spec
import proofs.«216131_g62878321214323_cont_9to1c4b_752_23_alg».proof.Proof.Gen.ReferenceIdeal.Read

noncomputable section

open scoped BigOperators

namespace Cert.Proof.Spec

open Idealize.ShloMosaic Idealize.ShloMosaic.ValueIdx Cert.ReferenceIdeal Cert.ReferenceIdeal.Read

/-- The zero word is the number 0. -/
theorem ofBits_zero : (FloatOps.ofBits (F := Ideal) .f32 0x00000000#32 : EReal) = 0 := Ideal.ofBits_zero_f32

/-- The product array at (a, e, t, o): (Σ_h W[e, h, o] · hid[t, h]) · sp[e, t]. The transpose exchanges the last two
    coordinates back, the contraction reads W at (0, e, h, o) and the hidden states at (0, t, h), whose unit axis
    contributes one term, and the broadcast reads sp at (0, e, t, 0). -/
theorem val_main_v4_ix4 (x0 : S1x1x4096x2048.Idx → EReal) (x1 : S1x8x4096x1.Idx → EReal) (x2 : S1x8x2048x4096.Idx → EReal)
    (a : Fin 1) (e : Fin 8) (t : Fin 4096) (o : Fin 4096) :
    val_main_v4 (F := Ideal) x0 x1 x2 (ix4 a e t o) = (∑ h : Fin 2048, W x2 e h o * hid x0 t h) * sp x1 e t := by
  obtain rfl : a = 0 := Subsingleton.elim _ _
  have eW : ∀ h : Fin 2048, lidx_main_v1 (idx_main_v2 (ix4 (0 : Fin 1) e t o)) h = ix4 (0 : Fin 1) e h o := fun h =>
    funext fun a => Fin.ext (by match a with | ⟨0, _⟩ => rfl | ⟨1, _⟩ => rfl | ⟨2, _⟩ => rfl | ⟨3, _⟩ => rfl)
  have eH : ∀ h : Fin 2048, idx_main_v0 (ridx_main_v1 (idx_main_v2 (ix4 (0 : Fin 1) e t o)) h) (0 : Fin 1)
      = ix4 (0 : Fin 1) (0 : Fin 1) t h := fun h =>
    funext fun a => Fin.ext (by match a with | ⟨0, _⟩ => rfl | ⟨1, _⟩ => rfl | ⟨2, _⟩ => rfl | ⟨3, _⟩ => rfl)
  have eS : idx_main_v3 (ix4 (0 : Fin 1) e t o) = ix4 (0 : Fin 1) e t (0 : Fin 1) :=
    funext fun a => Fin.ext (by match a with | ⟨0, _⟩ => rfl | ⟨1, _⟩ => rfl | ⟨2, _⟩ => rfl | ⟨3, _⟩ => rfl)
  rw [val_main_v4_apply, val_main_v2_apply, val_main_v3_apply, val_main_v1_apply, eS]
  refine congrArg₂ (· * ·) (Finset.sum_congr rfl fun h _ => ?_) rfl
  rw [val_main_v0_apply, val_main_cst_apply, ofBits_zero, zero_add, Fin.sum_univ_one, eW, eH]
  rfl

/-- THE REFERENCE IS ITS ARRANGEMENT. -/
theorem refVal_eq_ref (x0 : S1x1x4096x2048.Idx → EReal) (x1 : S1x8x4096x1.Idx → EReal) (x2 : S1x8x2048x4096.Idx → EReal)
    (i : S_.Idx) : refVal x0 x1 x2 = val_main_v5 (F := Ideal) x0 x1 x2 i := by
  rw [val_main_v5_apply, val_main_cst_0_apply, ofBits_zero, zero_add, sum_idx4, Fin.sum_univ_one]
  unfold refVal
  exact Finset.sum_congr rfl fun e _ => Finset.sum_congr rfl fun t _ => Finset.sum_congr rfl fun o _ =>
    (val_main_v4_ix4 x0 x1 x2 0 e t o).symm

/-- On arrays of real numbers the kernel's arrangement is the reference program's result. -/
theorem kernelVal_eq_ref (x0 : S1x1x4096x2048.Idx → EReal) (x1 : S1x8x4096x1.Idx → EReal) (x2 : S1x8x2048x4096.Idx → EReal)
    (h0 : AllReal x0) (h1 : AllReal x1) (h2 : AllReal x2) (i : S_.Idx) :
    kernelVal x0 x1 x2 = val_main_v5 (F := Ideal) x0 x1 x2 i :=
  (kernelVal_eq_refVal x0 x1 x2 h0 h1 h2).trans (refVal_eq_ref x0 x1 x2 i)

/-- The same as an equation of scalar arrays: the array holding the kernel's arrangement is the reference's result. -/
theorem kernelVal_fun_eq_ref (x0 : S1x1x4096x2048.Idx → EReal) (x1 : S1x8x4096x1.Idx → EReal)
    (x2 : S1x8x2048x4096.Idx → EReal) (h0 : AllReal x0) (h1 : AllReal x1) (h2 : AllReal x2) :
    (fun _ : S_.Idx => kernelVal x0 x1 x2) = val_main_v5 (F := Ideal) x0 x1 x2 :=
  funext fun i => kernelVal_eq_ref x0 x1 x2 h0 h1 h2 i

end Cert.Proof.Spec

end
-- ==== Proof.Finite.lean ====
/-
  From the precondition to real entries.

  The precondition is the conjunction, over the three arrays, of "every entry x has |x| < +∞", each conjunct a
  reduction by "and" of the elementwise comparison. Read at the one index of the result: a reduction by "and" that
  is 1 had a 1 at every entry; at the ideal instance |x| is max x (−x), the literal 0x7F800000 is +∞, and an
  extended real with max x (−x) < +∞ is neither infinity, hence a real number.
-/
import proofs.«216131_g62878321214323_cont_9to1c4b_752_23_alg».proof.Pre_finite_inputs
import proofs.«216131_g62878321214323_cont_9to1c4b_752_23_alg».proof.Proof.Spec
import Idealize.ShloMosaic.Lib.ReduceAll
import Idealize.ShloMosaic.PureOps.Ideal.Laws

noncomputable section

namespace Cert.Proof.Spec

open Idealize.ShloMosaic Idealize.ShloMosaic.ValueIdx

/-- The scalar shape has one index. -/
instance : Subsingleton Cert.Pre_finite_inputs.S_.Idx := ⟨fun a b => funext fun d => d.elim0⟩

/-- The word 0x7F800000 is +∞. -/
theorem ofBits_inf_f32 : Ideal.ofBits .f32 0x7F800000#32 = (⊤ : EReal) := by
  simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | coe r => exact ⟨r, rfl⟩
  | top => simp [Ideal.cmp] at h

variable [Cert.Pre_finite_inputs.Facts]

/-- FINITENESS: where the precondition holds, every entry of the three arrays is a real number. -/
theorem allReal_of_finite_inputs (x0 : S1x1x4096x2048.Idx → EReal) (x1 : S1x8x4096x1.Idx → EReal)
    (x2 : S1x8x2048x4096.Idx → EReal)
    (h : Cert.Pre_finite_inputs.fn (F := Ideal) x0 x1 x2 = fun _ => 1#1) :
    AllReal x0 ∧ AllReal x1 ∧ AllReal x2 := by
  have h' := congrFun h ix0
  dsimp only [Cert.Pre_finite_inputs.fn] at h'
  obtain ⟨h01, h2⟩ := IntOp.andi_eq_one.1 h'
  obtain ⟨h0, h1⟩ := IntOp.andi_eq_one.1 h01
  refine ⟨fun i => ?_, fun i => ?_, fun i => ?_⟩
  · exact real_of_abs_lt_inf _ (Host.reduce_andi_all _ _ _ _ _ h0 i)
  · exact real_of_abs_lt_inf _ (Host.reduce_andi_all _ _ _ _ _ h1 i)
  · exact real_of_abs_lt_inf _ (Host.reduce_andi_all _ _ _ _ _ h2 i)

end Cert.Proof.Spec

end
-- ==== Proof.KI.Common.lean ====
/-
  The idealized kernel's program as the SparseCore launch theorem sees it: the body table under the two TensorCore
  pipelines' labels, the resource algebra (the handshakes' rounds, the pipelines' rounds, the local transfers'
  counters), and what the one SparseCore call hands each vector subcore and takes back.

  The call sums, for each of the first 2048 rows of the weight matrix seen as [16384, 4096], the row's 4096 entries
  into 16 lane sums (entry `o` goes to lane `o mod 16`). Tile (core c, subcore s) owns rows
  [(2 s + c) · 64, (2 s + c) · 64 + 64) of the result and reads the weight matrix through a read share of its own.
-/
import proofs.«216131_g62878321214323_cont_9to1c4b_752_23_alg».proof.KernelIdeal
import proofs.«216131_g62878321214323_cont_9to1c4b_752_23_alg».proof.Proof.Gen.KernelIdeal
import proofs.«216131_g62878321214323_cont_9to1c4b_752_23_alg».proof.Proof.Gen.KernelIdeal.Launch
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipelines' rounds: the left factor of the right factor (the transfers' counters are found by instance). -/
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP embR; infer_instance

/-! ## The arrays of the SparseCore call -/

/-- The weight matrix seen as [16384, 4096] and the lane sums [2048, 16], as the TensorCore names them. -/
abbrev wLoc (d : Dev nD) : Loc nD τ sig := (SparseCore.T d).loc main_v3
abbrev oLoc (d : Dev nD) : Loc nD τ sig := (SparseCore.T d).loc main_v4

/-- The tile's coordinates as the kernel's grid point. -/
def coordsV (c : Fin (grid0.bound 0)) (s : Fin (grid0.bound 1)) : grid0.Coords :=
  fun | 0 => c | 1 => s | ⟨_ + 2, h⟩ => absurd h (Nat.not_lt.2 (Nat.le_add_left _ _))

/-- The rows of the result tile `(c, s)` writes, as the program slices them. -/
abbrev oSlice (c : Fin (grid0.bound 0)) (s : Fin (grid0.bound 1)) : Memref sig .scVector .hbm S64x16 .f32 :=
  (Memref.whole main_v4_scv).slice (Rect.unit (s := S2048x16) (k0_off67 (coordsV c s)) S64x16.size (k0_off67_inb (coordsV c s))) (fun _ => rfl)

/-- The read share of the weight matrix tile `(c, s)` works with: one of 32 of the whole. -/
def wTok (c : Fin (grid0.bound 0)) (s : Fin (grid0.bound 1)) : PosShare TreeShare :=
  Transfers.shareTokN fullShare (2 * s.val + c.val)

theorem nCore_zero : (K (F := F)).nCore 0 = 2 := rfl
theorem nSub_zero : (K (F := F)).nSub 0 = 16 := rfl
theorem bound_zero : grid0.bound 0 = 2 := rfl
theorem bound_one : grid0.bound 1 = 16 := rfl

/-- The elements of the result tile `(c, s)` owns: 64 rows of 16 lanes. -/
abbrev oSet (c : Fin 2) (s : Fin 16) : Finset S2048x16.Idx := (oSlice (Fin.cast bound_zero.symm c) (Fin.cast bound_one.symm s)).view.set

variable [FloatOps F]
-- The weight matrix's contents when the call is made (the reshaped argument), per device.
variable (wc : (d : Dev nD) → Buf (Elt F) (wLoc d))

/-- What tile `(c, s)` is handed: its read share of the weight matrix and its rows of the result, at any contents; -/
def tileIn (d : Dev nD) (c : Fin 2) (s : Fin 16) : sProp 𝕄 :=
  iprop((wLoc d ↦{wTok (Fin.cast bound_zero.symm c) (Fin.cast bound_one.symm s)} wc d) ∗ ∃ g : Buf (Elt F) (oLoc d), oLoc d ↦[oSet c s]{fullShare} g)
/-- and what it hands back: the share, and its rows at the lane sums `out`. -/
def tileOut (d : Dev nD) (out : Buf (Elt F) (oLoc d)) (c : Fin 2) (s : Fin 16) : sProp 𝕄 :=
  iprop((wLoc d ↦{wTok (Fin.cast bound_zero.symm c) (Fin.cast bound_one.symm s)} wc d) ∗ oLoc d ↦[oSet c s]{fullShare} out)

/-- The one call hands each SparseCore its sixteen tiles' parts and takes them back; each tile its own. Nothing of the
    launch's is consumed by the kernel's proof. -/
def P (out : (d : Dev nD) → Buf (Elt F) (oLoc d)) : (K (F := F)).Pay (nD := nD) (Val := Elt F) (Name := ℕ) (U := UU) where
  st := fun q d c => match q with | 0 => bigSep Finset.univ fun s : Fin 16 => tileIn wc d (Fin.cast nCore_zero c) s
  dn := fun q d c => match q with | 0 => bigSep Finset.univ fun s : Fin 16 => tileOut wc d (out d) (Fin.cast nCore_zero c) s
  go := fun q d c i => match q with | 0 => tileIn wc d (Fin.cast nCore_zero c) (Fin.cast nSub_zero i)
  td := fun q d c i => match q with | 0 => tileOut wc d (out d) (Fin.cast nCore_zero c) (Fin.cast nSub_zero i)
  x := fun _ _ => iprop(emp)

instance P_storable (out : (d : Dev nD) → Buf (Elt F) (oLoc d)) : (P (F := F) wc out).IsStorable where
  st q d c := match q with | 0 => by unfold P tileIn; infer_instance
  dn q d c := match q with | 0 => by unfold P tileOut; infer_instance
  go q d c i := match q with | 0 => by unfold P tileIn; infer_instance
  td q d c i := match q with | 0 => by unfold P tileOut; infer_instance

end Cert.Proof.KI

end
-- ==== Proof.KI.Split.lean ====
/-
  The result array [2048, 16] is the disjoint union of the 32 tiles' blocks of 64 rows — tile (c, s) has block number
  2 s + c —, and the weight matrix's ownership splits into 32 read shares and a remainder: how @main's whole arrays
  are dealt to the tiles and come back.
-/
import proofs.«216131_g62878321214323_cont_9to1c4b_752_23_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The tiles' blocks of rows -/

theorem hdiv32 : 32 ∣ S2048x16.size 0 := ⟨64, rfl⟩
/-- Block `w` of 64 rows. -/
abbrev part32 (w : Fin 32) : Rect S2048x16 := Rect.part (s := S2048x16) (a₀ := 0) hdiv32 w

/-- The tile's block number. -/
def wid (c : Fin 2) (s : Fin 16) : Fin 32 := ⟨2 * s.val + c.val, by omega⟩

/-- Tiles and block numbers correspond one to one. -/
def widEquiv : Fin 2 × Fin 16 ≃ Fin 32 where
  toFun p := wid p.1 p.2
  invFun w := (⟨w.val % 2, Nat.mod_lt _ (by decide)⟩, ⟨w.val / 2, by omega⟩)
  left_inv p := by
    obtain ⟨c, s⟩ := p
    refine Prod.ext (Fin.ext ?_) (Fin.ext ?_) <;> simp only [wid] <;> omega
  right_inv w := by
    refine Fin.ext ?_; simp only [wid]; omega

theorem oRect_eq (c : Fin 2) (s : Fin 16) :
    Rect.unit (s := S2048x16) (k0_off67 (coordsV (Fin.cast bound_zero.symm c) (Fin.cast bound_one.symm s))) S64x16.size
        (k0_off67_inb (coordsV (Fin.cast bound_zero.symm c) (Fin.cast bound_one.symm s)))
      = part32 (wid c s) := by
  unfold part32 Rect.part Rect.block
  congr 1 <;> funext a
  · rw [k0_off67_eq]
    match a with
    | 0 => simp [Shape.partIx, Shape.partSize, wid, coordsV]; omega
    | 1 => simp [Shape.partIx, Shape.partSize]
  · match a with
    | 0 => simp [Shape.partSize]
    | 1 => simp [Shape.partSize]

theorem oSet_eq (c : Fin 2) (s : Fin 16) : oSet c s = (part32 (wid c s)).set := by
  show ((View.whole (main_v4_scv : Ref sig .scVector)).slice (Rect.unit (s := S2048x16) _ S64x16.size _)).set = _
  rw [View.set_slice, oRect_eq]; exact Finset.map_refl

theorem blocks_disjoint : ∀ w ∈ (Finset.univ : Finset (Fin 32)), ∀ w' ∈ (Finset.univ : Finset (Fin 32)), w ≠ w' →
    Disjoint (part32 w).set (part32 w').set :=
  fun _ _ _ _ h => Rect.part_disjoint hdiv32 h
theorem blocks_cover : (Finset.univ : Finset (Fin 32)).biUnion (fun w => (part32 w).set) = Finset.univ :=
  Rect.biUnion_part hdiv32

/-- The result array whole is its 32 blocks, tile by tile. -/
theorem oPts_tiles (d : Dev nD) (f : Buf (Elt F) (oLoc d)) :
    (oLoc d ↦{fullShare} f : sProp 𝕄)
      = bigSep Finset.univ fun c : Fin 2 => bigSep Finset.univ fun s : Fin 16 => oLoc d ↦[oSet c s]{fullShare} f := by
  rw [← bigSep_univ_prod (fun p : Fin 2 × Fin 16 => (oLoc d ↦[oSet p.1 p.2]{fullShare} f : sProp 𝕄)),
    bigSep_congr (fun (p : Fin 2 × Fin 16) _ => congrArg (fun I => (oLoc d ↦[I]{fullShare} f : sProp 𝕄)) (oSet_eq p.1 p.2))]
  refine Eq.trans ?_ (bigSep_univ_equiv widEquiv (fun w : Fin 32 => (oLoc d ↦[(part32 w).set]{fullShare} f : sProp 𝕄)))
  rw [← pointsTo_biUnion Finset.univ (ℓ := oLoc d) (fun w : Fin 32 => (part32 w).set) blocks_disjoint, blocks_cover]
  try rfl

/-- The 32 blocks at contents of their own join into the whole array at some contents. -/
theorem oPts_join [FloatOps F] (d : Dev nD) :
    (bigSep Finset.univ fun c : Fin 2 => bigSep Finset.univ fun s : Fin 16 => iprop(∃ g : Buf (Elt F) (oLoc d), oLoc d ↦[oSet c s]{fullShare} g))
      ⊢ (iprop(∃ g : Buf (Elt F) (oLoc d), oLoc d ↦{fullShare} g) : sProp 𝕄) := by
  rw [← bigSep_univ_prod (fun p : Fin 2 × Fin 16 => (iprop(∃ g : Buf (Elt F) (oLoc d), oLoc d ↦[oSet p.1 p.2]{fullShare} g) : sProp 𝕄))]
  refine (bigSep_exists_pi Finset.univ (fun (p : Fin 2 × Fin 16) (g : Buf (Elt F) (oLoc d)) => (oLoc d ↦[oSet p.1 p.2]{fullShare} g : sProp 𝕄))).trans ?_
  iintro ⟨%fs, H⟩
  ihave H' := (pointsTo_biUnion_join Finset.univ (fun p : Fin 2 × Fin 16 => oSet p.1 p.2) fs (fs (0, 0))
    (fun p _ p' _ h => by
      rw [oSet_eq, oSet_eq]
      exact Rect.part_disjoint hdiv32 (fun e => h (widEquiv.injective e)))) $$ H
  icases H' with ⟨%g, -, Hg⟩
  rw [show (Finset.univ : Finset (Fin 2 × Fin 16)).biUnion (fun p => oSet p.1 p.2) = Finset.univ from by
    ext i
    simp only [Finset.mem_biUnion, Finset.mem_univ, true_and, iff_true]
    obtain ⟨w, hw⟩ := Rect.exists_mem_part hdiv32 i
    exact ⟨widEquiv.symm w, by rw [oSet_eq]; show i ∈ (part32 (widEquiv (widEquiv.symm w))).set; rw [Equiv.apply_symm_apply]; exact hw⟩]
  iexists g; iexact Hg

/-! ## The weight matrix's read shares -/

/-- The whole of the weight matrix is a remainder and the 32 tiles' read shares. -/
theorem wPts_tiles (d : Dev nD) (f : Buf (Elt F) (wLoc d)) :
    (wLoc d ↦{fullShare} f : sProp 𝕄)
      ⊣⊢ iprop((wLoc d ↦{Transfers.shareDrop fullShare 32} f)
          ∗ bigSep Finset.univ fun c : Fin 2 => bigSep Finset.univ fun s : Fin 16 =>
              wLoc d ↦{wTok (Fin.cast bound_zero.symm c) (Fin.cast bound_one.symm s)} f) := by
  have e : (bigSep Finset.univ fun c : Fin 2 => bigSep Finset.univ fun s : Fin 16 =>
        (wLoc d ↦{wTok (Fin.cast bound_zero.symm c) (Fin.cast bound_one.symm s)} f : sProp 𝕄))
      = bigSep Finset.univ fun w : Fin 32 => wLoc d ↦{Transfers.shareTok fullShare 32 w} f := by
    rw [← bigSep_univ_prod (fun p : Fin 2 × Fin 16 => (wLoc d ↦{wTok (Fin.cast bound_zero.symm p.1) (Fin.cast bound_one.symm p.2)} f : sProp 𝕄))]
    exact (bigSep_univ_equiv widEquiv (fun w : Fin 32 => (wLoc d ↦{Transfers.shareTok fullShare 32 w} f : sProp 𝕄))).symm
  rw [e]
  exact ⟨Transfers.pointsTo_toks_split fullShare 32, Transfers.pointsTo_toks_join fullShare 32⟩

/-! ## A SparseCore's operands are its tiles', its results theirs -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit [FloatOps F] (wc : (d : Dev nD) → Buf (Elt F) (wLoc d)) (out : (d : Dev nD) → Buf (Elt F) (oLoc d)) :
    (K (F := F)).VecSplit' (P wc out) 0 := by
  intro d c
  show (bigSep Finset.univ fun s : Fin 16 => tileIn wc d (Fin.cast nCore_zero c) s)
    ⊢ |={Set.univ}=> iprop((bigSep Finset.univ fun i : Fin ((K (F := F)).nSub 0) => tileIn wc d (Fin.cast nCore_zero c) (Fin.cast nSub_zero i))
      ∗ ((bigSep Finset.univ fun i : Fin ((K (F := F)).nSub 0) => tileOut wc d (out d) (Fin.cast nCore_zero c) (Fin.cast nSub_zero i))
          -∗ bigSep Finset.univ fun s : Fin 16 => tileOut wc d (out d) (Fin.cast nCore_zero c) s))
  rw [bigSep_tasks (F := F) (fun s => tileIn wc d (Fin.cast nCore_zero c) s),
    bigSep_tasks (F := F) (fun s => tileOut wc d (out d) (Fin.cast nCore_zero c) s)]
  iintro H; imodintro
  isplitl [H]; · iexact H
  iintro H; iexact H

end Cert.Proof.KI

end
-- ==== Proof.KI.MainA.lean ====
/-
  @main on the TensorCore: the four reshapes, the SparseCore call (the weight matrix dealt to the 32 tiles as read
  shares, the result array as their blocks of rows, and both joined back), the two TensorCore regions with the slice
  and reshape between them, and the last reshape; every unscoped buffer is held as one set at a valuation that each
  step advances.
-/
import proofs.«216131_g62878321214323_cont_9to1c4b_752_23_alg».proof.Proof.KI.Common
import proofs.«216131_g62878321214323_cont_9to1c4b_752_23_alg».proof.Proof.KI.Split
import Idealize.ShloMosaic.Lib.Pipeline.Frame

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.StableHlo (held held_split held_sdiff_result wp_hlo_within held_sub_split held_congr)
open Idealize.ShloMosaic.Pipeline (ucRefs unscopedBufs_held sub_ucRefs)

variable [FloatOps F]
variable (m : (ℓ : Loc nD τ sig) → Buf (Elt F) ℓ) (ρ : Dev nD → PrngReg)

/-! ## The host operations and the valuations between them -/

abbrev op_v0 : HloOp τ sig (Elt F) := StableHlo.reshape main_arg0 main_v0 rfl shapeCasts_S1x1x4096x2048_S4096x2048
abbrev op_v1 : HloOp τ sig (Elt F) := StableHlo.reshape main_arg1 main_v1 rfl shapeCasts_S1x8x4096x1_S8x4096
abbrev op_v2 : HloOp τ sig (Elt F) := StableHlo.reshape main_arg2 main_v2 rfl shapeCasts_S1x8x2048x4096_S8x2048x4096
abbrev op_v3 : HloOp τ sig (Elt F) := StableHlo.reshape main_arg2 main_v3 rfl shapeCasts_S1x8x2048x4096_S16384x4096

abbrev w' : DevRef τ sig := Proc.devRef .tc (main_v3 : Ref sig .tc)
abbrev o' : DevRef τ sig := Proc.devRef .tc (main_v4 : Ref sig .tc)

/-- The launch valuation, and the one after the four reshapes. -/
abbrev Val0 (d : Dev nD) : Valuation τ sig (Elt F) := fun b => m (d, b)
abbrev Val4 (d : Dev nD) : Valuation τ sig (Elt F) :=
  (op_v3 (F := F)).result ((op_v2 (F := F)).result ((op_v1 (F := F)).result ((op_v0 (F := F)).result (Val0 m d))))

/-- The weight matrix as the SparseCore call finds it. -/
abbrev wcOf (d : Dev nD) : Buf (Elt F) (wLoc d) := Val4 m d w'

variable (out : (d : Dev nD) → Buf (Elt F) (oLoc d))

/-- After the call: the lane sums in place. -/
abbrev Val5 (d : Dev nD) : Valuation τ sig (Elt F) := Function.update (Val4 m d) o' (out d)

theorem unscoped_held (d : Dev nD) :
    (unscopedBufs d (fun b => m ((SparseCore.T d).loc b)) : sProp 𝕄) = held (T d) (ucRefs τ sig) (Val0 m d) :=
  unscopedBufs_held d (Val0 m d)

theorem wo_sub : ({w', o'} : Finset (DevRef τ sig)) ⊆ ucRefs τ sig := by decide

omit [FloatOps F] in
theorem held_wo (d : Dev nD) (W : Valuation τ sig (Elt F)) :
    (held (T d) ({w', o'} : Finset (DevRef τ sig)) W : sProp 𝕄) = iprop((wLoc d ↦{fullShare} W w') ∗ oLoc d ↦{fullShare} W o') := by
  unfold held
  rw [SparseCore.bigSep_insert' (by decide), bigSep_singleton]

/-- What the call takes for the two SparseCores and what it hands back. -/
theorem st0_eq (wc : (d : Dev nD) → Buf (Elt F) (wLoc d)) (d : Dev nD) :
    (bigSep Finset.univ fun c : Fin ((K (F := F)).nCore 0) => (P wc out).st 0 d c)
      = bigSep Finset.univ fun c : Fin 2 => bigSep Finset.univ fun s : Fin 16 => tileIn wc d c s :=
  bigSep_congr fun _ _ => rfl
theorem dn0_eq (wc : (d : Dev nD) → Buf (Elt F) (wLoc d)) (d : Dev nD) :
    (bigSep Finset.univ fun c : Fin ((K (F := F)).nCore 0) => (P wc out).dn 0 d c)
      = bigSep Finset.univ fun c : Fin 2 => bigSep Finset.univ fun s : Fin 16 => tileOut wc d (out d) c s :=
  bigSep_congr fun _ _ => rfl

omit [FloatOps F] in
/-- A block held at given contents is held at some contents. -/
theorem oTile_weaken (d : Dev nD) (g : Buf (Elt F) (oLoc d)) (c : Fin 2) (s : Fin 16) :
    (oLoc d ↦[oSet c s]{fullShare} g : sProp 𝕄) ⊢ (iprop(∃ g' : Buf (Elt F) (oLoc d), oLoc d ↦[oSet c s]{fullShare} g') : sProp 𝕄) := by
  iintro H; iexists g; iexact H

omit [FloatOps F] in
theorem oTiles_weaken (d : Dev nD) (g : Buf (Elt F) (oLoc d)) :
    ((bigSep Finset.univ fun c : Fin 2 => bigSep Finset.univ fun s : Fin 16 => oLoc d ↦[oSet c s]{fullShare} g) : sProp 𝕄)
      ⊢ ((bigSep Finset.univ fun c : Fin 2 => bigSep Finset.univ fun s : Fin 16 => iprop(∃ g' : Buf (Elt F) (oLoc d), oLoc d ↦[oSet c s]{fullShare} g')) : sProp 𝕄) :=
  SparseCore.ent (bigSep_mono fun c _ => bigSep_mono fun s _ => oTile_weaken d g c s)

/-- The whole arrays dealt to the tiles: a remainder of the weight matrix stays with the TensorCore. -/
theorem tiles_intro (wc : (d : Dev nD) → Buf (Elt F) (wLoc d)) (d : Dev nD) (g : Buf (Elt F) (oLoc d)) :
    iprop((wLoc d ↦{fullShare} wc d) ∗ oLoc d ↦{fullShare} g)
      ⊢ (iprop((wLoc d ↦{Transfers.shareDrop fullShare 32} wc d) ∗ bigSep Finset.univ fun c : Fin 2 => bigSep Finset.univ fun s : Fin 16 => tileIn wc d c s) : sProp 𝕄) := by
  iintro ⟨Hw, Ho⟩
  ihave Hw' := (wPts_tiles (F := F) d (wc d)).1 $$ Hw
  icases Hw' with ⟨Hr, Hts⟩
  isplitl [Hr]; · iexact Hr
  unfold tileIn
  rw [bigSep_congr (fun (c : Fin 2) _ => bigSep_sep' (Finset.univ : Finset (Fin 16)) _ _), bigSep_sep']
  isplitl [Hts]; · iexact Hts
  ihave Ho2 := (Entails.of_eq (oPts_tiles (F := F) d g)) $$ Ho
  ihave Ho' := (oTiles_weaken (F := F) d g) $$ Ho2
  iexact Ho'

/-- and gathered back, the result at the lane sums. -/
theorem tiles_elim (wc : (d : Dev nD) → Buf (Elt F) (wLoc d)) (d : Dev nD) :
    (iprop((wLoc d ↦{Transfers.shareDrop fullShare 32} wc d) ∗ bigSep Finset.univ fun c : Fin 2 => bigSep Finset.univ fun s : Fin 16 => tileOut wc d (out d) c s) : sProp 𝕄)
      ⊢ iprop((wLoc d ↦{fullShare} wc d) ∗ oLoc d ↦{fullShare} out d) := by
  unfold tileOut
  rw [bigSep_congr (fun (c : Fin 2) _ => bigSep_sep' (Finset.univ : Finset (Fin 16)) _ _), bigSep_sep']
  iintro ⟨Hr, Hts, Ho⟩
  isplitl [Hr Hts]
  · iapply (wPts_tiles (F := F) d (wc d)).2
    isplitl [Hr]; · iexact Hr
    iexact Hts
  · rw [oPts_tiles]; iexact Ho

/-! ## The valuation after the call -/

theorem Val5_w (d : Dev nD) : Val5 m out d w' = Val4 m d w' := Function.update_of_ne (show (w' : DevRef τ sig) ≠ o' by decide) _ _
theorem Val5_o (d : Dev nD) : Val5 m out d o' = out d := Function.update_self _ _ _

theorem held_rest5 (d : Dev nD) :
    (held (T d) (ucRefs τ sig \ {w', o'}) (Val5 m out d) : sProp 𝕄) = held (T d) (ucRefs τ sig \ {w', o'}) (Val4 m d) :=
  held_congr (T d) fun b hb => Function.update_of_ne (fun e => by
    subst e; exact (Finset.mem_sdiff.mp hb).2 (Finset.mem_insert_of_mem (Finset.mem_singleton_self _))) _ _

/-- The weight matrix and the result array put back among the unscoped buffers, the result at the lane sums. -/
theorem held_after_call (d : Dev nD) :
    (iprop((wLoc d ↦{fullShare} Val4 m d w') ∗ (oLoc d ↦{fullShare} out d) ∗ held (T d) (ucRefs τ sig \ {w', o'}) (Val4 m d)) : sProp 𝕄)
      ⊢ held (T d) (ucRefs τ sig) (Val5 m out d) := by
  rw [held_sub_split (T d) wo_sub (Val5 m out d), held_wo, Val5_w, Val5_o, held_rest5]
  iintro ⟨Hw, Ho, Hr⟩
  isplitl [Hw Ho]
  · isplitl [Hw]; · iexact Hw
    iexact Ho
  · iexact Hr

end Cert.Proof.KI

end
-- ==== Proof.KI.LaunchElem.lean ====
/-
  The launch element of the ghost state: the handshakes' rounds for the launch theorem, the two TensorCore pipelines'
  staging cells funded for @main's regions, and the local transfers' counters, of which nothing is needed at launch.
-/
import proofs.«216131_g62878321214323_cont_9to1c4b_752_23_alg».proof.Proof.KI.Common
import proofs.«216131_g62878321214323_cont_9to1c4b_752_23_alg».proof.Proof.KI.Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]
variable (wc : (d : Dev nD) → Buf (Elt F) (wLoc d)) (out : (d : Dev nD) → Buf (Elt F) (oLoc d))

/-- The launch element: the handshakes' copy at the library's cells and tokens, the pipelines' at their staging cells
    and their loops' transfers, the counters' unit. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What the launch leaves device `d`'s TensorCore for its two regions: each pipeline's staging cells' ghost state and
    its transfers' duty tokens. -/
def G (d : Dev nD) : sProp 𝕄 :=
  bigSep Finset.univ fun p : Fin 2 => iprop(Pipeline.cellsGhost cfgs (EP (F := F)) p d ∗ Pipeline.toksInit cfgs (EP (F := F)) p d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P wc out).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (nD := nD) (τ := τ) cfgs (EP (F := F)) cellOf_inj) $$ HP with ⟨Hg, Ht⟩
  imodintro
  isplitl [HH]; · iexact HH
  isplitl [Hg Ht]
  · unfold G
    rw [bigSep_congr (fun (d : Dev nD) _ => bigSep_sep' (Finset.univ : Finset (Fin 2)) _ _), bigSep_sep']
    isplitl [Hg] <;> iassumption
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Cert.Proof.KI

end
-- ==== Proof.KI.MainB.lean ====
/-
  @main on the TensorCore, run: from what the launch deals the TensorCore to the final valuation of its unscoped
  buffers, the two TensorCore regions entering as steps that advance the valuation at their result arrays.
-/
import proofs.«216131_g62878321214323_cont_9to1c4b_752_23_alg».proof.Proof.KI.MainA
import proofs.«216131_g62878321214323_cont_9to1c4b_752_23_alg».proof.Proof.KI.LaunchElem

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.StableHlo (held held_split held_sdiff_result wp_hlo_within held_sub_split held_congr)
open Idealize.ShloMosaic.Pipeline (ucRefs unscopedBufs_held sub_ucRefs)

variable [FloatOps F]
variable (m : (ℓ : Loc nD τ sig) → Buf (Elt F) ℓ) (ρ : Dev nD → PrngReg)
variable (out : (d : Dev nD) → Buf (Elt F) (oLoc d))

/-- What the TensorCore owes once the SparseCore call is over: nothing, its recorded waits bounded. -/
def tcOwes (d : Dev nD) : sProp 𝕄 := iprop(∃ W, ⌜(K (F := F)).WBelow (T d) W (8 * 1)⌝ ∗ owes (T d) (0 : CellTallies nD τ sig (HIx 1)) W)

/-- A TensorCore region as a step of @main: from the region boundary, every unscoped buffer at a valuation, the
    core owing nothing and the pipeline's staging cells' ghost state, to the boundary, the valuation advanced at the
    region's result arrays, and the core owing nothing. -/
def RegionStep (p : Fin 2) (upd : Dev nD → Valuation τ sig (Elt F) → Valuation τ sig (Elt F)) : Prop :=
  ∀ (κ : GSem nD τ sig → ℕ) (d : Dev nD) (W₀ : Valuation τ sig (Elt F)) (Φ : PUnit → sProp 𝕄),
    iprop((K (F := F)).ctx EH (P (wcOf m) out) κ ∗ boundary (T d) ∗ held (T d) (ucRefs τ sig) W₀ ∗ tcOwes (F := F) d
        ∗ Pipeline.cellsGhost cfgs (EP (F := F)) p d ∗ Pipeline.toksInit cfgs (EP (F := F)) p d
        ∗ (iprop(boundary (T d) ∗ held (T d) (ucRefs τ sig) (upd d W₀) ∗ tcOwes (F := F) d) -∗ Φ ⟨⟩))
      ⊢ wp frame (wpE ((K (F := F)).defs (D (F := F))) 𝒱 (SparseCore.T d) none) Set.univ
          (Prog.lift (.customCall (SparseCore.inner (Pipeline.entry p)) ())) Φ

variable (upd0 upd1 : Dev nD → Valuation τ sig (Elt F) → Valuation τ sig (Elt F))

abbrev op_v6 : HloOp τ sig (Elt F) :=
  StableHlo.unary main_v5_1 main_v6 ((extractStridedSlice S1x2048 ![0, 0] · slices_S8x2048_S1x2048_0_0) : (⟨S8x2048, .f32⟩ : BufTy).Contents (Elt F) → (⟨S1x2048, .f32⟩ : BufTy).Contents (Elt F))
abbrev op_v7 : HloOp τ sig (Elt F) := StableHlo.reshape main_v6 main_v7 rfl shapeCasts_S1x2048_S2048x1
abbrev op_v9 : HloOp τ sig (Elt F) := StableHlo.reshape main_v8 main_v9 rfl shapeCasts_S1x1_S_

/-- The valuation when @main returns. -/
abbrev ValEnd (d : Dev nD) : Valuation τ sig (Elt F) :=
  (op_v9 (F := F)).result (upd1 d ((op_v7 (F := F)).result ((op_v6 (F := F)).result (upd0 d (Val5 m out d)))))

/-- What @main leaves the claim: every unscoped buffer at the final valuation. -/
abbrev FIN (d : Dev nD) : sProp 𝕄 := held (T d) (ucRefs τ sig) (ValEnd m out upd0 upd1 d)

/-- After the one SparseCore call the TensorCore's handshake state is: it owes nothing, and a rest the regions do not touch. -/
theorem tcSt_one (d : Dev nD) : ∃ R : sProp 𝕄, ((K (F := F)).tcSt EH d 1 : sProp 𝕄) = iprop(tcOwes (F := F) d ∗ R) :=
  ⟨_, by unfold SparseCore.Cfg.tcSt tcOwes; rw [(K (F := F)).Otc_end d le_rfl]⟩

/-- The launch's ghost state for the two regions, one by one. -/
theorem G_eq (d : Dev nD) :
    (G (F := F) d : sProp 𝕄) = iprop((Pipeline.cellsGhost cfgs (EP (F := F)) 0 d ∗ Pipeline.toksInit cfgs (EP (F := F)) 0 d)
      ∗ (Pipeline.cellsGhost cfgs (EP (F := F)) 1 d ∗ Pipeline.toksInit cfgs (EP (F := F)) 1 d)) := by
  unfold G; exact bigSep_fin_two _

theorem hmain (h0 : RegionStep (F := F) m out 0 upd0) (h1 : RegionStep (F := F) m out 1 upd1)
    (κ : GSem nD τ sig → ℕ) (d : Dev nD) :
    iprop((K (F := F)).ctx EH (P (wcOf m) out) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m out upd0 upd1 d) := by
  unfold SparseCore.Cfg.tcRes
  rw [unscoped_held]
  simp only [main, wp_bind, wp_pure]
  iintro ⟨#Hctx, Hst, ⟨Hb, Hheld, -, -⟩, HG⟩
  -- the four reshapes
  iapply (wp_hlo_within 𝒱 (SparseCore.T d) none Set.univ (op := op_v0) (S := ucRefs τ sig) (sub_ucRefs _ (StableHlo.reshape_bufs_sub ..)) (V := Val0 m d)) $$ [Hb Hheld]
  · isplitl [Hb]; · iexact Hb
    iexact Hheld
  iintro ⟨Hb, Hheld⟩
  rw [wp_ret]; imodintro
  iapply (wp_hlo_within 𝒱 (SparseCore.T d) none Set.univ (op := op_v1) (S := ucRefs τ sig) (sub_ucRefs _ (StableHlo.reshape_bufs_sub ..))) $$ [Hb Hheld]
  · isplitl [Hb]; · iexact Hb
    iexact Hheld
  iintro ⟨Hb, Hheld⟩
  rw [wp_ret]; imodintro
  iapply (wp_hlo_within 𝒱 (SparseCore.T d) none Set.univ (op := op_v2) (S := ucRefs τ sig) (sub_ucRefs _ (StableHlo.reshape_bufs_sub ..))) $$ [Hb Hheld]
  · isplitl [Hb]; · iexact Hb
    iexact Hheld
  iintro ⟨Hb, Hheld⟩
  rw [wp_ret]; imodintro
  iapply (wp_hlo_within 𝒱 (SparseCore.T d) none Set.univ (op := op_v3) (S := ucRefs τ sig) (sub_ucRefs _ (StableHlo.reshape_bufs_sub ..))) $$ [Hb Hheld]
  · isplitl [Hb]; · iexact Hb
    iexact Hheld
  iintro ⟨Hb, Hheld⟩
  rw [wp_ret]; imodintro
  -- the SparseCore call: the weight matrix and the result array out of the set, dealt to the tiles, and back
  ihave Hh := (Entails.of_eq (held_sub_split (T d) wo_sub (Val4 m d))) $$ Hheld
  icases Hh with ⟨Hwo, Hrest⟩
  ihave Hwo' := (Entails.of_eq (held_wo (F := F) d (Val4 m d))) $$ Hwo
  icases Hwo' with ⟨Hw, Ho⟩
  ihave Ht := (tiles_intro (wcOf m) d (Val4 m d o')) $$ [Hw Ho]
  · isplitl [Hw]; · iexact Hw
    iexact Ho
  icases Ht with ⟨Hwr, Htiles⟩
  iapply ((K (F := F)).wp_run (D (F := F)) 𝒱 (EH := EH) (P := P (wcOf m) out) κ d 0) $$ [Hst Htiles Hb Hrest Hwr HG]
  isplitr; · iexact Hctx
  isplitl [Hst]; · iexact Hst
  isplitl [Htiles]
  · rw [st0_eq]; iexact Htiles
  iintro ⟨Hst, Hdn⟩
  ihave Hdn' := (Entails.of_eq (dn0_eq out (wcOf m) d)) $$ Hdn
  ihave Hwo := (tiles_elim out (wcOf m) d) $$ [Hwr Hdn']
  · isplitl [Hwr]; · iexact Hwr
    iexact Hdn'
  icases Hwo with ⟨Hw, Ho⟩
  ihave Hheld := (held_after_call m out d) $$ [Hw Ho Hrest]
  · isplitl [Hw]; · iexact Hw
    isplitl [Ho]; · iexact Ho
    iexact Hrest
  -- what the TensorCore owes now, and the regions' ghost state
  obtain ⟨R, hR⟩ := tcSt_one (F := F) d
  ihave Hst' := (Entails.of_eq (show ((K (F := F)).tcSt EH d ((0 : Fin 1).val + 1) : sProp 𝕄) = iprop(tcOwes (F := F) d ∗ R) from hR)) $$ Hst
  icases Hst' with ⟨Howes, HR⟩
  ihave HG' := (Entails.of_eq (G_eq (F := F) d)) $$ HG
  icases HG' with ⟨⟨Hg0, Ht0⟩, Hg1, Ht1⟩
  -- region 0
  iapply (h0 κ d (Val5 m out d) _) $$ [Hb Hheld Howes Hg0 Ht0 HR Hg1 Ht1]
  isplitr; · iexact Hctx
  isplitl [Hb]; · iexact Hb
  isplitl [Hheld]; · iexact Hheld
  isplitl [Howes]; · iexact Howes
  isplitl [Hg0]; · iexact Hg0
  isplitl [Ht0]; · iexact Ht0
  iintro ⟨Hb, Hheld, Howes⟩
  -- the slice and the reshape
  iapply (wp_hlo_within 𝒱 (SparseCore.T d) none Set.univ (op := op_v6) (S := ucRefs τ sig) (sub_ucRefs _ (StableHlo.unary_bufs_sub ..))) $$ [Hb Hheld]
  · isplitl [Hb]; · iexact Hb
    iexact Hheld
  iintro ⟨Hb, Hheld⟩
  rw [wp_ret]; imodintro
  iapply (wp_hlo_within 𝒱 (SparseCore.T d) none Set.univ (op := op_v7) (S := ucRefs τ sig) (sub_ucRefs _ (StableHlo.reshape_bufs_sub ..))) $$ [Hb Hheld]
  · isplitl [Hb]; · iexact Hb
    iexact Hheld
  iintro ⟨Hb, Hheld⟩
  rw [wp_ret]; imodintro
  -- region 1
  iapply (h1 κ d _ _) $$ [Hb Hheld Howes Hg1 Ht1 HR]
  isplitr; · iexact Hctx
  isplitl [Hb]; · iexact Hb
  isplitl [Hheld]; · iexact Hheld
  isplitl [Howes]; · iexact Howes
  isplitl [Hg1]; · iexact Hg1
  isplitl [Ht1]; · iexact Ht1
  iintro ⟨Hb, Hheld, Howes⟩
  -- the last reshape
  iapply (wp_hlo_within 𝒱 (SparseCore.T d) none Set.univ (op := op_v9) (S := ucRefs τ sig) (sub_ucRefs _ (StableHlo.reshape_bufs_sub ..))) $$ [Hb Hheld]
  · isplitl [Hb]; · iexact Hb
    iexact Hheld
  iintro ⟨Hb, Hheld⟩
  rw [wp_ret]; imodintro; imodintro
  isplitl [Howes HR]
  · iapply (Entails.of_eq hR.symm)
    isplitl [Howes]; · iexact Howes
    iexact HR
  iexact Hheld

end Cert.Proof.KI

end
-- ==== Proof.KI.MainC.lean ====
/-
  The program's run: the launch theorem applied to the tile obligation, the split of each SparseCore's operands among
  its tiles, the launch element, @main's proof and the reading of the final memory. Every weakly fair execution of
  the TensorCore's @main and the 34 SparseCore threads terminates, and the TensorCore's result and argument buffers
  end at the final valuation.
-/
import proofs.«216131_g62878321214323_cont_9to1c4b_752_23_alg».proof.Proof.KI.MainB

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.StableHlo (held held_split held_sdiff_result wp_hlo_within held_sub_split held_congr)
open Idealize.ShloMosaic.Pipeline (ucRefs unscopedBufs_held sub_ucRefs)

variable [FloatOps F]
variable (m : (ℓ : Loc nD τ sig) → Buf (Elt F) ℓ) (ρ : Dev nD → PrngReg)
variable (out : (d : Dev nD) → Buf (Elt F) (oLoc d))
variable (upd0 upd1 : Dev nD → Valuation τ sig (Elt F) → Valuation τ sig (Elt F))

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev r9' : DevRef τ sig := Proc.devRef .tc (main_v9 : Ref sig .tc)

omit [FloatOps F] in
/-- A buffer of the held set reads, in any state the assertion holds of, as the valuation says. -/
theorem read_held (Vf : Valuation τ sig (Elt F)) (d : Dev nD) (s' : Phys nD τ sig (Elt F)) (b : DevRef τ sig) (hb : b ∈ ucRefs τ sig) :
    iprop(held (T d) (ucRefs τ sig) Vf ∗ SI s') ⊢ (⌜s'.mem.mem ((d, b) : Loc nD τ sig) = Vf b⌝ : sProp 𝕄) := by
  unfold held
  iintro ⟨H, HSI⟩
  ihave Hb := (SparseCore.ent (bigSep_elim (Φ := fun b : DevRef τ sig => ((((SparseCore.T d).1, b) : Loc nD τ sig) ↦{fullShare} Vf b : sProp 𝕄)) hb)) $$ H
  ihave H' := (SI_pointsTo_agree (st := s') (ℓ := ((d, b) : Loc nD τ sig)) (I := Finset.univ) (q := fullShare) (f := Vf b)) $$ [HSI Hb]
  · isplitl [HSI] <;> iassumption
  icases H' with %h
  ipureintro; exact funext fun i => h i (Finset.mem_univ i)

/-- What the claim reads of device `d`'s final state: the result and the three arguments at the final valuation. -/
def fq (Vf : Dev nD → Valuation τ sig (Elt F)) (d : Dev nD) (s' : Phys nD τ sig (Elt F)) : Prop :=
  s'.mem.mem ((d, r9') : Loc nD τ sig) = Vf d r9' ∧ s'.mem.mem ((d, a0') : Loc nD τ sig) = Vf d a0'
    ∧ s'.mem.mem ((d, a1') : Loc nD τ sig) = Vf d a1' ∧ s'.mem.mem ((d, a2') : Loc nD τ sig) = Vf d a2'

omit [FloatOps F] in
theorem hfin (Vf : Dev nD → Valuation τ sig (Elt F)) (d : Dev nD) (s' : Phys nD τ sig (Elt F)) :
    iprop(held (T d) (ucRefs τ sig) (Vf d) ∗ SI s') ⊢ (⌜fq Vf d s'⌝ : sProp 𝕄) := by
  iintro H
  ihave H9 := (persistent_entails_right (read_held (Vf d) d s' r9' (by decide))) $$ H
  icases H9 with ⟨%h9, H⟩
  ihave H0 := (persistent_entails_right (read_held (Vf d) d s' a0' (by decide))) $$ H
  icases H0 with ⟨%h0, H⟩
  ihave H1 := (persistent_entails_right (read_held (Vf d) d s' a1' (by decide))) $$ H
  icases H1 with ⟨%h1, H⟩
  ihave H2 := (read_held (Vf d) d s' a2' (by decide)) $$ H
  icases H2 with %h2
  ipureintro; exact ⟨h9, h0, h1, h2⟩

/-- The physical post. -/
def QC (Vf : Dev nD → Valuation τ sig (Elt F)) : PUnit × MemSt nD τ sig (Elt F) → Prop := fun r => ∀ c : Dev nD,
  r.2.mem ((c, r9') : Loc nD τ sig) = Vf c r9' ∧ r.2.mem ((c, a0') : Loc nD τ sig) = Vf c a0'
    ∧ r.2.mem ((c, a1') : Loc nD τ sig) = Vf c a1' ∧ r.2.mem ((c, a2') : Loc nD τ sig) = Vf c a2'

theorem run_main [∀ e, Nonempty (Elt F e)]
    (htile : (K (F := F)).TileObl (D (F := F)) 𝒱 (P (wcOf m) out) v₀ 0)
    (h0 : RegionStep (F := F) m out 0 upd0) (h1 : RegionStep (F := F) m out 1 upd1) :
    θ_run (Cert.KernelIdeal.defs (F := F)) (Cert.KernelIdeal.threads (F := F)) ⟨m, fun _ => 0, ρ⟩ (QC (ValEnd m out upd0 upd1)) :=
  SparseCore.Cfg.θ_run_sc (K := K (F := F)) (D := D (F := F)) (𝒱 := 𝒱) (EH := EH) (P := P (wcOf m) out) facts v₀
    (fun q hq => match q with | 0 => nomatch hq)
    (fun q _ => match q with | 0 => htile)
    (fun q _ => match q with | 0 => SparseCore.Cfg.VecSplit.of_plain (vecSplit (wcOf m) out))
    m ρ main (G (F := F)) (FIN m out upd0 upd1) (u₀ (F := F)) (sep_elim_left.trans (hu₀ (wcOf m) out))
    (hmain m ρ out upd0 upd1 h0 h1) (fq (ValEnd m out upd0 upd1)) (hfin (ValEnd m out upd0 upd1))
    (QC (ValEnd m out upd0 upd1)) (fun _ h => h)

end Cert.Proof.KI

end
-- ==== Proof.KI.Final.lean ====
/-
  The run read at the claim's buffers: the three arguments end at their launch contents (no step of @main writes
  them), the result at the final valuation.
-/
import proofs.«216131_g62878321214323_cont_9to1c4b_752_23_alg».proof.Proof.KI.MainC

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.StableHlo (held held_split held_sdiff_result wp_hlo_within held_sub_split held_congr)
open Idealize.ShloMosaic.Pipeline (ucRefs unscopedBufs_held sub_ucRefs)

variable [FloatOps F]
variable (m : (ℓ : Loc nD τ sig) → Buf (Elt F) ℓ) (ρ : Dev nD → PrngReg)
variable (out : (d : Dev nD) → Buf (Elt F) (oLoc d))
variable (upd0 upd1 : Dev nD → Valuation τ sig (Elt F) → Valuation τ sig (Elt F))

abbrev v50' : DevRef τ sig := Proc.devRef .tc (main_v5_0 : Ref sig .tc)
abbrev v51' : DevRef τ sig := Proc.devRef .tc (main_v5_1 : Ref sig .tc)
abbrev v8' : DevRef τ sig := Proc.devRef .tc (main_v8 : Ref sig .tc)

/-- The regions write only their result arrays. -/
def WritesOnly (upd0 upd1 : Dev nD → Valuation τ sig (Elt F) → Valuation τ sig (Elt F)) : Prop :=
  (∀ d W (b : DevRef τ sig), b ≠ v50' → b ≠ v51' → upd0 d W b = W b) ∧ (∀ d W (b : DevRef τ sig), b ≠ v8' → upd1 d W b = W b)

/-- The three arguments are none of the buffers a step of @main writes. -/
theorem unwritten_facts : ∀ b ∈ ({a0', a1', a2'} : Finset (DevRef τ sig)),
    b ∉ ({r9'} : Finset (DevRef τ sig)) ∧ b ∉ ({Proc.devRef .tc (main_v7 : Ref sig .tc)} : Finset (DevRef τ sig))
      ∧ b ∉ ({Proc.devRef .tc (main_v6 : Ref sig .tc)} : Finset (DevRef τ sig)) ∧ b ∉ ({w'} : Finset (DevRef τ sig))
      ∧ b ∉ ({Proc.devRef .tc (main_v2 : Ref sig .tc)} : Finset (DevRef τ sig)) ∧ b ∉ ({Proc.devRef .tc (main_v1 : Ref sig .tc)} : Finset (DevRef τ sig))
      ∧ b ∉ ({Proc.devRef .tc (main_v0 : Ref sig .tc)} : Finset (DevRef τ sig)) ∧ b ≠ v8' ∧ b ≠ v50' ∧ b ≠ v51' ∧ b ≠ o' := by decide

/-- A buffer no step of @main writes ends at its launch contents. -/
theorem ValEnd_unwritten (hw : WritesOnly upd0 upd1) (d : Dev nD) (b : DevRef τ sig)
    (hb : b ∈ ({a0', a1', a2'} : Finset (DevRef τ sig))) : ValEnd m out upd0 upd1 d b = m (d, b) := by
  obtain ⟨g9, g7, g6, g3, g2, g1, g0, hv8, hv50, hv51, ho⟩ := unwritten_facts b hb
  have h9 : b ∉ (op_v9 (F := F)).writes := g9
  have h7 : b ∉ (op_v7 (F := F)).writes := g7
  have h6 : b ∉ (op_v6 (F := F)).writes := g6
  have h3 : b ∉ (op_v3 (F := F)).writes := g3
  have h2 : b ∉ (op_v2 (F := F)).writes := g2
  have h1 : b ∉ (op_v1 (F := F)).writes := g1
  have h0 : b ∉ (op_v0 (F := F)).writes := g0
  unfold ValEnd
  rw [(op_v9 (F := F)).result_of_not_mem _ h9, hw.2 d _ b hv8, (op_v7 (F := F)).result_of_not_mem _ h7,
    (op_v6 (F := F)).result_of_not_mem _ h6, hw.1 d _ b hv50 hv51]
  unfold Val5
  rw [Function.update_of_ne ho]
  unfold Val4
  rw [(op_v3 (F := F)).result_of_not_mem _ h3, (op_v2 (F := F)).result_of_not_mem _ h2,
    (op_v1 (F := F)).result_of_not_mem _ h1, (op_v0 (F := F)).result_of_not_mem _ h0]

/-- The run, read at the claim's buffers: the result at the final valuation, the arguments unchanged. -/
theorem run_claim [∀ e, Nonempty (Elt F e)] (hw : WritesOnly upd0 upd1)
    (htile : (K (F := F)).TileObl (D (F := F)) 𝒱 (P (wcOf m) out) v₀ 0)
    (h0 : RegionStep (F := F) m out 0 upd0) (h1 : RegionStep (F := F) m out 1 upd1) :
    θ_run (Cert.KernelIdeal.defs (F := F)) (Cert.KernelIdeal.threads (F := F)) ⟨m, fun _ => 0, ρ⟩ (fun r => ∀ c : Dev nD,
      r.2.mem ((c.tc : Thread nD τ).loc main_v9) = ValEnd m out upd0 upd1 c r9'
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (Cert.KernelIdeal.defs (F := F)) _ _).mono (fun _ h c =>
    ⟨(h c).1,
      (h c).2.1.trans (ValEnd_unwritten m out upd0 upd1 hw c a0' (by decide)),
      (h c).2.2.1.trans (ValEnd_unwritten m out upd0 upd1 hw c a1' (by decide)),
      (h c).2.2.2.trans (ValEnd_unwritten m out upd0 upd1 hw c a2' (by decide))⟩)
    (run_main m ρ out upd0 upd1 htile h0 h1)

end Cert.Proof.KI

end
-- ==== Proof.KI.RegionSpec.lean ====
import proofs.«216131_g62878321214323_cont_9to1c4b_752_23_alg».proof.Proof.KI.Common
import proofs.«216131_g62878321214323_cont_9to1c4b_752_23_alg».proof.Proof.Gen.KernelIdeal.Skeleton
import proofs.«216131_g62878321214323_cont_9to1c4b_752_23_alg».proof.Proof.Gen.KernelIdeal.Points
import Idealize.ShloMosaic.Lib.Pipeline.Frame
import Idealize.ShloMosaic.Lib.Pipeline.Value

/-
  What the two TensorCore kernels compute, as functions of their operand arrays, generic in the float instance:
  the finishing kernel's one value, and the grid kernel's two accumulators point by point (28 points `k = 4 e + oc`,
  walked in order) with what its last point stores. Also what both regions share: no prefetched table, the index the
  staging cells' waits record at, and what the TensorCore owes around a region.
-/

noncomputable section

namespace Cert.Proof.KI

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## What both regions share -/

/-- Neither pipeline prefetches a table: the one admissible contents. -/
abbrev adm : (p : Fin 2) → (pcfgs (F := F) p).Adm := fun p => (cfgs p).toPCfg_adm

/-- A valuation of the device's buffers, read at a TensorCore reference of device `d`. -/
abbrev VT (d : Dev nD) (V : Valuation τ sig (Elt F)) (b : Ref sig .tc) : Buf (Elt F) ((SparseCore.T (τ := τ) d).loc b) := V (Proc.devRef .tc b)

/-- The TensorCore owes nothing (the one SparseCore call is behind it) and every wait it has recorded sits at level at
    most 8: the waits of the call, and the staging cells' own (level 0). -/
def tcOwesR (d : Dev nD) : sProp 𝕄 :=
  iprop(∃ W, ⌜(K (F := F)).WBelow (SparseCore.T (τ := τ) d) W (8 * 1)⌝ ∗ owes (SparseCore.T (τ := τ) d) (0 : CellTallies nD τ sig (HIx 1)) W)

/-- The recorded pairs a region's proof data bounds: those at level at most 8. -/
def recB (d : Dev nD) : Set (SemLoc sig × HIx 1) := {p | (K (F := F)).lev (SparseCore.T (τ := τ) d, p.1) p.2 ≤ 8 * 1}

/-! ## The finishing kernel's value -/

/-- What the finishing kernel leaves in its [1,1] result: `part (0,0)` plus the sum over all rows `h` and lanes `l` of
    `lane (h, l) * shf (h, 0)`, as the body computes it (one product array, one reduction over both axes, one addition). -/
def finV (part : Vec F S1x1 .f32) (shf : Vec F S2048x1 .f32) (lane : Vec F S2048x16 .f32) : Vec F S1x1 .f32 :=
  k2_pay1 lane shf part

/-- The zero offsets of a rank-2 whole-array rectangle, however spelt. -/
theorem hz2 : (![0, 0] : Fin 2 → ℕ) = fun _ => 0 := by funext a; fin_cases a <;> rfl
theorem hz3 : (![0, 0, 0] : Fin 3 → ℕ) = fun _ => 0 := by funext a; fin_cases a <;> rfl

/-! ## A store through a rectangle, read back over what was there -/

/-- The buffer after the writes `⟨r, w⟩ :: L`, read through the view: `w` on the rectangle `r`, what the earlier writes
    left elsewhere. -/
theorem read_writes_cons_overlay {sg : RefSig} {κ : Kind} {sp : Space} {s : Shape} {e : EltTy} (v : View sg κ sp s e)
    (f : v.ty.Contents (Elt F)) (r : Rect s) (w : r.shape.Idx → Elt F e) (L : List (View.Piece (Elt F) s e)) :
    v.read (Elt F) (v.writes (Elt F) f (⟨r, w⟩ :: L)) = r.overlay (v.read (Elt F) (v.writes (Elt F) f L)) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons, View.read_slice_write_of_not_mem r _ _ _ (by rw [Rect.map_emb_univ]; exact hy)]

/-! ## The grid kernel's values

The grid is walked in order, point `k = 4 e + oc` (`e < 7`, `oc < 4`). Two scratch arrays are carried: the token sums
`sh [8, 2048]` (zeroed at `k = 0`; at each `k < 16` the product of the 256-column slab `k` of `sp` with the 256-row slab `k` of
`hid` is added) and the column sums `ws [7, 2048]` (zeroed at `k = 0`; at every point row `e` gains the sums over the 1024
columns of the weight block staged there). The last point stores `sh` and the sum of `sh[e + 1, h] * ws[e, h]`. -/

/-- The first conditional's guard, as the body computes it from the point: `k = 0`. -/
abbrev cond1 (i : grid1.Coords) : Prop :=
  Scalar.cmpi .ne (Scalar.extui (Scalar.cmpi .eq (Scalar.addi (Scalar.muli (BitVec.ofNat 32 (i 0).val) 4#32) (BitVec.ofNat 32 (i 1).val)) 0#32)) 0#32 = 1#1

/-- The three guards over the 28 points: `k = 0`, `k < 16`, `k = 27`. -/
theorem cond1_iff : ∀ t : Fin grid1.N, cond1 (grid1.coords t) ↔ t.val = 0 := by decide +kernel
theorem cond2_iff : ∀ t : Fin grid1.N, k1_cond2 (grid1.coords t) = 1#1 ↔ t.val < 16 := by decide +kernel
theorem cond3_iff : ∀ t : Fin grid1.N, k1_cond3 (grid1.coords t) = 1#1 ↔ t.val = 27 := by decide +kernel

/-- The token sums after a point below 16: the slabs' product added to what was there. -/
def shNext (i : grid1.Coords) (h : k1_cond2 i = 1#1) (sp : Vec F S8x4096 .f32) (hid : Vec F S4096x2048 .f32) (prev : Vec F S8x2048 .f32) :
    Vec F S8x2048 .f32 :=
  k1_pay3 (View.ld sp (Rect.unit (s := S8x4096) (k1_off1 i) S8x256.size (k1_off1_inb i h)))
    (View.ld hid (Rect.unit (s := S4096x2048) (k1_off2 i) S256x2048.size (k1_off2_inb i h))) prev

/-- The column sums after a point: row `e` of what was there plus the staged weight block's sums over its columns, the
    other rows as they were. -/
def wsNext (i : grid1.Coords) (base : Vec F S7x2048 .f32) (blk : Vec F S1x2048x1024 .f32) : Vec F S7x2048 .f32 :=
  (Rect.unit (s := S7x2048) (k1_off3 i) S1x2048.size (k1_off3_inb i)).overlay base
    (k1_pay4 (View.ld base (Rect.unit (s := S7x2048) (k1_off3 i) S1x2048.size (k1_off3_inb i))) blk)

/-- What the last point stores in the [1,1] result: the sum over `e < 7`, `h` of `sh[e + 1, h] * ws[e, h]`. -/
def partOf (sh : Vec F S8x2048 .f32) (ws : Vec F S7x2048 .f32) : Vec F S1x1 .f32 :=
  k1_pay5 (View.ld sh (Rect.unit (s := S8x2048) ![1, 0] S7x2048.size inb_S8x2048_S7x2048_1_0)) ws

/-- The token sums before point `n` (after point `n - 1`), from the zero array. -/
def shAt (sp : Vec F S8x4096 .f32) (hid : Vec F S4096x2048 .f32) : ℕ → Vec F S8x2048 .f32
  | 0 => k1_pay1
  | n + 1 =>
    if hn : n < grid1.N then
      if h : k1_cond2 (grid1.coords ⟨n, hn⟩) = 1#1 then shNext (grid1.coords ⟨n, hn⟩) h sp hid (shAt sp hid n) else shAt sp hid n
    else shAt sp hid n

/-- The column sums before point `n`, from the zero array, over the weight blocks `wb t` staged at each point. -/
def wsAt (wb : Fin grid1.N → Vec F S1x2048x1024 .f32) : ℕ → Vec F S7x2048 .f32
  | 0 => k1_pay2
  | n + 1 => if hn : n < grid1.N then wsNext (grid1.coords ⟨n, hn⟩) (wsAt wb n) (wb ⟨n, hn⟩) else wsAt wb n

theorem shAt_succ_pos (sp : Vec F S8x4096 .f32) (hid : Vec F S4096x2048 .f32) (t : Fin grid1.N) (h : k1_cond2 (grid1.coords t) = 1#1) :
    shAt sp hid (t.val + 1) = shNext (grid1.coords t) h sp hid (shAt sp hid t.val) := by
  rw [shAt, dif_pos t.isLt, dif_pos h]

theorem shAt_succ_neg (sp : Vec F S8x4096 .f32) (hid : Vec F S4096x2048 .f32) (t : Fin grid1.N) (h : ¬ k1_cond2 (grid1.coords t) = 1#1) :
    shAt sp hid (t.val + 1) = shAt sp hid t.val := by
  rw [shAt, dif_pos t.isLt, dif_neg h]

theorem wsAt_succ (wb : Fin grid1.N → Vec F S1x2048x1024 .f32) (t : Fin grid1.N) :
    wsAt wb (t.val + 1) = wsNext (grid1.coords t) (wsAt wb t.val) (wb t) := by
  rw [wsAt, dif_pos t.isLt]

end Cert.Proof.KI

end
-- ==== Proof.KI.Body0.lean ====
import proofs.«216131_g62878321214323_cont_9to1c4b_752_23_alg».proof.Proof.KI.RegionSpec
import Idealize.ShloMosaic.Lib.Tactic

/-
  The grid kernel's body, run once per control case on any whole staging and scratch memrefs: the first point (both
  scratch arrays zeroed, then accumulated into), a point below 16 (both accumulated into), a later point (only the
  column sums), the last point (the column sums, then the two results stored).
-/

noncomputable section

namespace Cert.Proof.KI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-- One whole-array store of zeros, read back. -/
theorem read_zero8 {sg : RefSig} {κ : Kind} {sp : Space} (v : View sg κ sp S7x2048 .f32) (f : v.ty.Contents (Elt F)) :
    v.read (Elt F) (v.writes (Elt F) f [⟨Rect.unit (s := S7x2048) ![0, 0] S7x2048.size inb_S7x2048_S7x2048_0_0, k1_pay2 (F := F)⟩]) = k1_pay2 := by
  rw [View.read_writes_eq_canon _ _ _ (fun y => ⟨_, List.mem_singleton_self _, View.mem_set_unit_zero hz2 inb_S7x2048_S7x2048_0_0 y⟩), View.canon_unit_zero hz2]

-- a long symbolic run and its closing rewrites in one declaration: a larger elaboration budget
set_option maxHeartbeats 2000000 in
/-- The first point: both scratch arrays are zeroed, then `sh` gains the slabs' product and row `e` of `ws` the staged block's sums. -/
theorem run1A (d : Dev nD) (i : grid1.Coords)
    (M2 : Memref sig .tc .vmem S8x4096 .f32) (h2 : M2.IsWhole) (M3 : Memref sig .tc .vmem S4096x2048 .f32) (h3 : M3.IsWhole)
    (M4 : Memref sig .tc .vmem S1x2048x1024 .f32) (h4 : M4.IsWhole) (M5 : Memref sig .tc .vmem S1x1 .f32) (h5 : M5.IsWhole)
    (M6 : Memref sig .tc .vmem S8x2048 .f32) (h6 : M6.IsWhole) (M7 : Memref sig .tc .vmem S8x2048 .f32) (h7 : M7.IsWhole)
    (M8 : Memref sig .tc .vmem S7x2048 .f32) (h8 : M8.IsWhole)
    (hc1 : cond1 i) (hc2 : k1_cond2 i = 1#1) (hc3 : ¬ k1_cond3 i = 1#1)
    (x2 : Vec F S8x4096 .f32) (x3 : Vec F S4096x2048 .f32) (x4 : Vec F S1x2048x1024 .f32) (x5 : Vec F S1x1 .f32) (x6 : Vec F S8x2048 .f32)
    (x7 : Vec F S8x2048 .f32) (x8 : Vec F S7x2048 .f32) (Q : PUnit → sProp 𝕄) :
    iprop(owns (SparseCore.T (τ := τ) d) M2 fullShare x2 ∗ owns (SparseCore.T (τ := τ) d) M3 fullShare x3 ∗ owns (SparseCore.T (τ := τ) d) M4 fullShare x4
        ∗ owns (SparseCore.T (τ := τ) d) M5 fullShare x5 ∗ owns (SparseCore.T (τ := τ) d) M6 fullShare x6 ∗ owns (SparseCore.T (τ := τ) d) M7 fullShare x7 ∗ owns (SparseCore.T (τ := τ) d) M8 fullShare x8
        ∗ (iprop(owns (SparseCore.T (τ := τ) d) M2 fullShare x2 ∗ owns (SparseCore.T (τ := τ) d) M3 fullShare x3 ∗ owns (SparseCore.T (τ := τ) d) M4 fullShare x4
            ∗ owns (SparseCore.T (τ := τ) d) M5 fullShare (x5) ∗ owns (SparseCore.T (τ := τ) d) M6 fullShare (x6)
            ∗ owns (SparseCore.T (τ := τ) d) M7 fullShare (shNext i hc2 x2 x3 k1_pay1) ∗ owns (SparseCore.T (τ := τ) d) M8 fullShare (wsNext i k1_pay2 x4)) -∗ Q ⟨⟩))
      ⊢ wp frame (wpE (defs₀ (F := F)) 𝒱₀ (SparseCore.T (τ := τ) d) none) Set.univ (cc1__tc_body i M2 h2 M3 h3 M4 h4 M5 h5 M6 h6 M7 h7 M8 h8) Q := by
  simp only [cc1__tc_body_eq_skeleton]; unfold cc1__tc_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  sl_exec (disch := first | exact hc1 | exact hc2 | exact hc3)
  sl_step
  iapply Hk
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]
  · iexists _; isplitr; swap; · iexact H7
    ipureintro
    rw [View.read_writes_eq_canon _ _ _ (fun y => ⟨_, List.mem_cons_self, View.mem_set_unit_zero hz2 inb_S8x2048_S8x2048_0_0 y⟩), View.canon_cons_unit_zero hz2]
    unfold shNext
    sl_unfold_run_names
    simp only [View.readAt_eq_ld, h2.read_unread, h3.read_unread]
    rw [View.readCov_unit_zero _ hz2]
  iexists _; isplitr; swap; · iexact H8
  ipureintro
  rw [read_writes_cons_overlay]
  unfold wsNext
  sl_unfold_run_names
  simp only [View.readAt_eq_ld, h4.read_unread]
  rw [View.ld_unit_zero (S := S1x2048x1024) hz3, read_zero8]

-- the run's proof term is large: the executor's steps and the closing rewrites share one declaration's budget
set_option maxHeartbeats 2000000 in
/-- A later point below 16: `sh` gains the slabs' product, row `e` of `ws` the staged block's sums. -/
theorem run1B (d : Dev nD) (i : grid1.Coords)
    (M2 : Memref sig .tc .vmem S8x4096 .f32) (h2 : M2.IsWhole) (M3 : Memref sig .tc .vmem S4096x2048 .f32) (h3 : M3.IsWhole)
    (M4 : Memref sig .tc .vmem S1x2048x1024 .f32) (h4 : M4.IsWhole) (M5 : Memref sig .tc .vmem S1x1 .f32) (h5 : M5.IsWhole)
    (M6 : Memref sig .tc .vmem S8x2048 .f32) (h6 : M6.IsWhole) (M7 : Memref sig .tc .vmem S8x2048 .f32) (h7 : M7.IsWhole)
    (M8 : Memref sig .tc .vmem S7x2048 .f32) (h8 : M8.IsWhole)
    (hc1 : ¬ cond1 i) (hc2 : k1_cond2 i = 1#1) (hc3 : ¬ k1_cond3 i = 1#1)
    (x2 : Vec F S8x4096 .f32) (x3 : Vec F S4096x2048 .f32) (x4 : Vec F S1x2048x1024 .f32) (x5 : Vec F S1x1 .f32) (x6 : Vec F S8x2048 .f32)
    (x7 : Vec F S8x2048 .f32) (x8 : Vec F S7x2048 .f32) (Q : PUnit → sProp 𝕄) :
    iprop(owns (SparseCore.T (τ := τ) d) M2 fullShare x2 ∗ owns (SparseCore.T (τ := τ) d) M3 fullShare x3 ∗ owns (SparseCore.T (τ := τ) d) M4 fullShare x4
        ∗ owns (SparseCore.T (τ := τ) d) M5 fullShare x5 ∗ owns (SparseCore.T (τ := τ) d) M6 fullShare x6 ∗ owns (SparseCore.T (τ := τ) d) M7 fullShare x7 ∗ owns (SparseCore.T (τ := τ) d) M8 fullShare x8
        ∗ (iprop(owns (SparseCore.T (τ := τ) d) M2 fullShare x2 ∗ owns (SparseCore.T (τ := τ) d) M3 fullShare x3 ∗ owns (SparseCore.T (τ := τ) d) M4 fullShare x4
            ∗ owns (SparseCore.T (τ := τ) d) M5 fullShare (x5) ∗ owns (SparseCore.T (τ := τ) d) M6 fullShare (x6)
            ∗ owns (SparseCore.T (τ := τ) d) M7 fullShare (shNext i hc2 x2 x3 x7) ∗ owns (SparseCore.T (τ := τ) d) M8 fullShare (wsNext i x8 x4)) -∗ Q ⟨⟩))
      ⊢ wp frame (wpE (defs₀ (F := F)) 𝒱₀ (SparseCore.T (τ := τ) d) none) Set.univ (cc1__tc_body i M2 h2 M3 h3 M4 h4 M5 h5 M6 h6 M7 h7 M8 h8) Q := by
  simp only [cc1__tc_body_eq_skeleton]; unfold cc1__tc_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  sl_exec (disch := first | exact hc1 | exact hc2 | exact hc3)
  sl_step
  iapply Hk
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]
  · iexists _; isplitr; swap; · iexact H7
    ipureintro
    rw [View.read_writes_eq_canon _ _ _ (fun y => ⟨_, List.mem_cons_self, View.mem_set_unit_zero hz2 inb_S8x2048_S8x2048_0_0 y⟩), View.canon_cons_unit_zero hz2]
    unfold shNext
    sl_unfold_run_names
    simp only [View.readAt_eq_ld, h2.read_unread, h3.read_unread, h7.read_unread]
    rw [View.ld_unit_zero (S := S8x2048) hz2]
  iexists _; isplitr; swap; · iexact H8
  ipureintro
  sl_unfold_run_names
  rw [read_writes_cons_overlay]
  unfold wsNext
  simp only [View.writes_nil, View.readAt_eq_ld, h8.read_unread, h4.read_unread]
  rw [View.ld_unit_zero (S := S1x2048x1024) hz3]

-- the run's proof term is large: the executor's steps and the closing rewrites share one declaration's budget
set_option maxHeartbeats 2000000 in
/-- A point from 16 on, not the last: only `ws` changes. -/
theorem run1C (d : Dev nD) (i : grid1.Coords)
    (M2 : Memref sig .tc .vmem S8x4096 .f32) (h2 : M2.IsWhole) (M3 : Memref sig .tc .vmem S4096x2048 .f32) (h3 : M3.IsWhole)
    (M4 : Memref sig .tc .vmem S1x2048x1024 .f32) (h4 : M4.IsWhole) (M5 : Memref sig .tc .vmem S1x1 .f32) (h5 : M5.IsWhole)
    (M6 : Memref sig .tc .vmem S8x2048 .f32) (h6 : M6.IsWhole) (M7 : Memref sig .tc .vmem S8x2048 .f32) (h7 : M7.IsWhole)
    (M8 : Memref sig .tc .vmem S7x2048 .f32) (h8 : M8.IsWhole)
    (hc1 : ¬ cond1 i) (hc2 : ¬ k1_cond2 i = 1#1) (hc3 : ¬ k1_cond3 i = 1#1)
    (x2 : Vec F S8x4096 .f32) (x3 : Vec F S4096x2048 .f32) (x4 : Vec F S1x2048x1024 .f32) (x5 : Vec F S1x1 .f32) (x6 : Vec F S8x2048 .f32)
    (x7 : Vec F S8x2048 .f32) (x8 : Vec F S7x2048 .f32) (Q : PUnit → sProp 𝕄) :
    iprop(owns (SparseCore.T (τ := τ) d) M2 fullShare x2 ∗ owns (SparseCore.T (τ := τ) d) M3 fullShare x3 ∗ owns (SparseCore.T (τ := τ) d) M4 fullShare x4
        ∗ owns (SparseCore.T (τ := τ) d) M5 fullShare x5 ∗ owns (SparseCore.T (τ := τ) d) M6 fullShare x6 ∗ owns (SparseCore.T (τ := τ) d) M7 fullShare x7 ∗ owns (SparseCore.T (τ := τ) d) M8 fullShare x8
        ∗ (iprop(owns (SparseCore.T (τ := τ) d) M2 fullShare x2 ∗ owns (SparseCore.T (τ := τ) d) M3 fullShare x3 ∗ owns (SparseCore.T (τ := τ) d) M4 fullShare x4
            ∗ owns (SparseCore.T (τ := τ) d) M5 fullShare (x5) ∗ owns (SparseCore.T (τ := τ) d) M6 fullShare (x6)
            ∗ owns (SparseCore.T (τ := τ) d) M7 fullShare (x7) ∗ owns (SparseCore.T (τ := τ) d) M8 fullShare (wsNext i x8 x4)) -∗ Q ⟨⟩))
      ⊢ wp frame (wpE (defs₀ (F := F)) 𝒱₀ (SparseCore.T (τ := τ) d) none) Set.univ (cc1__tc_body i M2 h2 M3 h3 M4 h4 M5 h5 M6 h6 M7 h7 M8 h8) Q := by
  simp only [cc1__tc_body_eq_skeleton]; unfold cc1__tc_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  sl_exec (disch := first | exact hc1 | exact hc2 | exact hc3)
  sl_step
  iapply Hk
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  iexists _; isplitr; swap; · iexact H8
  ipureintro
  sl_unfold_run_names
  rw [read_writes_cons_overlay]
  unfold wsNext
  simp only [View.writes_nil, View.readAt_eq_ld, h8.read_unread, h4.read_unread]
  rw [View.ld_unit_zero (S := S1x2048x1024) hz3]

-- the run's proof term is large: the executor's steps and the closing rewrites share one declaration's budget
set_option maxHeartbeats 2000000 in
/-- The last point: `ws` changes, then `sh` is stored to the second result and the products' sum to the first. -/
theorem run1D (d : Dev nD) (i : grid1.Coords)
    (M2 : Memref sig .tc .vmem S8x4096 .f32) (h2 : M2.IsWhole) (M3 : Memref sig .tc .vmem S4096x2048 .f32) (h3 : M3.IsWhole)
    (M4 : Memref sig .tc .vmem S1x2048x1024 .f32) (h4 : M4.IsWhole) (M5 : Memref sig .tc .vmem S1x1 .f32) (h5 : M5.IsWhole)
    (M6 : Memref sig .tc .vmem S8x2048 .f32) (h6 : M6.IsWhole) (M7 : Memref sig .tc .vmem S8x2048 .f32) (h7 : M7.IsWhole)
    (M8 : Memref sig .tc .vmem S7x2048 .f32) (h8 : M8.IsWhole)
    (hc1 : ¬ cond1 i) (hc2 : ¬ k1_cond2 i = 1#1) (hc3 : k1_cond3 i = 1#1)
    (x2 : Vec F S8x4096 .f32) (x3 : Vec F S4096x2048 .f32) (x4 : Vec F S1x2048x1024 .f32) (x5 : Vec F S1x1 .f32) (x6 : Vec F S8x2048 .f32)
    (x7 : Vec F S8x2048 .f32) (x8 : Vec F S7x2048 .f32) (Q : PUnit → sProp 𝕄) :
    iprop(owns (SparseCore.T (τ := τ) d) M2 fullShare x2 ∗ owns (SparseCore.T (τ := τ) d) M3 fullShare x3 ∗ owns (SparseCore.T (τ := τ) d) M4 fullShare x4
        ∗ owns (SparseCore.T (τ := τ) d) M5 fullShare x5 ∗ owns (SparseCore.T (τ := τ) d) M6 fullShare x6 ∗ owns (SparseCore.T (τ := τ) d) M7 fullShare x7 ∗ owns (SparseCore.T (τ := τ) d) M8 fullShare x8
        ∗ (iprop(owns (SparseCore.T (τ := τ) d) M2 fullShare x2 ∗ owns (SparseCore.T (τ := τ) d) M3 fullShare x3 ∗ owns (SparseCore.T (τ := τ) d) M4 fullShare x4
            ∗ owns (SparseCore.T (τ := τ) d) M5 fullShare (partOf x7 (wsNext i x8 x4)) ∗ owns (SparseCore.T (τ := τ) d) M6 fullShare (x7)
            ∗ owns (SparseCore.T (τ := τ) d) M7 fullShare (x7) ∗ owns (SparseCore.T (τ := τ) d) M8 fullShare (wsNext i x8 x4)) -∗ Q ⟨⟩))
      ⊢ wp frame (wpE (defs₀ (F := F)) 𝒱₀ (SparseCore.T (τ := τ) d) none) Set.univ (cc1__tc_body i M2 h2 M3 h3 M4 h4 M5 h5 M6 h6 M7 h7 M8 h8) Q := by
  simp only [cc1__tc_body_eq_skeleton]; unfold cc1__tc_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  sl_exec (disch := first | exact hc1 | exact hc2 | exact hc3)
  sl_step
  iapply Hk
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]
  · iexists _; isplitr; swap; · iexact H5
    ipureintro
    rw [View.read_writes_eq_canon _ _ _ (fun y => ⟨_, List.mem_singleton_self _, View.mem_set_unit_zero hz2 inb_S1x1_S1x1_0_0 y⟩), View.canon_unit_zero hz2]
    unfold partOf wsNext
    sl_unfold_run_names
    simp only [View.readAt_eq_ld, h7.read_unread, read_writes_cons_overlay, View.writes_nil, h8.read_unread, h4.read_unread]
    rw [View.ld_unit_zero (S := S7x2048) hz2, View.ld_unit_zero (S := S1x2048x1024) hz3]
  isplitl [H6]
  · iexists _; isplitr; swap; · iexact H6
    ipureintro
    rw [View.read_writes_eq_canon _ _ _ (fun y => ⟨_, List.mem_singleton_self _, View.mem_set_unit_zero hz2 inb_S8x2048_S8x2048_0_0 y⟩), View.canon_unit_zero hz2]
    simp only [View.readAt_eq_ld, h7.read_unread]
    rw [View.ld_unit_zero (S := S8x2048) hz2]
  isplitl [H7]; · iexists _; isplitr; · ipureintro; exact h7.read_unread _
                  iexact H7
  iexists _; isplitr; swap; · iexact H8
  ipureintro
  sl_unfold_run_names
  rw [read_writes_cons_overlay]
  unfold wsNext
  simp only [View.writes_nil, View.readAt_eq_ld, h8.read_unread, h4.read_unread]
  rw [View.ld_unit_zero (S := S1x2048x1024) hz3]

end Cert.Proof.KI

end
-- ==== Proof.KI.Region0.lean ====
import proofs.«216131_g62878321214323_cont_9to1c4b_752_23_alg».proof.Proof.KI.Body0

/-
  The grid kernel's region (pipeline 0: 28 points; the route weights [8,4096] and the activations [4096,2048] staged
  whole once, a [1,2048,1024] weight block at every point, the two results written back at the last point only): the
  proof data with the two scratch arrays carried in the invariant at the values of RegionSpec, the body obligation by the
  four runs of Body0, and the region as a step between two valuations of the TensorCore's unscoped buffers.
-/

noncomputable section

namespace Cert.Proof.KI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## The proof data -/

/-- The first point. -/
def t1_0 : Fin cfg1.N := ⟨0, by rw [show cfg1.N = 28 from N_1]; decide⟩

/-- What a fetch stages: the array's block at the point, read off the valuation. -/
def iblk0 (d : Dev nD) (V : Valuation τ sig (Elt F)) (w : Fin cfg1.W) (t : Fin cfg1.N) : ((cfg1.win w).xblock (cfg1.grid.coords t)).Idx → Elt F (cfg1.win w).elt :=
  ((cfg1.win w).blk t).view.read (Elt F) (VT d V (Pipeline.arrRef spec1 w))

/-- The route weights and the activations as staged (whole, once), and the weight block staged at each point. -/
def spS (d : Dev nD) (V : Valuation τ sig (Elt F)) : Vec F S8x4096 .f32 := iblk0 d V 0 t1_0
def hidS (d : Dev nD) (V : Valuation τ sig (Elt F)) : Vec F S4096x2048 .f32 := iblk0 d V 1 t1_0
def wbS (d : Dev nD) (V : Valuation τ sig (Elt F)) (t : Fin grid1.N) : Vec F S1x2048x1024 .f32 := iblk0 d V 2 t

/-- The two scratch arrays before point `n`. -/
def shS (d : Dev nD) (V : Valuation τ sig (Elt F)) (n : ℕ) : Vec F S8x2048 .f32 := shAt (spS d V) (hidS d V) n
def wsS (d : Dev nD) (V : Valuation τ sig (Elt F)) (n : ℕ) : Vec F S7x2048 .f32 := wsAt (wbS d V) n

/-- The finishing kernel's staging buffers: scoped buffers this pipeline neither stages nor touches. -/
def rest4 (d : Dev nD) : sProp 𝕄 :=
  iprop((∃ f : Buf (Elt F) ((d : Thread nD τ).loc cc2_stg0_0), ((d : Thread nD τ).loc cc2_stg0_0) ↦{fullShare} f)
    ∗ (∃ f : Buf (Elt F) ((d : Thread nD τ).loc cc2_stg1_0), ((d : Thread nD τ).loc cc2_stg1_0) ↦{fullShare} f)
    ∗ (∃ f : Buf (Elt F) ((d : Thread nD τ).loc cc2_stg2_0), ((d : Thread nD τ).loc cc2_stg2_0) ↦{fullShare} f)
    ∗ (∃ f : Buf (Elt F) ((d : Thread nD τ).loc cc2_stg3_0), ((d : Thread nD τ).loc cc2_stg3_0) ↦{fullShare} f))

/-- The invariant before point `t`: the two scratch arrays — at anything before the first point, at their values after —
    and the scoped buffers the body does not touch. -/
def Φ0 (d : Dev nD) (V : Valuation τ sig (Elt F)) (t : Fin (cfg1.N + 1)) : sProp 𝕄 :=
  iprop((∃ f7, ⌜t.val ≠ 0 → f7 = shS d V t.val⌝ ∗ owns (d : Thread nD τ) (Memref.whole cc1_scratch0) fullShare f7)
    ∗ (∃ f8, ⌜t.val ≠ 0 → f8 = wsS d V t.val⌝ ∗ owns (d : Thread nD τ) (Memref.whole cc1_scratch1) fullShare f8)
    ∗ rest4 (F := F) d)

/-- The proof data on device `d`: the five arrays at the valuation; after the body each operand's buffer as fetched, the
    results' at what the last point stores; the invariant the scratch arrays at their values; nothing owed. -/
def dat0 (d : Dev nD) (V : Valuation τ sig (Elt F)) : Dat τ (Elt F) (HIx 1) ℕ UU ℕ cfg1 d where
  A w := VT d V (Pipeline.arrRef spec1 w)
  after w t := match w with
    | ⟨0, _⟩ => iblk0 d V 0 t
    | ⟨1, _⟩ => iblk0 d V 1 t
    | ⟨2, _⟩ => iblk0 d V 2 t
    | ⟨3, _⟩ => partOf (shS d V 27) (wsS d V 28)
    | ⟨4, _⟩ => shS d V 27
  Φ t := Φ0 d V t
  q _ := fullShare
  owed _ := 0
  recorded _ := recB (F := F) d

theorem after0_0 (d : Dev nD) (V : Valuation τ sig (Elt F)) (t : Fin cfg1.N) : (dat0 d V).after 0 t = iblk0 d V 0 t := by dsimp only [dat0]
theorem after0_1 (d : Dev nD) (V : Valuation τ sig (Elt F)) (t : Fin cfg1.N) : (dat0 d V).after 1 t = iblk0 d V 1 t := by dsimp only [dat0]
theorem after0_2 (d : Dev nD) (V : Valuation τ sig (Elt F)) (t : Fin cfg1.N) : (dat0 d V).after 2 t = iblk0 d V 2 t := by dsimp only [dat0]
theorem after0_3 (d : Dev nD) (V : Valuation τ sig (Elt F)) (t : Fin cfg1.N) : (dat0 d V).after 3 t = partOf (shS d V 27) (wsS d V 28) := by dsimp only [dat0]
theorem after0_4 (d : Dev nD) (V : Valuation τ sig (Elt F)) (t : Fin cfg1.N) : (dat0 d V).after 4 t = shS d V 27 := by dsimp only [dat0]

/-- An operand's buffer holds the array's block at every point, fetched there or not. -/
theorem before0_0' (d : Dev nD) (V : Valuation τ sig (Elt F)) (t : Fin cfg1.N) (x) : (dat0 d V).before 0 t x = iblk0 d V 0 t :=
  ((dat0 d V).before_in_eq_fetched 0 rfl (fun _ => rfl) (fun _ _ _ => rfl) (fun t => by rw [after0_0]; unfold Dat.blockOf iblk0; rfl) t x).trans
    (by unfold Dat.fetched Dat.blockOf iblk0; rfl)
theorem before0_1' (d : Dev nD) (V : Valuation τ sig (Elt F)) (t : Fin cfg1.N) (x) : (dat0 d V).before 1 t x = iblk0 d V 1 t :=
  ((dat0 d V).before_in_eq_fetched 1 rfl (fun _ => rfl) (fun _ _ _ => rfl) (fun t => by rw [after0_1]; unfold Dat.blockOf iblk0; rfl) t x).trans
    (by unfold Dat.fetched Dat.blockOf iblk0; rfl)
theorem before0_2 (d : Dev nD) (V : Valuation τ sig (Elt F)) (t : Fin cfg1.N) (x) : (dat0 d V).before 2 t x = wbS d V t :=
  ((dat0 d V).before_in_eq_fetched 2 rfl (fun _ => rfl) (fun _ _ _ => rfl) (fun t => by rw [after0_2]; unfold Dat.blockOf iblk0; rfl) t x).trans
    (by unfold Dat.fetched Dat.blockOf wbS iblk0; rfl)

/-- The whole-array windows' block index does not move: the staged contents are the first point's at every point. -/
theorem index0_0 : ∀ t : Fin cfg1.N, (cfg1.win 0).index t = (cfg1.win 0).index t1_0 := by decide +kernel
theorem index0_1 : ∀ t : Fin cfg1.N, (cfg1.win 1).index t = (cfg1.win 1).index t1_0 := by decide +kernel

theorem before0_0 (d : Dev nD) (V : Valuation τ sig (Elt F)) (t : Fin cfg1.N) (x) : (dat0 d V).before 0 t x = spS d V := by
  rw [before0_0']
  have h := (dat0 d V).fetched_congr 0 (index0_0 t) rfl x
  unfold Dat.fetched Dat.blockOf at h
  exact h
theorem before0_1 (d : Dev nD) (V : Valuation τ sig (Elt F)) (t : Fin cfg1.N) (x) : (dat0 d V).before 1 t x = hidS d V := by
  rw [before0_1']
  have h := (dat0 d V).fetched_congr 1 (index0_1 t) rfl x
  unfold Dat.fetched Dat.blockOf at h
  exact h

/-! ## The body obligation -/

/-- The result windows are idle before the last point and written back at it. -/
theorem idle0_3 (t : Fin cfg1.N) (h : t.val ≠ 27) : cfg1.idle 3 (cfg1.grid.coords t) = true := by
  show (!(k1_cond3 (grid1.coords t) == 1#1)) = true
  rw [Bool.not_eq_true', beq_eq_false_iff_ne]; exact fun e => h ((cond3_iff t).mp e)
theorem idle0_4 (t : Fin cfg1.N) (h : t.val ≠ 27) : cfg1.idle 4 (cfg1.grid.coords t) = true := idle0_3 t h
theorem live0_3 (t : Fin cfg1.N) (h : t.val = 27) : cfg1.idle 3 (cfg1.grid.coords t) = false := by
  show (!(k1_cond3 (grid1.coords t) == 1#1)) = false
  rw [Bool.not_eq_false', beq_iff_eq]; exact (cond3_iff t).mpr h
theorem live0_4 (t : Fin cfg1.N) (h : t.val = 27) : cfg1.idle 4 (cfg1.grid.coords t) = false := live0_3 t h
theorem noflush0_3 (t : Fin cfg1.N) (h : t.val ≠ 27) : (cfg1.win 3).flush t = false :=
  Bool.eq_false_iff.mpr fun e => h (by have h1 := (flush1_3 t).mp e; have h2 : t.val < 28 := lt_of_lt_of_eq t.isLt (show cfg1.N = 28 from N_1); omega)
theorem noflush0_4 (t : Fin cfg1.N) (h : t.val ≠ 27) : (cfg1.win 4).flush t = false :=
  Bool.eq_false_iff.mpr fun e => h (by have h1 := (flush1_4 t).mp e; have h2 : t.val < 28 := lt_of_lt_of_eq t.isLt (show cfg1.N = 28 from N_1); omega)

def bodyPre0 (d : Dev nD) (V : Valuation τ sig (Elt F)) (t : Fin cfg1.N) : sProp 𝕄 :=
  iprop((dat0 d V).Φ t.castSucc ∗ (dat0 d V).owesAt none t.castSucc
    ∗ (∃ x, owns (d : Thread nD τ) (st1_0 t) fullShare ((dat0 d V).before 0 t x))
    ∗ (∃ x, owns (d : Thread nD τ) (st1_1 t) fullShare ((dat0 d V).before 1 t x))
    ∗ (∃ x, owns (d : Thread nD τ) (st1_2 t) fullShare ((dat0 d V).before 2 t x))
    ∗ (∃ x, owns (d : Thread nD τ) (st1_3 t) fullShare ((dat0 d V).before 3 t x))
    ∗ (∃ x, owns (d : Thread nD τ) (st1_4 t) fullShare ((dat0 d V).before 4 t x)))

def bodyPost0 (d : Dev nD) (V : Valuation τ sig (Elt F)) (t : Fin cfg1.N) : sProp 𝕄 :=
  iprop((dat0 d V).Φ t.succ ∗ (dat0 d V).owesAt none t.succ
    ∗ owns (d : Thread nD τ) (st1_0 t) fullShare ((dat0 d V).after 0 t)
    ∗ owns (d : Thread nD τ) (st1_1 t) fullShare ((dat0 d V).after 1 t)
    ∗ owns (d : Thread nD τ) (st1_2 t) fullShare ((dat0 d V).after 2 t)
    ∗ (dat0 d V).leavesExact 3 t ∗ (dat0 d V).leavesExact 4 t)

/-- The scratch arrays after point `t`, from their values before it, case by case. -/
theorem shS_succ_pos (d : Dev nD) (V : Valuation τ sig (Elt F)) (t : Fin cfg1.N) (h : k1_cond2 (grid1.coords t) = 1#1) :
    shS d V (t.val + 1) = shNext (grid1.coords t) h (spS d V) (hidS d V) (shS d V t.val) := shAt_succ_pos _ _ t h
theorem shS_succ_neg (d : Dev nD) (V : Valuation τ sig (Elt F)) (t : Fin cfg1.N) (h : ¬ k1_cond2 (grid1.coords t) = 1#1) :
    shS d V (t.val + 1) = shS d V t.val := shAt_succ_neg _ _ t h
theorem wsS_succ (d : Dev nD) (V : Valuation τ sig (Elt F)) (t : Fin cfg1.N) :
    wsS d V (t.val + 1) = wsNext (grid1.coords t) (wsS d V t.val) (wbS d V t) := wsAt_succ _ t

set_option maxHeartbeats 1000000 in
theorem sound_body0 (d : Dev nD) (V : Valuation τ sig (Elt F)) (t : Fin cfg1.N) :
    bodyPre0 d V t ⊢ wp frame (wpE (defs₀ (F := F)) 𝒱₀ (d : Thread nD τ) none) Set.univ (bodyAt1 t) (fun _ => bodyPost0 d V t) := by
  unfold bodyPre0 bodyPost0 bodyAt1
  simp only [before0_0, before0_1, before0_2]
  have hN : t.val < 28 := lt_of_lt_of_eq t.isLt (show cfg1.N = 28 from N_1)
  rw [show (dat0 d V).owesAt none t.succ = (dat0 d V).owesAt none t.castSucc from rfl,
    show (dat0 d V).Φ t.castSucc = Φ0 d V t.castSucc from rfl, show (dat0 d V).Φ t.succ = Φ0 d V t.succ from rfl,
    after0_0, after0_1, after0_2]
  have hi0 : iblk0 d V 0 t = spS d V := (before0_0' d V t (fun _ => Classical.arbitrary _)).symm.trans (before0_0 d V t _)
  have hi1 : iblk0 d V 1 t = hidS d V := (before0_1' d V t (fun _ => Classical.arbitrary _)).symm.trans (before0_1 d V t _)
  rw [hi0, hi1, show iblk0 d V 2 t = wbS d V t from rfl]
  unfold Φ0
  rw [show (t.succ : Fin (cfg1.N + 1)).val = t.val + 1 from rfl, show (t.castSucc : Fin (cfg1.N + 1)).val = t.val from rfl]
  by_cases h27 : t.val = 27
  · -- the last point
    have hc1 : ¬ cond1 (grid1.coords t) := fun h => by have := (cond1_iff t).mp h; omega
    have hc2 : ¬ k1_cond2 (grid1.coords t) = 1#1 := fun h => by have := (cond2_iff t).mp h; omega
    have hc3 : k1_cond3 (grid1.coords t) = 1#1 := (cond3_iff t).mpr h27
    unfold Dat.leavesExact
    rw [live0_3 t h27]
    simp only [after0_3, after0_4]
    have e7 : shS d V 27 = shS d V t.val := by rw [h27]
    have e8 : wsS d V 28 = wsNext (grid1.coords t) (wsS d V t.val) (wbS d V t) := by rw [← wsS_succ d V t, h27]
    rw [e7, e8]
    iintro ⟨⟨⟨%f7, %hf7, H7⟩, ⟨%f8, %hf8, H8⟩, Hr⟩, HO, ⟨%y0, H0⟩, ⟨%y1, H1⟩, ⟨%y2, H2⟩, ⟨%y3, H3⟩, ⟨%y4, H4⟩⟩
    obtain rfl := hf7 (by omega); obtain rfl := hf8 (by omega)
    iapply (run1D d (grid1.coords t) _ _ _ _ _ _ _ _ _ _ _ _ _ _ hc1 hc2 hc3 (spS d V) (hidS d V) (wbS d V t) _ _ (shS d V t.val) (wsS d V t.val) _)
    isplitl [H0]; · iexact H0
    isplitl [H1]; · iexact H1
    isplitl [H2]; · iexact H2
    isplitl [H3]; · iexact H3
    isplitl [H4]; · iexact H4
    isplitl [H7]; · iexact H7
    isplitl [H8]; · iexact H8
    iintro ⟨H0, H1, H2, H3, H4, H7, H8⟩
    isplitl [H7 H8 Hr]
    · isplitl [H7]
      · iexists _; isplitr; swap; · iexact H7
        ipureintro; intro _; exact (shS_succ_neg d V t hc2).symm
      isplitl [H8]
      · iexists _; isplitr; swap; · iexact H8
        ipureintro; intro _; exact (wsS_succ d V t).symm
      iexact Hr
    isplitl [HO]; · iexact HO
    isplitl [H0]; · iexact H0
    isplitl [H1]; · iexact H1
    isplitl [H2]; · iexact H2
    isplitl [H3]; · iexact H3
    iexact H4
  · rw [Dat.leavesExact_idle _ 3 t (idle0_3 t h27) (noflush0_3 t h27), Dat.leavesExact_idle _ 4 t (idle0_4 t h27) (noflush0_4 t h27)]
    have hc3 : ¬ k1_cond3 (grid1.coords t) = 1#1 := fun h => h27 ((cond3_iff t).mp h)
    iintro ⟨⟨⟨%f7, %hf7, H7⟩, ⟨%f8, %hf8, H8⟩, Hr⟩, HO, ⟨%y0, H0⟩, ⟨%y1, H1⟩, ⟨%y2, H2⟩, ⟨%y3, H3⟩, ⟨%y4, H4⟩⟩
    by_cases h0 : t.val = 0
    · -- the first point
      have hc1 : cond1 (grid1.coords t) := (cond1_iff t).mpr h0
      have hc2 : k1_cond2 (grid1.coords t) = 1#1 := (cond2_iff t).mpr (by omega)
      iapply (run1A d (grid1.coords t) _ _ _ _ _ _ _ _ _ _ _ _ _ _ hc1 hc2 hc3 (spS d V) (hidS d V) (wbS d V t) _ _ f7 f8 _)
      isplitl [H0]; · iexact H0
      isplitl [H1]; · iexact H1
      isplitl [H2]; · iexact H2
      isplitl [H3]; · iexact H3
      isplitl [H4]; · iexact H4
      isplitl [H7]; · iexact H7
      isplitl [H8]; · iexact H8
      iintro ⟨H0, H1, H2, H3, H4, H7, H8⟩
      isplitl [H7 H8 Hr]
      · isplitl [H7]
        · iexists _; isplitr; swap; · iexact H7
          ipureintro; intro _
          rw [shS_succ_pos d V t hc2, h0]; rfl
        isplitl [H8]
        · iexists _; isplitr; swap; · iexact H8
          ipureintro; intro _
          rw [wsS_succ d V t, h0]; rfl
        iexact Hr
      isplitl [HO]; · iexact HO
      isplitl [H0]; · iexact H0
      isplitl [H1]; · iexact H1
      isplitl [H2]; · iexact H2
      isplitl [H3]; · iexists _; iexact H3
      iexists _; iexact H4
    · have hc1 : ¬ cond1 (grid1.coords t) := fun h => h0 ((cond1_iff t).mp h)
      obtain rfl := hf7 h0; obtain rfl := hf8 h0
      by_cases h16 : t.val < 16
      · -- a later point below 16
        have hc2 : k1_cond2 (grid1.coords t) = 1#1 := (cond2_iff t).mpr h16
        iapply (run1B d (grid1.coords t) _ _ _ _ _ _ _ _ _ _ _ _ _ _ hc1 hc2 hc3 (spS d V) (hidS d V) (wbS d V t) _ _ (shS d V t.val) (wsS d V t.val) _)
        isplitl [H0]; · iexact H0
        isplitl [H1]; · iexact H1
        isplitl [H2]; · iexact H2
        isplitl [H3]; · iexact H3
        isplitl [H4]; · iexact H4
        isplitl [H7]; · iexact H7
        isplitl [H8]; · iexact H8
        iintro ⟨H0, H1, H2, H3, H4, H7, H8⟩
        isplitl [H7 H8 Hr]
        · isplitl [H7]
          · iexists _; isplitr; swap; · iexact H7
            ipureintro; intro _; exact (shS_succ_pos d V t hc2).symm
          isplitl [H8]
          · iexists _; isplitr; swap; · iexact H8
            ipureintro; intro _; exact (wsS_succ d V t).symm
          iexact Hr
        isplitl [HO]; · iexact HO
        isplitl [H0]; · iexact H0
        isplitl [H1]; · iexact H1
        isplitl [H2]; · iexact H2
        isplitl [H3]; · iexists _; iexact H3
        iexists _; iexact H4
      · -- a point from 16 on, not the last
        have hc2 : ¬ k1_cond2 (grid1.coords t) = 1#1 := fun h => h16 ((cond2_iff t).mp h)
        iapply (run1C d (grid1.coords t) _ _ _ _ _ _ _ _ _ _ _ _ _ _ hc1 hc2 hc3 (spS d V) (hidS d V) (wbS d V t) _ _ (shS d V t.val) (wsS d V t.val) _)
        isplitl [H0]; · iexact H0
        isplitl [H1]; · iexact H1
        isplitl [H2]; · iexact H2
        isplitl [H3]; · iexact H3
        isplitl [H4]; · iexact H4
        isplitl [H7]; · iexact H7
        isplitl [H8]; · iexact H8
        iintro ⟨H0, H1, H2, H3, H4, H7, H8⟩
        isplitl [H7 H8 Hr]
        · isplitl [H7]
          · iexists _; isplitr; swap; · iexact H7
            ipureintro; intro _; exact (shS_succ_neg d V t hc2).symm
          isplitl [H8]
          · iexists _; isplitr; swap; · iexact H8
            ipureintro; intro _; exact (wsS_succ d V t).symm
          iexact Hr
        isplitl [HO]; · iexact HO
        isplitl [H0]; · iexact H0
        isplitl [H1]; · iexact H1
        isplitl [H2]; · iexact H2
        isplitl [H3]; · iexists _; iexact H3
        iexists _; iexact H4

/-- The library's body obligation at every point. -/
theorem body0 (d : Dev nD) (V : Valuation τ sig (Elt F)) : BodyObligation (dat0 d V) (defs₀ (F := F)) 𝒱₀ (none : HIx 1) Set.univ := fun t => by
  rw [bigSep_W1, bigSep_W1]
  exact sound_body0 d V t

/-! ## The region as a step between two valuations -/

/-- The other pipeline's entry of the family: never entered by this region; its data say nothing. -/
def datIdle1 (d : Dev nD) (V : Valuation τ sig (Elt F)) : Dat τ (Elt F) (HIx 1) ℕ UU ℕ cfg2 d where
  A w := VT d V (Pipeline.arrRef spec2 w)
  after _ _ := fun _ => Classical.arbitrary _
  Φ _ := iprop(emp)
  q _ := fullShare
  owed _ := 0

/-- The proof data of both pipelines, as the region rule asks: pipeline 0's is the grid kernel's. -/
def pdats0 (V : Valuation τ sig (Elt F)) : (p : Fin 2) → (c : Dev nD) → Dat τ (Elt F) (HIx 1) ℕ UU ℕ (Pipeline.pin (pcfgs (F := F)) adm p) c
  | ⟨0, _⟩ => fun c => dat0 c V
  | ⟨1, _⟩ => fun c => datIdle1 c V

/-- The two result arrays after the region, as the pipeline library computes them (one write-back each, at the last point). -/
def res0p (d : Dev nD) (V : Valuation τ sig (Elt F)) : Vec F S1x1 .f32 := (dat0 d V).arrAt 3 cfg1.N
def res0s (d : Dev nD) (V : Valuation τ sig (Elt F)) : Vec F S8x2048 .f32 := (dat0 d V).arrAt 4 cfg1.N

/-- The valuation after the region: the two result arrays at what was written back, everything else as before. -/
def upd0 (d : Dev nD) (V : Valuation τ sig (Elt F)) : Valuation τ sig (Elt F) :=
  Function.update (Function.update V (Proc.devRef .tc main_v5_0) (res0p d V)) (Proc.devRef .tc main_v5_1) (res0s d V)

theorem tcOwesR_owesAt0 (d : Dev nD) (V : Valuation τ sig (Elt F)) (t : Fin (cfg1.N + 1)) :
    tcOwesR (F := F) d ⊢ (dat0 d V).owesAt none t := by
  unfold tcOwesR Pipeline.Dat.owesAt Pipeline.owesWithin
  iintro ⟨%W, %hW, HO⟩
  iexists W; isplitr
  · ipureintro; exact fun p hp => Or.inl (hW p hp)
  · iexact HO

theorem owesAt0_tcOwesR (d : Dev nD) (V : Valuation τ sig (Elt F)) (t : Fin (cfg1.N + 1)) :
    (dat0 d V).owesAt none t ⊢ tcOwesR (F := F) d := by
  unfold tcOwesR Pipeline.Dat.owesAt Pipeline.owesWithin
  iintro ⟨%W, %hW, HO⟩
  iexists W; isplitr
  · ipureintro
    intro p hp
    rcases hW hp with h | ⟨w, s, rfl⟩
    · exact h
    · exact Nat.zero_le _
  · iexact HO

theorem share0 (d : Dev nD) (V : Valuation τ sig (Elt F)) (w : Fin cfg1.W) : (dat0 d V).share w = fullShare :=
  (dat0 d V).share_full (fun _ => rfl) w

/-- The unscoped buffers the region does not stage are the same under both valuations: neither result array is one of them. -/
theorem unscopedRest0_upd (d : Dev nD) (V : Valuation τ sig (Elt F)) :
    (Pipeline.unscopedRest (Ix := HIx 1) (Name := ℕ) (U := UU) (Lvl := ℕ) spec1 d (VT d (upd0 d V)) : sProp 𝕄)
      = Pipeline.unscopedRest (Ix := HIx 1) (Name := ℕ) (U := UU) (Lvl := ℕ) spec1 d (VT d V) := by
  rw [unscopedRest1_eq, unscopedRest1_eq]
  unfold VT upd0
  simp only [Function.update_of_ne (StableHlo.devRef_ne_of_ne (show main_arg0 ≠ main_v5_1 by decide)),
    Function.update_of_ne (StableHlo.devRef_ne_of_ne (show main_arg1 ≠ main_v5_1 by decide)),
    Function.update_of_ne (StableHlo.devRef_ne_of_ne (show main_arg2 ≠ main_v5_1 by decide)),
    Function.update_of_ne (StableHlo.devRef_ne_of_ne (show main_v3 ≠ main_v5_1 by decide)),
    Function.update_of_ne (StableHlo.devRef_ne_of_ne (show main_v4 ≠ main_v5_1 by decide)),
    Function.update_of_ne (StableHlo.devRef_ne_of_ne (show main_v6 ≠ main_v5_1 by decide)),
    Function.update_of_ne (StableHlo.devRef_ne_of_ne (show main_v7 ≠ main_v5_1 by decide)),
    Function.update_of_ne (StableHlo.devRef_ne_of_ne (show main_v8 ≠ main_v5_1 by decide)),
    Function.update_of_ne (StableHlo.devRef_ne_of_ne (show main_v9 ≠ main_v5_1 by decide)),
    Function.update_of_ne (StableHlo.devRef_ne_of_ne (show main_arg0 ≠ main_v5_0 by decide)),
    Function.update_of_ne (StableHlo.devRef_ne_of_ne (show main_arg1 ≠ main_v5_0 by decide)),
    Function.update_of_ne (StableHlo.devRef_ne_of_ne (show main_arg2 ≠ main_v5_0 by decide)),
    Function.update_of_ne (StableHlo.devRef_ne_of_ne (show main_v3 ≠ main_v5_0 by decide)),
    Function.update_of_ne (StableHlo.devRef_ne_of_ne (show main_v4 ≠ main_v5_0 by decide)),
    Function.update_of_ne (StableHlo.devRef_ne_of_ne (show main_v6 ≠ main_v5_0 by decide)),
    Function.update_of_ne (StableHlo.devRef_ne_of_ne (show main_v7 ≠ main_v5_0 by decide)),
    Function.update_of_ne (StableHlo.devRef_ne_of_ne (show main_v8 ≠ main_v5_0 by decide)),
    Function.update_of_ne (StableHlo.devRef_ne_of_ne (show main_v9 ≠ main_v5_0 by decide))]

/-- The arrays after the region are the new valuation's: the operands unchanged, the results at what was written back. -/
theorem arrAt0_upd (d : Dev nD) (V : Valuation τ sig (Elt F)) (w : Fin cfg1.W) :
    (dat0 d V).arrAt w cfg1.N = VT d (upd0 d V) (Pipeline.arrRef spec1 w) := by
  unfold VT upd0
  match w with
  | ⟨0, _⟩ => rw [Function.update_of_ne (StableHlo.devRef_ne_of_ne (show main_v1 ≠ main_v5_1 by decide)), Function.update_of_ne (StableHlo.devRef_ne_of_ne (show main_v1 ≠ main_v5_0 by decide))]; exact (dat0 d V).arrAt_in 0 rfl _
  | ⟨1, _⟩ => rw [Function.update_of_ne (StableHlo.devRef_ne_of_ne (show main_v0 ≠ main_v5_1 by decide)), Function.update_of_ne (StableHlo.devRef_ne_of_ne (show main_v0 ≠ main_v5_0 by decide))]; exact (dat0 d V).arrAt_in 1 rfl _
  | ⟨2, _⟩ => rw [Function.update_of_ne (StableHlo.devRef_ne_of_ne (show main_v2 ≠ main_v5_1 by decide)), Function.update_of_ne (StableHlo.devRef_ne_of_ne (show main_v2 ≠ main_v5_0 by decide))]; exact (dat0 d V).arrAt_in 2 rfl _
  | ⟨3, _⟩ => rw [Function.update_of_ne (StableHlo.devRef_ne_of_ne (show main_v5_0 ≠ main_v5_1 by decide)), Function.update_self]; rfl
  | ⟨4, _⟩ => rw [Function.update_self]; rfl

/-- The scoped buffers the pipeline does not stage: the two scratch arrays and the finishing kernel's staging buffers. -/
theorem scopedRest0_split (d : Dev nD) :
    (Pipeline.scopedRest (Ix := HIx 1) (Name := ℕ) (U := UU) (Lvl := ℕ) (Val := Elt F) spec1 d : sProp 𝕄)
      = iprop((∃ f : Buf (Elt F) ((d : Thread nD τ).loc cc1_scratch0), ((d : Thread nD τ).loc cc1_scratch0) ↦{fullShare} f)
          ∗ (∃ f : Buf (Elt F) ((d : Thread nD τ).loc cc1_scratch1), ((d : Thread nD τ).loc cc1_scratch1) ↦{fullShare} f) ∗ rest4 (F := F) d) := by
  rw [scopedRest1_eq]; rfl

-- the region's fields are stated over `pin pcfgs adm 0`, which is `cfg1` only after unfolding plain definitions in types
set_option backward.isDefEq.respectTransparency.types false in
/-- THE REGION: entered from the TensorCore's unscoped buffers at a valuation `V` and what it owes; the five arrays go
    into the pipeline, the other unscoped buffers bypass it, the scoped buffers it does not stage are the invariant; left
    with the buffers at `upd0 V`. -/
def reg0 (V : Valuation τ sig (Elt F)) :
    Pipeline.RegionSeg (pcfgs (F := F)) adm (pdats0 V) (none : HIx 1) defs₀ 𝒱₀ (K (F := F)).L (K (F := F)).lev 0 where
  win := winFacts1.to₀
  block_pos := block_pos1
  stage_whole := stage_whole1
  K := PEmpty
  osem := fun k => k.elim
  ho := Pipeline.OwnSemFacts.none _
  hbody c := (body0 c V).loose
  hwaits := Pipeline.hwaits_of_owed_zero _ _ _ _ _ _ 0 fun _ _ => rfl
  pre c := iprop(StableHlo.held (SparseCore.T (τ := τ) c) (Pipeline.ucRefs τ sig) V ∗ tcOwesR (F := F) c)
  post c := iprop(StableHlo.held (SparseCore.T (τ := τ) c) (Pipeline.ucRefs τ sig) (upd0 c V) ∗ tcOwesR (F := F) c)
  X _ := iprop(emp)
  Y _ := iprop(emp)
  Z c := Pipeline.unscopedRest (Ix := HIx 1) (Name := ℕ) (U := UU) (Lvl := ℕ) spec1 c (VT c V)
  hentry c := by
    rw [← Pipeline.unscopedBufs_held c V]
    have hsplit := Pipeline.arrays_of_unscopedBufs (pcfgs (F := F)) adm (pdats0 V) (p := 0) winFacts1 arr_whole1 c (share0 c V) (VT c V) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (tcOwesR_owesAt0 c V 0); iexact HO
    isplitr; · iempintro
    iexact Hrest
  hin c := by
    rw [show (pdats0 V 0 c).Φ 0 = Φ0 c V 0 from rfl, show (Pipeline.scopedRest (Ix := HIx 1) (Name := ℕ) (U := UU) (Lvl := ℕ) (Val := Elt F) (Pipeline.pin (pcfgs (F := F)) adm 0).spec c : sProp 𝕄) = _ from scopedRest0_split (F := F) c]
    unfold Φ0
    iintro ⟨-, -, ⟨%f7, H7⟩, ⟨%f8, H8⟩, Hr⟩
    isplitl [H7]
    · iexists f7; isplitr; · ipureintro; exact fun h => absurd rfl h
      rw [owns_whole]; iexact H7
    isplitl [H8]
    · iexists f8; isplitr; · ipureintro; exact fun h => absurd rfl h
      rw [owns_whole]; iexact H8
    iexact Hr
  hout c := by
    rw [show (pdats0 V 0 c).Φ (Fin.last (Pipeline.pin (pcfgs (F := F)) adm 0).N) = Φ0 c V (Fin.last cfg1.N) from rfl, show (Pipeline.scopedRest (Ix := HIx 1) (Name := ℕ) (U := UU) (Lvl := ℕ) (Val := Elt F) (Pipeline.pin (pcfgs (F := F)) adm 0).spec c : sProp 𝕄) = _ from scopedRest0_split (F := F) c]
    unfold Φ0
    simp only [owns_whole]
    iintro ⟨⟨%f7, -, H7⟩, ⟨%f8, -, H8⟩, Hr⟩
    isplitr; · iempintro
    isplitr; · unfold Pipeline.ownSems0; rw [show (Finset.univ : Finset PEmpty) = ∅ from rfl, BI.bigSep_empty]; iempintro
    isplitl [H7]; · iexists f7; iexact H7
    isplitl [H8]; · iexists f8; iexact H8
    iexact Hr
  hexit c := by
    have harr : iprop((pdats0 V 0 c).arrays ((pdats0 V 0 c).arrAt · (Pipeline.pin (pcfgs (F := F)) adm 0).N)
          ∗ Pipeline.unscopedRest (Ix := HIx 1) (Name := ℕ) (U := UU) (Lvl := ℕ) spec1 c (VT c V))
        ⊢ (StableHlo.held (SparseCore.T (τ := τ) c) (Pipeline.ucRefs τ sig) (upd0 c V) : sProp 𝕄) := by
      rw [← Pipeline.unscopedBufs_held c (upd0 c V),
        Pipeline.unscopedBufs_split (Pipeline.pin (pcfgs (F := F)) adm) 0 winFacts1.arr_unscoped winFacts1.arr_inj c,
        Pipeline.arrays_eq (Pipeline.pin (pcfgs (F := F)) adm) (pdats0 V) 0 c arr_whole1 (share0 c V)]
      exact BI.sep_mono (Entails.of_eq (bigSep_congr fun w _ => by
        show (_ ↦{fullShare} ((dat0 c V).arrAt w cfg1.N)) = _
        rw [arrAt0_upd c V w]; rfl))
        (Entails.of_eq (unscopedRest0_upd c V).symm)
    iintro ⟨Ha, HO, -, HZ⟩
    imodintro
    isplitr [HO]
    · iapply harr; isplitl [Ha] <;> iassumption
    · iapply (owesAt0_tcOwesR c V (Fin.last _)); iexact HO

/-! ## The step, as the SparseCore program's TensorCore meets it -/

set_option backward.isDefEq.respectTransparency.types false in
/-- The grid kernel's call in @main: from the region boundary, the unscoped buffers at `V`, nothing owed and the
    pipeline's staging cells' launch ghost state, to the boundary and the buffers at `upd0 d V`. -/
theorem region0_step (wc : (d : Dev nD) → Buf (Elt F) (wLoc d)) (out : (d : Dev nD) → Buf (Elt F) (oLoc d))
    (κ : GSem nD τ sig → ℕ) (d : Dev nD) (V : Valuation τ sig (Elt F)) (Φ : PUnit → sProp 𝕄) :
    iprop((K (F := F)).ctx EH (P wc out) κ ∗ boundary (SparseCore.T (τ := τ) d) ∗ StableHlo.held (SparseCore.T (τ := τ) d) (Pipeline.ucRefs τ sig) V ∗ tcOwesR (F := F) d
        ∗ Pipeline.cellsGhost cfgs (EP (F := F)) 0 d ∗ Pipeline.toksInit cfgs (EP (F := F)) 0 d
        ∗ (iprop(boundary (SparseCore.T (τ := τ) d) ∗ StableHlo.held (SparseCore.T (τ := τ) d) (Pipeline.ucRefs τ sig) (upd0 d V) ∗ tcOwesR (F := F) d) -∗ Φ ⟨⟩))
      ⊢ wp frame (wpE ((K (F := F)).defs (D (F := F))) 𝒱 (SparseCore.T (τ := τ) d) none) Set.univ
          (Prog.lift (.customCall (SparseCore.inner (Pipeline.entry 0)) ())) Φ := by
  iintro ⟨Hctx, Hb, Hh, HO, Hg, Ht, Hk⟩
  ihave Hlev := (SparseCore.Cfg.ctx_levAts κ) $$ Hctx
  iapply ((K (F := F)).wp_liftProg (D (F := F)) 𝒱 (SparseCore.T (τ := τ) d) Set.univ none (Prog.lift (.customCall (Pipeline.entry 0) ())) Φ)
  have key := Pipeline.RegionSeg.wp (pcfgs (F := F)) adm (pdats0 V) (none : HIx 1) cellOf_inj (EP (F := F)) defs₀ 𝒱₀ (K (F := F)).L (K (F := F)).lev
    (reg0 V) d none (fun _ h => nomatch h) (fun _ => .ret ⟨⟩) Φ
  rw [show (reg0 V).post d = iprop(StableHlo.held (SparseCore.T (τ := τ) d) (Pipeline.ucRefs τ sig) (upd0 d V) ∗ tcOwesR (F := F) d) from rfl,
    show (reg0 V).pre d = iprop(StableHlo.held (SparseCore.T (τ := τ) d) (Pipeline.ucRefs τ sig) V ∗ tcOwesR (F := F) d) from rfl] at key
  iapply key
  isplitl [Hk]
  · iintro ⟨Hb, Hh, HO⟩
    rw [wp_ret]
    imodintro
    iapply Hk
    isplitl [Hb]; · iexact Hb
    isplitl [Hh]; · iexact Hh
    iexact HO
  isplitl [Hb]; · iexact Hb
  isplitl [Hh HO]
  · isplitl [Hh]; · iexact Hh
    iexact HO
  isplitl [Hlev]; · iexact Hlev
  isplitl [Hg]; · iexact Hg
  iexact Ht

end Cert.Proof.KI

end
-- ==== Proof.KI.Region1.lean ====
import proofs.«216131_g62878321214323_cont_9to1c4b_752_23_alg».proof.Proof.KI.RegionSpec
import Idealize.ShloMosaic.Lib.Tactic

/-
  The finishing kernel's region (pipeline 1: one point, four whole-array windows — the partial sum [1,1], the first
  row of the token sums as a column [2048,1], the lane sums [2048,16], and the result [1,1]): the body's run, the proof
  data, and the region as a step of the TensorCore's program between two valuations of its unscoped buffers.
-/

noncomputable section

namespace Cert.Proof.KI

open Cert.KernelIdeal Cert.KernelIdeal.Gen

open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## The body, once, on any whole staging memrefs -/

/-- From the four staging memrefs held whole — the three operands at `x0`, `x1`, `x2`, the result at anything — the body
    runs to its return with the operands as they were and the result at `finV x0 x1 x2`. -/
theorem run2 (d : Dev nD) (M0 : Memref sig .tc .vmem S1x1 .f32) (h0 : M0.IsWhole) (M1 : Memref sig .tc .vmem S2048x1 .f32) (h1 : M1.IsWhole)
    (M2 : Memref sig .tc .vmem S2048x16 .f32) (h2 : M2.IsWhole) (M3 : Memref sig .tc .vmem S1x1 .f32) (h3 : M3.IsWhole)
    (x0 : Vec F S1x1 .f32) (x1 : Vec F S2048x1 .f32) (x2 : Vec F S2048x16 .f32) (x3 : Vec F S1x1 .f32) (Q : PUnit → sProp 𝕄) :
    iprop(owns (SparseCore.T (τ := τ) d) M0 fullShare x0 ∗ owns (SparseCore.T (τ := τ) d) M1 fullShare x1 ∗ owns (SparseCore.T (τ := τ) d) M2 fullShare x2 ∗ owns (SparseCore.T (τ := τ) d) M3 fullShare x3
        ∗ (iprop(owns (SparseCore.T (τ := τ) d) M0 fullShare x0 ∗ owns (SparseCore.T (τ := τ) d) M1 fullShare x1 ∗ owns (SparseCore.T (τ := τ) d) M2 fullShare x2 ∗ owns (SparseCore.T (τ := τ) d) M3 fullShare (finV x0 x1 x2)) -∗ Q ⟨⟩))
      ⊢ wp frame (wpE (defs₀ (F := F)) 𝒱₀ (SparseCore.T (τ := τ) d) none) Set.univ (cc2__fin_body M0 h0 M1 h1 M2 h2 M3 h3) Q := by
  simp only [cc2__fin_body_eq_skeleton]; unfold cc2__fin_body_skel
  unfold owns
  iintro ⟨⟨%f0, %hf0, H0⟩, ⟨%f1, %hf1, H1⟩, ⟨%f2, %hf2, H2⟩, ⟨%f3, %hf3, H3⟩, Hk⟩
  obtain rfl := h0.eq_unread hf0; obtain rfl := h1.eq_unread hf1; obtain rfl := h2.eq_unread hf2; obtain rfl := h3.eq_unread hf3
  sl_exec
  sl_step
  iapply Hk
  isplitl [H0]; · iexists _; isplitr; · ipureintro; exact h0.read_unread _
                  iexact H0
  isplitl [H1]; · iexists _; isplitr; · ipureintro; exact h1.read_unread _
                  iexact H1
  isplitl [H2]; · iexists _; isplitr; · ipureintro; exact h2.read_unread _
                  iexact H2
  iexists _; isplitr; swap; · iexact H3
  ipureintro
  rw [View.read_writes_eq_canon _ _ _ (fun y => ⟨_, List.mem_singleton_self _, View.mem_set_unit_zero hz2 inb_S1x1_S1x1_0_0 y⟩), View.canon_unit_zero hz2]
  unfold finV
  simp only [View.readAt_eq_ld, h0.read_unread, h1.read_unread, h2.read_unread]
  rw [View.ld_unit_zero (S := S2048x16) hz2, View.ld_unit_zero (S := S2048x1) hz2, View.ld_unit_zero (S := S1x1) hz2]

/-! ## The proof data -/

/-- What a fetch stages: the array's block at the point, read off the valuation. -/
def iblk1 (d : Dev nD) (V : Valuation τ sig (Elt F)) (w : Fin cfg2.W) (t : Fin cfg2.N) : ((cfg2.win w).xblock (cfg2.grid.coords t)).Idx → Elt F (cfg2.win w).elt :=
  ((cfg2.win w).blk t).view.read (Elt F) (VT d V (Pipeline.arrRef spec2 w))

/-- The proof data on device `d`: the four arrays at the valuation; after the body each operand's buffer as fetched and
    the result's at the kernel's value of the three; the invariant the scoped buffers the pipeline does not stage; nothing
    owed; the recorded pairs those of level at most 8. -/
def dat1 (d : Dev nD) (V : Valuation τ sig (Elt F)) : Dat τ (Elt F) (HIx 1) ℕ UU ℕ cfg2 d where
  A w := VT d V (Pipeline.arrRef spec2 w)
  after w t := match w with
    | ⟨0, _⟩ => iblk1 d V 0 t
    | ⟨1, _⟩ => iblk1 d V 1 t
    | ⟨2, _⟩ => iblk1 d V 2 t
    | ⟨3, _⟩ => finV (iblk1 d V 0 t) (iblk1 d V 1 t) (iblk1 d V 2 t)
  Φ _ := Pipeline.scopedRest (Ix := HIx 1) (Name := ℕ) (U := UU) (Lvl := ℕ) (Val := Elt F) spec2 d
  q _ := fullShare
  owed _ := 0
  recorded _ := recB (F := F) d

theorem after1_0 (d : Dev nD) (V : Valuation τ sig (Elt F)) (t : Fin cfg2.N) : (dat1 d V).after 0 t = iblk1 d V 0 t := by dsimp only [dat1]
theorem after1_1 (d : Dev nD) (V : Valuation τ sig (Elt F)) (t : Fin cfg2.N) : (dat1 d V).after 1 t = iblk1 d V 1 t := by dsimp only [dat1]
theorem after1_2 (d : Dev nD) (V : Valuation τ sig (Elt F)) (t : Fin cfg2.N) : (dat1 d V).after 2 t = iblk1 d V 2 t := by dsimp only [dat1]
theorem after1_3 (d : Dev nD) (V : Valuation τ sig (Elt F)) (t : Fin cfg2.N) :
    (dat1 d V).after 3 t = finV (iblk1 d V 0 t) (iblk1 d V 1 t) (iblk1 d V 2 t) := by dsimp only [dat1]

/-- Each operand is fetched at the one point: its buffer holds the array's block when the body runs. -/
theorem before1_0 (d : Dev nD) (V : Valuation τ sig (Elt F)) (t : Fin cfg2.N) (x) : (dat1 d V).before 0 t x = iblk1 d V 0 t := by
  unfold Dat.before; rw [if_pos (fetch2_0 t)]; unfold Dat.fetched Dat.blockOf iblk1; rfl
theorem before1_1 (d : Dev nD) (V : Valuation τ sig (Elt F)) (t : Fin cfg2.N) (x) : (dat1 d V).before 1 t x = iblk1 d V 1 t := by
  unfold Dat.before; rw [if_pos (fetch2_1 t)]; unfold Dat.fetched Dat.blockOf iblk1; rfl
theorem before1_2 (d : Dev nD) (V : Valuation τ sig (Elt F)) (t : Fin cfg2.N) (x) : (dat1 d V).before 2 t x = iblk1 d V 2 t := by
  unfold Dat.before; rw [if_pos (fetch2_2 t)]; unfold Dat.fetched Dat.blockOf iblk1; rfl

/-! ## The body obligation -/

def bodyPre1 (d : Dev nD) (V : Valuation τ sig (Elt F)) (t : Fin cfg2.N) : sProp 𝕄 :=
  iprop((dat1 d V).Φ t.castSucc ∗ (dat1 d V).owesAt none t.castSucc
    ∗ (∃ x, owns (d : Thread nD τ) (st2_0 t) fullShare ((dat1 d V).before 0 t x))
    ∗ (∃ x, owns (d : Thread nD τ) (st2_1 t) fullShare ((dat1 d V).before 1 t x))
    ∗ (∃ x, owns (d : Thread nD τ) (st2_2 t) fullShare ((dat1 d V).before 2 t x))
    ∗ (∃ x, owns (d : Thread nD τ) (st2_3 t) fullShare ((dat1 d V).before 3 t x)))

def bodyPost1 (d : Dev nD) (V : Valuation τ sig (Elt F)) (t : Fin cfg2.N) : sProp 𝕄 :=
  iprop((dat1 d V).Φ t.succ ∗ (dat1 d V).owesAt none t.succ
    ∗ owns (d : Thread nD τ) (st2_0 t) fullShare ((dat1 d V).after 0 t)
    ∗ owns (d : Thread nD τ) (st2_1 t) fullShare ((dat1 d V).after 1 t)
    ∗ owns (d : Thread nD τ) (st2_2 t) fullShare ((dat1 d V).after 2 t)
    ∗ owns (d : Thread nD τ) (st2_3 t) fullShare ((dat1 d V).after 3 t))

theorem sound_body1 (d : Dev nD) (V : Valuation τ sig (Elt F)) (t : Fin cfg2.N) :
    bodyPre1 d V t ⊢ wp frame (wpE (defs₀ (F := F)) 𝒱₀ (d : Thread nD τ) none) Set.univ (bodyAt2 t) (fun _ => bodyPost1 d V t) := by
  unfold bodyPre1 bodyPost1 bodyAt2
  simp only [before1_0, before1_1, before1_2]
  rw [show (dat1 d V).Φ t.succ = (dat1 d V).Φ t.castSucc from rfl,
    show (dat1 d V).owesAt none t.succ = (dat1 d V).owesAt none t.castSucc from rfl, after1_0, after1_1, after1_2, after1_3]
  iintro ⟨HΦ, HO, ⟨%x0, H0⟩, ⟨%x1, H1⟩, ⟨%x2, H2⟩, ⟨%x3, H3⟩⟩
  iapply (run2 d _ _ _ _ _ _ _ _ (iblk1 d V 0 t) (iblk1 d V 1 t) (iblk1 d V 2 t) _ _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexact H0
  isplitl [H1]; · iexact H1
  isplitl [H2]; · iexact H2
  iexact H3

/-- The library's body obligation at the one point. -/
theorem body1 (d : Dev nD) (V : Valuation τ sig (Elt F)) : BodyObligation (dat1 d V) (defs₀ (F := F)) 𝒱₀ (none : HIx 1) Set.univ := fun t => by
  rw [bigSep_W2, bigSep_W2]
  exact sound_body1 d V t

/-! ## The region as a step between two valuations -/

/-- The other pipeline's entry of the family: never entered by this region; its data say nothing. -/
def datIdle0 (d : Dev nD) (V : Valuation τ sig (Elt F)) : Dat τ (Elt F) (HIx 1) ℕ UU ℕ cfg1 d where
  A w := VT d V (Pipeline.arrRef spec1 w)
  after _ _ := fun _ => Classical.arbitrary _
  Φ _ := iprop(emp)
  q _ := fullShare
  owed _ := 0

/-- The proof data of both pipelines, as the region rule asks: pipeline 1's is the finishing kernel's. -/
def pdats1 (V : Valuation τ sig (Elt F)) : (p : Fin 2) → (c : Dev nD) → Dat τ (Elt F) (HIx 1) ℕ UU ℕ (Pipeline.pin (pcfgs (F := F)) adm p) c
  | ⟨0, _⟩ => fun c => datIdle0 c V
  | ⟨1, _⟩ => fun c => dat1 c V

/-- The result array after the region, as the pipeline library computes it (the one write-back). -/
def res1 (d : Dev nD) (V : Valuation τ sig (Elt F)) : Vec F S1x1 .f32 := (dat1 d V).arrAt 3 cfg2.N

/-- The valuation after the region: the result array at what the pipeline wrote back, everything else as before. -/
def upd1 (d : Dev nD) (V : Valuation τ sig (Elt F)) : Valuation τ sig (Elt F) :=
  Function.update V (Proc.devRef .tc main_v8) (res1 d V)

theorem tcOwesR_owesAt (d : Dev nD) (V : Valuation τ sig (Elt F)) (t : Fin (cfg2.N + 1)) :
    tcOwesR (F := F) d ⊢ (dat1 d V).owesAt none t := by
  unfold tcOwesR Pipeline.Dat.owesAt Pipeline.owesWithin
  iintro ⟨%W, %hW, HO⟩
  iexists W; isplitr
  · ipureintro; exact fun p hp => Or.inl (hW p hp)
  · iexact HO

theorem owesAt_tcOwesR (d : Dev nD) (V : Valuation τ sig (Elt F)) (t : Fin (cfg2.N + 1)) :
    (dat1 d V).owesAt none t ⊢ tcOwesR (F := F) d := by
  unfold tcOwesR Pipeline.Dat.owesAt Pipeline.owesWithin
  iintro ⟨%W, %hW, HO⟩
  iexists W; isplitr
  · ipureintro
    intro p hp
    rcases hW hp with h | ⟨w, s, rfl⟩
    · exact h
    · exact Nat.zero_le _
  · iexact HO

theorem share1 (d : Dev nD) (V : Valuation τ sig (Elt F)) (w : Fin cfg2.W) : (dat1 d V).share w = fullShare :=
  (dat1 d V).share_full (fun _ => rfl) w

/-- The unscoped buffers the region does not stage are the same under both valuations: the result array is none of them. -/
theorem unscopedRest1_upd (d : Dev nD) (V : Valuation τ sig (Elt F)) :
    (Pipeline.unscopedRest (Ix := HIx 1) (Name := ℕ) (U := UU) (Lvl := ℕ) spec2 d (VT d (upd1 d V)) : sProp 𝕄)
      = Pipeline.unscopedRest (Ix := HIx 1) (Name := ℕ) (U := UU) (Lvl := ℕ) spec2 d (VT d V) := by
  rw [unscopedRest2_eq, unscopedRest2_eq]
  unfold VT upd1
  simp only [Function.update_of_ne (StableHlo.devRef_ne_of_ne (show main_arg0 ≠ main_v8 by decide)),
    Function.update_of_ne (StableHlo.devRef_ne_of_ne (show main_arg1 ≠ main_v8 by decide)),
    Function.update_of_ne (StableHlo.devRef_ne_of_ne (show main_arg2 ≠ main_v8 by decide)),
    Function.update_of_ne (StableHlo.devRef_ne_of_ne (show main_v0 ≠ main_v8 by decide)),
    Function.update_of_ne (StableHlo.devRef_ne_of_ne (show main_v1 ≠ main_v8 by decide)),
    Function.update_of_ne (StableHlo.devRef_ne_of_ne (show main_v2 ≠ main_v8 by decide)),
    Function.update_of_ne (StableHlo.devRef_ne_of_ne (show main_v3 ≠ main_v8 by decide)),
    Function.update_of_ne (StableHlo.devRef_ne_of_ne (show main_v5_1 ≠ main_v8 by decide)),
    Function.update_of_ne (StableHlo.devRef_ne_of_ne (show main_v6 ≠ main_v8 by decide)),
    Function.update_of_ne (StableHlo.devRef_ne_of_ne (show main_v9 ≠ main_v8 by decide))]

/-- The arrays after the region are the new valuation's: the operands unchanged, the result at what was written back. -/
theorem arrAt1_upd (d : Dev nD) (V : Valuation τ sig (Elt F)) (w : Fin cfg2.W) :
    (dat1 d V).arrAt w cfg2.N = VT d (upd1 d V) (Pipeline.arrRef spec2 w) := by
  unfold VT upd1
  match w with
  | ⟨0, _⟩ => rw [Function.update_of_ne (StableHlo.devRef_ne_of_ne (show main_v5_0 ≠ main_v8 by decide))]; exact (dat1 d V).arrAt_in 0 rfl _
  | ⟨1, _⟩ => rw [Function.update_of_ne (StableHlo.devRef_ne_of_ne (show main_v7 ≠ main_v8 by decide))]; exact (dat1 d V).arrAt_in 1 rfl _
  | ⟨2, _⟩ => rw [Function.update_of_ne (StableHlo.devRef_ne_of_ne (show main_v4 ≠ main_v8 by decide))]; exact (dat1 d V).arrAt_in 2 rfl _
  | ⟨3, _⟩ => rw [Function.update_self]; rfl

-- the region's fields are stated over `pin pcfgs adm 1`, which is `cfg2` only after unfolding plain definitions in types
set_option backward.isDefEq.respectTransparency.types false in
/-- THE REGION: entered from the TensorCore's unscoped buffers at a valuation `V` and what it owes; the four arrays go
    into the pipeline, the other unscoped buffers bypass it, the scoped buffers it does not stage are the invariant; left
    with the buffers at `upd1 V`. -/
def reg1 (V : Valuation τ sig (Elt F)) :
    Pipeline.RegionSeg (pcfgs (F := F)) adm (pdats1 V) (none : HIx 1) defs₀ 𝒱₀ (K (F := F)).L (K (F := F)).lev 1 where
  win := winFacts2.to₀
  block_pos := block_pos2
  stage_whole := stage_whole2
  K := PEmpty
  osem := fun k => k.elim
  ho := Pipeline.OwnSemFacts.none _
  hbody c := (body1 c V).loose
  hwaits := Pipeline.hwaits_of_owed_zero _ _ _ _ _ _ 1 fun _ _ => rfl
  pre c := iprop(StableHlo.held (SparseCore.T (τ := τ) c) (Pipeline.ucRefs τ sig) V ∗ tcOwesR (F := F) c)
  post c := iprop(StableHlo.held (SparseCore.T (τ := τ) c) (Pipeline.ucRefs τ sig) (upd1 c V) ∗ tcOwesR (F := F) c)
  X _ := iprop(emp)
  Y _ := iprop(emp)
  Z c := Pipeline.unscopedRest (Ix := HIx 1) (Name := ℕ) (U := UU) (Lvl := ℕ) spec2 c (VT c V)
  hentry c := by
    rw [← Pipeline.unscopedBufs_held c V]
    have hsplit := Pipeline.arrays_of_unscopedBufs (pcfgs (F := F)) adm (pdats1 V) (p := 1) winFacts2 arr_whole2 c (share1 c V) (VT c V) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (tcOwesR_owesAt c V 0); iexact HO
    isplitr; · iempintro
    iexact Hrest
  hin c := by
    rw [show (pdats1 V 1 c).Φ 0 = Pipeline.scopedRest (Ix := HIx 1) (Name := ℕ) (U := UU) (Lvl := ℕ) (Val := Elt F) spec2 c from rfl]
    iintro ⟨-, -, Hr⟩; iexact Hr
  hout c := by
    rw [show (pdats1 V 1 c).Φ (Fin.last (Pipeline.pin (pcfgs (F := F)) adm 1).N) = Pipeline.scopedRest (Ix := HIx 1) (Name := ℕ) (U := UU) (Lvl := ℕ) (Val := Elt F) spec2 c from rfl]
    iintro Hr
    isplitr; · iempintro
    isplitr; · unfold Pipeline.ownSems0; rw [show (Finset.univ : Finset PEmpty) = ∅ from rfl, BI.bigSep_empty]; iempintro
    iexact Hr
  hexit c := by
    have harr : iprop((pdats1 V 1 c).arrays ((pdats1 V 1 c).arrAt · (Pipeline.pin (pcfgs (F := F)) adm 1).N)
          ∗ Pipeline.unscopedRest (Ix := HIx 1) (Name := ℕ) (U := UU) (Lvl := ℕ) spec2 c (VT c V))
        ⊢ (StableHlo.held (SparseCore.T (τ := τ) c) (Pipeline.ucRefs τ sig) (upd1 c V) : sProp 𝕄) := by
      rw [← Pipeline.unscopedBufs_held c (upd1 c V),
        Pipeline.unscopedBufs_split (Pipeline.pin (pcfgs (F := F)) adm) 1 winFacts2.arr_unscoped winFacts2.arr_inj c,
        Pipeline.arrays_eq (Pipeline.pin (pcfgs (F := F)) adm) (pdats1 V) 1 c arr_whole2 (share1 c V)]
      exact BI.sep_mono (Entails.of_eq (bigSep_congr fun w _ => by
        show (_ ↦{fullShare} ((dat1 c V).arrAt w cfg2.N)) = _
        rw [arrAt1_upd c V w]; rfl))
        (Entails.of_eq (unscopedRest1_upd c V).symm)
    iintro ⟨Ha, HO, -, HZ⟩
    imodintro
    isplitr [HO]
    · iapply harr; isplitl [Ha] <;> iassumption
    · iapply (owesAt_tcOwesR c V (Fin.last _)); iexact HO

/-! ## The step, as the SparseCore program's TensorCore meets it -/

set_option backward.isDefEq.respectTransparency.types false in
/-- The finishing kernel's call in @main: from the region boundary, the unscoped buffers at `V`, nothing owed and the
    pipeline's staging cells' launch ghost state, to the boundary and the buffers at `upd1 d V`. -/
theorem region1_step (wc : (d : Dev nD) → Buf (Elt F) (wLoc d)) (out : (d : Dev nD) → Buf (Elt F) (oLoc d))
    (κ : GSem nD τ sig → ℕ) (d : Dev nD) (V : Valuation τ sig (Elt F)) (Φ : PUnit → sProp 𝕄) :
    iprop((K (F := F)).ctx EH (P wc out) κ ∗ boundary (SparseCore.T (τ := τ) d) ∗ StableHlo.held (SparseCore.T (τ := τ) d) (Pipeline.ucRefs τ sig) V ∗ tcOwesR (F := F) d
        ∗ Pipeline.cellsGhost cfgs (EP (F := F)) 1 d ∗ Pipeline.toksInit cfgs (EP (F := F)) 1 d
        ∗ (iprop(boundary (SparseCore.T (τ := τ) d) ∗ StableHlo.held (SparseCore.T (τ := τ) d) (Pipeline.ucRefs τ sig) (upd1 d V) ∗ tcOwesR (F := F) d) -∗ Φ ⟨⟩))
      ⊢ wp frame (wpE ((K (F := F)).defs (D (F := F))) 𝒱 (SparseCore.T (τ := τ) d) none) Set.univ
          (Prog.lift (.customCall (SparseCore.inner (Pipeline.entry 1)) ())) Φ := by
  iintro ⟨Hctx, Hb, Hh, HO, Hg, Ht, Hk⟩
  ihave Hlev := (SparseCore.Cfg.ctx_levAts κ) $$ Hctx
  iapply ((K (F := F)).wp_liftProg (D (F := F)) 𝒱 (SparseCore.T (τ := τ) d) Set.univ none (Prog.lift (.customCall (Pipeline.entry 1) ())) Φ)
  have key := Pipeline.RegionSeg.wp (pcfgs (F := F)) adm (pdats1 V) (none : HIx 1) cellOf_inj (EP (F := F)) defs₀ 𝒱₀ (K (F := F)).L (K (F := F)).lev
    (reg1 V) d none (fun _ h => nomatch h) (fun _ => .ret ⟨⟩) Φ
  rw [show (reg1 V).post d = iprop(StableHlo.held (SparseCore.T (τ := τ) d) (Pipeline.ucRefs τ sig) (upd1 d V) ∗ tcOwesR (F := F) d) from rfl,
    show (reg1 V).pre d = iprop(StableHlo.held (SparseCore.T (τ := τ) d) (Pipeline.ucRefs τ sig) V ∗ tcOwesR (F := F) d) from rfl] at key
  iapply key
  isplitl [Hk]
  · iintro ⟨Hb, Hh, HO⟩
    rw [wp_ret]
    imodintro
    iapply Hk
    isplitl [Hb]; · iexact Hb
    isplitl [Hh]; · iexact Hh
    iexact HO
  isplitl [Hb]; · iexact Hb
  isplitl [Hh HO]
  · isplitl [Hh]; · iexact Hh
    iexact HO
  isplitl [Hlev]; · iexact Hlev
  isplitl [Hg]; · iexact Hg
  iexact Ht

end Cert.Proof.KI

end
-- ==== Proof.KI.Steps.lean ====
/-
  The two TensorCore regions as steps of @main, in the form @main's proof applies them, and the fact that they write
  only their result arrays.
-/
import proofs.«216131_g62878321214323_cont_9to1c4b_752_23_alg».proof.Proof.KI.Final
import proofs.«216131_g62878321214323_cont_9to1c4b_752_23_alg».proof.Proof.KI.Region0
import proofs.«216131_g62878321214323_cont_9to1c4b_752_23_alg».proof.Proof.KI.Region1

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.StableHlo (held)
open Idealize.ShloMosaic.Pipeline (ucRefs)

variable [FloatOps F]
variable (m : (ℓ : Loc nD τ sig) → Buf (Elt F) ℓ) (out : (d : Dev nD) → Buf (Elt F) (oLoc d))

/-- The grid kernel's region. -/
theorem step0 : RegionStep (F := F) m out 0 upd0 :=
  fun κ d W₀ Φ => region0_step (wcOf m) out κ d W₀ Φ

/-- The finishing kernel's region. -/
theorem step1 : RegionStep (F := F) m out 1 upd1 :=
  fun κ d W₀ Φ => region1_step (wcOf m) out κ d W₀ Φ

/-- Each region's valuation update touches its result arrays only. -/
theorem writesOnly : WritesOnly (F := F) upd0 upd1 :=
  ⟨fun d W b h0 h1 => by unfold upd0; rw [Function.update_of_ne h1, Function.update_of_ne h0],
    fun d W b h => by unfold upd1; rw [Function.update_of_ne h]⟩

end Cert.Proof.KI

end
-- ==== Proof.KI.TileSpec.lean ====
/-
  The lane sums of the weight matrix, as one whole-array function.

  A row of 4096 entries is cut into 256 pieces of 16 lanes (piece `q` holds columns `16 q … 16 q + 15`). Eight
  accumulators start at the zero vector; trip `k` (of 32) adds piece `8 k + j` to accumulator `j`. The row's lane
  sums are the balanced tree `((a0 + a1) + (a2 + a3)) + ((a4 + a5) + (a6 + a7))` of the eight accumulators. Every sum
  is the float instance's own addition, in this order.
-/
import proofs.«216131_g62878321214323_cont_9to1c4b_752_23_alg».proof.KernelIdeal
import Idealize.ShloMosaic.Lib.ValueIdx

noncomputable section

namespace Cert.Proof.KI

open Cert.KernelIdeal
open Idealize.ShloMosaic

variable {F : FTy → Type} [FloatOps F]

/-- The zero vector the accumulators start from, as the program spells it. -/
def zeroV : FVec F S16 .f32 := broadcast S16 (Scalar.ofBits .f32 0x00000000#32)

/-- Accumulator `j` after `k` trips over the pieces `p`: trip `i` adds piece `8 i + j`. -/
def accs (p : Nat → FVec F S16 .f32) (z : FVec F S16 .f32) (j : Nat) : Nat → FVec F S16 .f32
  | 0 => z
  | k + 1 => addf (accs p z j k) (p (8 * k + j))

/-- The balanced tree of seven additions over eight vectors. -/
def tree8 (a0 a1 a2 a3 a4 a5 a6 a7 : FVec F S16 .f32) : FVec F S16 .f32 :=
  addf (addf (addf a0 a1) (addf a2 a3)) (addf (addf a4 a5) (addf a6 a7))

/-- A row's lane sums from its pieces. -/
def rowSum (p : Nat → FVec F S16 .f32) : FVec F S16 .f32 :=
  tree8 (accs p zeroV 0 32) (accs p zeroV 1 32) (accs p zeroV 2 32) (accs p zeroV 3 32)
    (accs p zeroV 4 32) (accs p zeroV 5 32) (accs p zeroV 6 32) (accs p zeroV 7 32)

/-- Piece `q` of row `h` of the weight matrix: lane `l` is column `16 q + l` (read modulo the row's length, so that the
    function is total; the pieces used are `q < 256`). -/
def wPiece (w : (⟨S16384x4096, .f32⟩ : BufTy).Contents (Elt F)) (h : Fin 16384) (q : Nat) : FVec F S16 .f32 :=
  fun l => w (ValueIdx.ix2 h ⟨(16 * q + (l 0).val) % 4096, Nat.mod_lt _ (by decide)⟩)

/-- The lane sums: entry `(h, l)` is lane `l` of row `h`'s sum, for the first 2048 rows of the matrix. -/
def laneSums (w : (⟨S16384x4096, .f32⟩ : BufTy).Contents (Elt F)) : (⟨S2048x16, .f32⟩ : BufTy).Contents (Elt F) :=
  fun x => rowSum (wPiece w ⟨(x 0).val, Nat.lt_of_lt_of_le (x 0).isLt (by decide)⟩) (ValueIdx.ix1 (x 1))

end Cert.Proof.KI

end
-- ==== Proof.KI.TileLoop.lean ====
/-
  One row's counted loop, proved once: the trip's region as a function of the buffer and of the loop's own offset
  function, what a trip makes of the eight accumulators, and the invariant a run goes through the loop by.
-/
import proofs.«216131_g62878321214323_cont_9to1c4b_752_23_alg».proof.Proof.KI.Common
import proofs.«216131_g62878321214323_cont_9to1c4b_752_23_alg».proof.Proof.KI.TileSpec
import Idealize.ShloMosaic.Lib.Exec
import Idealize.ShloMosaic.Lib.Tactic

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## One trip of a row's loop, once

A trip loads eight 16-lane pieces of one row of an 8-row buffer and adds piece `r` to accumulator `r`. The pieces are
named by the loop's own offset function `off k r`. -/

/-- The eight accumulators a row's loop carries. -/
abbrev Acc8 (F : FTy → Type) : Type :=
  FVec F S16 .f32 × FVec F S16 .f32 × FVec F S16 .f32 × FVec F S16 .f32 × FVec F S16 .f32 × FVec F S16 .f32 × FVec F S16 .f32 × FVec F S16 .f32

/-- The piece a load at offsets `o` reads from the buffer's contents `f`, as a 16-lane vector. -/
def ldPiece (b : Memref sig .scVector .vmem S8x4096 .f32) (f : BufTy.Contents (Elt F) b.view.ty) (o : Fin 2 → Nat)
    (inb : ∀ a, o a + S1x16.size a ≤ S8x4096.size a) : FVec F S16 .f32 :=
  shapeCast S16 (b.view.readAt (Elt F) (Rect.unit (s := S8x4096) o S1x16.size inb).toLoadRect f) shapeCasts_S1x16_S16

/-- One trip's region. -/
def tripG (c : Fin τ.nSC) (s : Fin τ.nSub) (b : Memref sig .scVector .vmem S8x4096 .f32) (off : Fin 32 → BitVec 32 → Fin 2 → Nat)
    (inb : ∀ k : Fin 32, ∀ r : Fin 8, ∀ a, off k (BitVec.ofNat 32 r.val) a + S1x16.size a ≤ S8x4096.size a) :
    Fin 32 → Acc8 F → Prog (TpuEff nD τ sig (Elt F) Λ₀ (.scVector c s)) (Acc8 F) :=
  fun k (a0, a1, a2, a3, a4, a5, a6, a7) => do
    let v0 : Vec F S1x16 .f32 ← Prog.lift (.load b (Rect.unit (s := S8x4096) (off k 0#32) S1x16.size (inb k 0)).toLoadRect (View.loadsAt_vmem h_S1x16))
    let v1 : Vec F S1x16 .f32 ← Prog.lift (.load b (Rect.unit (s := S8x4096) (off k 1#32) S1x16.size (inb k 1)).toLoadRect (View.loadsAt_vmem h_S1x16))
    let v2 : Vec F S1x16 .f32 ← Prog.lift (.load b (Rect.unit (s := S8x4096) (off k 2#32) S1x16.size (inb k 2)).toLoadRect (View.loadsAt_vmem h_S1x16))
    let v3 : Vec F S1x16 .f32 ← Prog.lift (.load b (Rect.unit (s := S8x4096) (off k 3#32) S1x16.size (inb k 3)).toLoadRect (View.loadsAt_vmem h_S1x16))
    let v4 : Vec F S1x16 .f32 ← Prog.lift (.load b (Rect.unit (s := S8x4096) (off k 4#32) S1x16.size (inb k 4)).toLoadRect (View.loadsAt_vmem h_S1x16))
    let v5 : Vec F S1x16 .f32 ← Prog.lift (.load b (Rect.unit (s := S8x4096) (off k 5#32) S1x16.size (inb k 5)).toLoadRect (View.loadsAt_vmem h_S1x16))
    let v6 : Vec F S1x16 .f32 ← Prog.lift (.load b (Rect.unit (s := S8x4096) (off k 6#32) S1x16.size (inb k 6)).toLoadRect (View.loadsAt_vmem h_S1x16))
    let v7 : Vec F S1x16 .f32 ← Prog.lift (.load b (Rect.unit (s := S8x4096) (off k 7#32) S1x16.size (inb k 7)).toLoadRect (View.loadsAt_vmem h_S1x16))
    pure (addf a0 (shapeCast S16 v0 shapeCasts_S1x16_S16), addf a1 (shapeCast S16 v1 shapeCasts_S1x16_S16), addf a2 (shapeCast S16 v2 shapeCasts_S1x16_S16),
      addf a3 (shapeCast S16 v3 shapeCasts_S1x16_S16), addf a4 (shapeCast S16 v4 shapeCasts_S1x16_S16), addf a5 (shapeCast S16 v5 shapeCasts_S1x16_S16),
      addf a6 (shapeCast S16 v6 shapeCasts_S1x16_S16), addf a7 (shapeCast S16 v7 shapeCasts_S1x16_S16))

/-- What one trip makes of the accumulators, over the buffer's contents `f`. -/
def stepG (b : Memref sig .scVector .vmem S8x4096 .f32) (f : BufTy.Contents (Elt F) b.view.ty) (off : Fin 32 → BitVec 32 → Fin 2 → Nat)
    (inb : ∀ k : Fin 32, ∀ r : Fin 8, ∀ a, off k (BitVec.ofNat 32 r.val) a + S1x16.size a ≤ S8x4096.size a) (k : Fin 32) (a : Acc8 F) : Acc8 F :=
  (addf a.1 (ldPiece b f (off k 0#32) (inb k 0)), addf a.2.1 (ldPiece b f (off k 1#32) (inb k 1)), addf a.2.2.1 (ldPiece b f (off k 2#32) (inb k 2)),
    addf a.2.2.2.1 (ldPiece b f (off k 3#32) (inb k 3)), addf a.2.2.2.2.1 (ldPiece b f (off k 4#32) (inb k 4)), addf a.2.2.2.2.2.1 (ldPiece b f (off k 5#32) (inb k 5)),
    addf a.2.2.2.2.2.2.1 (ldPiece b f (off k 6#32) (inb k 6)), addf a.2.2.2.2.2.2.2 (ldPiece b f (off k 7#32) (inb k 7)))

/-- The accumulators before trip `k`, from `z`. -/
def stG (b : Memref sig .scVector .vmem S8x4096 .f32) (f : BufTy.Contents (Elt F) b.view.ty) (off : Fin 32 → BitVec 32 → Fin 2 → Nat)
    (inb : ∀ k : Fin 32, ∀ r : Fin 8, ∀ a, off k (BitVec.ofNat 32 r.val) a + S1x16.size a ≤ S8x4096.size a) (z : Acc8 F) : Nat → Acc8 F
  | 0 => z
  | k + 1 => if h : k < 32 then stepG b f off inb ⟨k, h⟩ (stG b f off inb z k) else stG b f off inb z k

theorem stG_succ (b : Memref sig .scVector .vmem S8x4096 .f32) (f : BufTy.Contents (Elt F) b.view.ty) (off : Fin 32 → BitVec 32 → Fin 2 → Nat)
    (inb : ∀ k : Fin 32, ∀ r : Fin 8, ∀ a, off k (BitVec.ofNat 32 r.val) a + S1x16.size a ≤ S8x4096.size a) (z : Acc8 F) (k : Fin 32) :
    stG b f off inb z (k.val + 1) = stepG b f off inb k (stG b f off inb z k.val) := by
  rw [stG, dif_pos k.isLt]

/-- The loop's invariant: the buffer held at `f`, the accumulators those of `k` trips. -/
def invG (d : Dev nD) (c : Fin τ.nSC) (s : Fin τ.nSub) (b : Memref sig .scVector .vmem S8x4096 .f32) (f : BufTy.Contents (Elt F) b.view.ty)
    (off : Fin 32 → BitVec 32 → Fin 2 → Nat)
    (inb : ∀ k : Fin 32, ∀ r : Fin 8, ∀ a, off k (BitVec.ofNat 32 r.val) a + S1x16.size a ≤ S8x4096.size a) (z : Acc8 F) (k : Nat) (acc : Acc8 F) : sProp 𝕄 :=
  iprop((b.view.loc (V d c s) ↦[b.view.set]{fullShare} f) ∗ ⌜acc = stG b f off inb z k⌝)

theorem trip_sound (d : Dev nD) (c : Fin τ.nSC) (s : Fin τ.nSub) (b : Memref sig .scVector .vmem S8x4096 .f32) (f : BufTy.Contents (Elt F) b.view.ty)
    (off : Fin 32 → BitVec 32 → Fin 2 → Nat)
    (inb : ∀ k : Fin 32, ∀ r : Fin 8, ∀ a, off k (BitVec.ofNat 32 r.val) a + S1x16.size a ≤ S8x4096.size a) (z : Acc8 F) (k : Fin 32) (acc : Acc8 F) :
    invG d c s b f off inb z k.val acc
      ⊢ wp frame (wpE (defs₀ (F := F)) 𝒱₀ (V d c s) none) Set.univ (tripG c s b off inb k acc) (invG d c s b f off inb z (k.val + 1)) := by
  obtain ⟨a0, a1, a2, a3, a4, a5, a6, a7⟩ := acc
  unfold invG tripG
  iintro ⟨Hb, %hacc⟩
  sl_exec
  sl_step
  isplitl [Hb]; · iexact Hb
  ipureintro
  rw [stG_succ, ← hacc]
  rfl

end Cert.Proof.KI

end
-- ==== Proof.KI.TileLoopTable.lean ====
/-
  The 64 row loops of the tile's body, each by the one invariant of a row's loop: loop N reads the first buffer in the
  even chunks and the second in the odd ones, through its own offset function.
-/
import proofs.«216131_g62878321214323_cont_9to1c4b_752_23_alg».proof.Proof.KI.TileLoop
import proofs.«216131_g62878321214323_cont_9to1c4b_752_23_alg».proof.Proof.Gen.KernelIdeal.Skeleton

set_option maxRecDepth 65536
set_option warn.classDefReducibility false

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

@[sl_loop] def li_t1 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t1_loop.lb k0_t1_loop.ub k0_t1_loop.st k0_t1_ok z (k0_t1_body (F := F) i arg2 harg2 arg3 harg3 arg4 harg4 arg5 harg5 arg6 harg6 arg7 arg8 v1386_r0) where
  inv := invG d ((i 0).castLE hcore0) ((i 1).castLE hsub0) arg4 f k0_off3 k0_off3_inb z
  step k acc := trip_sound d ((i 0).castLE hcore0) ((i 1).castLE hsub0) arg4 f k0_off3 k0_off3_inb z k acc

@[sl_loop] def li_t2 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t2_loop.lb k0_t2_loop.ub k0_t2_loop.st k0_t2_ok z (k0_t2_body (F := F) i arg2 harg2 arg3 harg3 arg4 harg4 arg5 harg5 arg6 harg6 arg7 arg8 v1386_r0) where
  inv := invG d ((i 0).castLE hcore0) ((i 1).castLE hsub0) arg4 f k0_off4 k0_off4_inb z
  step k acc := trip_sound d ((i 0).castLE hcore0) ((i 1).castLE hsub0) arg4 f k0_off4 k0_off4_inb z k acc

@[sl_loop] def li_t3 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t3_loop.lb k0_t3_loop.ub k0_t3_loop.st k0_t3_ok z (k0_t3_body (F := F) i arg2 harg2 arg3 harg3 arg4 harg4 arg5 harg5 arg6 harg6 arg7 arg8 v1386_r0) where
  inv := invG d ((i 0).castLE hcore0) ((i 1).castLE hsub0) arg4 f k0_off5 k0_off5_inb z
  step k acc := trip_sound d ((i 0).castLE hcore0) ((i 1).castLE hsub0) arg4 f k0_off5 k0_off5_inb z k acc

@[sl_loop] def li_t4 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v61_4 : FVec F S16 .f32) (v61_5 : FVec F S16 .f32) (v61_6 : FVec F S16 .f32) (v61_7 : FVec F S16 .f32) (v62 : FVec F S16 .f32) (v63 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t4_loop.lb k0_t4_loop.ub k0_t4_loop.st k0_t4_ok z (k0_t4_body (F := F) i arg2 harg2 arg3 harg3 arg4 harg4 arg5 harg5 arg6 harg6 arg7 arg8 v1386_r0 v61_4 v61_5 v61_6 v61_7 v62 v63) where
  inv := invG d ((i 0).castLE hcore0) ((i 1).castLE hsub0) arg4 f k0_off6 k0_off6_inb z
  step k acc := trip_sound d ((i 0).castLE hcore0) ((i 1).castLE hsub0) arg4 f k0_off6 k0_off6_inb z k acc

@[sl_loop] def li_t5 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v94 : FVec F S16 .f32) (v95 : FVec F S16 .f32) (v96 : FVec F S16 .f32) (v97 : FVec F S16 .f32) (v98 : FVec F S16 .f32) (v99 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t5_loop.lb k0_t5_loop.ub k0_t5_loop.st k0_t5_ok z (k0_t5_body (F := F) i arg2 harg2 arg3 harg3 arg4 harg4 arg5 harg5 arg6 harg6 arg7 arg8 v1386_r0 v94 v95 v96 v97 v98 v99) where
  inv := invG d ((i 0).castLE hcore0) ((i 1).castLE hsub0) arg4 f k0_off7 k0_off7_inb z
  step k acc := trip_sound d ((i 0).castLE hcore0) ((i 1).castLE hsub0) arg4 f k0_off7 k0_off7_inb z k acc

@[sl_loop] def li_t6 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v94 : FVec F S16 .f32) (v95 : FVec F S16 .f32) (v96 : FVec F S16 .f32) (v97 : FVec F S16 .f32) (v98 : FVec F S16 .f32) (v99 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t6_loop.lb k0_t6_loop.ub k0_t6_loop.st k0_t6_ok z (k0_t6_body (F := F) i arg2 harg2 arg3 harg3 arg4 harg4 arg5 harg5 arg6 harg6 arg7 arg8 v1386_r0 v94 v95 v96 v97 v98 v99) where
  inv := invG d ((i 0).castLE hcore0) ((i 1).castLE hsub0) arg4 f k0_off8 k0_off8_inb z
  step k acc := trip_sound d ((i 0).castLE hcore0) ((i 1).castLE hsub0) arg4 f k0_off8 k0_off8_inb z k acc

@[sl_loop] def li_t7 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t7_loop.lb k0_t7_loop.ub k0_t7_loop.st k0_t7_ok z (k0_t7_body (F := F) i arg2 harg2 arg3 harg3 arg4 harg4 arg5 harg5 arg6 harg6 arg7 arg8 v1386_r0) where
  inv := invG d ((i 0).castLE hcore0) ((i 1).castLE hsub0) arg4 f k0_off9 k0_off9_inb z
  step k acc := trip_sound d ((i 0).castLE hcore0) ((i 1).castLE hsub0) arg4 f k0_off9 k0_off9_inb z k acc

@[sl_loop] def li_t8 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t8_loop.lb k0_t8_loop.ub k0_t8_loop.st k0_t8_ok z (k0_t8_body (F := F) i arg2 harg2 arg3 harg3 arg4 harg4 arg5 harg5 arg6 harg6 arg7 arg8 v1386_r0) where
  inv := invG d ((i 0).castLE hcore0) ((i 1).castLE hsub0) arg4 f k0_off10 k0_off10_inb z
  step k acc := trip_sound d ((i 0).castLE hcore0) ((i 1).castLE hsub0) arg4 f k0_off10 k0_off10_inb z k acc

@[sl_loop] def li_t9 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v2 : BitVec 32) (v166_4 : FVec F S16 .f32) (v166_5 : FVec F S16 .f32) (v166_6 : FVec F S16 .f32) (v166_7 : FVec F S16 .f32) (v167 : FVec F S16 .f32) (v168 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t9_loop.lb k0_t9_loop.ub k0_t9_loop.st k0_t9_ok z (k0_t9_body (F := F) i arg2 harg2 arg3 harg3 arg4 harg4 arg5 harg5 arg6 harg6 arg7 arg8 v1386_r0 v2 v166_4 v166_5 v166_6 v166_7 v167 v168) where
  inv := invG d ((i 0).castLE hcore0) ((i 1).castLE hsub0) arg5 f k0_off11 k0_off11_inb z
  step k acc := trip_sound d ((i 0).castLE hcore0) ((i 1).castLE hsub0) arg5 f k0_off11 k0_off11_inb z k acc

@[sl_loop] def li_t10 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t10_loop.lb k0_t10_loop.ub k0_t10_loop.st k0_t10_ok z (k0_t10_body (F := F) i arg2 harg2 arg3 harg3 arg4 harg4 arg5 harg5 arg6 harg6 arg7 arg8 v1386_r0) where
  inv := invG d ((i 0).castLE hcore0) ((i 1).castLE hsub0) arg5 f k0_off12 k0_off12_inb z
  step k acc := trip_sound d ((i 0).castLE hcore0) ((i 1).castLE hsub0) arg5 f k0_off12 k0_off12_inb z k acc

@[sl_loop] def li_t11 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t11_loop.lb k0_t11_loop.ub k0_t11_loop.st k0_t11_ok z (k0_t11_body (F := F) i arg2 harg2 arg3 harg3 arg4 harg4 arg5 harg5 arg6 harg6 arg7 arg8 v1386_r0) where
  inv := invG d ((i 0).castLE hcore0) ((i 1).castLE hsub0) arg5 f k0_off13 k0_off13_inb z
  step k acc := trip_sound d ((i 0).castLE hcore0) ((i 1).castLE hsub0) arg5 f k0_off13 k0_off13_inb z k acc

@[sl_loop] def li_t12 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v234_4 : FVec F S16 .f32) (v234_5 : FVec F S16 .f32) (v234_6 : FVec F S16 .f32) (v234_7 : FVec F S16 .f32) (v235 : FVec F S16 .f32) (v236 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t12_loop.lb k0_t12_loop.ub k0_t12_loop.st k0_t12_ok z (k0_t12_body (F := F) i arg2 harg2 arg3 harg3 arg4 harg4 arg5 harg5 arg6 harg6 arg7 arg8 v1386_r0 v234_4 v234_5 v234_6 v234_7 v235 v236) where
  inv := invG d ((i 0).castLE hcore0) ((i 1).castLE hsub0) arg5 f k0_off14 k0_off14_inb z
  step k acc := trip_sound d ((i 0).castLE hcore0) ((i 1).castLE hsub0) arg5 f k0_off14 k0_off14_inb z k acc

@[sl_loop] def li_t13 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v267 : FVec F S16 .f32) (v268 : FVec F S16 .f32) (v269 : FVec F S16 .f32) (v270 : FVec F S16 .f32) (v271 : FVec F S16 .f32) (v272 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t13_loop.lb k0_t13_loop.ub k0_t13_loop.st k0_t13_ok z (k0_t13_body (F := F) i arg2 harg2 arg3 harg3 arg4 harg4 arg5 harg5 arg6 harg6 arg7 arg8 v1386_r0 v267 v268 v269 v270 v271 v272) where
  inv := invG d ((i 0).castLE hcore0) ((i 1).castLE hsub0) arg5 f k0_off15 k0_off15_inb z
  step k acc := trip_sound d ((i 0).castLE hcore0) ((i 1).castLE hsub0) arg5 f k0_off15 k0_off15_inb z k acc

@[sl_loop] def li_t14 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v267 : FVec F S16 .f32) (v268 : FVec F S16 .f32) (v269 : FVec F S16 .f32) (v270 : FVec F S16 .f32) (v271 : FVec F S16 .f32) (v272 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t14_loop.lb k0_t14_loop.ub k0_t14_loop.st k0_t14_ok z (k0_t14_body (F := F) i arg2 harg2 arg3 harg3 arg4 harg4 arg5 harg5 arg6 harg6 arg7 arg8 v1386_r0 v267 v268 v269 v270 v271 v272) where
  inv := invG d ((i 0).castLE hcore0) ((i 1).castLE hsub0) arg5 f k0_off16 k0_off16_inb z
  step k acc := trip_sound d ((i 0).castLE hcore0) ((i 1).castLE hsub0) arg5 f k0_off16 k0_off16_inb z k acc

@[sl_loop] def li_t15 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t15_loop.lb k0_t15_loop.ub k0_t15_loop.st k0_t15_ok z (k0_t15_body (F := F) i arg2 harg2 arg3 harg3 arg4 harg4 arg5 harg5 arg6 harg6 arg7 arg8 v1386_r0) where
  inv := invG d ((i 0).castLE hcore0) ((i 1).castLE hsub0) arg5 f k0_off17 k0_off17_inb z
  step k acc := trip_sound d ((i 0).castLE hcore0) ((i 1).castLE hsub0) arg5 f k0_off17 k0_off17_inb z k acc

@[sl_loop] def li_t16 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t16_loop.lb k0_t16_loop.ub k0_t16_loop.st k0_t16_ok z (k0_t16_body (F := F) i arg2 harg2 arg3 harg3 arg4 harg4 arg5 harg5 arg6 harg6 arg7 arg8 v1386_r0) where
  inv := invG d ((i 0).castLE hcore0) ((i 1).castLE hsub0) arg5 f k0_off18 k0_off18_inb z
  step k acc := trip_sound d ((i 0).castLE hcore0) ((i 1).castLE hsub0) arg5 f k0_off18 k0_off18_inb z k acc

@[sl_loop] def li_t17 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v2 : BitVec 32) (v339_4 : FVec F S16 .f32) (v339_5 : FVec F S16 .f32) (v339_6 : FVec F S16 .f32) (v339_7 : FVec F S16 .f32) (v340 : FVec F S16 .f32) (v341 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t17_loop.lb k0_t17_loop.ub k0_t17_loop.st k0_t17_ok z (k0_t17_body (F := F) i arg2 harg2 arg3 harg3 arg4 harg4 arg5 harg5 arg6 harg6 arg7 arg8 v1386_r0 v2 v339_4 v339_5 v339_6 v339_7 v340 v341) where
  inv := invG d ((i 0).castLE hcore0) ((i 1).castLE hsub0) arg4 f k0_off19 k0_off19_inb z
  step k acc := trip_sound d ((i 0).castLE hcore0) ((i 1).castLE hsub0) arg4 f k0_off19 k0_off19_inb z k acc

@[sl_loop] def li_t18 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t18_loop.lb k0_t18_loop.ub k0_t18_loop.st k0_t18_ok z (k0_t18_body (F := F) i arg2 harg2 arg3 harg3 arg4 harg4 arg5 harg5 arg6 harg6 arg7 arg8 v1386_r0) where
  inv := invG d ((i 0).castLE hcore0) ((i 1).castLE hsub0) arg4 f k0_off20 k0_off20_inb z
  step k acc := trip_sound d ((i 0).castLE hcore0) ((i 1).castLE hsub0) arg4 f k0_off20 k0_off20_inb z k acc

@[sl_loop] def li_t19 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t19_loop.lb k0_t19_loop.ub k0_t19_loop.st k0_t19_ok z (k0_t19_body (F := F) i arg2 harg2 arg3 harg3 arg4 harg4 arg5 harg5 arg6 harg6 arg7 arg8 v1386_r0) where
  inv := invG d ((i 0).castLE hcore0) ((i 1).castLE hsub0) arg4 f k0_off21 k0_off21_inb z
  step k acc := trip_sound d ((i 0).castLE hcore0) ((i 1).castLE hsub0) arg4 f k0_off21 k0_off21_inb z k acc

@[sl_loop] def li_t20 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v407_4 : FVec F S16 .f32) (v407_5 : FVec F S16 .f32) (v407_6 : FVec F S16 .f32) (v407_7 : FVec F S16 .f32) (v408 : FVec F S16 .f32) (v409 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t20_loop.lb k0_t20_loop.ub k0_t20_loop.st k0_t20_ok z (k0_t20_body (F := F) i arg2 harg2 arg3 harg3 arg4 harg4 arg5 harg5 arg6 harg6 arg7 arg8 v1386_r0 v407_4 v407_5 v407_6 v407_7 v408 v409) where
  inv := invG d ((i 0).castLE hcore0) ((i 1).castLE hsub0) arg4 f k0_off22 k0_off22_inb z
  step k acc := trip_sound d ((i 0).castLE hcore0) ((i 1).castLE hsub0) arg4 f k0_off22 k0_off22_inb z k acc

@[sl_loop] def li_t21 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v440 : FVec F S16 .f32) (v441 : FVec F S16 .f32) (v442 : FVec F S16 .f32) (v443 : FVec F S16 .f32) (v444 : FVec F S16 .f32) (v445 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t21_loop.lb k0_t21_loop.ub k0_t21_loop.st k0_t21_ok z (k0_t21_body (F := F) i arg2 harg2 arg3 harg3 arg4 harg4 arg5 harg5 arg6 harg6 arg7 arg8 v1386_r0 v440 v441 v442 v443 v444 v445) where
  inv := invG d ((i 0).castLE hcore0) ((i 1).castLE hsub0) arg4 f k0_off23 k0_off23_inb z
  step k acc := trip_sound d ((i 0).castLE hcore0) ((i 1).castLE hsub0) arg4 f k0_off23 k0_off23_inb z k acc

@[sl_loop] def li_t22 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v440 : FVec F S16 .f32) (v441 : FVec F S16 .f32) (v442 : FVec F S16 .f32) (v443 : FVec F S16 .f32) (v444 : FVec F S16 .f32) (v445 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t22_loop.lb k0_t22_loop.ub k0_t22_loop.st k0_t22_ok z (k0_t22_body (F := F) i arg2 harg2 arg3 harg3 arg4 harg4 arg5 harg5 arg6 harg6 arg7 arg8 v1386_r0 v440 v441 v442 v443 v444 v445) where
  inv := invG d ((i 0).castLE hcore0) ((i 1).castLE hsub0) arg4 f k0_off24 k0_off24_inb z
  step k acc := trip_sound d ((i 0).castLE hcore0) ((i 1).castLE hsub0) arg4 f k0_off24 k0_off24_inb z k acc

@[sl_loop] def li_t23 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t23_loop.lb k0_t23_loop.ub k0_t23_loop.st k0_t23_ok z (k0_t23_body (F := F) i arg2 harg2 arg3 harg3 arg4 harg4 arg5 harg5 arg6 harg6 arg7 arg8 v1386_r0) where
  inv := invG d ((i 0).castLE hcore0) ((i 1).castLE hsub0) arg4 f k0_off25 k0_off25_inb z
  step k acc := trip_sound d ((i 0).castLE hcore0) ((i 1).castLE hsub0) arg4 f k0_off25 k0_off25_inb z k acc

@[sl_loop] def li_t24 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t24_loop.lb k0_t24_loop.ub k0_t24_loop.st k0_t24_ok z (k0_t24_body (F := F) i arg2 harg2 arg3 harg3 arg4 harg4 arg5 harg5 arg6 harg6 arg7 arg8 v1386_r0) where
  inv := invG d ((i 0).castLE hcore0) ((i 1).castLE hsub0) arg4 f k0_off26 k0_off26_inb z
  step k acc := trip_sound d ((i 0).castLE hcore0) ((i 1).castLE hsub0) arg4 f k0_off26 k0_off26_inb z k acc

@[sl_loop] def li_t25 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v2 : BitVec 32) (v512_4 : FVec F S16 .f32) (v512_5 : FVec F S16 .f32) (v512_6 : FVec F S16 .f32) (v512_7 : FVec F S16 .f32) (v513 : FVec F S16 .f32) (v514 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t25_loop.lb k0_t25_loop.ub k0_t25_loop.st k0_t25_ok z (k0_t25_body (F := F) i arg2 harg2 arg3 harg3 arg4 harg4 arg5 harg5 arg6 harg6 arg7 arg8 v1386_r0 v2 v512_4 v512_5 v512_6 v512_7 v513 v514) where
  inv := invG d ((i 0).castLE hcore0) ((i 1).castLE hsub0) arg5 f k0_off27 k0_off27_inb z
  step k acc := trip_sound d ((i 0).castLE hcore0) ((i 1).castLE hsub0) arg5 f k0_off27 k0_off27_inb z k acc

@[sl_loop] def li_t26 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t26_loop.lb k0_t26_loop.ub k0_t26_loop.st k0_t26_ok z (k0_t26_body (F := F) i arg2 harg2 arg3 harg3 arg4 harg4 arg5 harg5 arg6 harg6 arg7 arg8 v1386_r0) where
  inv := invG d ((i 0).castLE hcore0) ((i 1).castLE hsub0) arg5 f k0_off28 k0_off28_inb z
  step k acc := trip_sound d ((i 0).castLE hcore0) ((i 1).castLE hsub0) arg5 f k0_off28 k0_off28_inb z k acc

@[sl_loop] def li_t27 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t27_loop.lb k0_t27_loop.ub k0_t27_loop.st k0_t27_ok z (k0_t27_body (F := F) i arg2 harg2 arg3 harg3 arg4 harg4 arg5 harg5 arg6 harg6 arg7 arg8 v1386_r0) where
  inv := invG d ((i 0).castLE hcore0) ((i 1).castLE hsub0) arg5 f k0_off29 k0_off29_inb z
  step k acc := trip_sound d ((i 0).castLE hcore0) ((i 1).castLE hsub0) arg5 f k0_off29 k0_off29_inb z k acc

@[sl_loop] def li_t28 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v580_4 : FVec F S16 .f32) (v580_5 : FVec F S16 .f32) (v580_6 : FVec F S16 .f32) (v580_7 : FVec F S16 .f32) (v581 : FVec F S16 .f32) (v582 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t28_loop.lb k0_t28_loop.ub k0_t28_loop.st k0_t28_ok z (k0_t28_body (F := F) i arg2 harg2 arg3 harg3 arg4 harg4 arg5 harg5 arg6 harg6 arg7 arg8 v1386_r0 v580_4 v580_5 v580_6 v580_7 v581 v582) where
  inv := invG d ((i 0).castLE hcore0) ((i 1).castLE hsub0) arg5 f k0_off30 k0_off30_inb z
  step k acc := trip_sound d ((i 0).castLE hcore0) ((i 1).castLE hsub0) arg5 f k0_off30 k0_off30_inb z k acc

@[sl_loop] def li_t29 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v613 : FVec F S16 .f32) (v614 : FVec F S16 .f32) (v615 : FVec F S16 .f32) (v616 : FVec F S16 .f32) (v617 : FVec F S16 .f32) (v618 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t29_loop.lb k0_t29_loop.ub k0_t29_loop.st k0_t29_ok z (k0_t29_body (F := F) i arg2 harg2 arg3 harg3 arg4 harg4 arg5 harg5 arg6 harg6 arg7 arg8 v1386_r0 v613 v614 v615 v616 v617 v618) where
  inv := invG d ((i 0).castLE hcore0) ((i 1).castLE hsub0) arg5 f k0_off31 k0_off31_inb z
  step k acc := trip_sound d ((i 0).castLE hcore0) ((i 1).castLE hsub0) arg5 f k0_off31 k0_off31_inb z k acc

@[sl_loop] def li_t30 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v613 : FVec F S16 .f32) (v614 : FVec F S16 .f32) (v615 : FVec F S16 .f32) (v616 : FVec F S16 .f32) (v617 : FVec F S16 .f32) (v618 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t30_loop.lb k0_t30_loop.ub k0_t30_loop.st k0_t30_ok z (k0_t30_body (F := F) i arg2 harg2 arg3 harg3 arg4 harg4 arg5 harg5 arg6 harg6 arg7 arg8 v1386_r0 v613 v614 v615 v616 v617 v618) where
  inv := invG d ((i 0).castLE hcore0) ((i 1).castLE hsub0) arg5 f k0_off32 k0_off32_inb z
  step k acc := trip_sound d ((i 0).castLE hcore0) ((i 1).castLE hsub0) arg5 f k0_off32 k0_off32_inb z k acc

@[sl_loop] def li_t31 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t31_loop.lb k0_t31_loop.ub k0_t31_loop.st k0_t31_ok z (k0_t31_body (F := F) i arg2 harg2 arg3 harg3 arg4 harg4 arg5 harg5 arg6 harg6 arg7 arg8 v1386_r0) where
  inv := invG d ((i 0).castLE hcore0) ((i 1).castLE hsub0) arg5 f k0_off33 k0_off33_inb z
  step k acc := trip_sound d ((i 0).castLE hcore0) ((i 1).castLE hsub0) arg5 f k0_off33 k0_off33_inb z k acc

@[sl_loop] def li_t32 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t32_loop.lb k0_t32_loop.ub k0_t32_loop.st k0_t32_ok z (k0_t32_body (F := F) i arg2 harg2 arg3 harg3 arg4 harg4 arg5 harg5 arg6 harg6 arg7 arg8 v1386_r0) where
  inv := invG d ((i 0).castLE hcore0) ((i 1).castLE hsub0) arg5 f k0_off34 k0_off34_inb z
  step k acc := trip_sound d ((i 0).castLE hcore0) ((i 1).castLE hsub0) arg5 f k0_off34 k0_off34_inb z k acc

@[sl_loop] def li_t33 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v2 : BitVec 32) (v685_4 : FVec F S16 .f32) (v685_5 : FVec F S16 .f32) (v685_6 : FVec F S16 .f32) (v685_7 : FVec F S16 .f32) (v686 : FVec F S16 .f32) (v687 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t33_loop.lb k0_t33_loop.ub k0_t33_loop.st k0_t33_ok z (k0_t33_body (F := F) i arg2 harg2 arg3 harg3 arg4 harg4 arg5 harg5 arg6 harg6 arg7 arg8 v1386_r0 v2 v685_4 v685_5 v685_6 v685_7 v686 v687) where
  inv := invG d ((i 0).castLE hcore0) ((i 1).castLE hsub0) arg4 f k0_off35 k0_off35_inb z
  step k acc := trip_sound d ((i 0).castLE hcore0) ((i 1).castLE hsub0) arg4 f k0_off35 k0_off35_inb z k acc

@[sl_loop] def li_t34 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t34_loop.lb k0_t34_loop.ub k0_t34_loop.st k0_t34_ok z (k0_t34_body (F := F) i arg2 harg2 arg3 harg3 arg4 harg4 arg5 harg5 arg6 harg6 arg7 arg8 v1386_r0) where
  inv := invG d ((i 0).castLE hcore0) ((i 1).castLE hsub0) arg4 f k0_off36 k0_off36_inb z
  step k acc := trip_sound d ((i 0).castLE hcore0) ((i 1).castLE hsub0) arg4 f k0_off36 k0_off36_inb z k acc

@[sl_loop] def li_t35 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t35_loop.lb k0_t35_loop.ub k0_t35_loop.st k0_t35_ok z (k0_t35_body (F := F) i arg2 harg2 arg3 harg3 arg4 harg4 arg5 harg5 arg6 harg6 arg7 arg8 v1386_r0) where
  inv := invG d ((i 0).castLE hcore0) ((i 1).castLE hsub0) arg4 f k0_off37 k0_off37_inb z
  step k acc := trip_sound d ((i 0).castLE hcore0) ((i 1).castLE hsub0) arg4 f k0_off37 k0_off37_inb z k acc

@[sl_loop] def li_t36 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v753_4 : FVec F S16 .f32) (v753_5 : FVec F S16 .f32) (v753_6 : FVec F S16 .f32) (v753_7 : FVec F S16 .f32) (v754 : FVec F S16 .f32) (v755 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t36_loop.lb k0_t36_loop.ub k0_t36_loop.st k0_t36_ok z (k0_t36_body (F := F) i arg2 harg2 arg3 harg3 arg4 harg4 arg5 harg5 arg6 harg6 arg7 arg8 v1386_r0 v753_4 v753_5 v753_6 v753_7 v754 v755) where
  inv := invG d ((i 0).castLE hcore0) ((i 1).castLE hsub0) arg4 f k0_off38 k0_off38_inb z
  step k acc := trip_sound d ((i 0).castLE hcore0) ((i 1).castLE hsub0) arg4 f k0_off38 k0_off38_inb z k acc

@[sl_loop] def li_t37 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v786 : FVec F S16 .f32) (v787 : FVec F S16 .f32) (v788 : FVec F S16 .f32) (v789 : FVec F S16 .f32) (v790 : FVec F S16 .f32) (v791 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t37_loop.lb k0_t37_loop.ub k0_t37_loop.st k0_t37_ok z (k0_t37_body (F := F) i arg2 harg2 arg3 harg3 arg4 harg4 arg5 harg5 arg6 harg6 arg7 arg8 v1386_r0 v786 v787 v788 v789 v790 v791) where
  inv := invG d ((i 0).castLE hcore0) ((i 1).castLE hsub0) arg4 f k0_off39 k0_off39_inb z
  step k acc := trip_sound d ((i 0).castLE hcore0) ((i 1).castLE hsub0) arg4 f k0_off39 k0_off39_inb z k acc

@[sl_loop] def li_t38 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v786 : FVec F S16 .f32) (v787 : FVec F S16 .f32) (v788 : FVec F S16 .f32) (v789 : FVec F S16 .f32) (v790 : FVec F S16 .f32) (v791 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t38_loop.lb k0_t38_loop.ub k0_t38_loop.st k0_t38_ok z (k0_t38_body (F := F) i arg2 harg2 arg3 harg3 arg4 harg4 arg5 harg5 arg6 harg6 arg7 arg8 v1386_r0 v786 v787 v788 v789 v790 v791) where
  inv := invG d ((i 0).castLE hcore0) ((i 1).castLE hsub0) arg4 f k0_off40 k0_off40_inb z
  step k acc := trip_sound d ((i 0).castLE hcore0) ((i 1).castLE hsub0) arg4 f k0_off40 k0_off40_inb z k acc

@[sl_loop] def li_t39 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t39_loop.lb k0_t39_loop.ub k0_t39_loop.st k0_t39_ok z (k0_t39_body (F := F) i arg2 harg2 arg3 harg3 arg4 harg4 arg5 harg5 arg6 harg6 arg7 arg8 v1386_r0) where
  inv := invG d ((i 0).castLE hcore0) ((i 1).castLE hsub0) arg4 f k0_off41 k0_off41_inb z
  step k acc := trip_sound d ((i 0).castLE hcore0) ((i 1).castLE hsub0) arg4 f k0_off41 k0_off41_inb z k acc

@[sl_loop] def li_t40 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t40_loop.lb k0_t40_loop.ub k0_t40_loop.st k0_t40_ok z (k0_t40_body (F := F) i arg2 harg2 arg3 harg3 arg4 harg4 arg5 harg5 arg6 harg6 arg7 arg8 v1386_r0) where
  inv := invG d ((i 0).castLE hcore0) ((i 1).castLE hsub0) arg4 f k0_off42 k0_off42_inb z
  step k acc := trip_sound d ((i 0).castLE hcore0) ((i 1).castLE hsub0) arg4 f k0_off42 k0_off42_inb z k acc

@[sl_loop] def li_t41 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v2 : BitVec 32) (v858_4 : FVec F S16 .f32) (v858_5 : FVec F S16 .f32) (v858_6 : FVec F S16 .f32) (v858_7 : FVec F S16 .f32) (v859 : FVec F S16 .f32) (v860 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t41_loop.lb k0_t41_loop.ub k0_t41_loop.st k0_t41_ok z (k0_t41_body (F := F) i arg2 harg2 arg3 harg3 arg4 harg4 arg5 harg5 arg6 harg6 arg7 arg8 v1386_r0 v2 v858_4 v858_5 v858_6 v858_7 v859 v860) where
  inv := invG d ((i 0).castLE hcore0) ((i 1).castLE hsub0) arg5 f k0_off43 k0_off43_inb z
  step k acc := trip_sound d ((i 0).castLE hcore0) ((i 1).castLE hsub0) arg5 f k0_off43 k0_off43_inb z k acc

@[sl_loop] def li_t42 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t42_loop.lb k0_t42_loop.ub k0_t42_loop.st k0_t42_ok z (k0_t42_body (F := F) i arg2 harg2 arg3 harg3 arg4 harg4 arg5 harg5 arg6 harg6 arg7 arg8 v1386_r0) where
  inv := invG d ((i 0).castLE hcore0) ((i 1).castLE hsub0) arg5 f k0_off44 k0_off44_inb z
  step k acc := trip_sound d ((i 0).castLE hcore0) ((i 1).castLE hsub0) arg5 f k0_off44 k0_off44_inb z k acc

@[sl_loop] def li_t43 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t43_loop.lb k0_t43_loop.ub k0_t43_loop.st k0_t43_ok z (k0_t43_body (F := F) i arg2 harg2 arg3 harg3 arg4 harg4 arg5 harg5 arg6 harg6 arg7 arg8 v1386_r0) where
  inv := invG d ((i 0).castLE hcore0) ((i 1).castLE hsub0) arg5 f k0_off45 k0_off45_inb z
  step k acc := trip_sound d ((i 0).castLE hcore0) ((i 1).castLE hsub0) arg5 f k0_off45 k0_off45_inb z k acc

@[sl_loop] def li_t44 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v926_4 : FVec F S16 .f32) (v926_5 : FVec F S16 .f32) (v926_6 : FVec F S16 .f32) (v926_7 : FVec F S16 .f32) (v927 : FVec F S16 .f32) (v928 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t44_loop.lb k0_t44_loop.ub k0_t44_loop.st k0_t44_ok z (k0_t44_body (F := F) i arg2 harg2 arg3 harg3 arg4 harg4 arg5 harg5 arg6 harg6 arg7 arg8 v1386_r0 v926_4 v926_5 v926_6 v926_7 v927 v928) where
  inv := invG d ((i 0).castLE hcore0) ((i 1).castLE hsub0) arg5 f k0_off46 k0_off46_inb z
  step k acc := trip_sound d ((i 0).castLE hcore0) ((i 1).castLE hsub0) arg5 f k0_off46 k0_off46_inb z k acc

@[sl_loop] def li_t45 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v959 : FVec F S16 .f32) (v960 : FVec F S16 .f32) (v961 : FVec F S16 .f32) (v962 : FVec F S16 .f32) (v963 : FVec F S16 .f32) (v964 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t45_loop.lb k0_t45_loop.ub k0_t45_loop.st k0_t45_ok z (k0_t45_body (F := F) i arg2 harg2 arg3 harg3 arg4 harg4 arg5 harg5 arg6 harg6 arg7 arg8 v1386_r0 v959 v960 v961 v962 v963 v964) where
  inv := invG d ((i 0).castLE hcore0) ((i 1).castLE hsub0) arg5 f k0_off47 k0_off47_inb z
  step k acc := trip_sound d ((i 0).castLE hcore0) ((i 1).castLE hsub0) arg5 f k0_off47 k0_off47_inb z k acc

@[sl_loop] def li_t46 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v959 : FVec F S16 .f32) (v960 : FVec F S16 .f32) (v961 : FVec F S16 .f32) (v962 : FVec F S16 .f32) (v963 : FVec F S16 .f32) (v964 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t46_loop.lb k0_t46_loop.ub k0_t46_loop.st k0_t46_ok z (k0_t46_body (F := F) i arg2 harg2 arg3 harg3 arg4 harg4 arg5 harg5 arg6 harg6 arg7 arg8 v1386_r0 v959 v960 v961 v962 v963 v964) where
  inv := invG d ((i 0).castLE hcore0) ((i 1).castLE hsub0) arg5 f k0_off48 k0_off48_inb z
  step k acc := trip_sound d ((i 0).castLE hcore0) ((i 1).castLE hsub0) arg5 f k0_off48 k0_off48_inb z k acc

@[sl_loop] def li_t47 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t47_loop.lb k0_t47_loop.ub k0_t47_loop.st k0_t47_ok z (k0_t47_body (F := F) i arg2 harg2 arg3 harg3 arg4 harg4 arg5 harg5 arg6 harg6 arg7 arg8 v1386_r0) where
  inv := invG d ((i 0).castLE hcore0) ((i 1).castLE hsub0) arg5 f k0_off49 k0_off49_inb z
  step k acc := trip_sound d ((i 0).castLE hcore0) ((i 1).castLE hsub0) arg5 f k0_off49 k0_off49_inb z k acc

@[sl_loop] def li_t48 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t48_loop.lb k0_t48_loop.ub k0_t48_loop.st k0_t48_ok z (k0_t48_body (F := F) i arg2 harg2 arg3 harg3 arg4 harg4 arg5 harg5 arg6 harg6 arg7 arg8 v1386_r0) where
  inv := invG d ((i 0).castLE hcore0) ((i 1).castLE hsub0) arg5 f k0_off50 k0_off50_inb z
  step k acc := trip_sound d ((i 0).castLE hcore0) ((i 1).castLE hsub0) arg5 f k0_off50 k0_off50_inb z k acc

@[sl_loop] def li_t49 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v2 : BitVec 32) (v1031_4 : FVec F S16 .f32) (v1031_5 : FVec F S16 .f32) (v1031_6 : FVec F S16 .f32) (v1031_7 : FVec F S16 .f32) (v1032 : FVec F S16 .f32) (v1033 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t49_loop.lb k0_t49_loop.ub k0_t49_loop.st k0_t49_ok z (k0_t49_body (F := F) i arg2 harg2 arg3 harg3 arg4 harg4 arg5 harg5 arg6 harg6 arg7 arg8 v1386_r0 v2 v1031_4 v1031_5 v1031_6 v1031_7 v1032 v1033) where
  inv := invG d ((i 0).castLE hcore0) ((i 1).castLE hsub0) arg4 f k0_off51 k0_off51_inb z
  step k acc := trip_sound d ((i 0).castLE hcore0) ((i 1).castLE hsub0) arg4 f k0_off51 k0_off51_inb z k acc

@[sl_loop] def li_t50 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t50_loop.lb k0_t50_loop.ub k0_t50_loop.st k0_t50_ok z (k0_t50_body (F := F) i arg2 harg2 arg3 harg3 arg4 harg4 arg5 harg5 arg6 harg6 arg7 arg8 v1386_r0) where
  inv := invG d ((i 0).castLE hcore0) ((i 1).castLE hsub0) arg4 f k0_off52 k0_off52_inb z
  step k acc := trip_sound d ((i 0).castLE hcore0) ((i 1).castLE hsub0) arg4 f k0_off52 k0_off52_inb z k acc

@[sl_loop] def li_t51 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t51_loop.lb k0_t51_loop.ub k0_t51_loop.st k0_t51_ok z (k0_t51_body (F := F) i arg2 harg2 arg3 harg3 arg4 harg4 arg5 harg5 arg6 harg6 arg7 arg8 v1386_r0) where
  inv := invG d ((i 0).castLE hcore0) ((i 1).castLE hsub0) arg4 f k0_off53 k0_off53_inb z
  step k acc := trip_sound d ((i 0).castLE hcore0) ((i 1).castLE hsub0) arg4 f k0_off53 k0_off53_inb z k acc

@[sl_loop] def li_t52 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v1099_4 : FVec F S16 .f32) (v1099_5 : FVec F S16 .f32) (v1099_6 : FVec F S16 .f32) (v1099_7 : FVec F S16 .f32) (v1100 : FVec F S16 .f32) (v1101 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t52_loop.lb k0_t52_loop.ub k0_t52_loop.st k0_t52_ok z (k0_t52_body (F := F) i arg2 harg2 arg3 harg3 arg4 harg4 arg5 harg5 arg6 harg6 arg7 arg8 v1386_r0 v1099_4 v1099_5 v1099_6 v1099_7 v1100 v1101) where
  inv := invG d ((i 0).castLE hcore0) ((i 1).castLE hsub0) arg4 f k0_off54 k0_off54_inb z
  step k acc := trip_sound d ((i 0).castLE hcore0) ((i 1).castLE hsub0) arg4 f k0_off54 k0_off54_inb z k acc

@[sl_loop] def li_t53 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v1132 : FVec F S16 .f32) (v1133 : FVec F S16 .f32) (v1134 : FVec F S16 .f32) (v1135 : FVec F S16 .f32) (v1136 : FVec F S16 .f32) (v1137 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t53_loop.lb k0_t53_loop.ub k0_t53_loop.st k0_t53_ok z (k0_t53_body (F := F) i arg2 harg2 arg3 harg3 arg4 harg4 arg5 harg5 arg6 harg6 arg7 arg8 v1386_r0 v1132 v1133 v1134 v1135 v1136 v1137) where
  inv := invG d ((i 0).castLE hcore0) ((i 1).castLE hsub0) arg4 f k0_off55 k0_off55_inb z
  step k acc := trip_sound d ((i 0).castLE hcore0) ((i 1).castLE hsub0) arg4 f k0_off55 k0_off55_inb z k acc

@[sl_loop] def li_t54 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v1132 : FVec F S16 .f32) (v1133 : FVec F S16 .f32) (v1134 : FVec F S16 .f32) (v1135 : FVec F S16 .f32) (v1136 : FVec F S16 .f32) (v1137 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t54_loop.lb k0_t54_loop.ub k0_t54_loop.st k0_t54_ok z (k0_t54_body (F := F) i arg2 harg2 arg3 harg3 arg4 harg4 arg5 harg5 arg6 harg6 arg7 arg8 v1386_r0 v1132 v1133 v1134 v1135 v1136 v1137) where
  inv := invG d ((i 0).castLE hcore0) ((i 1).castLE hsub0) arg4 f k0_off56 k0_off56_inb z
  step k acc := trip_sound d ((i 0).castLE hcore0) ((i 1).castLE hsub0) arg4 f k0_off56 k0_off56_inb z k acc

@[sl_loop] def li_t55 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t55_loop.lb k0_t55_loop.ub k0_t55_loop.st k0_t55_ok z (k0_t55_body (F := F) i arg2 harg2 arg3 harg3 arg4 harg4 arg5 harg5 arg6 harg6 arg7 arg8 v1386_r0) where
  inv := invG d ((i 0).castLE hcore0) ((i 1).castLE hsub0) arg4 f k0_off57 k0_off57_inb z
  step k acc := trip_sound d ((i 0).castLE hcore0) ((i 1).castLE hsub0) arg4 f k0_off57 k0_off57_inb z k acc

@[sl_loop] def li_t56 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t56_loop.lb k0_t56_loop.ub k0_t56_loop.st k0_t56_ok z (k0_t56_body (F := F) i arg2 harg2 arg3 harg3 arg4 harg4 arg5 harg5 arg6 harg6 arg7 arg8 v1386_r0) where
  inv := invG d ((i 0).castLE hcore0) ((i 1).castLE hsub0) arg4 f k0_off58 k0_off58_inb z
  step k acc := trip_sound d ((i 0).castLE hcore0) ((i 1).castLE hsub0) arg4 f k0_off58 k0_off58_inb z k acc

@[sl_loop] def li_t57 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v1204_4 : FVec F S16 .f32) (v1204_5 : FVec F S16 .f32) (v1204_6 : FVec F S16 .f32) (v1204_7 : FVec F S16 .f32) (v1205 : FVec F S16 .f32) (v1206 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t57_loop.lb k0_t57_loop.ub k0_t57_loop.st k0_t57_ok z (k0_t57_body (F := F) i arg2 harg2 arg3 harg3 arg4 harg4 arg5 harg5 arg6 harg6 arg7 arg8 v1386_r0 v1204_4 v1204_5 v1204_6 v1204_7 v1205 v1206) where
  inv := invG d ((i 0).castLE hcore0) ((i 1).castLE hsub0) arg5 f k0_off59 k0_off59_inb z
  step k acc := trip_sound d ((i 0).castLE hcore0) ((i 1).castLE hsub0) arg5 f k0_off59 k0_off59_inb z k acc

@[sl_loop] def li_t58 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v1239 : FVec F S16 .f32) (v1240 : FVec F S16 .f32) (v1241 : FVec F S16 .f32) (cst_782 : F .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t58_loop.lb k0_t58_loop.ub k0_t58_loop.st k0_t58_ok z (k0_t58_body (F := F) i arg2 harg2 arg3 harg3 arg4 harg4 arg5 harg5 arg6 harg6 arg7 arg8 v1386_r0 v1239 v1240 v1241 cst_782) where
  inv := invG d ((i 0).castLE hcore0) ((i 1).castLE hsub0) arg5 f k0_off60 k0_off60_inb z
  step k acc := trip_sound d ((i 0).castLE hcore0) ((i 1).castLE hsub0) arg5 f k0_off60 k0_off60_inb z k acc

@[sl_loop] def li_t59 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v1239 : FVec F S16 .f32) (v1240 : FVec F S16 .f32) (v1241 : FVec F S16 .f32) (cst_782 : F .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t59_loop.lb k0_t59_loop.ub k0_t59_loop.st k0_t59_ok z (k0_t59_body (F := F) i arg2 harg2 arg3 harg3 arg4 harg4 arg5 harg5 arg6 harg6 arg7 arg8 v1386_r0 v1239 v1240 v1241 cst_782) where
  inv := invG d ((i 0).castLE hcore0) ((i 1).castLE hsub0) arg5 f k0_off61 k0_off61_inb z
  step k acc := trip_sound d ((i 0).castLE hcore0) ((i 1).castLE hsub0) arg5 f k0_off61 k0_off61_inb z k acc

@[sl_loop] def li_t60 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v1276 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t60_loop.lb k0_t60_loop.ub k0_t60_loop.st k0_t60_ok z (k0_t60_body (F := F) i arg2 harg2 arg3 harg3 arg4 harg4 arg5 harg5 arg6 harg6 arg7 arg8 v1386_r0 v1276) where
  inv := invG d ((i 0).castLE hcore0) ((i 1).castLE hsub0) arg5 f k0_off62 k0_off62_inb z
  step k acc := trip_sound d ((i 0).castLE hcore0) ((i 1).castLE hsub0) arg5 f k0_off62 k0_off62_inb z k acc

@[sl_loop] def li_t61 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v1302 : FVec F S16 .f32) (v1303 : FVec F S16 .f32) (v1304 : FVec F S16 .f32) (v1305 : FVec F S16 .f32) (v1306 : FVec F S16 .f32) (v1307 : FVec F S16 .f32) (v1308 : FVec F S16 .f32) (v1309 : FVec F S16 .f32) (c0_i32_826 : BitVec 32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t61_loop.lb k0_t61_loop.ub k0_t61_loop.st k0_t61_ok z (k0_t61_body (F := F) i arg2 harg2 arg3 harg3 arg4 harg4 arg5 harg5 arg6 harg6 arg7 arg8 v1386_r0 v1302 v1303 v1304 v1305 v1306 v1307 v1308 v1309 c0_i32_826) where
  inv := invG d ((i 0).castLE hcore0) ((i 1).castLE hsub0) arg5 f k0_off63 k0_off63_inb z
  step k acc := trip_sound d ((i 0).castLE hcore0) ((i 1).castLE hsub0) arg5 f k0_off63 k0_off63_inb z k acc

@[sl_loop] def li_t62 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v1302 : FVec F S16 .f32) (v1303 : FVec F S16 .f32) (v1304 : FVec F S16 .f32) (v1305 : FVec F S16 .f32) (v1306 : FVec F S16 .f32) (v1307 : FVec F S16 .f32) (v1308 : FVec F S16 .f32) (v1309 : FVec F S16 .f32) (c0_i32_826 : BitVec 32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t62_loop.lb k0_t62_loop.ub k0_t62_loop.st k0_t62_ok z (k0_t62_body (F := F) i arg2 harg2 arg3 harg3 arg4 harg4 arg5 harg5 arg6 harg6 arg7 arg8 v1386_r0 v1302 v1303 v1304 v1305 v1306 v1307 v1308 v1309 c0_i32_826) where
  inv := invG d ((i 0).castLE hcore0) ((i 1).castLE hsub0) arg5 f k0_off64 k0_off64_inb z
  step k acc := trip_sound d ((i 0).castLE hcore0) ((i 1).castLE hsub0) arg5 f k0_off64 k0_off64_inb z k acc

@[sl_loop] def li_t63 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v1344 : FVec F S16 .f32) (v1345 : FVec F S16 .f32) (v1346 : FVec F S16 .f32) (cst_847 : F .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t63_loop.lb k0_t63_loop.ub k0_t63_loop.st k0_t63_ok z (k0_t63_body (F := F) i arg2 harg2 arg3 harg3 arg4 harg4 arg5 harg5 arg6 harg6 arg7 arg8 v1386_r0 v1344 v1345 v1346 cst_847) where
  inv := invG d ((i 0).castLE hcore0) ((i 1).castLE hsub0) arg5 f k0_off65 k0_off65_inb z
  step k acc := trip_sound d ((i 0).castLE hcore0) ((i 1).castLE hsub0) arg5 f k0_off65 k0_off65_inb z k acc

@[sl_loop] def li_t64 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v1344 : FVec F S16 .f32) (v1345 : FVec F S16 .f32) (v1346 : FVec F S16 .f32) (cst_847 : F .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t64_loop.lb k0_t64_loop.ub k0_t64_loop.st k0_t64_ok z (k0_t64_body (F := F) i arg2 harg2 arg3 harg3 arg4 harg4 arg5 harg5 arg6 harg6 arg7 arg8 v1386_r0 v1344 v1345 v1346 cst_847) where
  inv := invG d ((i 0).castLE hcore0) ((i 1).castLE hsub0) arg5 f k0_off66 k0_off66_inb z
  step k acc := trip_sound d ((i 0).castLE hcore0) ((i 1).castLE hsub0) arg5 f k0_off66 k0_off66_inb z k acc

end Cert.Proof.KI

end
-- ==== Proof.KI.TileFrame.lean ====
/-
  The tile's body at a symbolic tile: from the tile's read share of the weight matrix, its 64 rows of the result at any
  contents, its own scratch and semaphores, the body runs to its end and hands all of it back.

  The protocol is local: two buffers of eight rows with one semaphore each, copy `ci + 1` issued into the other buffer
  before the wait for copy `ci`, one copy at a time on each semaphore; a third semaphore for the one copy of the 64 summed
  rows out to the result. The 64 row loops go by the one invariant of a row's loop.
-/
import proofs.«216131_g62878321214323_cont_9to1c4b_752_23_alg».proof.Proof.KI.Common
import proofs.«216131_g62878321214323_cont_9to1c4b_752_23_alg».proof.Proof.KI.TileSpec
import proofs.«216131_g62878321214323_cont_9to1c4b_752_23_alg».proof.Proof.KI.TileLoopTable
import proofs.«216131_g62878321214323_cont_9to1c4b_752_23_alg».proof.Proof.Gen.KernelIdeal.Skeleton
import Idealize.ShloMosaic.Lib.Exec
import Idealize.ShloMosaic.Lib.Tactic

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The tile's thread, its memrefs and its cells -/

section Tile

variable (wc : (d : Dev nD) → Buf (Elt F) (wLoc d)) (d : Dev nD) (c : Fin (grid0.bound 0)) (s : Fin (grid0.bound 1))

abbrev cV : Fin τ.nSC := ((coordsV c s) 0).castLE hcore0
abbrev jV : Fin τ.nSub := ((coordsV c s) 1).castLE hsub0
/-- The tile's thread. -/
abbrev thrV : Thread nD τ := V d (cV c s) (jV c s)

abbrev wV : Memref sig .scVector .hbm S16384x4096 .f32 := Memref.whole main_v3_scv
abbrev oV : Memref sig .scVector .hbm S2048x16 .f32 := Memref.whole main_v4_scv
abbrev sA : Memref sig .scVector .vmem S8x4096 .f32 := Memref.whole cc0_scratch0
abbrev sB : Memref sig .scVector .vmem S8x4096 .f32 := Memref.whole cc0_scratch1
abbrev sC : Memref sig .scVector .vmem S64x16 .f32 := Memref.whole cc0_scratch2

abbrev cellA : GSem nD τ sig := (thrV d c s, .dma cc0_scratch3.sem)
abbrev cellB : GSem nD τ sig := (thrV d c s, .dma cc0_scratch4.sem)
abbrev cellC : GSem nD τ sig := (thrV d c s, .dma cc0_scoped0.sem)

omit [FloatOps F] in
/-- The weight matrix as the tile's memref addresses it is the TensorCore's array, -/
theorem pts_w (q : PosShare TreeShare) (f : Buf (Elt F) (wLoc d)) :
    ((wV).view.loc (thrV d c s) ↦{q} f : sProp 𝕄) = wLoc d ↦{q} f := by
  simp only [Memref.view_whole, View.set_whole]
omit [FloatOps F] in
/-- and the tile's rows of the result, as the program slices them, are the TensorCore's array on those rows. -/
theorem pts_o (f : Buf (Elt F) (oLoc d)) :
    ((oSlice c s).view.loc (thrV d c s) ↦[(oSlice c s).view.set]{fullShare} f : sProp 𝕄) = oLoc d ↦[(oSlice c s).view.set]{fullShare} f := rfl
omit [FloatOps F] in
theorem pts_sA (f : Buf (Elt F) ((thrV d c s).loc cc0_scratch0)) :
    ((sA).view.loc (thrV d c s) ↦[(sA).view.set]{fullShare} f : sProp 𝕄) = (thrV d c s).loc cc0_scratch0 ↦{fullShare} f := by
  simp only [Memref.view_whole, View.set_whole]
omit [FloatOps F] in
theorem pts_sB (f : Buf (Elt F) ((thrV d c s).loc cc0_scratch1)) :
    ((sB).view.loc (thrV d c s) ↦[(sB).view.set]{fullShare} f : sProp 𝕄) = (thrV d c s).loc cc0_scratch1 ↦{fullShare} f := by
  simp only [Memref.view_whole, View.set_whole]
omit [FloatOps F] in
theorem pts_sC (f : Buf (Elt F) ((thrV d c s).loc cc0_scratch2)) :
    ((sC).view.loc (thrV d c s) ↦[(sC).view.set]{fullShare} f : sProp 𝕄) = (thrV d c s).loc cc0_scratch2 ↦{fullShare} f := by
  simp only [Memref.view_whole, View.set_whole]

omit [FloatOps F] in
/-- The tile's three DMA semaphores are among its own cells: they, at zero, and the rest. -/
theorem ownSems0_V :
    (ownSems0 (thrV d c s) : sProp 𝕄)
      = iprop(semVal (cellA d c s) 0 ∗ semVal (cellB d c s) 0 ∗ semVal (cellC d c s) 0
          ∗ bigSep ((((ownCells (thrV d c s)).erase (cellA d c s)).erase (cellB d c s)).erase (cellC d c s)) fun g => semVal g 0) := by
  unfold SparseCore.Cfg.ownSems0
  rw [SparseCore.bigSep_erase' ((mem_ownCells (g := cellA d c s)).mpr ⟨rfl, by
      show (SemLoc.dma cc0_scratch3.sem : SemLoc sig).isScoped .scVector = true; decide⟩),
    SparseCore.bigSep_erase' (Finset.mem_erase.mpr ⟨by simp [cellA, cellB]; decide, (mem_ownCells (g := cellB d c s)).mpr ⟨rfl, by
      show (SemLoc.dma cc0_scratch4.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d c s)).mpr ⟨rfl, by show (SemLoc.dma cc0_scoped0.sem : SemLoc sig).isScoped .scVector = true; decide⟩⟩⟩)]

omit [FloatOps F] in
/-- The three scratch buffers are among the tile's own: they, at some contents, and the rest. -/
theorem ownBufs_V :
    (ownBufs (thrV d c s) : sProp 𝕄)
      = iprop((∃ f, (thrV d c s).loc cc0_scratch0 ↦{fullShare} f) ∗ (∃ f, (thrV d c s).loc cc0_scratch1 ↦{fullShare} f)
          ∗ (∃ f, (thrV d c s).loc cc0_scratch2 ↦{fullShare} f)
          ∗ bigSep ((((ownRefs (τ := τ) (.scVector (cV c s) (jV c s))).erase ((Proc.scVector (cV c s) (jV c s)).devRef cc0_scratch0)).erase
              ((Proc.scVector (cV c s) (jV c s)).devRef cc0_scratch1)).erase ((Proc.scVector (cV c s) (jV c s)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV c s) (jV c s))
    (b := (Proc.scVector (cV c s) (jV c s)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV c s) (jV c s)) (b := (Proc.scVector (cV c s) (jV c s)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV c s) (jV c s)) (b := (Proc.scVector (cV c s) (jV c s)).devRef cc0_scratch2) rfl⟩⟩)]

set_option maxRecDepth 65536 in
theorem tile_body_frame (O : CellTallies nD τ sig (HIx 1)) (W : Waits sig (HIx 1)) (hO : ∀ g, O g none = 0) :
    (iprop(levAts (K (F := F)).L (K (F := F)).lev ∗ emp
        ∗ ((wLoc d ↦{wTok c s} wc d) ∗ ∃ g : Buf (Elt F) (oLoc d), oLoc d ↦[(oSlice c s).view.set]{fullShare} g)
        ∗ scopedBufs (thrV d c s) ∗ scopedSems0 (thrV d c s) ∗ owes (thrV d c s) O W) : sProp 𝕄)
      ⊢ wp frame (wpE (defs₀ (F := F)) 𝒱₀ (thrV d c s) none) Set.univ
          (cc0__sc_body (coordsV c s) wV (Memref.isWhole_whole _) oV (Memref.isWhole_whole _) sA (Memref.isWhole_whole _) sB (Memref.isWhole_whole _)
            sC (Memref.isWhole_whole _) cc0_scratch3 cc0_scratch4 cc0_scoped0)
          fun _ => iprop(((wLoc d ↦{wTok c s} wc d) ∗ ∃ g : Buf (Elt F) (oLoc d), oLoc d ↦[(oSlice c s).view.set]{fullShare} g)
            ∗ scopedBufs (thrV d c s) ∗ scopedSems0 (thrV d c s)
            ∗ ∃ W', ⌜∀ p ∈ W', p ∈ W ∨ p.2 = none⌝ ∗ owes (thrV d c s) O W') := by
  simp only [cc0__sc_body_eq_skeleton]; unfold cc0__sc_body_skel
  rw [(K (F := F)).scopedBufs_V facts d (cV c s) (jV c s), SparseCore.Cfg.scopedSems0_V (Val := Elt F) d (cV c s) (jV c s), ownSems0_V, ownBufs_V]
  iintro ⟨#Hlv, -, ⟨Hw, %g, Ho⟩, ⟨⟨%fa, Ha⟩, ⟨%fb, Hb⟩, ⟨%fc, Hc⟩, Hbufs⟩, ⟨HsemA, HsemB, HsemC, Hsems⟩, HO⟩
  ihave Hmw := ((K (F := F)).mayWaits_none (thr := thrV d c s) hO) $$ Hlv
  ihave Hw' := (Entails.of_eq (pts_w (F := F) d c s _ _).symm) $$ Hw
  ihave Ho' := (Entails.of_eq (pts_o (F := F) d c s _).symm) $$ Ho
  ihave Ha' := (Entails.of_eq (pts_sA (F := F) d c s _).symm) $$ Ha
  ihave Hb' := (Entails.of_eq (pts_sB (F := F) d c s _).symm) $$ Hb
  ihave Hc' := (Entails.of_eq (pts_sC (F := F) d c s _).symm) $$ Hc
  sl_exec_parts
  sl_step
  isplitl [Hw' Ho']
  · isplitl [Hw']
    · iapply (Entails.of_eq (pts_w (F := F) d c s _ _)); iexact Hw'
    · iexists _; iapply (Entails.of_eq (pts_o (F := F) d c s _)); iexact Ho'
  isplitl [Ha' Hb' Hc' Hbufs]
  · isplitl [Ha']; · iexists _; iapply (Entails.of_eq (pts_sA (F := F) d c s _)); iexact Ha'
    isplitl [Hb']; · iexists _; iapply (Entails.of_eq (pts_sB (F := F) d c s _)); iexact Hb'
    isplitl [Hc']; · iexists _; iapply (Entails.of_eq (pts_sC (F := F) d c s _)); iexact Hc'
    iexact Hbufs
  isplitl [HsemA HsemB HsemC Hsems]
  · isplitl [HsemA]; · iexact HsemA
    isplitl [HsemB]; · iexact HsemB
    isplitl [HsemC]; · iexact HsemC
    iexact Hsems
  iexists _; isplitr
  swap
  · iexact HO
  · ipureintro; intro p hp
    repeat (rcases Finset.mem_insert.mp hp with rfl | hp; · exact .inr rfl)
    exact .inl hp

end Tile

/-! ## The launch theorem's obligation -/

theorem defs₀_vector (c : Fin τ.nSC) (s : Fin τ.nSub) :
    defs₀ (F := F) (.scVector c s) 0 ()
      = SparseCore.onTile hcore0 hsub0 (fun c s => cc0__sc_body (coordsV c s) wV (Memref.isWhole_whole _) oV (Memref.isWhole_whole _)
          sA (Memref.isWhole_whole _) sB (Memref.isWhole_whole _) sC (Memref.isWhole_whole _) cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (wc : (d : Dev nD) → Buf (Elt F) (wLoc d))

/-- The call's payload with the tiles' results at SOME contents: what the frame alone hands back. -/
def Pfr : (K (F := F)).Pay (nD := nD) (Val := Elt F) (Name := ℕ) (U := UU) where
  st := fun q d c => match q with | 0 => bigSep Finset.univ fun s : Fin 16 => tileIn wc d (Fin.cast nCore_zero c) s
  dn := fun q d c => match q with | 0 => bigSep Finset.univ fun s : Fin 16 => tileIn wc d (Fin.cast nCore_zero c) s
  go := fun q d c i => match q with | 0 => tileIn wc d (Fin.cast nCore_zero c) (Fin.cast nSub_zero i)
  td := fun q d c i => match q with | 0 => tileIn wc d (Fin.cast nCore_zero c) (Fin.cast nSub_zero i)
  x := fun _ _ => iprop(emp)

theorem tileObl_frame : (K (F := F)).TileObl (D (F := F)) 𝒱 (Pfr (F := F) wc) v₀ 0 := by
  intro d c i O W hO _ _
  -- the kernel owes nothing for a protocol of its own
  simp only [show (Pfr (F := F) wc).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body_frame wc d ⟨_, hc.1⟩ ⟨_, hc.2⟩ O W hO).trans (wp_mono frame _ _ fun _ => obl_post)

end Cert.Proof.KI

end
-- ==== Proof.KI.TileValue.lean ====
/-
  The value of a stored row: a load of a copied-in buffer reads the weight matrix, a row's loop sums the row's pieces
  in the lane sums' own order, and the tree of its accumulators is the lane sums' row.
-/
import proofs.«216131_g62878321214323_cont_9to1c4b_752_23_alg».proof.Proof.KI.Common
import proofs.«216131_g62878321214323_cont_9to1c4b_752_23_alg».proof.Proof.KI.TileSpec
import proofs.«216131_g62878321214323_cont_9to1c4b_752_23_alg».proof.Proof.KI.TileFrame
import Idealize.ShloMosaic.Lib.Writes
import Idealize.ShloMosaic.Lib.Pipeline.Value
import Idealize.ShloMosaic.Lib.Exec
import Idealize.ShloMosaic.Lib.Tactic

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What a load of a copied-in buffer reads -/

omit [FloatOps F] in
/-- Lane `l` of a one-row block read as a 16-lane vector is the block's element `(0, l)`, -/
theorem cast_S1x16 (v : Vec F S1x16 .f32) (l : S16.Idx) :
    shapeCast S16 v shapeCasts_S1x16_S16 l = v (ValueIdx.ix2 0 (l 0)) := by
  refine shapeCast_apply v shapeCasts_S1x16_S16 l (ValueIdx.ix2 0 (l 0)) ?_
  rw [Shape.rowMajor_val_two, Shape.rowMajor_val_one]
  show (0 : Nat) * 16 + (l 0).val = (l 0).val
  omega

omit [FloatOps F] in
/-- and element `x` of a 16-lane vector read as a one-row block is the vector's lane `x 1`. -/
theorem cast_S16 (v : FVec F S16 .f32) (x : S1x16.Idx) :
    shapeCast S1x16 v shapeCasts_S16_S1x16 x = v (ValueIdx.ix1 (x 1)) := by
  refine shapeCast_apply v shapeCasts_S16_S1x16 x (ValueIdx.ix1 (x 1)) ?_
  rw [Shape.rowMajor_val_two, Shape.rowMajor_val_one]
  have hx0 : (x 0).val < 1 := (x 0).isLt
  show (x 1).val = (x 0).val * 16 + (x 1).val
  omega

/-- A buffer whose last write is a whole-buffer copy `X` reads `X`: the first buffer, -/
theorem ldPiece_sA (X : S8x4096.Idx → Elt F .f32) (L : List (View.Piece (Elt F) S8x4096 .f32)) (o : Fin 2 → Nat)
    (inb : ∀ a, o a + S1x16.size a ≤ S8x4096.size a) (l : S16.Idx) :
    ldPiece sA (sA.view.writes (Elt F) sA.view.junk (⟨Rect.whole S8x4096, X⟩ :: L)) o inb l
      = X ((Rect.unit (s := S8x4096) o S1x16.size inb).emb (ValueIdx.ix2 0 (l 0))) := by
  unfold ldPiece
  rw [cast_S1x16, View.readAt_apply]
  have h := View.read_writes_cons_emb (Val := Elt F) sA.view sA.view.junk (Rect.whole S8x4096) X L
    ((Rect.unit (s := S8x4096) o S1x16.size inb).emb (ValueIdx.ix2 0 (l 0)))
  rw [Rect.emb_whole_apply] at h
  exact h

/-- and the second. -/
theorem ldPiece_sB (X : S8x4096.Idx → Elt F .f32) (L : List (View.Piece (Elt F) S8x4096 .f32)) (o : Fin 2 → Nat)
    (inb : ∀ a, o a + S1x16.size a ≤ S8x4096.size a) (l : S16.Idx) :
    ldPiece sB (sB.view.writes (Elt F) sB.view.junk (⟨Rect.whole S8x4096, X⟩ :: L)) o inb l
      = X ((Rect.unit (s := S8x4096) o S1x16.size inb).emb (ValueIdx.ix2 0 (l 0))) := by
  unfold ldPiece
  rw [cast_S1x16, View.readAt_apply]
  have h := View.read_writes_cons_emb (Val := Elt F) sB.view sB.view.junk (Rect.whole S8x4096) X L
    ((Rect.unit (s := S8x4096) o S1x16.size inb).emb (ValueIdx.ix2 0 (l 0)))
  rw [Rect.emb_whole_apply] at h
  exact h

omit [FloatOps F] in
/-- The copy of the eight rows at offsets `o8` of the weight matrix reads the matrix there. -/
theorem copy_apply (d : Dev nD) (w : Buf (Elt F) (wLoc d)) (o8 : Fin 2 → Nat) (h8 : ∀ a, o8 a + S8x4096.size a ≤ S16384x4096.size a)
    (h8' : ∀ a, (Rect.unit (s := S16384x4096) o8 S8x4096.size h8).stride a = 1) (y : S8x4096.Idx) :
    ReadAs.same.apply (View.read (Elt F) (wV.slice (Rect.unit (s := S16384x4096) o8 S8x4096.size h8) h8').view w) y
      = w ((Rect.unit (s := S16384x4096) o8 S8x4096.size h8).emb y) := rfl

/-! ## A row's loop sums the row's pieces -/
theorem stG_accs (b : Memref sig .scVector .vmem S8x4096 .f32) (f : BufTy.Contents (Elt F) b.view.ty) (off : Fin 32 → BitVec 32 → Fin 2 → Nat)
    (inb : ∀ k : Fin 32, ∀ r : Fin 8, ∀ a, off k (BitVec.ofNat 32 r.val) a + S1x16.size a ≤ S8x4096.size a)
    (p : Nat → FVec F S16 .f32) (z : FVec F S16 .f32)
    (hp : ∀ (k : Fin 32) (r : Fin 8), ldPiece b f (off k (BitVec.ofNat 32 r.val)) (inb k r) = p (8 * k.val + r.val)) :
    ∀ n, n ≤ 32 → stG b f off inb (z, z, z, z, z, z, z, z) n
      = (accs p z 0 n, accs p z 1 n, accs p z 2 n, accs p z 3 n, accs p z 4 n, accs p z 5 n, accs p z 6 n, accs p z 7 n) := by
  intro n
  induction n with
  | zero => intro _; rfl
  | succ n ih =>
    intro hn
    have h : n < 32 := hn
    rw [stG, dif_pos h, ih (Nat.le_of_lt h)]
    have h0 := hp ⟨n, h⟩ 0
    have h1 := hp ⟨n, h⟩ 1
    have h2 := hp ⟨n, h⟩ 2
    have h3 := hp ⟨n, h⟩ 3
    have h4 := hp ⟨n, h⟩ 4
    have h5 := hp ⟨n, h⟩ 5
    have h6 := hp ⟨n, h⟩ 6
    have h7 := hp ⟨n, h⟩ 7
    show (addf _ (ldPiece b f (off ⟨n, h⟩ 0#32) (inb ⟨n, h⟩ 0)), addf _ (ldPiece b f (off ⟨n, h⟩ 1#32) (inb ⟨n, h⟩ 1)),
      addf _ (ldPiece b f (off ⟨n, h⟩ 2#32) (inb ⟨n, h⟩ 2)), addf _ (ldPiece b f (off ⟨n, h⟩ 3#32) (inb ⟨n, h⟩ 3)),
      addf _ (ldPiece b f (off ⟨n, h⟩ 4#32) (inb ⟨n, h⟩ 4)), addf _ (ldPiece b f (off ⟨n, h⟩ 5#32) (inb ⟨n, h⟩ 5)),
      addf _ (ldPiece b f (off ⟨n, h⟩ 6#32) (inb ⟨n, h⟩ 6)), addf _ (ldPiece b f (off ⟨n, h⟩ 7#32) (inb ⟨n, h⟩ 7))) = _
    rw [show ldPiece b f (off ⟨n, h⟩ 0#32) (inb ⟨n, h⟩ 0) = p (8 * n + 0) from h0,
      show ldPiece b f (off ⟨n, h⟩ 1#32) (inb ⟨n, h⟩ 1) = p (8 * n + 1) from h1,
      show ldPiece b f (off ⟨n, h⟩ 2#32) (inb ⟨n, h⟩ 2) = p (8 * n + 2) from h2,
      show ldPiece b f (off ⟨n, h⟩ 3#32) (inb ⟨n, h⟩ 3) = p (8 * n + 3) from h3,
      show ldPiece b f (off ⟨n, h⟩ 4#32) (inb ⟨n, h⟩ 4) = p (8 * n + 4) from h4,
      show ldPiece b f (off ⟨n, h⟩ 5#32) (inb ⟨n, h⟩ 5) = p (8 * n + 5) from h5,
      show ldPiece b f (off ⟨n, h⟩ 6#32) (inb ⟨n, h⟩ 6) = p (8 * n + 6) from h6,
      show ldPiece b f (off ⟨n, h⟩ 7#32) (inb ⟨n, h⟩ 7) = p (8 * n + 7) from h7]
    rfl

/-! ## Closed forms, as classes the unifier can read a stored row's loop and copy from -/

/-- A loop's offset function in closed form: row `row` of the buffer, trip `k`'s piece `r` at column `128 k + 16 r`. -/
class RowOff (off : Fin 32 → BitVec 32 → Fin 2 → Nat) (row : outParam Nat) : Prop where
  eq : ∀ (k : Fin 32) (r : Fin 8), off k (BitVec.ofNat 32 r.val) = ![row, 128 * k.val + 16 * r.val]

/-- A copy's slice offsets in closed form: eight rows of the matrix from row `base`. -/
class ChunkOff (o8 : Fin 2 → Nat) (base : outParam Nat) : Prop where
  eq : o8 = ![base, 0]

/-- A load, in the first buffer after a copy of eight rows of the matrix from row `base`, through a loop's offset function for the
    buffer's row `row`: trip `k`'s piece `r` is piece `8 k + r` of the matrix's row `base + row`. -/
theorem ldPiece_copy_sA (d : Dev nD) (w : Buf (Elt F) (wLoc d)) (o8 : Fin 2 → Nat) (h8 : ∀ a, o8 a + S8x4096.size a ≤ S16384x4096.size a)
    (h8' : ∀ a, (Rect.unit (s := S16384x4096) o8 S8x4096.size h8).stride a = 1) (L : List (View.Piece (Elt F) S8x4096 .f32))
    (off : Fin 32 → BitVec 32 → Fin 2 → Nat)
    (inb : ∀ k : Fin 32, ∀ r : Fin 8, ∀ a, off k (BitVec.ofNat 32 r.val) a + S1x16.size a ≤ S8x4096.size a)
    (row base : Nat) [RowOff off row] [ChunkOff o8 base] (hlt : base + row < 16384) (k : Fin 32) (r : Fin 8) :
    ldPiece sA (sA.view.writes (Elt F) sA.view.junk (⟨Rect.whole S8x4096,
        ReadAs.same.apply (View.read (Elt F) (wV.slice (Rect.unit (s := S16384x4096) o8 S8x4096.size h8) h8').view w)⟩ :: L))
        (off k (BitVec.ofNat 32 r.val)) (inb k r)
      = wPiece w ⟨base + row, hlt⟩ (8 * k.val + r.val) := by
  funext l
  rw [ldPiece_sA, copy_apply]
  unfold wPiece
  have hk := k.isLt
  have hr := r.isLt
  have hl : (l 0).val < 16 := (l 0).isLt
  refine congrArg w (funext fun a => Fin.ext ?_)
  match a with
  | ⟨0, _⟩ =>
    show o8 0 + 1 * (off k (BitVec.ofNat 32 r.val) 0 + 1 * 0) = base + row
    rw [RowOff.eq (off := off) k r, ChunkOff.eq (o8 := o8)]
    simp only [Matrix.cons_val_zero]
    omega
  | ⟨1, _⟩ =>
    show o8 1 + 1 * (off k (BitVec.ofNat 32 r.val) 1 + 1 * (l 0).val) = (16 * (8 * k.val + r.val) + (l 0).val) % 4096
    rw [RowOff.eq (off := off) k r, ChunkOff.eq (o8 := o8)]
    simp only [Matrix.cons_val_one, Matrix.cons_val_zero, Matrix.head_cons]
    omega

/-- A load, in the second buffer after a copy of eight rows of the matrix from row `base`, through a loop's offset function for the
    buffer's row `row`: trip `k`'s piece `r` is piece `8 k + r` of the matrix's row `base + row`. -/
theorem ldPiece_copy_sB (d : Dev nD) (w : Buf (Elt F) (wLoc d)) (o8 : Fin 2 → Nat) (h8 : ∀ a, o8 a + S8x4096.size a ≤ S16384x4096.size a)
    (h8' : ∀ a, (Rect.unit (s := S16384x4096) o8 S8x4096.size h8).stride a = 1) (L : List (View.Piece (Elt F) S8x4096 .f32))
    (off : Fin 32 → BitVec 32 → Fin 2 → Nat)
    (inb : ∀ k : Fin 32, ∀ r : Fin 8, ∀ a, off k (BitVec.ofNat 32 r.val) a + S1x16.size a ≤ S8x4096.size a)
    (row base : Nat) [RowOff off row] [ChunkOff o8 base] (hlt : base + row < 16384) (k : Fin 32) (r : Fin 8) :
    ldPiece sB (sB.view.writes (Elt F) sB.view.junk (⟨Rect.whole S8x4096,
        ReadAs.same.apply (View.read (Elt F) (wV.slice (Rect.unit (s := S16384x4096) o8 S8x4096.size h8) h8').view w)⟩ :: L))
        (off k (BitVec.ofNat 32 r.val)) (inb k r)
      = wPiece w ⟨base + row, hlt⟩ (8 * k.val + r.val) := by
  funext l
  rw [ldPiece_sB, copy_apply]
  unfold wPiece
  have hk := k.isLt
  have hr := r.isLt
  have hl : (l 0).val < 16 := (l 0).isLt
  refine congrArg w (funext fun a => Fin.ext ?_)
  match a with
  | ⟨0, _⟩ =>
    show o8 0 + 1 * (off k (BitVec.ofNat 32 r.val) 0 + 1 * 0) = base + row
    rw [RowOff.eq (off := off) k r, ChunkOff.eq (o8 := o8)]
    simp only [Matrix.cons_val_zero]
    omega
  | ⟨1, _⟩ =>
    show o8 1 + 1 * (off k (BitVec.ofNat 32 r.val) 1 + 1 * (l 0).val) = (16 * (8 * k.val + r.val) + (l 0).val) % 4096
    rw [RowOff.eq (off := off) k r, ChunkOff.eq (o8 := o8)]
    simp only [Matrix.cons_val_one, Matrix.cons_val_zero, Matrix.head_cons]
    omega

/-! ## The target on the scratch, and a stored row -/

section Row
variable (wc : (d : Dev nD) → Buf (Elt F) (wLoc d)) (d : Dev nD) (c : Fin (grid0.bound 0)) (s : Fin (grid0.bound 1))

/-- The tile's lane sums as a function on its 64-row scratch: row `y 0` is the matrix's row `128 s + 64 c + y 0`. -/
def rowG (y : S64x16.Idx) : Elt F .f32 :=
  rowSum (wPiece (wc d) ⟨(128 * ((coordsV c s) 1).val + 64 * ((coordsV c s) 0).val + (y 0).val) % 16384, Nat.mod_lt _ (by decide)⟩) (ValueIdx.ix1 (y 1))

/-- A stored row from the first buffer: the tree of the row loop's eight accumulators, cast to a one-row block, is the
    target on the scratch's row `R`. -/
theorem row_piece_sA (L : List (View.Piece (Elt F) S8x4096 .f32))
    (off : Fin 32 → BitVec 32 → Fin 2 → Nat)
    (inb : ∀ k : Fin 32, ∀ r : Fin 8, ∀ a, off k (BitVec.ofNat 32 r.val) a + S1x16.size a ≤ S8x4096.size a)
    (z8 : Acc8 F) (n : Nat) (R : Nat) (inbR : ∀ a, (![R, 0] : Fin 2 → Nat) a + S1x16.size a ≤ S64x16.size a)
    (o8 : Fin 2 → Nat) (h8 : ∀ a, o8 a + S8x4096.size a ≤ S16384x4096.size a)
    (h8' : ∀ a, (Rect.unit (s := S16384x4096) o8 S8x4096.size h8).stride a = 1)
    (row base : Nat) [RowOff off row] [ChunkOff o8 base]
    (hz : z8 = (zeroV, zeroV, zeroV, zeroV, zeroV, zeroV, zeroV, zeroV)) (hn : n = 32)
    (hb : base + row = 128 * ((coordsV c s) 1).val + 64 * ((coordsV c s) 0).val + R) (hR : R < 64) (x : S1x16.Idx) :
    shapeCast S1x16 (tree8
        (stG sA (sA.view.writes (Elt F) sA.view.junk (⟨Rect.whole S8x4096, (ReadAs.same.apply (View.read (Elt F) (wV.slice (Rect.unit (s := S16384x4096) o8 S8x4096.size h8) h8').view (wc d)))⟩ :: L)) off inb z8 n).1
        (stG sA (sA.view.writes (Elt F) sA.view.junk (⟨Rect.whole S8x4096, (ReadAs.same.apply (View.read (Elt F) (wV.slice (Rect.unit (s := S16384x4096) o8 S8x4096.size h8) h8').view (wc d)))⟩ :: L)) off inb z8 n).2.1
        (stG sA (sA.view.writes (Elt F) sA.view.junk (⟨Rect.whole S8x4096, (ReadAs.same.apply (View.read (Elt F) (wV.slice (Rect.unit (s := S16384x4096) o8 S8x4096.size h8) h8').view (wc d)))⟩ :: L)) off inb z8 n).2.2.1
        (stG sA (sA.view.writes (Elt F) sA.view.junk (⟨Rect.whole S8x4096, (ReadAs.same.apply (View.read (Elt F) (wV.slice (Rect.unit (s := S16384x4096) o8 S8x4096.size h8) h8').view (wc d)))⟩ :: L)) off inb z8 n).2.2.2.1
        (stG sA (sA.view.writes (Elt F) sA.view.junk (⟨Rect.whole S8x4096, (ReadAs.same.apply (View.read (Elt F) (wV.slice (Rect.unit (s := S16384x4096) o8 S8x4096.size h8) h8').view (wc d)))⟩ :: L)) off inb z8 n).2.2.2.2.1
        (stG sA (sA.view.writes (Elt F) sA.view.junk (⟨Rect.whole S8x4096, (ReadAs.same.apply (View.read (Elt F) (wV.slice (Rect.unit (s := S16384x4096) o8 S8x4096.size h8) h8').view (wc d)))⟩ :: L)) off inb z8 n).2.2.2.2.2.1
        (stG sA (sA.view.writes (Elt F) sA.view.junk (⟨Rect.whole S8x4096, (ReadAs.same.apply (View.read (Elt F) (wV.slice (Rect.unit (s := S16384x4096) o8 S8x4096.size h8) h8').view (wc d)))⟩ :: L)) off inb z8 n).2.2.2.2.2.2.1
        (stG sA (sA.view.writes (Elt F) sA.view.junk (⟨Rect.whole S8x4096, (ReadAs.same.apply (View.read (Elt F) (wV.slice (Rect.unit (s := S16384x4096) o8 S8x4096.size h8) h8').view (wc d)))⟩ :: L)) off inb z8 n).2.2.2.2.2.2.2) shapeCasts_S16_S1x16 x
      = rowG wc d c s ((Rect.unit (s := S64x16) ![R, 0] S1x16.size inbR).emb x) := by
  have hs : ((coordsV c s) 1).val < 16 := s.isLt
  have hcc : ((coordsV c s) 0).val < 2 := c.isLt
  have hlt : base + row < 16384 := by omega
  subst hz hn
  rw [stG_accs sA _ off inb (wPiece (wc d) ⟨base + row, hlt⟩) zeroV
    (fun k r => ldPiece_copy_sA d (wc d) o8 h8 h8' L off inb row base hlt k r) 32 (Nat.le_refl _)]
  rw [cast_S16]
  have hx0 : (x 0).val < 1 := (x 0).isLt
  have e0 : (⟨base + row, hlt⟩ : Fin 16384)
      = ⟨(128 * ((coordsV c s) 1).val + 64 * ((coordsV c s) 0).val + (((Rect.unit (s := S64x16) ![R, 0] S1x16.size inbR).emb x) 0).val) % 16384,
          Nat.mod_lt _ (by decide)⟩ := by
    refine Fin.ext ?_
    show base + row = (128 * ((coordsV c s) 1).val + 64 * ((coordsV c s) 0).val + (R + 1 * (x 0).val)) % 16384
    omega
  have e1 : (x 1) = (((Rect.unit (s := S64x16) ![R, 0] S1x16.size inbR).emb x) 1) := by
    refine Fin.ext ?_
    show (x 1).val = 0 + 1 * (x 1).val
    omega
  unfold rowG
  rw [← e0, ← e1]
  rfl

/-- A stored row from the second buffer: the tree of the row loop's eight accumulators, cast to a one-row block, is the
    target on the scratch's row `R`. -/
theorem row_piece_sB (L : List (View.Piece (Elt F) S8x4096 .f32))
    (off : Fin 32 → BitVec 32 → Fin 2 → Nat)
    (inb : ∀ k : Fin 32, ∀ r : Fin 8, ∀ a, off k (BitVec.ofNat 32 r.val) a + S1x16.size a ≤ S8x4096.size a)
    (z8 : Acc8 F) (n : Nat) (R : Nat) (inbR : ∀ a, (![R, 0] : Fin 2 → Nat) a + S1x16.size a ≤ S64x16.size a)
    (o8 : Fin 2 → Nat) (h8 : ∀ a, o8 a + S8x4096.size a ≤ S16384x4096.size a)
    (h8' : ∀ a, (Rect.unit (s := S16384x4096) o8 S8x4096.size h8).stride a = 1)
    (row base : Nat) [RowOff off row] [ChunkOff o8 base]
    (hz : z8 = (zeroV, zeroV, zeroV, zeroV, zeroV, zeroV, zeroV, zeroV)) (hn : n = 32)
    (hb : base + row = 128 * ((coordsV c s) 1).val + 64 * ((coordsV c s) 0).val + R) (hR : R < 64) (x : S1x16.Idx) :
    shapeCast S1x16 (tree8
        (stG sB (sB.view.writes (Elt F) sB.view.junk (⟨Rect.whole S8x4096, (ReadAs.same.apply (View.read (Elt F) (wV.slice (Rect.unit (s := S16384x4096) o8 S8x4096.size h8) h8').view (wc d)))⟩ :: L)) off inb z8 n).1
        (stG sB (sB.view.writes (Elt F) sB.view.junk (⟨Rect.whole S8x4096, (ReadAs.same.apply (View.read (Elt F) (wV.slice (Rect.unit (s := S16384x4096) o8 S8x4096.size h8) h8').view (wc d)))⟩ :: L)) off inb z8 n).2.1
        (stG sB (sB.view.writes (Elt F) sB.view.junk (⟨Rect.whole S8x4096, (ReadAs.same.apply (View.read (Elt F) (wV.slice (Rect.unit (s := S16384x4096) o8 S8x4096.size h8) h8').view (wc d)))⟩ :: L)) off inb z8 n).2.2.1
        (stG sB (sB.view.writes (Elt F) sB.view.junk (⟨Rect.whole S8x4096, (ReadAs.same.apply (View.read (Elt F) (wV.slice (Rect.unit (s := S16384x4096) o8 S8x4096.size h8) h8').view (wc d)))⟩ :: L)) off inb z8 n).2.2.2.1
        (stG sB (sB.view.writes (Elt F) sB.view.junk (⟨Rect.whole S8x4096, (ReadAs.same.apply (View.read (Elt F) (wV.slice (Rect.unit (s := S16384x4096) o8 S8x4096.size h8) h8').view (wc d)))⟩ :: L)) off inb z8 n).2.2.2.2.1
        (stG sB (sB.view.writes (Elt F) sB.view.junk (⟨Rect.whole S8x4096, (ReadAs.same.apply (View.read (Elt F) (wV.slice (Rect.unit (s := S16384x4096) o8 S8x4096.size h8) h8').view (wc d)))⟩ :: L)) off inb z8 n).2.2.2.2.2.1
        (stG sB (sB.view.writes (Elt F) sB.view.junk (⟨Rect.whole S8x4096, (ReadAs.same.apply (View.read (Elt F) (wV.slice (Rect.unit (s := S16384x4096) o8 S8x4096.size h8) h8').view (wc d)))⟩ :: L)) off inb z8 n).2.2.2.2.2.2.1
        (stG sB (sB.view.writes (Elt F) sB.view.junk (⟨Rect.whole S8x4096, (ReadAs.same.apply (View.read (Elt F) (wV.slice (Rect.unit (s := S16384x4096) o8 S8x4096.size h8) h8').view (wc d)))⟩ :: L)) off inb z8 n).2.2.2.2.2.2.2) shapeCasts_S16_S1x16 x
      = rowG wc d c s ((Rect.unit (s := S64x16) ![R, 0] S1x16.size inbR).emb x) := by
  have hs : ((coordsV c s) 1).val < 16 := s.isLt
  have hcc : ((coordsV c s) 0).val < 2 := c.isLt
  have hlt : base + row < 16384 := by omega
  subst hz hn
  rw [stG_accs sB _ off inb (wPiece (wc d) ⟨base + row, hlt⟩) zeroV
    (fun k r => ldPiece_copy_sB d (wc d) o8 h8 h8' L off inb row base hlt k r) 32 (Nat.le_refl _)]
  rw [cast_S16]
  have hx0 : (x 0).val < 1 := (x 0).isLt
  have e0 : (⟨base + row, hlt⟩ : Fin 16384)
      = ⟨(128 * ((coordsV c s) 1).val + 64 * ((coordsV c s) 0).val + (((Rect.unit (s := S64x16) ![R, 0] S1x16.size inbR).emb x) 0).val) % 16384,
          Nat.mod_lt _ (by decide)⟩ := by
    refine Fin.ext ?_
    show base + row = (128 * ((coordsV c s) 1).val + 64 * ((coordsV c s) 0).val + (R + 1 * (x 0).val)) % 16384
    omega
  have e1 : (x 1) = (((Rect.unit (s := S64x16) ![R, 0] S1x16.size inbR).emb x) 1) := by
    refine Fin.ext ?_
    show (x 1).val = 0 + 1 * (x 1).val
    omega
  unfold rowG
  rw [← e0, ← e1]
  rfl

end Row

end Cert.Proof.KI

end
-- ==== Proof.KI.TileOffTable.lean ====
/-
  The row loops' offset functions and the copies' slice offsets in closed form, as instances: loop N reads the buffer's row
  (N - 1) mod 8; copy 0 starts at the tile's first row, copy ci at eight rows times ci further.
-/
import proofs.«216131_g62878321214323_cont_9to1c4b_752_23_alg».proof.Proof.KI.TileValue

namespace Cert.Proof.KI

open Cert.KernelIdeal Cert.KernelIdeal.Gen
open Idealize.ShloMosaic

instance : RowOff k0_off3 0 := ⟨k0_off3_eq⟩
instance : RowOff k0_off4 1 := ⟨k0_off4_eq⟩
instance : RowOff k0_off5 2 := ⟨k0_off5_eq⟩
instance : RowOff k0_off6 3 := ⟨k0_off6_eq⟩
instance : RowOff k0_off7 4 := ⟨k0_off7_eq⟩
instance : RowOff k0_off8 5 := ⟨k0_off8_eq⟩
instance : RowOff k0_off9 6 := ⟨k0_off9_eq⟩
instance : RowOff k0_off10 7 := ⟨k0_off10_eq⟩
instance : RowOff k0_off11 0 := ⟨k0_off11_eq⟩
instance : RowOff k0_off12 1 := ⟨k0_off12_eq⟩
instance : RowOff k0_off13 2 := ⟨k0_off13_eq⟩
instance : RowOff k0_off14 3 := ⟨k0_off14_eq⟩
instance : RowOff k0_off15 4 := ⟨k0_off15_eq⟩
instance : RowOff k0_off16 5 := ⟨k0_off16_eq⟩
instance : RowOff k0_off17 6 := ⟨k0_off17_eq⟩
instance : RowOff k0_off18 7 := ⟨k0_off18_eq⟩
instance : RowOff k0_off19 0 := ⟨k0_off19_eq⟩
instance : RowOff k0_off20 1 := ⟨k0_off20_eq⟩
instance : RowOff k0_off21 2 := ⟨k0_off21_eq⟩
instance : RowOff k0_off22 3 := ⟨k0_off22_eq⟩
instance : RowOff k0_off23 4 := ⟨k0_off23_eq⟩
instance : RowOff k0_off24 5 := ⟨k0_off24_eq⟩
instance : RowOff k0_off25 6 := ⟨k0_off25_eq⟩
instance : RowOff k0_off26 7 := ⟨k0_off26_eq⟩
instance : RowOff k0_off27 0 := ⟨k0_off27_eq⟩
instance : RowOff k0_off28 1 := ⟨k0_off28_eq⟩
instance : RowOff k0_off29 2 := ⟨k0_off29_eq⟩
instance : RowOff k0_off30 3 := ⟨k0_off30_eq⟩
instance : RowOff k0_off31 4 := ⟨k0_off31_eq⟩
instance : RowOff k0_off32 5 := ⟨k0_off32_eq⟩
instance : RowOff k0_off33 6 := ⟨k0_off33_eq⟩
instance : RowOff k0_off34 7 := ⟨k0_off34_eq⟩
instance : RowOff k0_off35 0 := ⟨k0_off35_eq⟩
instance : RowOff k0_off36 1 := ⟨k0_off36_eq⟩
instance : RowOff k0_off37 2 := ⟨k0_off37_eq⟩
instance : RowOff k0_off38 3 := ⟨k0_off38_eq⟩
instance : RowOff k0_off39 4 := ⟨k0_off39_eq⟩
instance : RowOff k0_off40 5 := ⟨k0_off40_eq⟩
instance : RowOff k0_off41 6 := ⟨k0_off41_eq⟩
instance : RowOff k0_off42 7 := ⟨k0_off42_eq⟩
instance : RowOff k0_off43 0 := ⟨k0_off43_eq⟩
instance : RowOff k0_off44 1 := ⟨k0_off44_eq⟩
instance : RowOff k0_off45 2 := ⟨k0_off45_eq⟩
instance : RowOff k0_off46 3 := ⟨k0_off46_eq⟩
instance : RowOff k0_off47 4 := ⟨k0_off47_eq⟩
instance : RowOff k0_off48 5 := ⟨k0_off48_eq⟩
instance : RowOff k0_off49 6 := ⟨k0_off49_eq⟩
instance : RowOff k0_off50 7 := ⟨k0_off50_eq⟩
instance : RowOff k0_off51 0 := ⟨k0_off51_eq⟩
instance : RowOff k0_off52 1 := ⟨k0_off52_eq⟩
instance : RowOff k0_off53 2 := ⟨k0_off53_eq⟩
instance : RowOff k0_off54 3 := ⟨k0_off54_eq⟩
instance : RowOff k0_off55 4 := ⟨k0_off55_eq⟩
instance : RowOff k0_off56 5 := ⟨k0_off56_eq⟩
instance : RowOff k0_off57 6 := ⟨k0_off57_eq⟩
instance : RowOff k0_off58 7 := ⟨k0_off58_eq⟩
instance : RowOff k0_off59 0 := ⟨k0_off59_eq⟩
instance : RowOff k0_off60 1 := ⟨k0_off60_eq⟩
instance : RowOff k0_off61 2 := ⟨k0_off61_eq⟩
instance : RowOff k0_off62 3 := ⟨k0_off62_eq⟩
instance : RowOff k0_off63 4 := ⟨k0_off63_eq⟩
instance : RowOff k0_off64 5 := ⟨k0_off64_eq⟩
instance : RowOff k0_off65 6 := ⟨k0_off65_eq⟩
instance : RowOff k0_off66 7 := ⟨k0_off66_eq⟩

instance (i : grid0.Coords) : ChunkOff (k0_off1 i) (128 * (i 1).val + 64 * (i 0).val) := ⟨k0_off1_eq i⟩
instance (i : grid0.Coords) : ChunkOff (k0_off2 i (BitVec.ofNat 32 8)) (128 * (i 1).val + 64 * (i 0).val + 8 * 0 + 8) := ⟨k0_off2_eq i ⟨0, by decide⟩⟩
instance (i : grid0.Coords) : ChunkOff (k0_off2 i (BitVec.ofNat 32 16)) (128 * (i 1).val + 64 * (i 0).val + 8 * 1 + 8) := ⟨k0_off2_eq i ⟨1, by decide⟩⟩
instance (i : grid0.Coords) : ChunkOff (k0_off2 i (BitVec.ofNat 32 24)) (128 * (i 1).val + 64 * (i 0).val + 8 * 2 + 8) := ⟨k0_off2_eq i ⟨2, by decide⟩⟩
instance (i : grid0.Coords) : ChunkOff (k0_off2 i (BitVec.ofNat 32 32)) (128 * (i 1).val + 64 * (i 0).val + 8 * 3 + 8) := ⟨k0_off2_eq i ⟨3, by decide⟩⟩
instance (i : grid0.Coords) : ChunkOff (k0_off2 i (BitVec.ofNat 32 40)) (128 * (i 1).val + 64 * (i 0).val + 8 * 4 + 8) := ⟨k0_off2_eq i ⟨4, by decide⟩⟩
instance (i : grid0.Coords) : ChunkOff (k0_off2 i (BitVec.ofNat 32 48)) (128 * (i 1).val + 64 * (i 0).val + 8 * 5 + 8) := ⟨k0_off2_eq i ⟨5, by decide⟩⟩
instance (i : grid0.Coords) : ChunkOff (k0_off2 i (BitVec.ofNat 32 56)) (128 * (i 1).val + 64 * (i 0).val + 8 * 6 + 8) := ⟨k0_off2_eq i ⟨6, by decide⟩⟩

end Cert.Proof.KI
-- ==== Proof.KI.TileBody.lean ====
/-
  The tile's body with its value: the run of the frame, and at its end the tile's 64 rows of the result hold the lane
  sums of its 64 rows of the weight matrix.

  The copy-out writes the rows whole from the scratch; the scratch's 64 stored rows are each the tree of a row loop's
  eight accumulators over a buffer whose last write is the copy of eight rows of the matrix, which is that row's lane
  sums; the stored rows tile the scratch, so the scratch is the lane sums' function on the tile's rows.
-/
import proofs.«216131_g62878321214323_cont_9to1c4b_752_23_alg».proof.Proof.KI.Common
import proofs.«216131_g62878321214323_cont_9to1c4b_752_23_alg».proof.Proof.KI.TileSpec
import proofs.«216131_g62878321214323_cont_9to1c4b_752_23_alg».proof.Proof.KI.TileOffTable
import proofs.«216131_g62878321214323_cont_9to1c4b_752_23_alg».proof.Proof.Gen.KernelIdeal.Skeleton
import Idealize.ShloMosaic.Lib.Writes
import Idealize.ShloMosaic.Lib.Exec
import Idealize.ShloMosaic.Lib.Tactic

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- One stored row whose loop read the first buffer, -/
macro "row_A" : tactic => `(tactic| (intro x; exact row_piece_sA _ _ _ _ _ _ _ _ _ _ (by decide) _ _ _ _ _ rfl rfl (by omega) (by decide) x))
/-- and one whose loop read the second. -/
macro "row_B" : tactic => `(tactic| (intro x; exact row_piece_sB _ _ _ _ _ _ _ _ _ _ (by decide) _ _ _ _ _ rfl rfl (by omega) (by decide) x))

section TileV

variable (wc : (d : Dev nD) → Buf (Elt F) (wLoc d)) (d : Dev nD) (c : Fin (grid0.bound 0)) (s : Fin (grid0.bound 1))

/-! ## The result rows after the copy-out -/

omit [FloatOps F] in
theorem oSlice_emb_val (y : S64x16.Idx) (a : Fin 2) :
    (((oSlice c s).view.emb y) a : Nat) = k0_off67 (coordsV c s) a + 1 * (y a).val := rfl

/-- Rows written whole by a copy of a scratch that is the target function hold the lane sums. -/
theorem out_congr (g : Buf (Elt F) (oLoc d)) (X : S64x16.Idx → Elt F .f32) (hX : ∀ y, X y = rowG wc d c s y) :
    ((oSlice c s).view.loc (thrV d c s) ↦[(oSlice c s).view.set]{fullShare} (oSlice c s).view.writes (Elt F) g [⟨Rect.whole S64x16, X⟩] : sProp 𝕄)
      = ((oSlice c s).view.loc (thrV d c s) ↦[(oSlice c s).view.set]{fullShare} (laneSums (wc d) : Buf (Elt F) (oLoc d))) := by
  refine pointsTo_congr fun i hi => ?_
  obtain ⟨y, -, rfl⟩ := Finset.mem_map.mp hi
  have h := View.read_writes_cons_emb (Val := Elt F) (oSlice c s).view g (Rect.whole S64x16) X [] y
  rw [Rect.emb_whole_apply, View.read_apply] at h
  have hs : ((coordsV c s) 1).val < 16 := s.isLt
  have hcc : ((coordsV c s) 0).val < 2 := c.isLt
  have hy0 : (y 0).val < 64 := (y 0).isLt
  have hy1 : (y 1).val < 16 := (y 1).isLt
  have v0 : (((oSlice c s).view.emb y) 0 : Nat) = 128 * ((coordsV c s) 1).val + 64 * ((coordsV c s) 0).val + (y 0).val :=
    (oSlice_emb_val c s y 0).trans (by rw [k0_off67_eq]; simp only [Matrix.cons_val_zero]; omega)
  have v1 : (((oSlice c s).view.emb y) 1 : Nat) = (y 1).val :=
    (oSlice_emb_val c s y 1).trans (by rw [k0_off67_eq]; simp only [Matrix.cons_val_one, Matrix.cons_val_zero, Matrix.head_cons]; omega)
  refine h.trans ((hX y).trans ?_)
  unfold rowG laneSums
  have e0 : (⟨(128 * ((coordsV c s) 1).val + 64 * ((coordsV c s) 0).val + (y 0).val) % 16384, Nat.mod_lt _ (by decide)⟩ : Fin 16384)
      = ⟨(((oSlice c s).view.emb y) 0).val, Nat.lt_of_lt_of_le (((oSlice c s).view.emb y) 0).isLt (show (2048 : Nat) ≤ 16384 by decide)⟩ := by
    refine Fin.ext ?_
    show (128 * ((coordsV c s) 1).val + 64 * ((coordsV c s) 0).val + (y 0).val) % 16384 = (((oSlice c s).view.emb y) 0 : Nat)
    rw [v0]; omega
  have e1 : (y 1) = (((oSlice c s).view.emb y) 1) := Fin.ext v1.symm
  rw [e0, e1]

set_option maxHeartbeats 1600000 in
set_option maxRecDepth 65536 in
theorem tile_body (O : CellTallies nD τ sig (HIx 1)) (W : Waits sig (HIx 1)) (hO : ∀ g, O g none = 0) :
    (iprop(levAts (K (F := F)).L (K (F := F)).lev ∗ emp
        ∗ ((wLoc d ↦{wTok c s} wc d) ∗ ∃ g : Buf (Elt F) (oLoc d), oLoc d ↦[(oSlice c s).view.set]{fullShare} g)
        ∗ scopedBufs (thrV d c s) ∗ scopedSems0 (thrV d c s) ∗ owes (thrV d c s) O W) : sProp 𝕄)
      ⊢ wp frame (wpE (defs₀ (F := F)) 𝒱₀ (thrV d c s) none) Set.univ
          (cc0__sc_body (coordsV c s) wV (Memref.isWhole_whole _) oV (Memref.isWhole_whole _) sA (Memref.isWhole_whole _) sB (Memref.isWhole_whole _)
            sC (Memref.isWhole_whole _) cc0_scratch3 cc0_scratch4 cc0_scoped0)
          fun _ => iprop(((wLoc d ↦{wTok c s} wc d) ∗ oLoc d ↦[(oSlice c s).view.set]{fullShare} (laneSums (wc d) : Buf (Elt F) (oLoc d)))
            ∗ scopedBufs (thrV d c s) ∗ scopedSems0 (thrV d c s)
            ∗ ∃ W', ⌜∀ p ∈ W', p ∈ W ∨ p.2 = none⌝ ∗ owes (thrV d c s) O W') := by
  simp only [cc0__sc_body_eq_skeleton]; unfold cc0__sc_body_skel
  rw [(K (F := F)).scopedBufs_V facts d (cV c s) (jV c s), SparseCore.Cfg.scopedSems0_V (Val := Elt F) d (cV c s) (jV c s), ownSems0_V, ownBufs_V]
  iintro ⟨#Hlv, -, ⟨Hw, %g, Ho⟩, ⟨⟨%fa, Ha⟩, ⟨%fb, Hb⟩, ⟨%fc, Hc⟩, Hbufs⟩, ⟨HsemA, HsemB, HsemC, Hsems⟩, HO⟩
  ihave Hmw := ((K (F := F)).mayWaits_none (thr := thrV d c s) hO) $$ Hlv
  ihave Hw' := (Entails.of_eq (pts_w (F := F) d c s _ _).symm) $$ Hw
  ihave Ho' := (Entails.of_eq (pts_o (F := F) d c s _).symm) $$ Ho
  ihave Ha' := (Entails.of_eq (pts_sA (F := F) d c s _).symm) $$ Ha
  ihave Hb' := (Entails.of_eq (pts_sB (F := F) d c s _).symm) $$ Hb
  ihave Hc' := (Entails.of_eq (pts_sC (F := F) d c s _).symm) $$ Hc
  sl_exec_parts
  sl_step
  isplitl [Hw' Ho']
  · isplitl [Hw']
    · iapply (Entails.of_eq (pts_w (F := F) d c s _ _)); iexact Hw'
    · iapply (Entails.of_eq (pts_o (F := F) d c s _))
      iapply (Entails.of_eq (out_congr (F := F) wc d c s g _ ?hX)) $$ Ho'
      case hX =>
        intro y
        refine View.read_writes_apply_of_pieces (Val := Elt F) sC.view fc (rowG wc d c s) _ ?hp y (View.cover_of_tiled _ ![1, 16] rfl y)
        repeat' (first | exact fun _ h => absurd h List.not_mem_nil | refine List.forall_mem_cons.mpr ⟨?_, ?_⟩)
        -- the rows come last first: chunks 7, 5, 3, 1 went through the second buffer, chunks 6, 4, 2, 0 through the first
        iterate 8 row_B
        iterate 8 row_A
        iterate 8 row_B
        iterate 8 row_A
        iterate 8 row_B
        iterate 8 row_A
        iterate 8 row_B
        iterate 8 row_A
  isplitl [Ha' Hb' Hc' Hbufs]
  · isplitl [Ha']; · iexists _; iapply (Entails.of_eq (pts_sA (F := F) d c s _)); iexact Ha'
    isplitl [Hb']; · iexists _; iapply (Entails.of_eq (pts_sB (F := F) d c s _)); iexact Hb'
    isplitl [Hc']; · iexists _; iapply (Entails.of_eq (pts_sC (F := F) d c s _)); iexact Hc'
    iexact Hbufs
  isplitl [HsemA HsemB HsemC Hsems]
  · isplitl [HsemA]; · iexact HsemA
    isplitl [HsemB]; · iexact HsemB
    isplitl [HsemC]; · iexact HsemC
    iexact Hsems
  iexists _; isplitr
  swap
  · iexact HO
  · ipureintro; intro p hp
    repeat (rcases Finset.mem_insert.mp hp with rfl | hp; · exact .inr rfl)
    exact .inl hp

end TileV

/-! ## The launch theorem's obligation, with the value -/

variable (wc : (d : Dev nD) → Buf (Elt F) (wLoc d))

theorem tileObl : (K (F := F)).TileObl (D (F := F)) 𝒱 (P (F := F) wc fun d => (laneSums (wc d) : Buf (Elt F) (oLoc d))) v₀ 0 := by
  intro d c i O W hO _ _
  -- the kernel owes nothing for a protocol of its own
  simp only [show (P (F := F) wc fun d => (laneSums (wc d) : Buf (Elt F) (oLoc d))).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body wc d ⟨_, hc.1⟩ ⟨_, hc.2⟩ O W hO).trans (wp_mono frame _ _ fun _ => obl_post)

end Cert.Proof.KI

end
-- ==== Proof.KI.RegionIdeal.lean ====
/-
  The two TensorCore kernels' pure values at the ideal instance, read at an index.

  Over the extended reals a matrix product into a zero accumulator is the sum of products over the contracted axis,
  a reduction by addition is the sum over the reduced coordinates, a shape cast moves no value, and the zero word is
  the number 0. So the grid kernel's five stored values are: zero (twice, the two accumulators' start); the routed
  hidden states' accumulator plus a [8, 256] block of routing weights times a [256, 2048] block of hidden states; a
  row of the row-sum accumulator plus the sums of a [2048, 1024] block's rows; and the sum over 7 × 2048 entries
  of the products of two arrays. The finishing kernel's value is a given number plus the sum over 2048 × 16 entries
  of lane sums times a column.
-/
import proofs.«216131_g62878321214323_cont_9to1c4b_752_23_alg».proof.Proof.Gen.KernelIdeal.Skeleton
import proofs.«216131_g62878321214323_cont_9to1c4b_752_23_alg».proof.Proof.Spec
import Idealize.ShloMosaic.Lib.Pipeline.Value
import Idealize.ShloMosaic.PureOps.Ideal.Laws

noncomputable section

open scoped BigOperators

namespace Cert.Proof.KI

open Cert.KernelIdeal Cert.KernelIdeal.Gen
open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the threefold sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-! ## The grid kernel's stored values -/

/-- The routed hidden states' accumulator starts at 0. -/
theorem k1_pay1_apply (i : S8x2048.Idx) : k1_pay1 (F := Ideal) i = 0 := by
  unfold k1_pay1
  rw [shapeCast_self]
  exact Ideal.ofBits_zero_f32

/-- The row sums' accumulator starts at 0. -/
theorem k1_pay2_apply (i : S7x2048.Idx) : k1_pay2 (F := Ideal) i = 0 := by
  unfold k1_pay2
  rw [shapeCast_self]
  exact Ideal.ofBits_zero_f32

/-- The product's left operand is read at the output's row … -/
theorem pay3_lhs_0 (i : S8x2048.Idx) (q : dot_S8x256_S256x2048_S8x2048_1_0_0_1_n_n.contr.Idx) :
    (dot_S8x256_S256x2048_S8x2048_1_0_0_1_n_n.lhsIdx i q 0).val = (i 0).val := by
  unfold DotDims.lhsIdx
  rw [dif_neg (show ¬(0 : Fin S8x256.rank) ∈ dot_S8x256_S256x2048_S8x2048_1_0_0_1_n_n.lhsBatch by decide),
    dif_pos (show (0 : Fin S8x256.rank) ∈ dot_S8x256_S256x2048_S8x2048_1_0_0_1_n_n.lhsNonContracting by decide)]
  rfl
/-- … and the contracted coordinate, … -/
theorem pay3_lhs_1 (i : S8x2048.Idx) (q : dot_S8x256_S256x2048_S8x2048_1_0_0_1_n_n.contr.Idx) :
    (dot_S8x256_S256x2048_S8x2048_1_0_0_1_n_n.lhsIdx i q 1).val = (q ⟨0, by decide⟩).val :=
  dot_S8x256_S256x2048_S8x2048_1_0_0_1_n_n.lhsIdx_val_of_single rfl i q
/-- … the right operand at the contracted coordinate … -/
theorem pay3_rhs_0 (i : S8x2048.Idx) (q : dot_S8x256_S256x2048_S8x2048_1_0_0_1_n_n.contr.Idx) :
    (dot_S8x256_S256x2048_S8x2048_1_0_0_1_n_n.rhsIdx i q 0).val = (q ⟨0, by decide⟩).val :=
  dot_S8x256_S256x2048_S8x2048_1_0_0_1_n_n.rhsIdx_val_of_single rfl i q
/-- … and the output's column. -/
theorem pay3_rhs_1 (i : S8x2048.Idx) (q : dot_S8x256_S256x2048_S8x2048_1_0_0_1_n_n.contr.Idx) :
    (dot_S8x256_S256x2048_S8x2048_1_0_0_1_n_n.rhsIdx i q 1).val = (i 1).val := by
  unfold DotDims.rhsIdx
  rw [dif_neg (show ¬(1 : Fin S256x2048.rank) ∈ dot_S8x256_S256x2048_S8x2048_1_0_0_1_n_n.rhsBatch by decide),
    dif_pos (show (1 : Fin S256x2048.rank) ∈ dot_S8x256_S256x2048_S8x2048_1_0_0_1_n_n.rhsNonContracting by decide)]
  rfl

/-- One step of the routed hidden states: the accumulator at (e, h) plus Σ_j a[e, j] · b[j, h] over the block's 256
    tokens. -/
theorem k1_pay3_apply (a : FVec Ideal S8x256 .f32) (b : FVec Ideal S256x2048 .f32) (acc : FVec Ideal S8x2048 .f32)
    (e : Fin 8) (h : Fin 2048) :
    k1_pay3 (F := Ideal) a b acc (ix2 e h) = acc (ix2 e h) + ∑ j : Fin 256, a (ix2 e j) * b (ix2 j h) := by
  unfold k1_pay3
  rw [shapeCast_self, shapeCast_self, shapeCast_self]
  show acc (ix2 e h) + FloatOps.matmul dot_S8x256_S256x2048_S8x2048_1_0_0_1_n_n (some .fp32) a b
      (constant (F := Ideal) S8x2048 .f32 0x00000000#32) (ix2 e h) = _
  rw [Ideal.matmul_constant_zero_apply,
    ← Equiv.sum_comp (contrEquiv1 dot_S8x256_S256x2048_S8x2048_1_0_0_1_n_n 256 rfl rfl).symm]
  refine congrArg (_ + ·) (Finset.sum_congr rfl fun k _ => ?_)
  have hk := contrEquiv1_symm_val dot_S8x256_S256x2048_S8x2048_1_0_0_1_n_n 256 rfl rfl k
  have el : dot_S8x256_S256x2048_S8x2048_1_0_0_1_n_n.lhsIdx (ix2 e h)
      ((contrEquiv1 dot_S8x256_S256x2048_S8x2048_1_0_0_1_n_n 256 rfl rfl).symm k) = ix2 e k :=
    funext fun x => Fin.ext (by
      match x with
      | ⟨0, _⟩ => exact pay3_lhs_0 _ _
      | ⟨1, _⟩ => exact (pay3_lhs_1 _ _).trans hk)
  have er : dot_S8x256_S256x2048_S8x2048_1_0_0_1_n_n.rhsIdx (ix2 e h)
      ((contrEquiv1 dot_S8x256_S256x2048_S8x2048_1_0_0_1_n_n 256 rfl rfl).symm k) = ix2 k h :=
    funext fun x => Fin.ext (by
      match x with
      | ⟨0, _⟩ => exact (pay3_rhs_0 _ _).trans hk
      | ⟨1, _⟩ => exact pay3_rhs_1 _ _)
  rw [el, er]

/-- One step of a row of the row sums: the accumulator's row at h plus the sum of row h of the block's 1024 columns. -/
theorem k1_pay4_apply (acc : FVec Ideal S1x2048 .f32) (blk : FVec Ideal S1x2048x1024 .f32) (h : Fin 2048) :
    k1_pay4 (F := Ideal) acc blk (ix2 (0 : Fin 1) h)
      = acc (ix2 (0 : Fin 1) h) + ∑ j : Fin 1024, blk (ix3 (0 : Fin 1) h j) := by
  unfold k1_pay4
  rw [shapeCast_self]
  refine congrArg (acc (ix2 (0 : Fin 1) h) + ·) ?_
  refine (shapeCast_apply _ _ (ix2 (0 : Fin 1) h) (ix1 h) (by
    rw [Shape.rowMajor_val_one, Shape.rowMajor_val_two]
    show h.val = 0 * 2048 + h.val
    omega)).trans ?_
  refine (Ideal.multiReduction_add_single (φ := .f32) _ 0x00000000#32 Facts₀.reduces_S2048x1024_S2048 (.inl rfl) rfl
    (ix1 h)).trans ?_
  refine Finset.sum_congr rfl fun j _ => ?_
  exact shapeCast_apply blk _ _ (ix3 (0 : Fin 1) h j) (by
    rw [Shape.rowMajor_val_three, Shape.rowMajor_val_two]
    show (0 * 2048 + h.val) * 1024 + j.val = h.val * 1024 + j.val
    omega)

/-- A one-entry vector seen as [1, 1, 1], its entry extracted and splat over [1, 1]: the entry. -/
theorem splat_extract_1 {α : Type} (x : S1.Idx → α) (hc : S1.ShapeCasts S1x1x1)
    (hp : ∀ a, (![0, 0, 0] : Fin 3 → Nat) a < S1x1x1.size a) (i : S1x1.Idx) :
    broadcast S1x1 (extractAt ![0, 0, 0] (shapeCast S1x1x1 x hc) hp) i = x (ix1 (0 : Fin 1)) :=
  shapeCast_apply x hc _ (ix1 (0 : Fin 1)) (by
    rw [Shape.rowMajor_val_one, Shape.rowMajor_val_three]
    rfl)

/-- The last point's number: Σ_{e', h} u[e', h] · v[e', h] over the 7 × 2048 entries. -/
theorem k1_pay5_apply (u v : FVec Ideal S7x2048 .f32) (i : S1x1.Idx) :
    k1_pay5 (F := Ideal) u v i = ∑ e' : Fin 7, ∑ h : Fin 2048, u (ix2 e' h) * v (ix2 e' h) := by
  unfold k1_pay5
  refine (splat_extract_1 _ _ _ i).trans ?_
  refine (Ideal.multiReduction_add_total (φ := .f32) _ 0x00000000#32 Facts₀.reduces_S1x7x2048_S1
    (fun b => by match b with | ⟨0, _⟩ => rfl) (.inl rfl) rfl _).trans ?_
  rw [sum_idx3, Fin.sum_univ_one]
  refine Finset.sum_congr rfl fun e' _ => Finset.sum_congr rfl fun h _ => ?_
  exact shapeCast_apply (mulf u v) _ (ix3 (0 : Fin 1) e' h) (ix2 e' h) (by
    rw [Shape.rowMajor_val_three, Shape.rowMajor_val_two]
    show e'.val * 2048 + h.val = (0 * 7 + e'.val) * 2048 + h.val
    omega)

/-! ## The finishing kernel's value -/

/-- The finishing kernel's number: the given number plus Σ_{h, l} lane[h, l] · column[h, 0]. -/
theorem k2_pay1_apply (lane : FVec Ideal S2048x16 .f32) (c : FVec Ideal S2048x1 .f32) (p : FVec Ideal S1x1 .f32)
    (i : S1x1.Idx) :
    k2_pay1 (F := Ideal) lane c p i
      = p i + ∑ h : Fin 2048, ∑ l : Fin 16, lane (ix2 h l) * c (ix2 h (0 : Fin 1)) := by
  unfold k2_pay1
  rw [shapeCast_self, shapeCast_self, shapeCast_self, addf_apply]
  refine congrArg (p i + ·) ?_
  refine (splat_extract_1 _ _ _ i).trans ?_
  refine (Ideal.multiReduction_add_total (φ := .f32) _ 0x00000000#32 Facts₀.reduces_S1x2048x16_S1
    (fun b => by match b with | ⟨0, _⟩ => rfl) (.inl rfl) rfl _).trans ?_
  rw [sum_idx3, Fin.sum_univ_one]
  refine Finset.sum_congr rfl fun h _ => Finset.sum_congr rfl fun l _ => ?_
  refine (shapeCast_apply _ _ (ix3 (0 : Fin 1) h l) (ix2 h l) (by
    rw [Shape.rowMajor_val_three, Shape.rowMajor_val_two]
    show h.val * 16 + l.val = (0 * 2048 + h.val) * 16 + l.val
    omega)).trans ?_
  rw [mulf_apply]
  refine congrArg (lane (ix2 h l) * ·) ?_
  exact broadcastTo_apply c _ (ix2 h l) (ix2 h (0 : Fin 1)) (fun x => match x with
    | ⟨0, _⟩ => by show h.val = if (2048 : Nat) = 1 then 0 else h.val; rw [if_neg (by decide)]
    | ⟨1, _⟩ => by show 0 = if (1 : Nat) = 1 then 0 else l.val; rw [if_pos rfl])

end Cert.Proof.KI

end
-- ==== Proof.KI.TileIdeal.lean ====
/-
  The lane sums at the ideal instance, and the program's reshapes read at an index.

  Over the extended reals addition is associative and commutative, so the eight accumulators of 32 trips each and
  the balanced tree over them add up, lane by lane, every one of a row's 256 pieces exactly once: piece q = 8 k + j
  is met by accumulator j on trip k, and the zero vector the accumulators start from is the number 0. Lane l of the
  row's sum is therefore the sum over q of the row's entry at column 16 q + l.

  The program's reshapes keep row-major order. The weight array [1, 8, 2048, 4096] seen as [16384, 4096] has row
  2048 e + h equal to row h of expert e, so its first 2048 rows are expert 0 and the lane sums are the
  specification's. Seen as [8, 2048, 4096] it is W itself; the hidden states [1, 1, 4096, 2048] seen as [4096, 2048]
  are hid, the routing weights [1, 8, 4096, 1] seen as [8, 4096] are sp. Row 0 of an [8, 2048] array, sliced out and
  seen as a [2048, 1] column, reads the array at (0, h); a [1, 1] array seen as a scalar reads its one entry.
-/
import proofs.«216131_g62878321214323_cont_9to1c4b_752_23_alg».proof.Proof.KI.TileSpec
import proofs.«216131_g62878321214323_cont_9to1c4b_752_23_alg».proof.Proof.Spec
import Idealize.ShloMosaic.Lib.Pipeline.Value
import Idealize.ShloMosaic.PureOps.Ideal.Laws

noncomputable section

open scoped BigOperators

namespace Cert.Proof.KI

open Cert.KernelIdeal
open Idealize.ShloMosaic Idealize.ShloMosaic.ValueIdx
open Cert.Proof.Spec (W hid sp laneSum col succ8)

/-! ## Pieces of a row: q = 8 k + j -/

/-- Piece 8 k + j of the 256: the one accumulator j meets on trip k. -/
abbrev piece (k : Fin 32) (j : Fin 8) : Fin 256 := ⟨8 * k.val + j.val, by omega⟩

/-- The pieces are the pairs (trip, accumulator). -/
def pieceEquiv : Fin 32 × Fin 8 ≃ Fin 256 where
  toFun p := piece p.1 p.2
  invFun q := (⟨q.val / 8, by omega⟩, ⟨q.val % 8, by omega⟩)
  left_inv p := by
    obtain ⟨k, j⟩ := p
    refine Prod.ext (Fin.ext ?_) (Fin.ext ?_)
    · show (8 * k.val + j.val) / 8 = k.val
      omega
    · show (8 * k.val + j.val) % 8 = j.val
      omega
  right_inv q := Fin.ext (by
    show 8 * (q.val / 8) + q.val % 8 = q.val
    omega)

/-- A sum over the pieces is the sum over the accumulators of the sums over the trips. -/
theorem sum_piece {M : Type*} [AddCommMonoid M] (g : Fin 256 → M) :
    ∑ q, g q = ∑ j : Fin 8, ∑ k : Fin 32, g (piece k j) := by
  rw [← Equiv.sum_comp pieceEquiv g, Fintype.sum_prod_type, Finset.sum_comm]
  rfl

/-! ## The accumulators and the tree, lane by lane -/

/-- The zero vector is 0 in every lane. -/
theorem zeroV_apply (i : S16.Idx) : zeroV (F := Ideal) i = 0 := Ideal.ofBits_zero_f32

/-- Accumulator j after k trips, at a lane: its start plus the first k pieces it meets. -/
theorem accs_apply (p : Nat → FVec Ideal S16 .f32) (z : FVec Ideal S16 .f32) (j k : Nat) (i : S16.Idx) :
    accs (F := Ideal) p z j k i = z i + ∑ m ∈ Finset.range k, p (8 * m + j) i := by
  induction k with
  | zero => rw [Finset.sum_range_zero, add_zero]; rfl
  | succ k ih =>
    rw [Finset.sum_range_succ, ← add_assoc, ← ih]
    rfl

/-- Accumulator j after its 32 trips from the zero vector: the sum of the pieces 8 k + j. -/
theorem accs_zeroV (p : Nat → FVec Ideal S16 .f32) (j : Fin 8) (i : S16.Idx) :
    accs (F := Ideal) p zeroV j.val 32 i = ∑ k : Fin 32, p (piece k j).val i := by
  rw [accs_apply, zeroV_apply, zero_add, Finset.sum_range]

/-- A row's lane sums at a lane: the sum of all 256 pieces at that lane. -/
theorem rowSum_apply (p : Nat → FVec Ideal S16 .f32) (i : S16.Idx) :
    rowSum (F := Ideal) p i = ∑ q : Fin 256, p q.val i := by
  rw [sum_piece (fun q => p q.val i), Fin.sum_univ_eight]
  show ((accs (F := Ideal) p zeroV 0 32 i + accs (F := Ideal) p zeroV 1 32 i)
        + (accs (F := Ideal) p zeroV 2 32 i + accs (F := Ideal) p zeroV 3 32 i))
      + ((accs (F := Ideal) p zeroV 4 32 i + accs (F := Ideal) p zeroV 5 32 i)
        + (accs (F := Ideal) p zeroV 6 32 i + accs (F := Ideal) p zeroV 7 32 i)) = _
  rw [show accs (F := Ideal) p zeroV 0 32 i = _ from accs_zeroV p 0 i,
    show accs (F := Ideal) p zeroV 1 32 i = _ from accs_zeroV p 1 i,
    show accs (F := Ideal) p zeroV 2 32 i = _ from accs_zeroV p 2 i,
    show accs (F := Ideal) p zeroV 3 32 i = _ from accs_zeroV p 3 i,
    show accs (F := Ideal) p zeroV 4 32 i = _ from accs_zeroV p 4 i,
    show accs (F := Ideal) p zeroV 5 32 i = _ from accs_zeroV p 5 i,
    show accs (F := Ideal) p zeroV 6 32 i = _ from accs_zeroV p 6 i,
    show accs (F := Ideal) p zeroV 7 32 i = _ from accs_zeroV p 7 i]
  abel

/-- THE LANE SUMS AT THE IDEAL INSTANCE: entry (h, l) is the sum over the pieces q of row h at column 16 q + l. -/
theorem laneSums_ideal (w : (⟨S16384x4096, .f32⟩ : BufTy).Contents (Elt Ideal)) (h : Fin 2048) (l : Fin 16) :
    laneSums (F := Ideal) w (ix2 h l)
      = ∑ q : Fin 256, w (ix2 (⟨h.val, by omega⟩ : Fin 16384) (⟨16 * q.val + l.val, by omega⟩ : Fin 4096)) := by
  show rowSum (F := Ideal) (wPiece w ⟨h.val, _⟩) (ix1 l) = _
  rw [rowSum_apply]
  refine Finset.sum_congr rfl fun q _ => ?_
  show w (ix2 _ ⟨(16 * q.val + l.val) % 4096, _⟩) = _
  exact congrArg w (congrArg (ix2 _) (Fin.ext (Nat.mod_eq_of_lt (by omega))))

/-! ## The reshapes of the three arguments, read at an index -/

section Reshapes
variable (x0 : (⟨S1x1x4096x2048, .f32⟩ : BufTy).Contents (Elt Ideal)) (x1 : (⟨S1x8x4096x1, .f32⟩ : BufTy).Contents (Elt Ideal))
  (x2 : (⟨S1x8x2048x4096, .f32⟩ : BufTy).Contents (Elt Ideal))

/-- The hidden states seen as [4096, 2048] are hid. -/
theorem reshape_hid (hc : S1x1x4096x2048.ShapeCasts S4096x2048) (t : Fin 4096) (h : Fin 2048) :
    shapeCast S4096x2048 x0 hc (ix2 t h) = hid x0 t h :=
  shapeCast_apply x0 hc (ix2 t h) (ix4 (0 : Fin 1) (0 : Fin 1) t h) (by
    rw [Shape.rowMajor_val_four, Shape.rowMajor_val_two]
    show ((0 * 1 + 0) * 4096 + t.val) * 2048 + h.val = t.val * 2048 + h.val
    omega)

/-- The routing weights seen as [8, 4096] are sp. -/
theorem reshape_sp (hc : S1x8x4096x1.ShapeCasts S8x4096) (e : Fin 8) (t : Fin 4096) :
    shapeCast S8x4096 x1 hc (ix2 e t) = sp x1 e t :=
  shapeCast_apply x1 hc (ix2 e t) (ix4 (0 : Fin 1) e t (0 : Fin 1)) (by
    rw [Shape.rowMajor_val_four, Shape.rowMajor_val_two]
    show ((0 * 8 + e.val) * 4096 + t.val) * 1 + 0 = e.val * 4096 + t.val
    omega)

/-- The expert matrices seen as [8, 2048, 4096] are W. -/
theorem reshape_W3 (hc : S1x8x2048x4096.ShapeCasts S8x2048x4096) (e : Fin 8) (h : Fin 2048) (o : Fin 4096) :
    shapeCast S8x2048x4096 x2 hc (ix3 e h o) = W x2 e h o :=
  shapeCast_apply x2 hc (ix3 e h o) (ix4 (0 : Fin 1) e h o) (by
    rw [Shape.rowMajor_val_four, Shape.rowMajor_val_three]
    show ((0 * 8 + e.val) * 2048 + h.val) * 4096 + o.val = (e.val * 2048 + h.val) * 4096 + o.val
    omega)

/-- The expert matrices seen as [16384, 4096]: row 2048 e + h is row h of expert e. -/
theorem reshape_W2 (hc : S1x8x2048x4096.ShapeCasts S16384x4096) (r : Fin 16384) (o : Fin 4096) (e : Fin 8) (h : Fin 2048)
    (hr : r.val = 2048 * e.val + h.val) :
    shapeCast S16384x4096 x2 hc (ix2 r o) = W x2 e h o :=
  shapeCast_apply x2 hc (ix2 r o) (ix4 (0 : Fin 1) e h o) (by
    rw [Shape.rowMajor_val_four, Shape.rowMajor_val_two]
    show ((0 * 8 + e.val) * 2048 + h.val) * 4096 + o.val = r.val * 4096 + o.val
    omega)

/-- THE LANE SUMS OF THE RESHAPED WEIGHTS ARE THE SPECIFICATION'S: the first 2048 rows are expert 0. -/
theorem laneSums_reshape (hc : S1x8x2048x4096.ShapeCasts S16384x4096) (h : Fin 2048) (l : Fin 16) :
    laneSums (F := Ideal) (shapeCast S16384x4096 x2 hc) (ix2 h l) = laneSum x2 h l := by
  rw [laneSums_ideal]
  exact Finset.sum_congr rfl fun q _ => reshape_W2 x2 hc _ _ 0 h (by show h.val = 2048 * 0 + h.val; omega)

end Reshapes

/-! ## Row 0 of an [8, 2048] array as a column, and a [1, 1] array as a scalar -/

/-- The slice [0:1, 0:2048] of an [8, 2048] array, seen as [2048, 1], reads the array at (0, h). -/
theorem row0_column {α : Type} (y : S8x2048.Idx → α) (hs : S8x2048.Slices ![0, 0] S1x2048) (hc : S1x2048.ShapeCasts S2048x1)
    (h : Fin 2048) :
    shapeCast S2048x1 (extractStridedSlice S1x2048 ![0, 0] y hs) hc (ix2 h (0 : Fin 1)) = y (ix2 (0 : Fin 8) h) := by
  refine (shapeCast_apply _ hc (ix2 h (0 : Fin 1)) (ix2 (0 : Fin 1) h) (by
    rw [Shape.rowMajor_val_two, Shape.rowMajor_val_two]
    show 0 * 2048 + h.val = h.val * 1 + 0
    omega)).trans ?_
  exact extractStridedSlice_apply _ y hs _ _ (fun a => match a with
    | ⟨0, _⟩ => rfl
    | ⟨1, _⟩ => by show h.val = 0 + h.val; omega)

/-- A [1, 1] array seen as a scalar reads its one entry. -/
theorem scalar_of_1x1 {α : Type} (y : S1x1.Idx → α) (hc : S1x1.ShapeCasts S_) (i : S_.Idx) :
    shapeCast S_ y hc i = y (ix2 (0 : Fin 1) (0 : Fin 1)) :=
  shapeCast_apply y hc i (ix2 (0 : Fin 1) (0 : Fin 1)) (by
    rw [Shape.rowMajor_val_two]
    show 0 * 1 + 0 = (Shape.rowMajorPi _ i).val
    rw [Shape.rowMajorPi_zero])

end Cert.Proof.KI

end
-- ==== Proof.KI.RegionValue.lean ====
/-
  The two TensorCore kernels' results at the ideal instance, and the whole kernel's number.

  The grid kernel walks 28 points t = 4 e + oc in order. Its first accumulator gains, at each point t < 16, the product
  of the routing weights' columns [256 t, 256 t + 256) with the hidden states' rows of the same range: after the walk
  its entry (e, h) is the sum over all 4096 tokens of sp[e, t] · hid[t, h]. Its second accumulator gains at point t, in
  row t / 4 only, the sums over the 1024 columns of the weight block staged there: when that block is columns
  [1024 oc, 1024 oc + 1024) of expert e + 1, row e ends as the sum over all 4096 columns of that expert's matrix.
  The last point's number is the sum of products of the first accumulator's rows 1 to 7 with the second's rows; the
  finishing kernel adds the sum of the lane sums times row 0 of the first accumulator. With the reshapes of the three
  arguments read at an index this is the specification's arrangement of the number.
-/
import proofs.«216131_g62878321214323_cont_9to1c4b_752_23_alg».proof.Proof.KI.RegionSpec
import proofs.«216131_g62878321214323_cont_9to1c4b_752_23_alg».proof.Proof.KI.RegionIdeal
import proofs.«216131_g62878321214323_cont_9to1c4b_752_23_alg».proof.Proof.KI.TileIdeal
import proofs.«216131_g62878321214323_cont_9to1c4b_752_23_alg».proof.Proof.Spec

noncomputable section

open scoped BigOperators

namespace Cert.Proof.KI

open Cert.KernelIdeal Cert.KernelIdeal.Gen
open Idealize.ShloMosaic Idealize.ShloMosaic.ValueIdx
open Cert.Proof.Spec (succ8 col)

/-! ## Index vocabulary: token blocks, column blocks, grid points -/

/-- Token 256 k + j: block k of 16, offset j of 256. -/
abbrev tok (k : Fin 16) (j : Fin 256) : Fin 4096 := ⟨256 * k.val + j.val, by omega⟩
/-- The same for any natural block number, read modulo the number of tokens so that the function is total. -/
abbrev tokN (k : ℕ) (j : Fin 256) : Fin 4096 := ⟨(256 * k + j.val) % 4096, Nat.mod_lt _ (by decide)⟩
theorem tokN_eq (k : Fin 16) (j : Fin 256) : tokN k.val j = tok k j := Fin.ext (Nat.mod_eq_of_lt (by omega))

/-- The tokens are the pairs (block, offset). -/
def tokEquiv : Fin 16 × Fin 256 ≃ Fin 4096 where
  toFun p := tok p.1 p.2
  invFun t := (⟨t.val / 256, by omega⟩, ⟨t.val % 256, by omega⟩)
  left_inv p := by
    obtain ⟨k, j⟩ := p
    refine Prod.ext (Fin.ext ?_) (Fin.ext ?_)
    · show (256 * k.val + j.val) / 256 = k.val
      omega
    · show (256 * k.val + j.val) % 256 = j.val
      omega
  right_inv t := Fin.ext (by
    show 256 * (t.val / 256) + t.val % 256 = t.val
    omega)

/-- A sum over the tokens is the sum over the blocks of the sums over the offsets. -/
theorem sum_tok {M : Type*} [AddCommMonoid M] (f : Fin 4096 → M) :
    ∑ t, f t = ∑ k : Fin 16, ∑ j : Fin 256, f (tok k j) := by
  rw [← Equiv.sum_comp tokEquiv f, Fintype.sum_prod_type]
  rfl

/-- Column 1024 oc + j: block oc of 4, offset j of 1024. -/
abbrev colBlk (oc : Fin 4) (j : Fin 1024) : Fin 4096 := ⟨1024 * oc.val + j.val, by omega⟩

/-- The columns are the pairs (block, offset). -/
def colBlkEquiv : Fin 4 × Fin 1024 ≃ Fin 4096 where
  toFun p := colBlk p.1 p.2
  invFun o := (⟨o.val / 1024, by omega⟩, ⟨o.val % 1024, by omega⟩)
  left_inv p := by
    obtain ⟨oc, j⟩ := p
    refine Prod.ext (Fin.ext ?_) (Fin.ext ?_)
    · show (1024 * oc.val + j.val) / 1024 = oc.val
      omega
    · show (1024 * oc.val + j.val) % 1024 = j.val
      omega
  right_inv o := Fin.ext (by
    show 1024 * (o.val / 1024) + o.val % 1024 = o.val
    omega)

/-- A sum over the columns is the sum over the blocks of the sums over the offsets. -/
theorem sum_colBlk {M : Type*} [AddCommMonoid M] (f : Fin 4096 → M) :
    ∑ o, f o = ∑ oc : Fin 4, ∑ j : Fin 1024, f (colBlk oc j) := by
  rw [← Equiv.sum_comp colBlkEquiv f, Fintype.sum_prod_type]
  rfl

/-- The grid has 28 points. -/
theorem N1 : grid1.N = 28 := by decide +kernel

/-- Point t has coordinates (t / 4, t % 4). -/
theorem coords1 : ∀ t : Fin grid1.N, (grid1.coords t 0).val = t.val / 4 ∧ (grid1.coords t 1).val = t.val % 4 := by
  decide +kernel

/-- Point 4 e' + oc of the grid. -/
abbrev pt (e' : Fin 7) (oc : Fin 4) : Fin grid1.N := ⟨4 * e'.val + oc.val, by rw [N1]; omega⟩

/-- The 28 points are the pairs (row, column block). -/
def ptEquiv : Fin 7 × Fin 4 ≃ Fin 28 where
  toFun p := ⟨4 * p.1.val + p.2.val, by omega⟩
  invFun t := (⟨t.val / 4, by omega⟩, ⟨t.val % 4, by omega⟩)
  left_inv p := by
    obtain ⟨e, oc⟩ := p
    refine Prod.ext (Fin.ext ?_) (Fin.ext ?_)
    · show (4 * e.val + oc.val) / 4 = e.val
      omega
    · show (4 * e.val + oc.val) % 4 = oc.val
      omega
  right_inv t := Fin.ext (by
    show 4 * (t.val / 4) + t.val % 4 = t.val
    omega)

/-- A sum over the first 28 naturals is the sum over the rows of the sums over the column blocks. -/
theorem sum_range28 {M : Type*} [AddCommMonoid M] (f : ℕ → M) :
    ∑ t ∈ Finset.range 28, f t = ∑ e : Fin 7, ∑ oc : Fin 4, f (4 * e.val + oc.val) := by
  rw [Finset.sum_range, ← Equiv.sum_comp ptEquiv (fun t : Fin 28 => f t.val), Fintype.sum_prod_type]
  rfl

/-! ## The slabs a point reads -/

/-- The routing weights' slab at a point t < 16: columns 256 t + j. -/
theorem ld_sp_slab (X : Vec Ideal S8x4096 .f32) (t : Fin grid1.N) (hc : k1_cond2 (grid1.coords t) = 1#1) (e : Fin 8)
    (j : Fin 256) :
    View.ld X (Rect.unit (s := S8x4096) (k1_off1 (grid1.coords t)) S8x256.size (k1_off1_inb (grid1.coords t) hc))
        (ix2 e j) = X (ix2 e (tokN t.val j)) := by
  have ht : t.val < 16 := (cond2_iff t).1 hc
  obtain ⟨h0, h1⟩ := coords1 t
  refine congrArg X (funext fun a => Fin.ext ?_)
  show k1_off1 (grid1.coords t) a + 1 * (ix2 e j a).val = (ix2 e (tokN t.val j) a).val
  rw [k1_off1_eq]
  match a with
  | ⟨0, _⟩ =>
    show 0 + 1 * e.val = e.val
    omega
  | ⟨1, _⟩ =>
    show (1024 * (grid1.coords t 0).val + 256 * (grid1.coords t 1).val) + 1 * j.val = (256 * t.val + j.val) % 4096
    rw [h0, h1]
    omega

/-- The hidden states' slab at a point t < 16: rows 256 t + j. -/
theorem ld_hid_slab (X : Vec Ideal S4096x2048 .f32) (t : Fin grid1.N) (hc : k1_cond2 (grid1.coords t) = 1#1)
    (j : Fin 256) (h : Fin 2048) :
    View.ld X (Rect.unit (s := S4096x2048) (k1_off2 (grid1.coords t)) S256x2048.size (k1_off2_inb (grid1.coords t) hc))
        (ix2 j h) = X (ix2 (tokN t.val j) h) := by
  have ht : t.val < 16 := (cond2_iff t).1 hc
  obtain ⟨h0, h1⟩ := coords1 t
  refine congrArg X (funext fun a => Fin.ext ?_)
  show k1_off2 (grid1.coords t) a + 1 * (ix2 j h a).val = (ix2 (tokN t.val j) h a).val
  rw [k1_off2_eq]
  match a with
  | ⟨0, _⟩ =>
    show (1024 * (grid1.coords t 0).val + 256 * (grid1.coords t 1).val) + 1 * j.val = (256 * t.val + j.val) % 4096
    rw [h0, h1]
    omega
  | ⟨1, _⟩ =>
    show 0 + 1 * h.val = h.val
    omega

/-! ## The first accumulator: the routed hidden states -/

/-- One point of the walk: at t < 16 the accumulator gains the block's sum of products. -/
theorem shAt_step (sp : Vec Ideal S8x4096 .f32) (hid : Vec Ideal S4096x2048 .f32) (t : Fin grid1.N) (e : Fin 8)
    (h : Fin 2048) :
    shAt (F := Ideal) sp hid (t.val + 1) (ix2 e h)
      = shAt (F := Ideal) sp hid t.val (ix2 e h)
        + if t.val < 16 then ∑ j : Fin 256, sp (ix2 e (tokN t.val j)) * hid (ix2 (tokN t.val j) h) else 0 := by
  by_cases hc : k1_cond2 (grid1.coords t) = 1#1
  · rw [shAt_succ_pos sp hid t hc, if_pos ((cond2_iff t).1 hc)]
    unfold shNext
    refine (k1_pay3_apply _ _ _ e h).trans ?_
    refine congrArg (_ + ·) (Finset.sum_congr rfl fun j _ => ?_)
    rw [ld_sp_slab sp t hc e j, ld_hid_slab hid t hc j h]
  · rw [shAt_succ_neg sp hid t hc, if_neg (fun h16 => hc ((cond2_iff t).2 h16)), add_zero]

/-- Before point n the accumulator holds the first min n 16 blocks' sums. -/
theorem shAt_apply (sp : Vec Ideal S8x4096 .f32) (hid : Vec Ideal S4096x2048 .f32) (e : Fin 8) (h : Fin 2048) :
    ∀ n, n ≤ 28 → shAt (F := Ideal) sp hid n (ix2 e h)
      = ∑ k ∈ Finset.range (min n 16), ∑ j : Fin 256, sp (ix2 e (tokN k j)) * hid (ix2 (tokN k j) h)
  | 0, _ => by
    rw [Nat.zero_min, Finset.sum_range_zero]
    exact k1_pay1_apply _
  | n + 1, hn => by
    have ih := shAt_apply sp hid e h n (by omega)
    obtain ⟨t, rfl⟩ : ∃ t : Fin grid1.N, t.val = n := ⟨⟨n, by rw [N1]; omega⟩, rfl⟩
    rw [shAt_step, ih]
    by_cases h16 : t.val < 16
    · rw [if_pos h16, Nat.min_eq_left (by omega : t.val ≤ 16), Nat.min_eq_left (by omega : t.val + 1 ≤ 16),
        Finset.sum_range_succ]
    · rw [if_neg h16, add_zero, Nat.min_eq_right (by omega : 16 ≤ t.val), Nat.min_eq_right (by omega : 16 ≤ t.val + 1)]

/-- FROM POINT 16 ON (the accumulator no longer changes) the first accumulator at (e, h) is Σ_t sp[e, t] · hid[t, h]
    over all 4096 tokens. -/
theorem shAt_final (sp : Vec Ideal S8x4096 .f32) (hid : Vec Ideal S4096x2048 .f32) (n : ℕ) (h16 : 16 ≤ n) (hn : n ≤ 28)
    (e : Fin 8) (h : Fin 2048) :
    shAt (F := Ideal) sp hid n (ix2 e h) = ∑ t : Fin 4096, sp (ix2 e t) * hid (ix2 t h) := by
  rw [shAt_apply sp hid e h n hn, Nat.min_eq_right h16]
  refine (Finset.sum_range _).trans (Eq.trans ?_ (sum_tok (fun t => sp (ix2 e t) * hid (ix2 t h))).symm)
  refine Finset.sum_congr rfl fun k _ => Finset.sum_congr rfl fun j _ => ?_
  rw [tokN_eq k j]

/-! ## The second accumulator: the experts' row sums -/

/-- One point on one entry: row i₀ gains the staged block's row sum, the other rows stay. -/
theorem wsNext_apply (i : grid1.Coords) (base : Vec Ideal S7x2048 .f32) (blk : Vec Ideal S1x2048x1024 .f32) (e' : Fin 7)
    (h : Fin 2048) :
    wsNext (F := Ideal) i base blk (ix2 e' h)
      = if (i 0).val = e'.val then base (ix2 e' h) + ∑ j : Fin 1024, blk (ix3 (0 : Fin 1) h j) else base (ix2 e' h) := by
  unfold wsNext
  by_cases hr : (i 0).val = e'.val
  · rw [if_pos hr]
    have hemb : (Rect.unit (s := S7x2048) (k1_off3 i) S1x2048.size (k1_off3_inb i)).emb (ix2 (0 : Fin 1) h) = ix2 e' h :=
      funext fun a => Fin.ext (by
        show k1_off3 i a + 1 * (ix2 (0 : Fin 1) h a).val = (ix2 e' h a).val
        rw [k1_off3_eq]
        match a with
        | ⟨0, _⟩ =>
          show (i 0).val + 1 * 0 = e'.val
          omega
        | ⟨1, _⟩ =>
          show 0 + 1 * h.val = h.val
          omega)
    refine ((congrArg _ hemb.symm).trans (Rect.overlay_emb _ _ _ _)).trans ?_
    refine (k1_pay4_apply _ blk h).trans ?_
    exact congrArg (· + _) (congrArg base hemb)
  · rw [if_neg hr]
    refine Rect.overlay_of_not_mem _ _ _ (fun hm => hr ?_)
    have h0 := (Rect.mem_set_unit.1 hm) 0
    rw [k1_off3_eq] at h0
    have h1 : (i 0).val ≤ e'.val ∧ e'.val < (i 0).val + 1 := h0
    omega

/-- One point of the walk on one entry. -/
theorem wsAt_step (wb : Fin grid1.N → Vec Ideal S1x2048x1024 .f32) (t : Fin grid1.N) (e' : Fin 7) (h : Fin 2048) :
    wsAt (F := Ideal) wb (t.val + 1) (ix2 e' h)
      = wsAt (F := Ideal) wb t.val (ix2 e' h)
        + if t.val / 4 = e'.val then ∑ j : Fin 1024, wb t (ix3 (0 : Fin 1) h j) else 0 := by
  rw [wsAt_succ, wsNext_apply, (coords1 t).1]
  by_cases hr : t.val / 4 = e'.val
  · rw [if_pos hr, if_pos hr]
  · rw [if_neg hr, if_neg hr, add_zero]

/-- The row sum of the block staged at point n (0 past the grid). -/
def blockRowSum (wb : Fin grid1.N → Vec Ideal S1x2048x1024 .f32) (h : Fin 2048) (n : ℕ) : EReal :=
  if hn : n < grid1.N then ∑ j : Fin 1024, wb ⟨n, hn⟩ (ix3 (0 : Fin 1) h j) else 0

/-- Before point n, row e' holds the row sums of the blocks staged at the points of that row so far. -/
theorem wsAt_apply (wb : Fin grid1.N → Vec Ideal S1x2048x1024 .f32) (e' : Fin 7) (h : Fin 2048) :
    ∀ n, n ≤ 28 → wsAt (F := Ideal) wb n (ix2 e' h)
      = ∑ t ∈ Finset.range n, if t / 4 = e'.val then blockRowSum wb h t else 0
  | 0, _ => by
    rw [Finset.sum_range_zero]
    exact k1_pay2_apply _
  | n + 1, hn => by
    have ih := wsAt_apply wb e' h n (by omega)
    obtain ⟨t, rfl⟩ : ∃ t : Fin grid1.N, t.val = n := ⟨⟨n, by rw [N1]; omega⟩, rfl⟩
    rw [wsAt_step, ih, Finset.sum_range_succ]
    refine congrArg (_ + ·) ?_
    by_cases hr : t.val / 4 = e'.val
    · rw [if_pos hr, if_pos hr]
      unfold blockRowSum
      rw [dif_pos t.isLt]
    · rw [if_neg hr, if_neg hr]

/-- AFTER THE WALK, when the block staged at point 4 e' + oc is columns [1024 oc, 1024 oc + 1024) of expert e' + 1 of
    the array w3, the second accumulator at (e', h) is Σ_o w3[e' + 1, h, o] over all 4096 columns. -/
theorem wsAt_final (wb : Fin grid1.N → Vec Ideal S1x2048x1024 .f32) (w3 : Vec Ideal S8x2048x4096 .f32)
    (hwb : ∀ (e' : Fin 7) (oc : Fin 4) (h : Fin 2048) (j : Fin 1024),
      wb (pt e' oc) (ix3 (0 : Fin 1) h j) = w3 (ix3 (succ8 e') h (colBlk oc j)))
    (e' : Fin 7) (h : Fin 2048) :
    wsAt (F := Ideal) wb 28 (ix2 e' h) = ∑ o : Fin 4096, w3 (ix3 (succ8 e') h o) := by
  rw [wsAt_apply wb e' h 28 (le_refl _), sum_range28]
  calc ∑ e : Fin 7, ∑ oc : Fin 4, (if (4 * e.val + oc.val) / 4 = e'.val then blockRowSum wb h (4 * e.val + oc.val) else 0)
      = ∑ e : Fin 7, if e = e' then ∑ oc : Fin 4, blockRowSum wb h (4 * e.val + oc.val) else 0 := by
        refine Finset.sum_congr rfl fun e _ => ?_
        by_cases he : e = e'
        · subst he
          rw [if_pos rfl]
          refine Finset.sum_congr rfl fun oc _ => ?_
          rw [if_pos (by omega)]
        · rw [if_neg he]
          refine Finset.sum_eq_zero fun oc _ => ?_
          rw [if_neg (fun hq => he (Fin.ext (by omega)))]
    _ = ∑ oc : Fin 4, blockRowSum wb h (4 * e'.val + oc.val) := by
        rw [Finset.sum_ite_eq' Finset.univ e', if_pos (Finset.mem_univ _)]
    _ = ∑ oc : Fin 4, ∑ j : Fin 1024, w3 (ix3 (succ8 e') h (colBlk oc j)) := by
        refine Finset.sum_congr rfl fun oc _ => ?_
        unfold blockRowSum
        rw [dif_pos (pt e' oc).isLt]
        exact Finset.sum_congr rfl fun j _ => hwb e' oc h j
    _ = ∑ o : Fin 4096, w3 (ix3 (succ8 e') h o) := (sum_colBlk (fun o => w3 (ix3 (succ8 e') h o))).symm

/-! ## The two numbers -/

/-- THE LAST POINT'S NUMBER: Σ_{e', h} sh[e' + 1, h] · ws[e', h]. -/
theorem partOf_apply (sh : Vec Ideal S8x2048 .f32) (ws : Vec Ideal S7x2048 .f32) (i : S1x1.Idx) :
    partOf (F := Ideal) sh ws i = ∑ e' : Fin 7, ∑ h : Fin 2048, sh (ix2 (succ8 e') h) * ws (ix2 e' h) := by
  unfold partOf
  refine (k1_pay5_apply _ ws i).trans ?_
  refine Finset.sum_congr rfl fun e' _ => Finset.sum_congr rfl fun h _ => ?_
  refine congrArg (· * _) (congrArg sh (funext fun a => Fin.ext ?_))
  match a with
  | ⟨0, _⟩ =>
    show 1 + 1 * e'.val = e'.val + 1
    omega
  | ⟨1, _⟩ =>
    show 0 + 1 * h.val = h.val
    omega

/-- THE FINISHING KERNEL'S NUMBER: part + Σ_{h, l} lane[h, l] · shf[h, 0]. -/
theorem finV_apply (part : Vec Ideal S1x1 .f32) (shf : Vec Ideal S2048x1 .f32) (lane : Vec Ideal S2048x16 .f32)
    (i : S1x1.Idx) :
    finV (F := Ideal) part shf lane i
      = part i + ∑ h : Fin 2048, ∑ l : Fin 16, lane (ix2 h l) * shf (ix2 h (0 : Fin 1)) :=
  k2_pay1_apply lane shf part i

/-! ## The whole kernel's number is the specification's -/

section Whole
variable (x0 : (⟨S1x1x4096x2048, .f32⟩ : BufTy).Contents (Elt Ideal)) (x1 : (⟨S1x8x4096x1, .f32⟩ : BufTy).Contents (Elt Ideal))
  (x2 : (⟨S1x8x2048x4096, .f32⟩ : BufTy).Contents (Elt Ideal))
  (c0 : S1x1x4096x2048.ShapeCasts S4096x2048) (c1 : S1x8x4096x1.ShapeCasts S8x4096)
  (c2 : S1x8x2048x4096.ShapeCasts S8x2048x4096) (c3 : S1x8x2048x4096.ShapeCasts S16384x4096)
  (hs : S8x2048.Slices ![0, 0] S1x2048) (c7 : S1x2048.ShapeCasts S2048x1)

/-- The first accumulator from point 16 on, over the reshaped arguments, is the specification's routed hidden states. -/
theorem shAt_spec (n : ℕ) (h16 : 16 ≤ n) (hn : n ≤ 28) (e : Fin 8) (h : Fin 2048) :
    shAt (F := Ideal) (shapeCast S8x4096 x1 c1) (shapeCast S4096x2048 x0 c0) n (ix2 e h) = Spec.sh x0 x1 e h := by
  rw [shAt_final _ _ n h16 hn]
  exact Finset.sum_congr rfl fun t _ => by rw [reshape_sp x1 c1 e t, reshape_hid x0 c0 t h]

/-- The second accumulator after the walk, the staged blocks being those of the reshaped weights, is the
    specification's row sums. -/
theorem wsAt_spec (wb : Fin grid1.N → Vec Ideal S1x2048x1024 .f32)
    (hwb : ∀ (e' : Fin 7) (oc : Fin 4) (h : Fin 2048) (j : Fin 1024),
      wb (pt e' oc) (ix3 (0 : Fin 1) h j) = shapeCast S8x2048x4096 x2 c2 (ix3 (succ8 e') h (colBlk oc j)))
    (e' : Fin 7) (h : Fin 2048) :
    wsAt (F := Ideal) wb 28 (ix2 e' h) = Spec.ws x2 e' h := by
  rw [wsAt_final wb _ hwb]
  exact Finset.sum_congr rfl fun o _ => reshape_W3 x2 c2 (succ8 e') h o

/-- THE KERNEL'S NUMBER: the finishing kernel's value on the last point's number, row 0 of the first accumulator as a
    column, and the lane sums of the reshaped weights, is the specification's kernelVal (the first accumulator taken
    before any point n from 16 on, the second after the whole walk). -/
theorem final_eq_kernelVal (wb : Fin grid1.N → Vec Ideal S1x2048x1024 .f32)
    (hwb : ∀ (e' : Fin 7) (oc : Fin 4) (h : Fin 2048) (j : Fin 1024),
      wb (pt e' oc) (ix3 (0 : Fin 1) h j) = shapeCast S8x2048x4096 x2 c2 (ix3 (succ8 e') h (colBlk oc j)))
    (n : ℕ) (h16 : 16 ≤ n) (hn : n ≤ 28) (i : S1x1.Idx) :
    finV (F := Ideal)
        (partOf (shAt (shapeCast S8x4096 x1 c1) (shapeCast S4096x2048 x0 c0) n) (wsAt wb 28))
        (shapeCast S2048x1 (extractStridedSlice S1x2048 ![0, 0]
          (shAt (F := Ideal) (shapeCast S8x4096 x1 c1) (shapeCast S4096x2048 x0 c0) n) hs) c7)
        (laneSums (F := Ideal) (shapeCast S16384x4096 x2 c3)) i
      = Spec.kernelVal x0 x1 x2 := by
  rw [finV_apply, partOf_apply]
  unfold Spec.kernelVal Spec.part Spec.contrib
  refine congrArg₂ (· + ·) ?_ ?_
  · refine Finset.sum_congr rfl fun e' _ => Finset.sum_congr rfl fun h _ => ?_
    rw [shAt_spec x0 x1 c0 c1 n h16 hn, wsAt_spec x2 c2 wb hwb]
  · refine Finset.sum_congr rfl fun h _ => Finset.sum_congr rfl fun l _ => ?_
    rw [laneSums_reshape x2 c3 h l, row0_column _ hs c7 h, shAt_spec x0 x1 c0 c1 n h16 hn]

end Whole

end Cert.Proof.KI

end
-- ==== Proof.KI.ValueChain.lean ====
/-
  The final valuation read at the result: the chain of @main's pure steps.

  @main's valuation advances by four reshapes of the arguments, the SparseCore call (the lane sums into one array), the
  grid kernel (two result arrays), a slice and a reshape (row 0 of the routed hidden states as a column), the finishing
  kernel (one result array) and a last reshape to a scalar. Read at the scalar, with each step's value at the ideal
  instance, the chain is the finishing kernel's number on the last point's number, the column and the lane sums:
  the specification's arrangement of the sum.
-/
import proofs.«216131_g62878321214323_cont_9to1c4b_752_23_alg».proof.Proof.KI.Final
import proofs.«216131_g62878321214323_cont_9to1c4b_752_23_alg».proof.Proof.KI.RegionValue

noncomputable section

namespace Cert.Proof.KI

open Cert.KernelIdeal Cert.KernelIdeal.Gen
open Idealize.ShloMosaic Idealize.ShloMosaic.ValueIdx
open Cert.Proof.Spec (succ8)

abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v6' : DevRef τ sig := Proc.devRef .tc (main_v6 : Ref sig .tc)
abbrev v7' : DevRef τ sig := Proc.devRef .tc (main_v7 : Ref sig .tc)

variable (m : (ℓ : Loc nD τ sig) → Buf (Elt Ideal) ℓ)
variable (out : (d : Dev nD) → Buf (Elt Ideal) (oLoc d))
variable (upd0 upd1 : Dev nD → Valuation τ sig (Elt Ideal) → Valuation τ sig (Elt Ideal))
variable (d : Dev nD)

/-! ## After the four reshapes -/

theorem Val4_v0 : Val4 m d v0' = shapeCast S4096x2048 (m (d, a0')) shapeCasts_S1x1x4096x2048_S4096x2048 := by
  unfold Val4
  rw [StableHlo.reshape_result_ne (h := show (main_v0 : Ref sig .tc) ≠ main_v3 by decide),
    StableHlo.reshape_result_ne (h := show (main_v0 : Ref sig .tc) ≠ main_v2 by decide),
    StableHlo.reshape_result_ne (h := show (main_v0 : Ref sig .tc) ≠ main_v1 by decide),
    StableHlo.reshape_result]
  rfl

theorem Val4_v1 : Val4 m d v1' = shapeCast S8x4096 (m (d, a1')) shapeCasts_S1x8x4096x1_S8x4096 := by
  unfold Val4
  rw [StableHlo.reshape_result_ne (h := show (main_v1 : Ref sig .tc) ≠ main_v3 by decide),
    StableHlo.reshape_result_ne (h := show (main_v1 : Ref sig .tc) ≠ main_v2 by decide),
    StableHlo.reshape_result,
    StableHlo.reshape_result_ne (h := show (main_arg1 : Ref sig .tc) ≠ main_v0 by decide)]
  rfl

theorem Val4_v2 : Val4 m d v2' = shapeCast S8x2048x4096 (m (d, a2')) shapeCasts_S1x8x2048x4096_S8x2048x4096 := by
  unfold Val4
  rw [StableHlo.reshape_result_ne (h := show (main_v2 : Ref sig .tc) ≠ main_v3 by decide),
    StableHlo.reshape_result,
    StableHlo.reshape_result_ne (h := show (main_arg2 : Ref sig .tc) ≠ main_v1 by decide),
    StableHlo.reshape_result_ne (h := show (main_arg2 : Ref sig .tc) ≠ main_v0 by decide)]
  rfl

theorem Val4_w : Val4 m d w' = shapeCast S16384x4096 (m (d, a2')) shapeCasts_S1x8x2048x4096_S16384x4096 := by
  unfold Val4
  rw [StableHlo.reshape_result,
    StableHlo.reshape_result_ne (h := show (main_arg2 : Ref sig .tc) ≠ main_v2 by decide),
    StableHlo.reshape_result_ne (h := show (main_arg2 : Ref sig .tc) ≠ main_v1 by decide),
    StableHlo.reshape_result_ne (h := show (main_arg2 : Ref sig .tc) ≠ main_v0 by decide)]
  rfl

/-- The SparseCore call writes the lane sums' array only. -/
theorem Val5_of_ne (b : DevRef τ sig) (hb : b ≠ o') : Val5 m out d b = Val4 m d b := Function.update_of_ne hb _ _

/-! ## From the grid kernel to the end -/

/-- The valuation after the grid kernel, after the slice, and after the reshape to a column. -/
abbrev W5 : Valuation τ sig (Elt Ideal) := upd0 d (Val5 m out d)
abbrev W6 : Valuation τ sig (Elt Ideal) := (op_v6 (F := Ideal)).result (W5 m out upd0 d)
abbrev W7 : Valuation τ sig (Elt Ideal) := (op_v7 (F := Ideal)).result (W6 m out upd0 d)

theorem valEnd_r9 :
    ValEnd m out upd0 upd1 d r9' = shapeCast S_ (upd1 d (W7 m out upd0 d) v8') shapeCasts_S1x1_S_ := by
  unfold ValEnd
  rw [StableHlo.reshape_result]
  rfl

theorem W7_v7 :
    W7 m out upd0 d v7' = shapeCast S2048x1 (extractStridedSlice S1x2048 ![0, 0] (W5 m out upd0 d v51')
      slices_S8x2048_S1x2048_0_0) shapeCasts_S1x2048_S2048x1 := by
  unfold W7 W6
  rw [StableHlo.reshape_result, StableHlo.unary_result]
  rfl

theorem W7_v50 : W7 m out upd0 d v50' = W5 m out upd0 d v50' := by
  unfold W7 W6
  rw [StableHlo.reshape_result_ne (h := show (main_v5_0 : Ref sig .tc) ≠ main_v7 by decide),
    StableHlo.unary_result_ne (h := show (main_v5_0 : Ref sig .tc) ≠ main_v6 by decide)]

theorem W7_o : W7 m out upd0 d o' = W5 m out upd0 d o' := by
  unfold W7 W6
  rw [StableHlo.reshape_result_ne (h := show (main_v4 : Ref sig .tc) ≠ main_v7 by decide),
    StableHlo.unary_result_ne (h := show (main_v4 : Ref sig .tc) ≠ main_v6 by decide)]

/-! ## The result is the specification's number -/

/-- THE CHAIN. Given what the two TensorCore regions leave in their result arrays — the finishing kernel's value of the
    three arrays it reads; the last point's number and the routed hidden states before point 27, over the routing
    weights, the hidden states and the staged weight blocks as the valuation after the SparseCore call holds them —
    and the lane sums in the SparseCore call's result, the scalar @main returns is the specification's kernelVal of the
    three arguments. -/
theorem valEnd_ideal_of (hw : WritesOnly upd0 upd1)
    (h1 : ∀ V : Valuation τ sig (Elt Ideal), upd1 d V v8' = finV (F := Ideal) (V v50') (V v7') (V o'))
    (sp : Vec Ideal S8x4096 .f32) (hid : Vec Ideal S4096x2048 .f32) (wb : Fin grid1.N → Vec Ideal S1x2048x1024 .f32)
    (hsp : sp = Val5 m out d v1') (hhid : hid = Val5 m out d v0')
    (hwb : ∀ (e' : Fin 7) (oc : Fin 4) (h : Fin 2048) (j : Fin 1024),
      wb (pt e' oc) (ix3 (0 : Fin 1) h j) = Val5 m out d v2' (ix3 (succ8 e') h (colBlk oc j)))
    (h0p : upd0 d (Val5 m out d) v50' = partOf (F := Ideal) (shAt sp hid 27) (wsAt wb 28))
    (h0s : upd0 d (Val5 m out d) v51' = shAt (F := Ideal) sp hid 27)
    (hout : out d = laneSums (F := Ideal) (wcOf m d)) :
    ValEnd m out upd0 upd1 d r9' = fun _ => Spec.kernelVal (m (d, a0')) (m (d, a1')) (m (d, a2')) := by
  have e0 : Val5 m out d v0' = shapeCast S4096x2048 (m (d, a0')) shapeCasts_S1x1x4096x2048_S4096x2048 :=
    (Val5_of_ne m out d v0' (by decide)).trans (Val4_v0 m d)
  have e1 : Val5 m out d v1' = shapeCast S8x4096 (m (d, a1')) shapeCasts_S1x8x4096x1_S8x4096 :=
    (Val5_of_ne m out d v1' (by decide)).trans (Val4_v1 m d)
  have e2 : Val5 m out d v2' = shapeCast S8x2048x4096 (m (d, a2')) shapeCasts_S1x8x2048x4096_S8x2048x4096 :=
    (Val5_of_ne m out d v2' (by decide)).trans (Val4_v2 m d)
  have eo : W5 m out upd0 d o' = laneSums (F := Ideal) (shapeCast S16384x4096 (m (d, a2')) shapeCasts_S1x8x2048x4096_S16384x4096) := by
    unfold W5
    rw [hw.1 d _ o' (by decide) (by decide), Val5_o, hout]
    exact congrArg (laneSums (F := Ideal)) (Val4_w m d)
  rw [e1] at hsp
  rw [e0] at hhid
  rw [e2] at hwb
  subst hsp hhid
  funext i
  rw [valEnd_r9]
  refine (scalar_of_1x1 _ _ i).trans ?_
  rw [h1, W7_v50, W7_v7, W7_o, eo]
  unfold W5
  rw [h0p, h0s]
  exact final_eq_kernelVal (m (d, a0')) (m (d, a1')) (m (d, a2')) _ _ _ _ _ _ wb hwb 27 (by decide) (by decide) _

end Cert.Proof.KI

end
-- ==== Proof.KI.Values0.lean ====
import proofs.«216131_g62878321214323_cont_9to1c4b_752_23_alg».proof.Proof.KI.Region0

/-
  The grid kernel's two results as functions of the operand arrays: the route weights and the activations are staged
  whole, the weight block staged at a point is a block of the weight array, the one write-back of each result covers it;
  so the results after the region are the carried token sums and the products' sum of RegionSpec, at the operand arrays.
-/

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-- The last point. -/
def t1_27 : Fin cfg1.N := ⟨27, by rw [show cfg1.N = 28 from N_1]; decide⟩

/-- The whole-array windows' block index is zero on every axis at every point. -/
theorem emb0_0_idx : ∀ t : Fin cfg1.N, win1_0.index t (0 : Fin 2) = 0 ∧ win1_0.index t (1 : Fin 2) = 0 := (by decide +kernel : ∀ t : Fin grid1.N, _)
theorem emb0_1_idx : ∀ t : Fin cfg1.N, win1_1.index t (0 : Fin 2) = 0 ∧ win1_1.index t (1 : Fin 2) = 0 := (by decide +kernel : ∀ t : Fin grid1.N, _)
theorem emb0_3_idx : ∀ t : Fin cfg1.N, win1_3.index t (0 : Fin 2) = 0 ∧ win1_3.index t (1 : Fin 2) = 0 := (by decide +kernel : ∀ t : Fin grid1.N, _)
theorem emb0_4_idx : ∀ t : Fin cfg1.N, win1_4.index t (0 : Fin 2) = 0 ∧ win1_4.index t (1 : Fin 2) = 0 := (by decide +kernel : ∀ t : Fin grid1.N, _)

theorem emb0_0 (t : Fin cfg1.N) (y : S8x4096.Idx) : ((cfg1.win 0).blk t).view.emb y = y := by
  obtain ⟨e0, e1⟩ := emb0_0_idx t
  funext a; apply Fin.ext
  match a with
  | ⟨0, _⟩ => show win1_0.index t (0 : Fin 2) * 8 + 1 * (y 0).val = (y 0).val; omega
  | ⟨1, _⟩ => show win1_0.index t (1 : Fin 2) * 4096 + 1 * (y 1).val = (y 1).val; omega

theorem emb0_1 (t : Fin cfg1.N) (y : S4096x2048.Idx) : ((cfg1.win 1).blk t).view.emb y = y := by
  obtain ⟨e0, e1⟩ := emb0_1_idx t
  funext a; apply Fin.ext
  match a with
  | ⟨0, _⟩ => show win1_1.index t (0 : Fin 2) * 4096 + 1 * (y 0).val = (y 0).val; omega
  | ⟨1, _⟩ => show win1_1.index t (1 : Fin 2) * 2048 + 1 * (y 1).val = (y 1).val; omega

theorem emb0_3 (t : Fin cfg1.N) (y : S1x1.Idx) : ((cfg1.win 3).blk t).view.emb y = y := by
  obtain ⟨e0, e1⟩ := emb0_3_idx t
  funext a; apply Fin.ext
  match a with
  | ⟨0, _⟩ => show win1_3.index t (0 : Fin 2) * 1 + 1 * (y 0).val = (y 0).val; omega
  | ⟨1, _⟩ => show win1_3.index t (1 : Fin 2) * 1 + 1 * (y 1).val = (y 1).val; omega

theorem emb0_4 (t : Fin cfg1.N) (y : S8x2048.Idx) : ((cfg1.win 4).blk t).view.emb y = y := by
  obtain ⟨e0, e1⟩ := emb0_4_idx t
  funext a; apply Fin.ext
  match a with
  | ⟨0, _⟩ => show win1_4.index t (0 : Fin 2) * 8 + 1 * (y 0).val = (y 0).val; omega
  | ⟨1, _⟩ => show win1_4.index t (1 : Fin 2) * 2048 + 1 * (y 1).val = (y 1).val; omega

/-- The route weights and the activations as staged are the arrays. -/
theorem spS_eq (d : Dev nD) (V : Valuation τ sig (Elt F)) : spS d V = VT d V main_v1 := by
  unfold spS iblk0; funext y; rw [View.read_apply]
  show VT d V main_v1 (((cfg1.win 0).blk t1_0).view.emb y) = VT d V main_v1 y
  rw [emb0_0]
theorem hidS_eq (d : Dev nD) (V : Valuation τ sig (Elt F)) : hidS d V = VT d V main_v0 := by
  unfold hidS iblk0; funext y; rw [View.read_apply]
  show VT d V main_v0 (((cfg1.win 1).blk t1_0).view.emb y) = VT d V main_v0 y
  rw [emb0_1]

/-- The weight block staged at point `t`: the block of the weight array [8,2048,4096] at the window's index there,
    `(e + 1, 0, oc)` in blocks of [1,2048,1024]. -/
def wblk (w3 : Vec F S8x2048x4096 .f32) (t : Fin grid1.N) : Vec F S1x2048x1024 .f32 :=
  ((cfg1.win 2).blk t).view.read (Elt F) w3

theorem wbS_eq (d : Dev nD) (V : Valuation τ sig (Elt F)) : wbS d V = wblk (VT d V main_v2) := rfl

/-- The token sums do not change from point 16 on. -/
theorem shAt_28 (sp : Vec F S8x4096 .f32) (hid : Vec F S4096x2048 .f32) : shAt sp hid 28 = shAt sp hid 27 :=
  shAt_succ_neg sp hid t1_27 (fun h => by have := (cond2_iff t1_27).mp h; simp only [t1_27] at this; omega)

theorem mem_blk0_3 (i : S1x1.Idx) : i ∈ ((cfg1.win 3).blk t1_27).view.set := by
  show i ∈ ((View.whole main_v5_0).slice (win1_3.rect t1_27)).set
  rw [View.set_slice_whole, Rect.mem_set_unit]
  obtain ⟨e0, e1⟩ := emb0_3_idx t1_27
  intro a
  match a with
  | ⟨0, _⟩ => show win1_3.index t1_27 (0 : Fin 2) * 1 ≤ (i 0).val ∧ (i 0).val < win1_3.index t1_27 (0 : Fin 2) * 1 + 1; have hi : (i 0).val < 1 := (i 0).isLt; omega
  | ⟨1, _⟩ => show win1_3.index t1_27 (1 : Fin 2) * 1 ≤ (i 1).val ∧ (i 1).val < win1_3.index t1_27 (1 : Fin 2) * 1 + 1; have hi : (i 1).val < 1 := (i 1).isLt; omega

theorem mem_blk0_4 (i : S8x2048.Idx) : i ∈ ((cfg1.win 4).blk t1_27).view.set := by
  show i ∈ ((View.whole main_v5_1).slice (win1_4.rect t1_27)).set
  rw [View.set_slice_whole, Rect.mem_set_unit]
  obtain ⟨e0, e1⟩ := emb0_4_idx t1_27
  intro a
  match a with
  | ⟨0, _⟩ => show win1_4.index t1_27 (0 : Fin 2) * 8 ≤ (i 0).val ∧ (i 0).val < win1_4.index t1_27 (0 : Fin 2) * 8 + 8; have hi : (i 0).val < 8 := (i 0).isLt; omega
  | ⟨1, _⟩ => show win1_4.index t1_27 (1 : Fin 2) * 2048 ≤ (i 1).val ∧ (i 1).val < win1_4.index t1_27 (1 : Fin 2) * 2048 + 2048; have hi : (i 1).val < 2048 := (i 1).isLt; omega

/-- THE SECOND RESULT after the region: the token sums over the 16 slabs. -/
theorem res0s_eq (d : Dev nD) (V : Valuation τ sig (Elt F)) :
    res0s d V = shAt (VT d V main_v1) (VT d V main_v0) 27 := by
  unfold res0s
  rw [← spS_eq, ← hidS_eq]
  refine (dat0 d V).arrAt_eq_of_cover 4 _ (fun t _ => ?_) (fun i => ⟨t1_27, (flush1_4 t1_27).mpr rfl, mem_blk0_4 i⟩)
  show (cfg1.win 4).cut (grid1.coords t) ((dat0 d V).after 4 t) = _
  rw [after0_4]
  funext j
  rw [View.read_apply]
  show shS d V 27 j = shAt (spS d V) (hidS d V) 27 (((cfg1.win 4).blk t).view.emb j)
  rw [emb0_4]; rfl

/-- THE FIRST RESULT after the region: the sum of the products of the token sums' rows 1..7 with the column sums. -/
theorem res0p_eq (d : Dev nD) (V : Valuation τ sig (Elt F)) :
    res0p d V = partOf (shAt (VT d V main_v1) (VT d V main_v0) 27) (wsAt (wblk (VT d V main_v2)) 28) := by
  unfold res0p
  rw [← spS_eq, ← hidS_eq, ← wbS_eq]
  refine (dat0 d V).arrAt_eq_of_cover 3 _ (fun t _ => ?_) (fun i => ⟨t1_27, (flush1_3 t1_27).mpr rfl, mem_blk0_3 i⟩)
  show (cfg1.win 3).cut (grid1.coords t) ((dat0 d V).after 3 t) = _
  rw [after0_3]
  funext j
  rw [View.read_apply]
  show partOf (shS d V 27) (wsS d V 28) j = partOf (shAt (spS d V) (hidS d V) 27) (wsAt (wbS d V) 28) (((cfg1.win 3).blk t).view.emb j)
  rw [emb0_3]; rfl

/-- The same over the staged operands: the forms the invariant carries. -/
theorem res0s_shS (d : Dev nD) (V : Valuation τ sig (Elt F)) : res0s d V = shS d V 27 := by
  rw [res0s_eq, ← spS_eq d V, ← hidS_eq d V]; rfl
theorem res0p_shS (d : Dev nD) (V : Valuation τ sig (Elt F)) : res0p d V = partOf (shS d V 27) (wsS d V 28) := by
  rw [res0p_eq, ← spS_eq d V, ← hidS_eq d V, ← wbS_eq d V]; rfl

/-- The valuation after the region, with the results named. -/
theorem upd0_eq (d : Dev nD) (V : Valuation τ sig (Elt F)) :
    upd0 d V = Function.update (Function.update V (Proc.devRef .tc main_v5_0)
        (partOf (shAt (V (Proc.devRef .tc main_v1)) (V (Proc.devRef .tc main_v0)) 27) (wsAt (wblk (V (Proc.devRef .tc main_v2))) 28)))
      (Proc.devRef .tc main_v5_1) (shAt (V (Proc.devRef .tc main_v1)) (V (Proc.devRef .tc main_v0)) 27) := by
  unfold upd0; rw [res0p_eq, res0s_eq]

end Cert.Proof.KI

end
-- ==== Proof.KI.Values1.lean ====
import proofs.«216131_g62878321214323_cont_9to1c4b_752_23_alg».proof.Proof.KI.Region1

/-
  The finishing kernel's result as a function of the operand arrays: each operand's staged block is the whole array, the
  one write-back covers the result, so the result array after the region is `finV` of the three operand arrays.
-/

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-- No grid: every window's block index is zero on every axis. -/
theorem emb1_0_idx : ∀ t : Fin cfg2.N, win2_0.index t (0 : Fin 2) = 0 ∧ win2_0.index t (1 : Fin 2) = 0 := (by decide +kernel : ∀ t : Fin grid2.N, _)
theorem emb1_1_idx : ∀ t : Fin cfg2.N, win2_1.index t (0 : Fin 2) = 0 ∧ win2_1.index t (1 : Fin 2) = 0 := (by decide +kernel : ∀ t : Fin grid2.N, _)
theorem emb1_2_idx : ∀ t : Fin cfg2.N, win2_2.index t (0 : Fin 2) = 0 ∧ win2_2.index t (1 : Fin 2) = 0 := (by decide +kernel : ∀ t : Fin grid2.N, _)
theorem emb1_3_idx : ∀ t : Fin cfg2.N, win2_3.index t (0 : Fin 2) = 0 ∧ win2_3.index t (1 : Fin 2) = 0 := (by decide +kernel : ∀ t : Fin grid2.N, _)

theorem emb1_0 (t : Fin cfg2.N) (y : S1x1.Idx) : ((cfg2.win 0).blk t).view.emb y = y := by
  obtain ⟨e0, e1⟩ := emb1_0_idx t
  funext a; apply Fin.ext
  match a with
  | ⟨0, _⟩ => show win2_0.index t (0 : Fin 2) * 1 + 1 * (y 0).val = (y 0).val; omega
  | ⟨1, _⟩ => show win2_0.index t (1 : Fin 2) * 1 + 1 * (y 1).val = (y 1).val; omega

theorem emb1_1 (t : Fin cfg2.N) (y : S2048x1.Idx) : ((cfg2.win 1).blk t).view.emb y = y := by
  obtain ⟨e0, e1⟩ := emb1_1_idx t
  funext a; apply Fin.ext
  match a with
  | ⟨0, _⟩ => show win2_1.index t (0 : Fin 2) * 2048 + 1 * (y 0).val = (y 0).val; omega
  | ⟨1, _⟩ => show win2_1.index t (1 : Fin 2) * 1 + 1 * (y 1).val = (y 1).val; omega

theorem emb1_2 (t : Fin cfg2.N) (y : S2048x16.Idx) : ((cfg2.win 2).blk t).view.emb y = y := by
  obtain ⟨e0, e1⟩ := emb1_2_idx t
  funext a; apply Fin.ext
  match a with
  | ⟨0, _⟩ => show win2_2.index t (0 : Fin 2) * 2048 + 1 * (y 0).val = (y 0).val; omega
  | ⟨1, _⟩ => show win2_2.index t (1 : Fin 2) * 16 + 1 * (y 1).val = (y 1).val; omega

theorem emb1_3 (t : Fin cfg2.N) (y : S1x1.Idx) : ((cfg2.win 3).blk t).view.emb y = y := by
  obtain ⟨e0, e1⟩ := emb1_3_idx t
  funext a; apply Fin.ext
  match a with
  | ⟨0, _⟩ => show win2_3.index t (0 : Fin 2) * 1 + 1 * (y 0).val = (y 0).val; omega
  | ⟨1, _⟩ => show win2_3.index t (1 : Fin 2) * 1 + 1 * (y 1).val = (y 1).val; omega

/-- Each operand's staged block is the array. -/
theorem iblk1_0 (d : Dev nD) (V : Valuation τ sig (Elt F)) (t : Fin cfg2.N) : iblk1 d V 0 t = VT d V main_v5_0 := by
  unfold iblk1; funext y; rw [View.read_apply]
  show VT d V main_v5_0 (((cfg2.win 0).blk t).view.emb y) = VT d V main_v5_0 y
  rw [emb1_0]
theorem iblk1_1 (d : Dev nD) (V : Valuation τ sig (Elt F)) (t : Fin cfg2.N) : iblk1 d V 1 t = VT d V main_v7 := by
  unfold iblk1; funext y; rw [View.read_apply]
  show VT d V main_v7 (((cfg2.win 1).blk t).view.emb y) = VT d V main_v7 y
  rw [emb1_1]
theorem iblk1_2 (d : Dev nD) (V : Valuation τ sig (Elt F)) (t : Fin cfg2.N) : iblk1 d V 2 t = VT d V main_v4 := by
  unfold iblk1; funext y; rw [View.read_apply]
  show VT d V main_v4 (((cfg2.win 2).blk t).view.emb y) = VT d V main_v4 y
  rw [emb1_2]

theorem mem_blk1_3 (i : S1x1.Idx) : i ∈ ((cfg2.win 3).blk t2_0).view.set := by
  show i ∈ ((View.whole main_v8).slice (win2_3.rect t2_0)).set
  rw [View.set_slice_whole, Rect.mem_set_unit]
  obtain ⟨e0, e1⟩ := emb1_3_idx t2_0
  intro a
  match a with
  | ⟨0, _⟩ => show win2_3.index t2_0 (0 : Fin 2) * 1 ≤ (i 0).val ∧ (i 0).val < win2_3.index t2_0 (0 : Fin 2) * 1 + 1; have hi : (i 0).val < 1 := (i 0).isLt; omega
  | ⟨1, _⟩ => show win2_3.index t2_0 (1 : Fin 2) * 1 ≤ (i 1).val ∧ (i 1).val < win2_3.index t2_0 (1 : Fin 2) * 1 + 1; have hi : (i 1).val < 1 := (i 1).isLt; omega

/-- THE RESULT after the region: the kernel's value of the three operand arrays. -/
theorem res1_eq (d : Dev nD) (V : Valuation τ sig (Elt F)) :
    res1 d V = finV (VT d V main_v5_0) (VT d V main_v7) (VT d V main_v4) := by
  unfold res1
  refine (dat1 d V).arrAt_eq_of_cover 3 _ (fun t _ => ?_) (fun i => ⟨t2_0, flush2_3 t2_0, ?_⟩)
  · show (cfg2.win 3).cut (grid2.coords t) ((dat1 d V).after 3 t) = _
    rw [after1_3, iblk1_0, iblk1_1, iblk1_2]
    funext j
    rw [View.read_apply]
    show finV (VT d V main_v5_0) (VT d V main_v7) (VT d V main_v4) j = finV (VT d V main_v5_0) (VT d V main_v7) (VT d V main_v4) (((cfg2.win 3).blk t).view.emb j)
    rw [emb1_3]
  · exact mem_blk1_3 i

/-- The valuation after the region, with the result named. -/
theorem upd1_eq (d : Dev nD) (V : Valuation τ sig (Elt F)) :
    upd1 d V = Function.update V (Proc.devRef .tc main_v8)
      (finV (V (Proc.devRef .tc main_v5_0)) (V (Proc.devRef .tc main_v7)) (V (Proc.devRef .tc main_v4))) := by
  unfold upd1; rw [res1_eq]

end Cert.Proof.KI

end
-- ==== Proof.KI.ValueEnd.lean ====
/-
  The result of the program at the ideal instance: the specification's number.

  The two TensorCore regions' valuation updates are read at their result arrays; the weight block the grid kernel
  stages at point 4 e' + oc is columns [1024 oc, 1024 oc + 1024) of expert e' + 1's matrix; and the chain of @main's
  pure steps gives the scalar.
-/
import proofs.«216131_g62878321214323_cont_9to1c4b_752_23_alg».proof.Proof.KI.ValueChain
import proofs.«216131_g62878321214323_cont_9to1c4b_752_23_alg».proof.Proof.KI.Values0
import proofs.«216131_g62878321214323_cont_9to1c4b_752_23_alg».proof.Proof.KI.Values1

noncomputable section

namespace Cert.Proof.KI

open Cert.KernelIdeal Cert.KernelIdeal.Gen
open Idealize.ShloMosaic Idealize.ShloMosaic.ValueIdx
open Idealize.ShloMosaic.TcCoe
open Cert.Proof.Spec (succ8)

/-! ## The weight block staged at a point -/

/-- The third operand window's block index over the 28 points: block (t / 4 + 1, 0, t % 4) of the expert matrices. -/
theorem idx1_2 : ∀ t : Fin cfg1.N, win1_2.index t (0 : Fin 3) = t.val / 4 + 1 ∧ win1_2.index t (1 : Fin 3) = 0
    ∧ win1_2.index t (2 : Fin 3) = t.val % 4 :=
  (by decide +kernel : ∀ t : Fin grid1.N, _)

/-- The block staged at point 4 e' + oc, at (0, h, j): expert e' + 1, row h, column 1024 oc + j. -/
theorem wblk_apply (w3 : Vec Ideal S8x2048x4096 .f32) (e' : Fin 7) (oc : Fin 4) (h : Fin 2048) (j : Fin 1024) :
    wblk (F := Ideal) w3 (pt e' oc) (ix3 (0 : Fin 1) h j) = w3 (ix3 (succ8 e') h (colBlk oc j)) := by
  show w3 (((cfg1.win 2).blk (pt e' oc)).view.emb (ix3 (0 : Fin 1) h j)) = w3 (ix3 (succ8 e') h (colBlk oc j))
  refine congrArg w3 (funext fun a => Fin.ext ?_)
  obtain ⟨e0, e1, e2⟩ := idx1_2 (pt e' oc)
  match a with
  | ⟨0, _⟩ =>
    show win1_2.index (pt e' oc) (0 : Fin 3) * 1 + 1 * 0 = e'.val + 1
    rw [e0]
    show ((4 * e'.val + oc.val) / 4 + 1) * 1 + 1 * 0 = e'.val + 1
    omega
  | ⟨1, _⟩ =>
    show win1_2.index (pt e' oc) (1 : Fin 3) * 2048 + 1 * h.val = h.val
    omega
  | ⟨2, _⟩ =>
    show win1_2.index (pt e' oc) (2 : Fin 3) * 1024 + 1 * j.val = 1024 * oc.val + j.val
    rw [e2]
    show (4 * e'.val + oc.val) % 4 * 1024 + 1 * j.val = 1024 * oc.val + j.val
    omega

/-! ## The regions' updates at their result arrays -/

theorem upd1_v8 (d : Dev nD) (V : Valuation τ sig (Elt Ideal)) : upd1 d V v8' = res1 d V := by
  unfold upd1
  exact Function.update_self _ _ _

theorem upd0_v51 (d : Dev nD) (V : Valuation τ sig (Elt Ideal)) : upd0 d V v51' = res0s d V := by
  unfold upd0
  exact Function.update_self _ _ _

theorem upd0_v50 (d : Dev nD) (V : Valuation τ sig (Elt Ideal)) : upd0 d V v50' = res0p d V := by
  unfold upd0
  rw [Function.update_of_ne (show (v50' : DevRef τ sig) ≠ v51' by decide)]
  exact Function.update_self _ _ _

/-- Each region's update touches its result arrays only. -/
theorem upd_writesOnly : WritesOnly (F := Ideal) upd0 upd1 :=
  ⟨fun d W b h0 h1 => by unfold upd0; rw [Function.update_of_ne h1, Function.update_of_ne h0],
    fun d W b h => by unfold upd1; rw [Function.update_of_ne h]⟩

/-! ## The result -/

/-- THE PROGRAM'S RESULT AT THE IDEAL INSTANCE: the scalar @main returns, the SparseCore call having left the lane sums
    of the reshaped weights, is the specification's kernelVal of the three arguments. -/
theorem valEnd_ideal (m : (ℓ : Loc nD τ sig) → Buf (Elt Ideal) ℓ) (d : Dev nD) :
    ValEnd (F := Ideal) m (fun d => laneSums (F := Ideal) (wcOf m d)) upd0 upd1 d r9'
      = fun _ => Spec.kernelVal (m (d, a0')) (m (d, a1')) (m (d, a2')) :=
  valEnd_ideal_of m (fun d => laneSums (F := Ideal) (wcOf m d)) upd0 upd1 d upd_writesOnly
    (fun V => (upd1_v8 d V).trans (res1_eq d V))
    (Val5 m (fun d => laneSums (F := Ideal) (wcOf m d)) d v1') (Val5 m (fun d => laneSums (F := Ideal) (wcOf m d)) d v0')
    (wblk (F := Ideal) (Val5 m (fun d => laneSums (F := Ideal) (wcOf m d)) d v2'))
    rfl rfl (fun e' oc h j => wblk_apply _ e' oc h j)
    ((upd0_v50 d _).trans (res0p_eq d _)) ((upd0_v51 d _).trans (res0s_eq d _)) rfl

end Cert.Proof.KI

end
-- ==== Proof.KB.Common.lean ====
/-
  The word-level kernel's program as the SparseCore launch theorem sees it: the body table under the two TensorCore
  pipelines' labels, the resource algebra (the handshakes' rounds, the pipelines' rounds, the local transfers'
  counters), and what the one SparseCore call hands each vector subcore and takes back.

  The call sums, for each of the first 2048 rows of the weight matrix seen as [16384, 4096], the row's 4096 entries
  into 16 lane sums (entry `o` goes to lane `o mod 16`). Tile (core c, subcore s) owns rows
  [(2 s + c) · 64, (2 s + c) · 64 + 64) of the result and reads the weight matrix through a read share of its own.
-/
import proofs.«216131_g62878321214323_cont_9to1c4b_752_23_alg».proof.Kernel
import proofs.«216131_g62878321214323_cont_9to1c4b_752_23_alg».proof.Proof.Gen.Kernel
import proofs.«216131_g62878321214323_cont_9to1c4b_752_23_alg».proof.Proof.Gen.Kernel.Launch
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipelines' rounds: the left factor of the right factor (the transfers' counters are found by instance). -/
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP embR; infer_instance

/-! ## The arrays of the SparseCore call -/

/-- The weight matrix seen as [16384, 4096] and the lane sums [2048, 16], as the TensorCore names them. -/
abbrev wLoc (d : Dev nD) : Loc nD τ sig := (SparseCore.T d).loc main_v3
abbrev oLoc (d : Dev nD) : Loc nD τ sig := (SparseCore.T d).loc main_v4

/-- The tile's coordinates as the kernel's grid point. -/
def coordsV (c : Fin (grid0.bound 0)) (s : Fin (grid0.bound 1)) : grid0.Coords :=
  fun | 0 => c | 1 => s | ⟨_ + 2, h⟩ => absurd h (Nat.not_lt.2 (Nat.le_add_left _ _))

/-- The rows of the result tile `(c, s)` writes, as the program slices them. -/
abbrev oSlice (c : Fin (grid0.bound 0)) (s : Fin (grid0.bound 1)) : Memref sig .scVector .hbm S64x16 .f32 :=
  (Memref.whole main_v4_scv).slice (Rect.unit (s := S2048x16) (k0_off67 (coordsV c s)) S64x16.size (k0_off67_inb (coordsV c s))) (fun _ => rfl)

/-- The read share of the weight matrix tile `(c, s)` works with: one of 32 of the whole. -/
def wTok (c : Fin (grid0.bound 0)) (s : Fin (grid0.bound 1)) : PosShare TreeShare :=
  Transfers.shareTokN fullShare (2 * s.val + c.val)

theorem nCore_zero : (K (F := F)).nCore 0 = 2 := rfl
theorem nSub_zero : (K (F := F)).nSub 0 = 16 := rfl
theorem bound_zero : grid0.bound 0 = 2 := rfl
theorem bound_one : grid0.bound 1 = 16 := rfl

/-- The elements of the result tile `(c, s)` owns: 64 rows of 16 lanes. -/
abbrev oSet (c : Fin 2) (s : Fin 16) : Finset S2048x16.Idx := (oSlice (Fin.cast bound_zero.symm c) (Fin.cast bound_one.symm s)).view.set

variable [FloatOps F]
-- The weight matrix's contents when the call is made (the reshaped argument), per device.
variable (wc : (d : Dev nD) → Buf (Elt F) (wLoc d))

/-- What tile `(c, s)` is handed: its read share of the weight matrix and its rows of the result, at any contents; -/
def tileIn (d : Dev nD) (c : Fin 2) (s : Fin 16) : sProp 𝕄 :=
  iprop((wLoc d ↦{wTok (Fin.cast bound_zero.symm c) (Fin.cast bound_one.symm s)} wc d) ∗ ∃ g : Buf (Elt F) (oLoc d), oLoc d ↦[oSet c s]{fullShare} g)
/-- and what it hands back: the share, and its rows at the lane sums `out`. -/
def tileOut (d : Dev nD) (out : Buf (Elt F) (oLoc d)) (c : Fin 2) (s : Fin 16) : sProp 𝕄 :=
  iprop((wLoc d ↦{wTok (Fin.cast bound_zero.symm c) (Fin.cast bound_one.symm s)} wc d) ∗ oLoc d ↦[oSet c s]{fullShare} out)

/-- The one call hands each SparseCore its sixteen tiles' parts and takes them back; each tile its own. Nothing of the
    launch's is consumed by the kernel's proof. -/
def P (out : (d : Dev nD) → Buf (Elt F) (oLoc d)) : (K (F := F)).Pay (nD := nD) (Val := Elt F) (Name := ℕ) (U := UU) where
  st := fun q d c => match q with | 0 => bigSep Finset.univ fun s : Fin 16 => tileIn wc d (Fin.cast nCore_zero c) s
  dn := fun q d c => match q with | 0 => bigSep Finset.univ fun s : Fin 16 => tileOut wc d (out d) (Fin.cast nCore_zero c) s
  go := fun q d c i => match q with | 0 => tileIn wc d (Fin.cast nCore_zero c) (Fin.cast nSub_zero i)
  td := fun q d c i => match q with | 0 => tileOut wc d (out d) (Fin.cast nCore_zero c) (Fin.cast nSub_zero i)
  x := fun _ _ => iprop(emp)

instance P_storable (out : (d : Dev nD) → Buf (Elt F) (oLoc d)) : (P (F := F) wc out).IsStorable where
  st q d c := match q with | 0 => by unfold P tileIn; infer_instance
  dn q d c := match q with | 0 => by unfold P tileOut; infer_instance
  go q d c i := match q with | 0 => by unfold P tileIn; infer_instance
  td q d c i := match q with | 0 => by unfold P tileOut; infer_instance

end Cert.Proof.KB

end
-- ==== Proof.KB.Split.lean ====
/-
  The result array [2048, 16] is the disjoint union of the 32 tiles' blocks of 64 rows — tile (c, s) has block number
  2 s + c —, and the weight matrix's ownership splits into 32 read shares and a remainder: how @main's whole arrays
  are dealt to the tiles and come back.
-/
import proofs.«216131_g62878321214323_cont_9to1c4b_752_23_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The tiles' blocks of rows -/

theorem hdiv32 : 32 ∣ S2048x16.size 0 := ⟨64, rfl⟩
/-- Block `w` of 64 rows. -/
abbrev part32 (w : Fin 32) : Rect S2048x16 := Rect.part (s := S2048x16) (a₀ := 0) hdiv32 w

/-- The tile's block number. -/
def wid (c : Fin 2) (s : Fin 16) : Fin 32 := ⟨2 * s.val + c.val, by omega⟩

/-- Tiles and block numbers correspond one to one. -/
def widEquiv : Fin 2 × Fin 16 ≃ Fin 32 where
  toFun p := wid p.1 p.2
  invFun w := (⟨w.val % 2, Nat.mod_lt _ (by decide)⟩, ⟨w.val / 2, by omega⟩)
  left_inv p := by
    obtain ⟨c, s⟩ := p
    refine Prod.ext (Fin.ext ?_) (Fin.ext ?_) <;> simp only [wid] <;> omega
  right_inv w := by
    refine Fin.ext ?_; simp only [wid]; omega

theorem oRect_eq (c : Fin 2) (s : Fin 16) :
    Rect.unit (s := S2048x16) (k0_off67 (coordsV (Fin.cast bound_zero.symm c) (Fin.cast bound_one.symm s))) S64x16.size
        (k0_off67_inb (coordsV (Fin.cast bound_zero.symm c) (Fin.cast bound_one.symm s)))
      = part32 (wid c s) := by
  unfold part32 Rect.part Rect.block
  congr 1 <;> funext a
  · rw [k0_off67_eq]
    match a with
    | 0 => simp [Shape.partIx, Shape.partSize, wid, coordsV]; omega
    | 1 => simp [Shape.partIx, Shape.partSize]
  · match a with
    | 0 => simp [Shape.partSize]
    | 1 => simp [Shape.partSize]

theorem oSet_eq (c : Fin 2) (s : Fin 16) : oSet c s = (part32 (wid c s)).set := by
  show ((View.whole (main_v4_scv : Ref sig .scVector)).slice (Rect.unit (s := S2048x16) _ S64x16.size _)).set = _
  rw [View.set_slice, oRect_eq]; exact Finset.map_refl

theorem blocks_disjoint : ∀ w ∈ (Finset.univ : Finset (Fin 32)), ∀ w' ∈ (Finset.univ : Finset (Fin 32)), w ≠ w' →
    Disjoint (part32 w).set (part32 w').set :=
  fun _ _ _ _ h => Rect.part_disjoint hdiv32 h
theorem blocks_cover : (Finset.univ : Finset (Fin 32)).biUnion (fun w => (part32 w).set) = Finset.univ :=
  Rect.biUnion_part hdiv32

/-- The result array whole is its 32 blocks, tile by tile. -/
theorem oPts_tiles (d : Dev nD) (f : Buf (Elt F) (oLoc d)) :
    (oLoc d ↦{fullShare} f : sProp 𝕄)
      = bigSep Finset.univ fun c : Fin 2 => bigSep Finset.univ fun s : Fin 16 => oLoc d ↦[oSet c s]{fullShare} f := by
  rw [← bigSep_univ_prod (fun p : Fin 2 × Fin 16 => (oLoc d ↦[oSet p.1 p.2]{fullShare} f : sProp 𝕄)),
    bigSep_congr (fun (p : Fin 2 × Fin 16) _ => congrArg (fun I => (oLoc d ↦[I]{fullShare} f : sProp 𝕄)) (oSet_eq p.1 p.2))]
  refine Eq.trans ?_ (bigSep_univ_equiv widEquiv (fun w : Fin 32 => (oLoc d ↦[(part32 w).set]{fullShare} f : sProp 𝕄)))
  rw [← pointsTo_biUnion Finset.univ (ℓ := oLoc d) (fun w : Fin 32 => (part32 w).set) blocks_disjoint, blocks_cover]
  try rfl

/-- The 32 blocks at contents of their own join into the whole array at some contents. -/
theorem oPts_join [FloatOps F] (d : Dev nD) :
    (bigSep Finset.univ fun c : Fin 2 => bigSep Finset.univ fun s : Fin 16 => iprop(∃ g : Buf (Elt F) (oLoc d), oLoc d ↦[oSet c s]{fullShare} g))
      ⊢ (iprop(∃ g : Buf (Elt F) (oLoc d), oLoc d ↦{fullShare} g) : sProp 𝕄) := by
  rw [← bigSep_univ_prod (fun p : Fin 2 × Fin 16 => (iprop(∃ g : Buf (Elt F) (oLoc d), oLoc d ↦[oSet p.1 p.2]{fullShare} g) : sProp 𝕄))]
  refine (bigSep_exists_pi Finset.univ (fun (p : Fin 2 × Fin 16) (g : Buf (Elt F) (oLoc d)) => (oLoc d ↦[oSet p.1 p.2]{fullShare} g : sProp 𝕄))).trans ?_
  iintro ⟨%fs, H⟩
  ihave H' := (pointsTo_biUnion_join Finset.univ (fun p : Fin 2 × Fin 16 => oSet p.1 p.2) fs (fs (0, 0))
    (fun p _ p' _ h => by
      rw [oSet_eq, oSet_eq]
      exact Rect.part_disjoint hdiv32 (fun e => h (widEquiv.injective e)))) $$ H
  icases H' with ⟨%g, -, Hg⟩
  rw [show (Finset.univ : Finset (Fin 2 × Fin 16)).biUnion (fun p => oSet p.1 p.2) = Finset.univ from by
    ext i
    simp only [Finset.mem_biUnion, Finset.mem_univ, true_and, iff_true]
    obtain ⟨w, hw⟩ := Rect.exists_mem_part hdiv32 i
    exact ⟨widEquiv.symm w, by rw [oSet_eq]; show i ∈ (part32 (widEquiv (widEquiv.symm w))).set; rw [Equiv.apply_symm_apply]; exact hw⟩]
  iexists g; iexact Hg

/-! ## The weight matrix's read shares -/

/-- The whole of the weight matrix is a remainder and the 32 tiles' read shares. -/
theorem wPts_tiles (d : Dev nD) (f : Buf (Elt F) (wLoc d)) :
    (wLoc d ↦{fullShare} f : sProp 𝕄)
      ⊣⊢ iprop((wLoc d ↦{Transfers.shareDrop fullShare 32} f)
          ∗ bigSep Finset.univ fun c : Fin 2 => bigSep Finset.univ fun s : Fin 16 =>
              wLoc d ↦{wTok (Fin.cast bound_zero.symm c) (Fin.cast bound_one.symm s)} f) := by
  have e : (bigSep Finset.univ fun c : Fin 2 => bigSep Finset.univ fun s : Fin 16 =>
        (wLoc d ↦{wTok (Fin.cast bound_zero.symm c) (Fin.cast bound_one.symm s)} f : sProp 𝕄))
      = bigSep Finset.univ fun w : Fin 32 => wLoc d ↦{Transfers.shareTok fullShare 32 w} f := by
    rw [← bigSep_univ_prod (fun p : Fin 2 × Fin 16 => (wLoc d ↦{wTok (Fin.cast bound_zero.symm p.1) (Fin.cast bound_one.symm p.2)} f : sProp 𝕄))]
    exact (bigSep_univ_equiv widEquiv (fun w : Fin 32 => (wLoc d ↦{Transfers.shareTok fullShare 32 w} f : sProp 𝕄))).symm
  rw [e]
  exact ⟨Transfers.pointsTo_toks_split fullShare 32, Transfers.pointsTo_toks_join fullShare 32⟩

/-! ## A SparseCore's operands are its tiles', its results theirs -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit [FloatOps F] (wc : (d : Dev nD) → Buf (Elt F) (wLoc d)) (out : (d : Dev nD) → Buf (Elt F) (oLoc d)) :
    (K (F := F)).VecSplit' (P wc out) 0 := by
  intro d c
  show (bigSep Finset.univ fun s : Fin 16 => tileIn wc d (Fin.cast nCore_zero c) s)
    ⊢ |={Set.univ}=> iprop((bigSep Finset.univ fun i : Fin ((K (F := F)).nSub 0) => tileIn wc d (Fin.cast nCore_zero c) (Fin.cast nSub_zero i))
      ∗ ((bigSep Finset.univ fun i : Fin ((K (F := F)).nSub 0) => tileOut wc d (out d) (Fin.cast nCore_zero c) (Fin.cast nSub_zero i))
          -∗ bigSep Finset.univ fun s : Fin 16 => tileOut wc d (out d) (Fin.cast nCore_zero c) s))
  rw [bigSep_tasks (F := F) (fun s => tileIn wc d (Fin.cast nCore_zero c) s),
    bigSep_tasks (F := F) (fun s => tileOut wc d (out d) (Fin.cast nCore_zero c) s)]
  iintro H; imodintro
  isplitl [H]; · iexact H
  iintro H; iexact H

end Cert.Proof.KB

end
-- ==== Proof.KB.MainA.lean ====
/-
  @main on the TensorCore: the four reshapes, the SparseCore call (the weight matrix dealt to the 32 tiles as read
  shares, the result array as their blocks of rows, and both joined back), the two TensorCore regions with the slice
  and reshape between them, and the last reshape; every unscoped buffer is held as one set at a valuation that each
  step advances.
-/
import proofs.«216131_g62878321214323_cont_9to1c4b_752_23_alg».proof.Proof.KB.Common
import proofs.«216131_g62878321214323_cont_9to1c4b_752_23_alg».proof.Proof.KB.Split
import Idealize.ShloMosaic.Lib.Pipeline.Frame

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.StableHlo (held held_split held_sdiff_result wp_hlo_within held_sub_split held_congr)
open Idealize.ShloMosaic.Pipeline (ucRefs unscopedBufs_held sub_ucRefs)

variable [FloatOps F]
variable (m : (ℓ : Loc nD τ sig) → Buf (Elt F) ℓ) (ρ : Dev nD → PrngReg)

/-! ## The host operations and the valuations between them -/

abbrev op_v0 : HloOp τ sig (Elt F) := StableHlo.reshape main_arg0 main_v0 rfl shapeCasts_S1x1x4096x2048_S4096x2048
abbrev op_v1 : HloOp τ sig (Elt F) := StableHlo.reshape main_arg1 main_v1 rfl shapeCasts_S1x8x4096x1_S8x4096
abbrev op_v2 : HloOp τ sig (Elt F) := StableHlo.reshape main_arg2 main_v2 rfl shapeCasts_S1x8x2048x4096_S8x2048x4096
abbrev op_v3 : HloOp τ sig (Elt F) := StableHlo.reshape main_arg2 main_v3 rfl shapeCasts_S1x8x2048x4096_S16384x4096

abbrev w' : DevRef τ sig := Proc.devRef .tc (main_v3 : Ref sig .tc)
abbrev o' : DevRef τ sig := Proc.devRef .tc (main_v4 : Ref sig .tc)

/-- The launch valuation, and the one after the four reshapes. -/
abbrev Val0 (d : Dev nD) : Valuation τ sig (Elt F) := fun b => m (d, b)
abbrev Val4 (d : Dev nD) : Valuation τ sig (Elt F) :=
  (op_v3 (F := F)).result ((op_v2 (F := F)).result ((op_v1 (F := F)).result ((op_v0 (F := F)).result (Val0 m d))))

/-- The weight matrix as the SparseCore call finds it. -/
abbrev wcOf (d : Dev nD) : Buf (Elt F) (wLoc d) := Val4 m d w'

variable (out : (d : Dev nD) → Buf (Elt F) (oLoc d))

/-- After the call: the lane sums in place. -/
abbrev Val5 (d : Dev nD) : Valuation τ sig (Elt F) := Function.update (Val4 m d) o' (out d)

theorem unscoped_held (d : Dev nD) :
    (unscopedBufs d (fun b => m ((SparseCore.T d).loc b)) : sProp 𝕄) = held (T d) (ucRefs τ sig) (Val0 m d) :=
  unscopedBufs_held d (Val0 m d)

theorem wo_sub : ({w', o'} : Finset (DevRef τ sig)) ⊆ ucRefs τ sig := by decide

omit [FloatOps F] in
theorem held_wo (d : Dev nD) (W : Valuation τ sig (Elt F)) :
    (held (T d) ({w', o'} : Finset (DevRef τ sig)) W : sProp 𝕄) = iprop((wLoc d ↦{fullShare} W w') ∗ oLoc d ↦{fullShare} W o') := by
  unfold held
  rw [SparseCore.bigSep_insert' (by decide), bigSep_singleton]

/-- What the call takes for the two SparseCores and what it hands back. -/
theorem st0_eq (wc : (d : Dev nD) → Buf (Elt F) (wLoc d)) (d : Dev nD) :
    (bigSep Finset.univ fun c : Fin ((K (F := F)).nCore 0) => (P wc out).st 0 d c)
      = bigSep Finset.univ fun c : Fin 2 => bigSep Finset.univ fun s : Fin 16 => tileIn wc d c s :=
  bigSep_congr fun _ _ => rfl
theorem dn0_eq (wc : (d : Dev nD) → Buf (Elt F) (wLoc d)) (d : Dev nD) :
    (bigSep Finset.univ fun c : Fin ((K (F := F)).nCore 0) => (P wc out).dn 0 d c)
      = bigSep Finset.univ fun c : Fin 2 => bigSep Finset.univ fun s : Fin 16 => tileOut wc d (out d) c s :=
  bigSep_congr fun _ _ => rfl

omit [FloatOps F] in
/-- A block held at given contents is held at some contents. -/
theorem oTile_weaken (d : Dev nD) (g : Buf (Elt F) (oLoc d)) (c : Fin 2) (s : Fin 16) :
    (oLoc d ↦[oSet c s]{fullShare} g : sProp 𝕄) ⊢ (iprop(∃ g' : Buf (Elt F) (oLoc d), oLoc d ↦[oSet c s]{fullShare} g') : sProp 𝕄) := by
  iintro H; iexists g; iexact H

omit [FloatOps F] in
theorem oTiles_weaken (d : Dev nD) (g : Buf (Elt F) (oLoc d)) :
    ((bigSep Finset.univ fun c : Fin 2 => bigSep Finset.univ fun s : Fin 16 => oLoc d ↦[oSet c s]{fullShare} g) : sProp 𝕄)
      ⊢ ((bigSep Finset.univ fun c : Fin 2 => bigSep Finset.univ fun s : Fin 16 => iprop(∃ g' : Buf (Elt F) (oLoc d), oLoc d ↦[oSet c s]{fullShare} g')) : sProp 𝕄) :=
  SparseCore.ent (bigSep_mono fun c _ => bigSep_mono fun s _ => oTile_weaken d g c s)

/-- The whole arrays dealt to the tiles: a remainder of the weight matrix stays with the TensorCore. -/
theorem tiles_intro (wc : (d : Dev nD) → Buf (Elt F) (wLoc d)) (d : Dev nD) (g : Buf (Elt F) (oLoc d)) :
    iprop((wLoc d ↦{fullShare} wc d) ∗ oLoc d ↦{fullShare} g)
      ⊢ (iprop((wLoc d ↦{Transfers.shareDrop fullShare 32} wc d) ∗ bigSep Finset.univ fun c : Fin 2 => bigSep Finset.univ fun s : Fin 16 => tileIn wc d c s) : sProp 𝕄) := by
  iintro ⟨Hw, Ho⟩
  ihave Hw' := (wPts_tiles (F := F) d (wc d)).1 $$ Hw
  icases Hw' with ⟨Hr, Hts⟩
  isplitl [Hr]; · iexact Hr
  unfold tileIn
  rw [bigSep_congr (fun (c : Fin 2) _ => bigSep_sep' (Finset.univ : Finset (Fin 16)) _ _), bigSep_sep']
  isplitl [Hts]; · iexact Hts
  ihave Ho2 := (Entails.of_eq (oPts_tiles (F := F) d g)) $$ Ho
  ihave Ho' := (oTiles_weaken (F := F) d g) $$ Ho2
  iexact Ho'

/-- and gathered back, the result at the lane sums. -/
theorem tiles_elim (wc : (d : Dev nD) → Buf (Elt F) (wLoc d)) (d : Dev nD) :
    (iprop((wLoc d ↦{Transfers.shareDrop fullShare 32} wc d) ∗ bigSep Finset.univ fun c : Fin 2 => bigSep Finset.univ fun s : Fin 16 => tileOut wc d (out d) c s) : sProp 𝕄)
      ⊢ iprop((wLoc d ↦{fullShare} wc d) ∗ oLoc d ↦{fullShare} out d) := by
  unfold tileOut
  rw [bigSep_congr (fun (c : Fin 2) _ => bigSep_sep' (Finset.univ : Finset (Fin 16)) _ _), bigSep_sep']
  iintro ⟨Hr, Hts, Ho⟩
  isplitl [Hr Hts]
  · iapply (wPts_tiles (F := F) d (wc d)).2
    isplitl [Hr]; · iexact Hr
    iexact Hts
  · rw [oPts_tiles]; iexact Ho

/-! ## The valuation after the call -/

theorem Val5_w (d : Dev nD) : Val5 m out d w' = Val4 m d w' := Function.update_of_ne (show (w' : DevRef τ sig) ≠ o' by decide) _ _
theorem Val5_o (d : Dev nD) : Val5 m out d o' = out d := Function.update_self _ _ _

theorem held_rest5 (d : Dev nD) :
    (held (T d) (ucRefs τ sig \ {w', o'}) (Val5 m out d) : sProp 𝕄) = held (T d) (ucRefs τ sig \ {w', o'}) (Val4 m d) :=
  held_congr (T d) fun b hb => Function.update_of_ne (fun e => by
    subst e; exact (Finset.mem_sdiff.mp hb).2 (Finset.mem_insert_of_mem (Finset.mem_singleton_self _))) _ _

/-- The weight matrix and the result array put back among the unscoped buffers, the result at the lane sums. -/
theorem held_after_call (d : Dev nD) :
    (iprop((wLoc d ↦{fullShare} Val4 m d w') ∗ (oLoc d ↦{fullShare} out d) ∗ held (T d) (ucRefs τ sig \ {w', o'}) (Val4 m d)) : sProp 𝕄)
      ⊢ held (T d) (ucRefs τ sig) (Val5 m out d) := by
  rw [held_sub_split (T d) wo_sub (Val5 m out d), held_wo, Val5_w, Val5_o, held_rest5]
  iintro ⟨Hw, Ho, Hr⟩
  isplitl [Hw Ho]
  · isplitl [Hw]; · iexact Hw
    iexact Ho
  · iexact Hr

end Cert.Proof.KB

end
-- ==== Proof.KB.LaunchElem.lean ====
/-
  The launch element of the ghost state: the handshakes' rounds for the launch theorem, the two TensorCore pipelines'
  staging cells funded for @main's regions, and the local transfers' counters, of which nothing is needed at launch.
-/
import proofs.«216131_g62878321214323_cont_9to1c4b_752_23_alg».proof.Proof.KB.Common
import proofs.«216131_g62878321214323_cont_9to1c4b_752_23_alg».proof.Proof.KB.Split

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]
variable (wc : (d : Dev nD) → Buf (Elt F) (wLoc d)) (out : (d : Dev nD) → Buf (Elt F) (oLoc d))

/-- The launch element: the handshakes' copy at the library's cells and tokens, the pipelines' at their staging cells
    and their loops' transfers, the counters' unit. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What the launch leaves device `d`'s TensorCore for its two regions: each pipeline's staging cells' ghost state and
    its transfers' duty tokens. -/
def G (d : Dev nD) : sProp 𝕄 :=
  bigSep Finset.univ fun p : Fin 2 => iprop(Pipeline.cellsGhost cfgs (EP (F := F)) p d ∗ Pipeline.toksInit cfgs (EP (F := F)) p d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P wc out).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (nD := nD) (τ := τ) cfgs (EP (F := F)) cellOf_inj) $$ HP with ⟨Hg, Ht⟩
  imodintro
  isplitl [HH]; · iexact HH
  isplitl [Hg Ht]
  · unfold G
    rw [bigSep_congr (fun (d : Dev nD) _ => bigSep_sep' (Finset.univ : Finset (Fin 2)) _ _), bigSep_sep']
    isplitl [Hg] <;> iassumption
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Cert.Proof.KB

end
-- ==== Proof.KB.MainB.lean ====
/-
  @main on the TensorCore, run: from what the launch deals the TensorCore to the final valuation of its unscoped
  buffers, the two TensorCore regions entering as steps that advance the valuation at their result arrays.
-/
import proofs.«216131_g62878321214323_cont_9to1c4b_752_23_alg».proof.Proof.KB.MainA
import proofs.«216131_g62878321214323_cont_9to1c4b_752_23_alg».proof.Proof.KB.LaunchElem

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.StableHlo (held held_split held_sdiff_result wp_hlo_within held_sub_split held_congr)
open Idealize.ShloMosaic.Pipeline (ucRefs unscopedBufs_held sub_ucRefs)

variable [FloatOps F]
variable (m : (ℓ : Loc nD τ sig) → Buf (Elt F) ℓ) (ρ : Dev nD → PrngReg)
variable (out : (d : Dev nD) → Buf (Elt F) (oLoc d))

/-- What the TensorCore owes once the SparseCore call is over: nothing, its recorded waits bounded. -/
def tcOwes (d : Dev nD) : sProp 𝕄 := iprop(∃ W, ⌜(K (F := F)).WBelow (T d) W (8 * 1)⌝ ∗ owes (T d) (0 : CellTallies nD τ sig (HIx 1)) W)

/-- A TensorCore region as a step of @main: from the region boundary, every unscoped buffer at a valuation, the
    core owing nothing and the pipeline's staging cells' ghost state, to the boundary, the valuation advanced at the
    region's result arrays, and the core owing nothing. -/
def RegionStep (p : Fin 2) (upd : Dev nD → Valuation τ sig (Elt F) → Valuation τ sig (Elt F)) : Prop :=
  ∀ (κ : GSem nD τ sig → ℕ) (d : Dev nD) (W₀ : Valuation τ sig (Elt F)) (Φ : PUnit → sProp 𝕄),
    iprop((K (F := F)).ctx EH (P (wcOf m) out) κ ∗ boundary (T d) ∗ held (T d) (ucRefs τ sig) W₀ ∗ tcOwes (F := F) d
        ∗ Pipeline.cellsGhost cfgs (EP (F := F)) p d ∗ Pipeline.toksInit cfgs (EP (F := F)) p d
        ∗ (iprop(boundary (T d) ∗ held (T d) (ucRefs τ sig) (upd d W₀) ∗ tcOwes (F := F) d) -∗ Φ ⟨⟩))
      ⊢ wp frame (wpE ((K (F := F)).defs (D (F := F))) 𝒱 (SparseCore.T d) none) Set.univ
          (Prog.lift (.customCall (SparseCore.inner (Pipeline.entry p)) ())) Φ

variable (upd0 upd1 : Dev nD → Valuation τ sig (Elt F) → Valuation τ sig (Elt F))

abbrev op_v6 : HloOp τ sig (Elt F) :=
  StableHlo.unary main_v5_1 main_v6 ((extractStridedSlice S1x2048 ![0, 0] · slices_S8x2048_S1x2048_0_0) : (⟨S8x2048, .f32⟩ : BufTy).Contents (Elt F) → (⟨S1x2048, .f32⟩ : BufTy).Contents (Elt F))
abbrev op_v7 : HloOp τ sig (Elt F) := StableHlo.reshape main_v6 main_v7 rfl shapeCasts_S1x2048_S2048x1
abbrev op_v9 : HloOp τ sig (Elt F) := StableHlo.reshape main_v8 main_v9 rfl shapeCasts_S1x1_S_

/-- The valuation when @main returns. -/
abbrev ValEnd (d : Dev nD) : Valuation τ sig (Elt F) :=
  (op_v9 (F := F)).result (upd1 d ((op_v7 (F := F)).result ((op_v6 (F := F)).result (upd0 d (Val5 m out d)))))

/-- What @main leaves the claim: every unscoped buffer at the final valuation. -/
abbrev FIN (d : Dev nD) : sProp 𝕄 := held (T d) (ucRefs τ sig) (ValEnd m out upd0 upd1 d)

/-- After the one SparseCore call the TensorCore's handshake state is: it owes nothing, and a rest the regions do not touch. -/
theorem tcSt_one (d : Dev nD) : ∃ R : sProp 𝕄, ((K (F := F)).tcSt EH d 1 : sProp 𝕄) = iprop(tcOwes (F := F) d ∗ R) :=
  ⟨_, by unfold SparseCore.Cfg.tcSt tcOwes; rw [(K (F := F)).Otc_end d le_rfl]⟩

/-- The launch's ghost state for the two regions, one by one. -/
theorem G_eq (d : Dev nD) :
    (G (F := F) d : sProp 𝕄) = iprop((Pipeline.cellsGhost cfgs (EP (F := F)) 0 d ∗ Pipeline.toksInit cfgs (EP (F := F)) 0 d)
      ∗ (Pipeline.cellsGhost cfgs (EP (F := F)) 1 d ∗ Pipeline.toksInit cfgs (EP (F := F)) 1 d)) := by
  unfold G; exact bigSep_fin_two _

theorem hmain (h0 : RegionStep (F := F) m out 0 upd0) (h1 : RegionStep (F := F) m out 1 upd1)
    (κ : GSem nD τ sig → ℕ) (d : Dev nD) :
    iprop((K (F := F)).ctx EH (P (wcOf m) out) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m out upd0 upd1 d) := by
  unfold SparseCore.Cfg.tcRes
  rw [unscoped_held]
  simp only [main, wp_bind, wp_pure]
  iintro ⟨#Hctx, Hst, ⟨Hb, Hheld, -, -⟩, HG⟩
  -- the four reshapes
  iapply (wp_hlo_within 𝒱 (SparseCore.T d) none Set.univ (op := op_v0) (S := ucRefs τ sig) (sub_ucRefs _ (StableHlo.reshape_bufs_sub ..)) (V := Val0 m d)) $$ [Hb Hheld]
  · isplitl [Hb]; · iexact Hb
    iexact Hheld
  iintro ⟨Hb, Hheld⟩
  rw [wp_ret]; imodintro
  iapply (wp_hlo_within 𝒱 (SparseCore.T d) none Set.univ (op := op_v1) (S := ucRefs τ sig) (sub_ucRefs _ (StableHlo.reshape_bufs_sub ..))) $$ [Hb Hheld]
  · isplitl [Hb]; · iexact Hb
    iexact Hheld
  iintro ⟨Hb, Hheld⟩
  rw [wp_ret]; imodintro
  iapply (wp_hlo_within 𝒱 (SparseCore.T d) none Set.univ (op := op_v2) (S := ucRefs τ sig) (sub_ucRefs _ (StableHlo.reshape_bufs_sub ..))) $$ [Hb Hheld]
  · isplitl [Hb]; · iexact Hb
    iexact Hheld
  iintro ⟨Hb, Hheld⟩
  rw [wp_ret]; imodintro
  iapply (wp_hlo_within 𝒱 (SparseCore.T d) none Set.univ (op := op_v3) (S := ucRefs τ sig) (sub_ucRefs _ (StableHlo.reshape_bufs_sub ..))) $$ [Hb Hheld]
  · isplitl [Hb]; · iexact Hb
    iexact Hheld
  iintro ⟨Hb, Hheld⟩
  rw [wp_ret]; imodintro
  -- the SparseCore call: the weight matrix and the result array out of the set, dealt to the tiles, and back
  ihave Hh := (Entails.of_eq (held_sub_split (T d) wo_sub (Val4 m d))) $$ Hheld
  icases Hh with ⟨Hwo, Hrest⟩
  ihave Hwo' := (Entails.of_eq (held_wo (F := F) d (Val4 m d))) $$ Hwo
  icases Hwo' with ⟨Hw, Ho⟩
  ihave Ht := (tiles_intro (wcOf m) d (Val4 m d o')) $$ [Hw Ho]
  · isplitl [Hw]; · iexact Hw
    iexact Ho
  icases Ht with ⟨Hwr, Htiles⟩
  iapply ((K (F := F)).wp_run (D (F := F)) 𝒱 (EH := EH) (P := P (wcOf m) out) κ d 0) $$ [Hst Htiles Hb Hrest Hwr HG]
  isplitr; · iexact Hctx
  isplitl [Hst]; · iexact Hst
  isplitl [Htiles]
  · rw [st0_eq]; iexact Htiles
  iintro ⟨Hst, Hdn⟩
  ihave Hdn' := (Entails.of_eq (dn0_eq out (wcOf m) d)) $$ Hdn
  ihave Hwo := (tiles_elim out (wcOf m) d) $$ [Hwr Hdn']
  · isplitl [Hwr]; · iexact Hwr
    iexact Hdn'
  icases Hwo with ⟨Hw, Ho⟩
  ihave Hheld := (held_after_call m out d) $$ [Hw Ho Hrest]
  · isplitl [Hw]; · iexact Hw
    isplitl [Ho]; · iexact Ho
    iexact Hrest
  -- what the TensorCore owes now, and the regions' ghost state
  obtain ⟨R, hR⟩ := tcSt_one (F := F) d
  ihave Hst' := (Entails.of_eq (show ((K (F := F)).tcSt EH d ((0 : Fin 1).val + 1) : sProp 𝕄) = iprop(tcOwes (F := F) d ∗ R) from hR)) $$ Hst
  icases Hst' with ⟨Howes, HR⟩
  ihave HG' := (Entails.of_eq (G_eq (F := F) d)) $$ HG
  icases HG' with ⟨⟨Hg0, Ht0⟩, Hg1, Ht1⟩
  -- region 0
  iapply (h0 κ d (Val5 m out d) _) $$ [Hb Hheld Howes Hg0 Ht0 HR Hg1 Ht1]
  isplitr; · iexact Hctx
  isplitl [Hb]; · iexact Hb
  isplitl [Hheld]; · iexact Hheld
  isplitl [Howes]; · iexact Howes
  isplitl [Hg0]; · iexact Hg0
  isplitl [Ht0]; · iexact Ht0
  iintro ⟨Hb, Hheld, Howes⟩
  -- the slice and the reshape
  iapply (wp_hlo_within 𝒱 (SparseCore.T d) none Set.univ (op := op_v6) (S := ucRefs τ sig) (sub_ucRefs _ (StableHlo.unary_bufs_sub ..))) $$ [Hb Hheld]
  · isplitl [Hb]; · iexact Hb
    iexact Hheld
  iintro ⟨Hb, Hheld⟩
  rw [wp_ret]; imodintro
  iapply (wp_hlo_within 𝒱 (SparseCore.T d) none Set.univ (op := op_v7) (S := ucRefs τ sig) (sub_ucRefs _ (StableHlo.reshape_bufs_sub ..))) $$ [Hb Hheld]
  · isplitl [Hb]; · iexact Hb
    iexact Hheld
  iintro ⟨Hb, Hheld⟩
  rw [wp_ret]; imodintro
  -- region 1
  iapply (h1 κ d _ _) $$ [Hb Hheld Howes Hg1 Ht1 HR]
  isplitr; · iexact Hctx
  isplitl [Hb]; · iexact Hb
  isplitl [Hheld]; · iexact Hheld
  isplitl [Howes]; · iexact Howes
  isplitl [Hg1]; · iexact Hg1
  isplitl [Ht1]; · iexact Ht1
  iintro ⟨Hb, Hheld, Howes⟩
  -- the last reshape
  iapply (wp_hlo_within 𝒱 (SparseCore.T d) none Set.univ (op := op_v9) (S := ucRefs τ sig) (sub_ucRefs _ (StableHlo.reshape_bufs_sub ..))) $$ [Hb Hheld]
  · isplitl [Hb]; · iexact Hb
    iexact Hheld
  iintro ⟨Hb, Hheld⟩
  rw [wp_ret]; imodintro; imodintro
  isplitl [Howes HR]
  · iapply (Entails.of_eq hR.symm)
    isplitl [Howes]; · iexact Howes
    iexact HR
  iexact Hheld

end Cert.Proof.KB

end
-- ==== Proof.KB.MainC.lean ====
/-
  The program's run: the launch theorem applied to the tile obligation, the split of each SparseCore's operands among
  its tiles, the launch element, @main's proof and the reading of the final memory. Every weakly fair execution of
  the TensorCore's @main and the 34 SparseCore threads terminates, and the TensorCore's result and argument buffers
  end at the final valuation.
-/
import proofs.«216131_g62878321214323_cont_9to1c4b_752_23_alg».proof.Proof.KB.MainB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.StableHlo (held held_split held_sdiff_result wp_hlo_within held_sub_split held_congr)
open Idealize.ShloMosaic.Pipeline (ucRefs unscopedBufs_held sub_ucRefs)

variable [FloatOps F]
variable (m : (ℓ : Loc nD τ sig) → Buf (Elt F) ℓ) (ρ : Dev nD → PrngReg)
variable (out : (d : Dev nD) → Buf (Elt F) (oLoc d))
variable (upd0 upd1 : Dev nD → Valuation τ sig (Elt F) → Valuation τ sig (Elt F))

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev r9' : DevRef τ sig := Proc.devRef .tc (main_v9 : Ref sig .tc)

omit [FloatOps F] in
/-- A buffer of the held set reads, in any state the assertion holds of, as the valuation says. -/
theorem read_held (Vf : Valuation τ sig (Elt F)) (d : Dev nD) (s' : Phys nD τ sig (Elt F)) (b : DevRef τ sig) (hb : b ∈ ucRefs τ sig) :
    iprop(held (T d) (ucRefs τ sig) Vf ∗ SI s') ⊢ (⌜s'.mem.mem ((d, b) : Loc nD τ sig) = Vf b⌝ : sProp 𝕄) := by
  unfold held
  iintro ⟨H, HSI⟩
  ihave Hb := (SparseCore.ent (bigSep_elim (Φ := fun b : DevRef τ sig => ((((SparseCore.T d).1, b) : Loc nD τ sig) ↦{fullShare} Vf b : sProp 𝕄)) hb)) $$ H
  ihave H' := (SI_pointsTo_agree (st := s') (ℓ := ((d, b) : Loc nD τ sig)) (I := Finset.univ) (q := fullShare) (f := Vf b)) $$ [HSI Hb]
  · isplitl [HSI] <;> iassumption
  icases H' with %h
  ipureintro; exact funext fun i => h i (Finset.mem_univ i)

/-- What the claim reads of device `d`'s final state: the result and the three arguments at the final valuation. -/
def fq (Vf : Dev nD → Valuation τ sig (Elt F)) (d : Dev nD) (s' : Phys nD τ sig (Elt F)) : Prop :=
  s'.mem.mem ((d, r9') : Loc nD τ sig) = Vf d r9' ∧ s'.mem.mem ((d, a0') : Loc nD τ sig) = Vf d a0'
    ∧ s'.mem.mem ((d, a1') : Loc nD τ sig) = Vf d a1' ∧ s'.mem.mem ((d, a2') : Loc nD τ sig) = Vf d a2'

omit [FloatOps F] in
theorem hfin (Vf : Dev nD → Valuation τ sig (Elt F)) (d : Dev nD) (s' : Phys nD τ sig (Elt F)) :
    iprop(held (T d) (ucRefs τ sig) (Vf d) ∗ SI s') ⊢ (⌜fq Vf d s'⌝ : sProp 𝕄) := by
  iintro H
  ihave H9 := (persistent_entails_right (read_held (Vf d) d s' r9' (by decide))) $$ H
  icases H9 with ⟨%h9, H⟩
  ihave H0 := (persistent_entails_right (read_held (Vf d) d s' a0' (by decide))) $$ H
  icases H0 with ⟨%h0, H⟩
  ihave H1 := (persistent_entails_right (read_held (Vf d) d s' a1' (by decide))) $$ H
  icases H1 with ⟨%h1, H⟩
  ihave H2 := (read_held (Vf d) d s' a2' (by decide)) $$ H
  icases H2 with %h2
  ipureintro; exact ⟨h9, h0, h1, h2⟩

/-- The physical post. -/
def QC (Vf : Dev nD → Valuation τ sig (Elt F)) : PUnit × MemSt nD τ sig (Elt F) → Prop := fun r => ∀ c : Dev nD,
  r.2.mem ((c, r9') : Loc nD τ sig) = Vf c r9' ∧ r.2.mem ((c, a0') : Loc nD τ sig) = Vf c a0'
    ∧ r.2.mem ((c, a1') : Loc nD τ sig) = Vf c a1' ∧ r.2.mem ((c, a2') : Loc nD τ sig) = Vf c a2'

theorem run_main [∀ e, Nonempty (Elt F e)]
    (htile : (K (F := F)).TileObl (D (F := F)) 𝒱 (P (wcOf m) out) v₀ 0)
    (h0 : RegionStep (F := F) m out 0 upd0) (h1 : RegionStep (F := F) m out 1 upd1) :
    θ_run (Cert.Kernel.defs (F := F)) (Cert.Kernel.threads (F := F)) ⟨m, fun _ => 0, ρ⟩ (QC (ValEnd m out upd0 upd1)) :=
  SparseCore.Cfg.θ_run_sc (K := K (F := F)) (D := D (F := F)) (𝒱 := 𝒱) (EH := EH) (P := P (wcOf m) out) facts v₀
    (fun q hq => match q with | 0 => nomatch hq)
    (fun q _ => match q with | 0 => htile)
    (fun q _ => match q with | 0 => SparseCore.Cfg.VecSplit.of_plain (vecSplit (wcOf m) out))
    m ρ main (G (F := F)) (FIN m out upd0 upd1) (u₀ (F := F)) (sep_elim_left.trans (hu₀ (wcOf m) out))
    (hmain m ρ out upd0 upd1 h0 h1) (fq (ValEnd m out upd0 upd1)) (hfin (ValEnd m out upd0 upd1))
    (QC (ValEnd m out upd0 upd1)) (fun _ h => h)

end Cert.Proof.KB

end
-- ==== Proof.KB.Final.lean ====
/-
  The run read at the claim's buffers: the three arguments end at their launch contents (no step of @main writes
  them), the result at the final valuation.
-/
import proofs.«216131_g62878321214323_cont_9to1c4b_752_23_alg».proof.Proof.KB.MainC

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.StableHlo (held held_split held_sdiff_result wp_hlo_within held_sub_split held_congr)
open Idealize.ShloMosaic.Pipeline (ucRefs unscopedBufs_held sub_ucRefs)

variable [FloatOps F]
variable (m : (ℓ : Loc nD τ sig) → Buf (Elt F) ℓ) (ρ : Dev nD → PrngReg)
variable (out : (d : Dev nD) → Buf (Elt F) (oLoc d))
variable (upd0 upd1 : Dev nD → Valuation τ sig (Elt F) → Valuation τ sig (Elt F))

abbrev v50' : DevRef τ sig := Proc.devRef .tc (main_v5_0 : Ref sig .tc)
abbrev v51' : DevRef τ sig := Proc.devRef .tc (main_v5_1 : Ref sig .tc)
abbrev v8' : DevRef τ sig := Proc.devRef .tc (main_v8 : Ref sig .tc)

/-- The regions write only their result arrays. -/
def WritesOnly (upd0 upd1 : Dev nD → Valuation τ sig (Elt F) → Valuation τ sig (Elt F)) : Prop :=
  (∀ d W (b : DevRef τ sig), b ≠ v50' → b ≠ v51' → upd0 d W b = W b) ∧ (∀ d W (b : DevRef τ sig), b ≠ v8' → upd1 d W b = W b)

/-- The three arguments are none of the buffers a step of @main writes. -/
theorem unwritten_facts : ∀ b ∈ ({a0', a1', a2'} : Finset (DevRef τ sig)),
    b ∉ ({r9'} : Finset (DevRef τ sig)) ∧ b ∉ ({Proc.devRef .tc (main_v7 : Ref sig .tc)} : Finset (DevRef τ sig))
      ∧ b ∉ ({Proc.devRef .tc (main_v6 : Ref sig .tc)} : Finset (DevRef τ sig)) ∧ b ∉ ({w'} : Finset (DevRef τ sig))
      ∧ b ∉ ({Proc.devRef .tc (main_v2 : Ref sig .tc)} : Finset (DevRef τ sig)) ∧ b ∉ ({Proc.devRef .tc (main_v1 : Ref sig .tc)} : Finset (DevRef τ sig))
      ∧ b ∉ ({Proc.devRef .tc (main_v0 : Ref sig .tc)} : Finset (DevRef τ sig)) ∧ b ≠ v8' ∧ b ≠ v50' ∧ b ≠ v51' ∧ b ≠ o' := by decide

/-- A buffer no step of @main writes ends at its launch contents. -/
theorem ValEnd_unwritten (hw : WritesOnly upd0 upd1) (d : Dev nD) (b : DevRef τ sig)
    (hb : b ∈ ({a0', a1', a2'} : Finset (DevRef τ sig))) : ValEnd m out upd0 upd1 d b = m (d, b) := by
  obtain ⟨g9, g7, g6, g3, g2, g1, g0, hv8, hv50, hv51, ho⟩ := unwritten_facts b hb
  have h9 : b ∉ (op_v9 (F := F)).writes := g9
  have h7 : b ∉ (op_v7 (F := F)).writes := g7
  have h6 : b ∉ (op_v6 (F := F)).writes := g6
  have h3 : b ∉ (op_v3 (F := F)).writes := g3
  have h2 : b ∉ (op_v2 (F := F)).writes := g2
  have h1 : b ∉ (op_v1 (F := F)).writes := g1
  have h0 : b ∉ (op_v0 (F := F)).writes := g0
  unfold ValEnd
  rw [(op_v9 (F := F)).result_of_not_mem _ h9, hw.2 d _ b hv8, (op_v7 (F := F)).result_of_not_mem _ h7,
    (op_v6 (F := F)).result_of_not_mem _ h6, hw.1 d _ b hv50 hv51]
  unfold Val5
  rw [Function.update_of_ne ho]
  unfold Val4
  rw [(op_v3 (F := F)).result_of_not_mem _ h3, (op_v2 (F := F)).result_of_not_mem _ h2,
    (op_v1 (F := F)).result_of_not_mem _ h1, (op_v0 (F := F)).result_of_not_mem _ h0]

/-- The run, read at the claim's buffers: the result at the final valuation, the arguments unchanged. -/
theorem run_claim [∀ e, Nonempty (Elt F e)] (hw : WritesOnly upd0 upd1)
    (htile : (K (F := F)).TileObl (D (F := F)) 𝒱 (P (wcOf m) out) v₀ 0)
    (h0 : RegionStep (F := F) m out 0 upd0) (h1 : RegionStep (F := F) m out 1 upd1) :
    θ_run (Cert.Kernel.defs (F := F)) (Cert.Kernel.threads (F := F)) ⟨m, fun _ => 0, ρ⟩ (fun r => ∀ c : Dev nD,
      r.2.mem ((c.tc : Thread nD τ).loc main_v9) = ValEnd m out upd0 upd1 c r9'
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (Cert.Kernel.defs (F := F)) _ _).mono (fun _ h c =>
    ⟨(h c).1,
      (h c).2.1.trans (ValEnd_unwritten m out upd0 upd1 hw c a0' (by decide)),
      (h c).2.2.1.trans (ValEnd_unwritten m out upd0 upd1 hw c a1' (by decide)),
      (h c).2.2.2.trans (ValEnd_unwritten m out upd0 upd1 hw c a2' (by decide))⟩)
    (run_main m ρ out upd0 upd1 htile h0 h1)

end Cert.Proof.KB

end
-- ==== Proof.KB.RegionSpec.lean ====
import proofs.«216131_g62878321214323_cont_9to1c4b_752_23_alg».proof.Proof.KB.Common
import proofs.«216131_g62878321214323_cont_9to1c4b_752_23_alg».proof.Proof.Gen.Kernel.Skeleton
import proofs.«216131_g62878321214323_cont_9to1c4b_752_23_alg».proof.Proof.Gen.Kernel.Points
import Idealize.ShloMosaic.Lib.Pipeline.Frame
import Idealize.ShloMosaic.Lib.Pipeline.Value

/-
  What the two TensorCore kernels compute, as functions of their operand arrays, generic in the float instance:
  the finishing kernel's one value, and the grid kernel's two accumulators point by point (28 points `k = 4 e + oc`,
  walked in order) with what its last point stores. Also what both regions share: no prefetched table, the index the
  staging cells' waits record at, and what the TensorCore owes around a region.
-/

noncomputable section

namespace Cert.Proof.KB

open Cert.Kernel Cert.Kernel.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## What both regions share -/

/-- Neither pipeline prefetches a table: the one admissible contents. -/
abbrev adm : (p : Fin 2) → (pcfgs (F := F) p).Adm := fun p => (cfgs p).toPCfg_adm

/-- A valuation of the device's buffers, read at a TensorCore reference of device `d`. -/
abbrev VT (d : Dev nD) (V : Valuation τ sig (Elt F)) (b : Ref sig .tc) : Buf (Elt F) ((SparseCore.T (τ := τ) d).loc b) := V (Proc.devRef .tc b)

/-- The TensorCore owes nothing (the one SparseCore call is behind it) and every wait it has recorded sits at level at
    most 8: the waits of the call, and the staging cells' own (level 0). -/
def tcOwesR (d : Dev nD) : sProp 𝕄 :=
  iprop(∃ W, ⌜(K (F := F)).WBelow (SparseCore.T (τ := τ) d) W (8 * 1)⌝ ∗ owes (SparseCore.T (τ := τ) d) (0 : CellTallies nD τ sig (HIx 1)) W)

/-- The recorded pairs a region's proof data bounds: those at level at most 8. -/
def recB (d : Dev nD) : Set (SemLoc sig × HIx 1) := {p | (K (F := F)).lev (SparseCore.T (τ := τ) d, p.1) p.2 ≤ 8 * 1}

/-! ## The finishing kernel's value -/

/-- What the finishing kernel leaves in its [1,1] result: `part (0,0)` plus the sum over all rows `h` and lanes `l` of
    `lane (h, l) * shf (h, 0)`, as the body computes it (one product array, one reduction over both axes, one addition). -/
def finV (part : Vec F S1x1 .f32) (shf : Vec F S2048x1 .f32) (lane : Vec F S2048x16 .f32) : Vec F S1x1 .f32 :=
  k2_pay1 lane shf part

/-- The zero offsets of a rank-2 whole-array rectangle, however spelt. -/
theorem hz2 : (![0, 0] : Fin 2 → ℕ) = fun _ => 0 := by funext a; fin_cases a <;> rfl
theorem hz3 : (![0, 0, 0] : Fin 3 → ℕ) = fun _ => 0 := by funext a; fin_cases a <;> rfl

/-! ## A store through a rectangle, read back over what was there -/

/-- The buffer after the writes `⟨r, w⟩ :: L`, read through the view: `w` on the rectangle `r`, what the earlier writes
    left elsewhere. -/
theorem read_writes_cons_overlay {sg : RefSig} {κ : Kind} {sp : Space} {s : Shape} {e : EltTy} (v : View sg κ sp s e)
    (f : v.ty.Contents (Elt F)) (r : Rect s) (w : r.shape.Idx → Elt F e) (L : List (View.Piece (Elt F) s e)) :
    v.read (Elt F) (v.writes (Elt F) f (⟨r, w⟩ :: L)) = r.overlay (v.read (Elt F) (v.writes (Elt F) f L)) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons, View.read_slice_write_of_not_mem r _ _ _ (by rw [Rect.map_emb_univ]; exact hy)]

/-! ## The grid kernel's values

The grid is walked in order, point `k = 4 e + oc` (`e < 7`, `oc < 4`). Two scratch arrays are carried: the token sums
`sh [8, 2048]` (zeroed at `k = 0`; at each `k < 16` the product of the 256-column slab `k` of `sp` with the 256-row slab `k` of
`hid` is added) and the column sums `ws [7, 2048]` (zeroed at `k = 0`; at every point row `e` gains the sums over the 1024
columns of the weight block staged there). The last point stores `sh` and the sum of `sh[e + 1, h] * ws[e, h]`. -/

/-- The first conditional's guard, as the body computes it from the point: `k = 0`. -/
abbrev cond1 (i : grid1.Coords) : Prop :=
  Scalar.cmpi .ne (Scalar.extui (Scalar.cmpi .eq (Scalar.addi (Scalar.muli (BitVec.ofNat 32 (i 0).val) 4#32) (BitVec.ofNat 32 (i 1).val)) 0#32)) 0#32 = 1#1

/-- The three guards over the 28 points: `k = 0`, `k < 16`, `k = 27`. -/
theorem cond1_iff : ∀ t : Fin grid1.N, cond1 (grid1.coords t) ↔ t.val = 0 := by decide +kernel
theorem cond2_iff : ∀ t : Fin grid1.N, k1_cond2 (grid1.coords t) = 1#1 ↔ t.val < 16 := by decide +kernel
theorem cond3_iff : ∀ t : Fin grid1.N, k1_cond3 (grid1.coords t) = 1#1 ↔ t.val = 27 := by decide +kernel

/-- The token sums after a point below 16: the slabs' product added to what was there. -/
def shNext (i : grid1.Coords) (h : k1_cond2 i = 1#1) (sp : Vec F S8x4096 .f32) (hid : Vec F S4096x2048 .f32) (prev : Vec F S8x2048 .f32) :
    Vec F S8x2048 .f32 :=
  k1_pay3 (View.ld sp (Rect.unit (s := S8x4096) (k1_off1 i) S8x256.size (k1_off1_inb i h)))
    (View.ld hid (Rect.unit (s := S4096x2048) (k1_off2 i) S256x2048.size (k1_off2_inb i h))) prev

/-- The column sums after a point: row `e` of what was there plus the staged weight block's sums over its columns, the
    other rows as they were. -/
def wsNext (i : grid1.Coords) (base : Vec F S7x2048 .f32) (blk : Vec F S1x2048x1024 .f32) : Vec F S7x2048 .f32 :=
  (Rect.unit (s := S7x2048) (k1_off3 i) S1x2048.size (k1_off3_inb i)).overlay base
    (k1_pay4 (View.ld base (Rect.unit (s := S7x2048) (k1_off3 i) S1x2048.size (k1_off3_inb i))) blk)

/-- What the last point stores in the [1,1] result: the sum over `e < 7`, `h` of `sh[e + 1, h] * ws[e, h]`. -/
def partOf (sh : Vec F S8x2048 .f32) (ws : Vec F S7x2048 .f32) : Vec F S1x1 .f32 :=
  k1_pay5 (View.ld sh (Rect.unit (s := S8x2048) ![1, 0] S7x2048.size inb_S8x2048_S7x2048_1_0)) ws

/-- The token sums before point `n` (after point `n - 1`), from the zero array. -/
def shAt (sp : Vec F S8x4096 .f32) (hid : Vec F S4096x2048 .f32) : ℕ → Vec F S8x2048 .f32
  | 0 => k1_pay1
  | n + 1 =>
    if hn : n < grid1.N then
      if h : k1_cond2 (grid1.coords ⟨n, hn⟩) = 1#1 then shNext (grid1.coords ⟨n, hn⟩) h sp hid (shAt sp hid n) else shAt sp hid n
    else shAt sp hid n

/-- The column sums before point `n`, from the zero array, over the weight blocks `wb t` staged at each point. -/
def wsAt (wb : Fin grid1.N → Vec F S1x2048x1024 .f32) : ℕ → Vec F S7x2048 .f32
  | 0 => k1_pay2
  | n + 1 => if hn : n < grid1.N then wsNext (grid1.coords ⟨n, hn⟩) (wsAt wb n) (wb ⟨n, hn⟩) else wsAt wb n

theorem shAt_succ_pos (sp : Vec F S8x4096 .f32) (hid : Vec F S4096x2048 .f32) (t : Fin grid1.N) (h : k1_cond2 (grid1.coords t) = 1#1) :
    shAt sp hid (t.val + 1) = shNext (grid1.coords t) h sp hid (shAt sp hid t.val) := by
  rw [shAt, dif_pos t.isLt, dif_pos h]

theorem shAt_succ_neg (sp : Vec F S8x4096 .f32) (hid : Vec F S4096x2048 .f32) (t : Fin grid1.N) (h : ¬ k1_cond2 (grid1.coords t) = 1#1) :
    shAt sp hid (t.val + 1) = shAt sp hid t.val := by
  rw [shAt, dif_pos t.isLt, dif_neg h]

theorem wsAt_succ (wb : Fin grid1.N → Vec F S1x2048x1024 .f32) (t : Fin grid1.N) :
    wsAt wb (t.val + 1) = wsNext (grid1.coords t) (wsAt wb t.val) (wb t) := by
  rw [wsAt, dif_pos t.isLt]

end Cert.Proof.KB

end
-- ==== Proof.KB.Body0.lean ====
import proofs.«216131_g62878321214323_cont_9to1c4b_752_23_alg».proof.Proof.KB.RegionSpec
import Idealize.ShloMosaic.Lib.Tactic

/-
  The grid kernel's body, run once per control case on any whole staging and scratch memrefs: the first point (both
  scratch arrays zeroed, then accumulated into), a point below 16 (both accumulated into), a later point (only the
  column sums), the last point (the column sums, then the two results stored).
-/

noncomputable section

namespace Cert.Proof.KB

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-- One whole-array store of zeros, read back. -/
theorem read_zero8 {sg : RefSig} {κ : Kind} {sp : Space} (v : View sg κ sp S7x2048 .f32) (f : v.ty.Contents (Elt F)) :
    v.read (Elt F) (v.writes (Elt F) f [⟨Rect.unit (s := S7x2048) ![0, 0] S7x2048.size inb_S7x2048_S7x2048_0_0, k1_pay2 (F := F)⟩]) = k1_pay2 := by
  rw [View.read_writes_eq_canon _ _ _ (fun y => ⟨_, List.mem_singleton_self _, View.mem_set_unit_zero hz2 inb_S7x2048_S7x2048_0_0 y⟩), View.canon_unit_zero hz2]

-- a long symbolic run and its closing rewrites in one declaration: a larger elaboration budget
set_option maxHeartbeats 2000000 in
/-- The first point: both scratch arrays are zeroed, then `sh` gains the slabs' product and row `e` of `ws` the staged block's sums. -/
theorem run1A (d : Dev nD) (i : grid1.Coords)
    (M2 : Memref sig .tc .vmem S8x4096 .f32) (h2 : M2.IsWhole) (M3 : Memref sig .tc .vmem S4096x2048 .f32) (h3 : M3.IsWhole)
    (M4 : Memref sig .tc .vmem S1x2048x1024 .f32) (h4 : M4.IsWhole) (M5 : Memref sig .tc .vmem S1x1 .f32) (h5 : M5.IsWhole)
    (M6 : Memref sig .tc .vmem S8x2048 .f32) (h6 : M6.IsWhole) (M7 : Memref sig .tc .vmem S8x2048 .f32) (h7 : M7.IsWhole)
    (M8 : Memref sig .tc .vmem S7x2048 .f32) (h8 : M8.IsWhole)
    (hc1 : cond1 i) (hc2 : k1_cond2 i = 1#1) (hc3 : ¬ k1_cond3 i = 1#1)
    (x2 : Vec F S8x4096 .f32) (x3 : Vec F S4096x2048 .f32) (x4 : Vec F S1x2048x1024 .f32) (x5 : Vec F S1x1 .f32) (x6 : Vec F S8x2048 .f32)
    (x7 : Vec F S8x2048 .f32) (x8 : Vec F S7x2048 .f32) (Q : PUnit → sProp 𝕄) :
    iprop(owns (SparseCore.T (τ := τ) d) M2 fullShare x2 ∗ owns (SparseCore.T (τ := τ) d) M3 fullShare x3 ∗ owns (SparseCore.T (τ := τ) d) M4 fullShare x4
        ∗ owns (SparseCore.T (τ := τ) d) M5 fullShare x5 ∗ owns (SparseCore.T (τ := τ) d) M6 fullShare x6 ∗ owns (SparseCore.T (τ := τ) d) M7 fullShare x7 ∗ owns (SparseCore.T (τ := τ) d) M8 fullShare x8
        ∗ (iprop(owns (SparseCore.T (τ := τ) d) M2 fullShare x2 ∗ owns (SparseCore.T (τ := τ) d) M3 fullShare x3 ∗ owns (SparseCore.T (τ := τ) d) M4 fullShare x4
            ∗ owns (SparseCore.T (τ := τ) d) M5 fullShare (x5) ∗ owns (SparseCore.T (τ := τ) d) M6 fullShare (x6)
            ∗ owns (SparseCore.T (τ := τ) d) M7 fullShare (shNext i hc2 x2 x3 k1_pay1) ∗ owns (SparseCore.T (τ := τ) d) M8 fullShare (wsNext i k1_pay2 x4)) -∗ Q ⟨⟩))
      ⊢ wp frame (wpE (defs₀ (F := F)) 𝒱₀ (SparseCore.T (τ := τ) d) none) Set.univ (cc1__tc_body i M2 h2 M3 h3 M4 h4 M5 h5 M6 h6 M7 h7 M8 h8) Q := by
  simp only [cc1__tc_body_eq_skeleton]; unfold cc1__tc_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  sl_exec (disch := first | exact hc1 | exact hc2 | exact hc3)
  sl_step
  iapply Hk
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]
  · iexists _; isplitr; swap; · iexact H7
    ipureintro
    rw [View.read_writes_eq_canon _ _ _ (fun y => ⟨_, List.mem_cons_self, View.mem_set_unit_zero hz2 inb_S8x2048_S8x2048_0_0 y⟩), View.canon_cons_unit_zero hz2]
    unfold shNext
    sl_unfold_run_names
    simp only [View.readAt_eq_ld, h2.read_unread, h3.read_unread]
    rw [View.readCov_unit_zero _ hz2]
  iexists _; isplitr; swap; · iexact H8
  ipureintro
  rw [read_writes_cons_overlay]
  unfold wsNext
  sl_unfold_run_names
  simp only [View.readAt_eq_ld, h4.read_unread]
  rw [View.ld_unit_zero (S := S1x2048x1024) hz3, read_zero8]

-- the run's proof term is large: the executor's steps and the closing rewrites share one declaration's budget
set_option maxHeartbeats 2000000 in
/-- A later point below 16: `sh` gains the slabs' product, row `e` of `ws` the staged block's sums. -/
theorem run1B (d : Dev nD) (i : grid1.Coords)
    (M2 : Memref sig .tc .vmem S8x4096 .f32) (h2 : M2.IsWhole) (M3 : Memref sig .tc .vmem S4096x2048 .f32) (h3 : M3.IsWhole)
    (M4 : Memref sig .tc .vmem S1x2048x1024 .f32) (h4 : M4.IsWhole) (M5 : Memref sig .tc .vmem S1x1 .f32) (h5 : M5.IsWhole)
    (M6 : Memref sig .tc .vmem S8x2048 .f32) (h6 : M6.IsWhole) (M7 : Memref sig .tc .vmem S8x2048 .f32) (h7 : M7.IsWhole)
    (M8 : Memref sig .tc .vmem S7x2048 .f32) (h8 : M8.IsWhole)
    (hc1 : ¬ cond1 i) (hc2 : k1_cond2 i = 1#1) (hc3 : ¬ k1_cond3 i = 1#1)
    (x2 : Vec F S8x4096 .f32) (x3 : Vec F S4096x2048 .f32) (x4 : Vec F S1x2048x1024 .f32) (x5 : Vec F S1x1 .f32) (x6 : Vec F S8x2048 .f32)
    (x7 : Vec F S8x2048 .f32) (x8 : Vec F S7x2048 .f32) (Q : PUnit → sProp 𝕄) :
    iprop(owns (SparseCore.T (τ := τ) d) M2 fullShare x2 ∗ owns (SparseCore.T (τ := τ) d) M3 fullShare x3 ∗ owns (SparseCore.T (τ := τ) d) M4 fullShare x4
        ∗ owns (SparseCore.T (τ := τ) d) M5 fullShare x5 ∗ owns (SparseCore.T (τ := τ) d) M6 fullShare x6 ∗ owns (SparseCore.T (τ := τ) d) M7 fullShare x7 ∗ owns (SparseCore.T (τ := τ) d) M8 fullShare x8
        ∗ (iprop(owns (SparseCore.T (τ := τ) d) M2 fullShare x2 ∗ owns (SparseCore.T (τ := τ) d) M3 fullShare x3 ∗ owns (SparseCore.T (τ := τ) d) M4 fullShare x4
            ∗ owns (SparseCore.T (τ := τ) d) M5 fullShare (x5) ∗ owns (SparseCore.T (τ := τ) d) M6 fullShare (x6)
            ∗ owns (SparseCore.T (τ := τ) d) M7 fullShare (shNext i hc2 x2 x3 x7) ∗ owns (SparseCore.T (τ := τ) d) M8 fullShare (wsNext i x8 x4)) -∗ Q ⟨⟩))
      ⊢ wp frame (wpE (defs₀ (F := F)) 𝒱₀ (SparseCore.T (τ := τ) d) none) Set.univ (cc1__tc_body i M2 h2 M3 h3 M4 h4 M5 h5 M6 h6 M7 h7 M8 h8) Q := by
  simp only [cc1__tc_body_eq_skeleton]; unfold cc1__tc_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  sl_exec (disch := first | exact hc1 | exact hc2 | exact hc3)
  sl_step
  iapply Hk
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]
  · iexists _; isplitr; swap; · iexact H7
    ipureintro
    rw [View.read_writes_eq_canon _ _ _ (fun y => ⟨_, List.mem_cons_self, View.mem_set_unit_zero hz2 inb_S8x2048_S8x2048_0_0 y⟩), View.canon_cons_unit_zero hz2]
    unfold shNext
    sl_unfold_run_names
    simp only [View.readAt_eq_ld, h2.read_unread, h3.read_unread, h7.read_unread]
    rw [View.ld_unit_zero (S := S8x2048) hz2]
  iexists _; isplitr; swap; · iexact H8
  ipureintro
  sl_unfold_run_names
  rw [read_writes_cons_overlay]
  unfold wsNext
  simp only [View.writes_nil, View.readAt_eq_ld, h8.read_unread, h4.read_unread]
  rw [View.ld_unit_zero (S := S1x2048x1024) hz3]

-- the run's proof term is large: the executor's steps and the closing rewrites share one declaration's budget
set_option maxHeartbeats 2000000 in
/-- A point from 16 on, not the last: only `ws` changes. -/
theorem run1C (d : Dev nD) (i : grid1.Coords)
    (M2 : Memref sig .tc .vmem S8x4096 .f32) (h2 : M2.IsWhole) (M3 : Memref sig .tc .vmem S4096x2048 .f32) (h3 : M3.IsWhole)
    (M4 : Memref sig .tc .vmem S1x2048x1024 .f32) (h4 : M4.IsWhole) (M5 : Memref sig .tc .vmem S1x1 .f32) (h5 : M5.IsWhole)
    (M6 : Memref sig .tc .vmem S8x2048 .f32) (h6 : M6.IsWhole) (M7 : Memref sig .tc .vmem S8x2048 .f32) (h7 : M7.IsWhole)
    (M8 : Memref sig .tc .vmem S7x2048 .f32) (h8 : M8.IsWhole)
    (hc1 : ¬ cond1 i) (hc2 : ¬ k1_cond2 i = 1#1) (hc3 : ¬ k1_cond3 i = 1#1)
    (x2 : Vec F S8x4096 .f32) (x3 : Vec F S4096x2048 .f32) (x4 : Vec F S1x2048x1024 .f32) (x5 : Vec F S1x1 .f32) (x6 : Vec F S8x2048 .f32)
    (x7 : Vec F S8x2048 .f32) (x8 : Vec F S7x2048 .f32) (Q : PUnit → sProp 𝕄) :
    iprop(owns (SparseCore.T (τ := τ) d) M2 fullShare x2 ∗ owns (SparseCore.T (τ := τ) d) M3 fullShare x3 ∗ owns (SparseCore.T (τ := τ) d) M4 fullShare x4
        ∗ owns (SparseCore.T (τ := τ) d) M5 fullShare x5 ∗ owns (SparseCore.T (τ := τ) d) M6 fullShare x6 ∗ owns (SparseCore.T (τ := τ) d) M7 fullShare x7 ∗ owns (SparseCore.T (τ := τ) d) M8 fullShare x8
        ∗ (iprop(owns (SparseCore.T (τ := τ) d) M2 fullShare x2 ∗ owns (SparseCore.T (τ := τ) d) M3 fullShare x3 ∗ owns (SparseCore.T (τ := τ) d) M4 fullShare x4
            ∗ owns (SparseCore.T (τ := τ) d) M5 fullShare (x5) ∗ owns (SparseCore.T (τ := τ) d) M6 fullShare (x6)
            ∗ owns (SparseCore.T (τ := τ) d) M7 fullShare (x7) ∗ owns (SparseCore.T (τ := τ) d) M8 fullShare (wsNext i x8 x4)) -∗ Q ⟨⟩))
      ⊢ wp frame (wpE (defs₀ (F := F)) 𝒱₀ (SparseCore.T (τ := τ) d) none) Set.univ (cc1__tc_body i M2 h2 M3 h3 M4 h4 M5 h5 M6 h6 M7 h7 M8 h8) Q := by
  simp only [cc1__tc_body_eq_skeleton]; unfold cc1__tc_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  sl_exec (disch := first | exact hc1 | exact hc2 | exact hc3)
  sl_step
  iapply Hk
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  iexists _; isplitr; swap; · iexact H8
  ipureintro
  sl_unfold_run_names
  rw [read_writes_cons_overlay]
  unfold wsNext
  simp only [View.writes_nil, View.readAt_eq_ld, h8.read_unread, h4.read_unread]
  rw [View.ld_unit_zero (S := S1x2048x1024) hz3]

-- the run's proof term is large: the executor's steps and the closing rewrites share one declaration's budget
set_option maxHeartbeats 2000000 in
/-- The last point: `ws` changes, then `sh` is stored to the second result and the products' sum to the first. -/
theorem run1D (d : Dev nD) (i : grid1.Coords)
    (M2 : Memref sig .tc .vmem S8x4096 .f32) (h2 : M2.IsWhole) (M3 : Memref sig .tc .vmem S4096x2048 .f32) (h3 : M3.IsWhole)
    (M4 : Memref sig .tc .vmem S1x2048x1024 .f32) (h4 : M4.IsWhole) (M5 : Memref sig .tc .vmem S1x1 .f32) (h5 : M5.IsWhole)
    (M6 : Memref sig .tc .vmem S8x2048 .f32) (h6 : M6.IsWhole) (M7 : Memref sig .tc .vmem S8x2048 .f32) (h7 : M7.IsWhole)
    (M8 : Memref sig .tc .vmem S7x2048 .f32) (h8 : M8.IsWhole)
    (hc1 : ¬ cond1 i) (hc2 : ¬ k1_cond2 i = 1#1) (hc3 : k1_cond3 i = 1#1)
    (x2 : Vec F S8x4096 .f32) (x3 : Vec F S4096x2048 .f32) (x4 : Vec F S1x2048x1024 .f32) (x5 : Vec F S1x1 .f32) (x6 : Vec F S8x2048 .f32)
    (x7 : Vec F S8x2048 .f32) (x8 : Vec F S7x2048 .f32) (Q : PUnit → sProp 𝕄) :
    iprop(owns (SparseCore.T (τ := τ) d) M2 fullShare x2 ∗ owns (SparseCore.T (τ := τ) d) M3 fullShare x3 ∗ owns (SparseCore.T (τ := τ) d) M4 fullShare x4
        ∗ owns (SparseCore.T (τ := τ) d) M5 fullShare x5 ∗ owns (SparseCore.T (τ := τ) d) M6 fullShare x6 ∗ owns (SparseCore.T (τ := τ) d) M7 fullShare x7 ∗ owns (SparseCore.T (τ := τ) d) M8 fullShare x8
        ∗ (iprop(owns (SparseCore.T (τ := τ) d) M2 fullShare x2 ∗ owns (SparseCore.T (τ := τ) d) M3 fullShare x3 ∗ owns (SparseCore.T (τ := τ) d) M4 fullShare x4
            ∗ owns (SparseCore.T (τ := τ) d) M5 fullShare (partOf x7 (wsNext i x8 x4)) ∗ owns (SparseCore.T (τ := τ) d) M6 fullShare (x7)
            ∗ owns (SparseCore.T (τ := τ) d) M7 fullShare (x7) ∗ owns (SparseCore.T (τ := τ) d) M8 fullShare (wsNext i x8 x4)) -∗ Q ⟨⟩))
      ⊢ wp frame (wpE (defs₀ (F := F)) 𝒱₀ (SparseCore.T (τ := τ) d) none) Set.univ (cc1__tc_body i M2 h2 M3 h3 M4 h4 M5 h5 M6 h6 M7 h7 M8 h8) Q := by
  simp only [cc1__tc_body_eq_skeleton]; unfold cc1__tc_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  sl_exec (disch := first | exact hc1 | exact hc2 | exact hc3)
  sl_step
  iapply Hk
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]
  · iexists _; isplitr; swap; · iexact H5
    ipureintro
    rw [View.read_writes_eq_canon _ _ _ (fun y => ⟨_, List.mem_singleton_self _, View.mem_set_unit_zero hz2 inb_S1x1_S1x1_0_0 y⟩), View.canon_unit_zero hz2]
    unfold partOf wsNext
    sl_unfold_run_names
    simp only [View.readAt_eq_ld, h7.read_unread, read_writes_cons_overlay, View.writes_nil, h8.read_unread, h4.read_unread]
    rw [View.ld_unit_zero (S := S7x2048) hz2, View.ld_unit_zero (S := S1x2048x1024) hz3]
  isplitl [H6]
  · iexists _; isplitr; swap; · iexact H6
    ipureintro
    rw [View.read_writes_eq_canon _ _ _ (fun y => ⟨_, List.mem_singleton_self _, View.mem_set_unit_zero hz2 inb_S8x2048_S8x2048_0_0 y⟩), View.canon_unit_zero hz2]
    simp only [View.readAt_eq_ld, h7.read_unread]
    rw [View.ld_unit_zero (S := S8x2048) hz2]
  isplitl [H7]; · iexists _; isplitr; · ipureintro; exact h7.read_unread _
                  iexact H7
  iexists _; isplitr; swap; · iexact H8
  ipureintro
  sl_unfold_run_names
  rw [read_writes_cons_overlay]
  unfold wsNext
  simp only [View.writes_nil, View.readAt_eq_ld, h8.read_unread, h4.read_unread]
  rw [View.ld_unit_zero (S := S1x2048x1024) hz3]

end Cert.Proof.KB

end
-- ==== Proof.KB.Region0.lean ====
import proofs.«216131_g62878321214323_cont_9to1c4b_752_23_alg».proof.Proof.KB.Body0

/-
  The grid kernel's region (pipeline 0: 28 points; the route weights [8,4096] and the activations [4096,2048] staged
  whole once, a [1,2048,1024] weight block at every point, the two results written back at the last point only): the
  proof data with the two scratch arrays carried in the invariant at the values of RegionSpec, the body obligation by the
  four runs of Body0, and the region as a step between two valuations of the TensorCore's unscoped buffers.
-/

noncomputable section

namespace Cert.Proof.KB

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## The proof data -/

/-- The first point. -/
def t1_0 : Fin cfg1.N := ⟨0, by rw [show cfg1.N = 28 from N_1]; decide⟩

/-- What a fetch stages: the array's block at the point, read off the valuation. -/
def iblk0 (d : Dev nD) (V : Valuation τ sig (Elt F)) (w : Fin cfg1.W) (t : Fin cfg1.N) : ((cfg1.win w).xblock (cfg1.grid.coords t)).Idx → Elt F (cfg1.win w).elt :=
  ((cfg1.win w).blk t).view.read (Elt F) (VT d V (Pipeline.arrRef spec1 w))

/-- The route weights and the activations as staged (whole, once), and the weight block staged at each point. -/
def spS (d : Dev nD) (V : Valuation τ sig (Elt F)) : Vec F S8x4096 .f32 := iblk0 d V 0 t1_0
def hidS (d : Dev nD) (V : Valuation τ sig (Elt F)) : Vec F S4096x2048 .f32 := iblk0 d V 1 t1_0
def wbS (d : Dev nD) (V : Valuation τ sig (Elt F)) (t : Fin grid1.N) : Vec F S1x2048x1024 .f32 := iblk0 d V 2 t

/-- The two scratch arrays before point `n`. -/
def shS (d : Dev nD) (V : Valuation τ sig (Elt F)) (n : ℕ) : Vec F S8x2048 .f32 := shAt (spS d V) (hidS d V) n
def wsS (d : Dev nD) (V : Valuation τ sig (Elt F)) (n : ℕ) : Vec F S7x2048 .f32 := wsAt (wbS d V) n

/-- The finishing kernel's staging buffers: scoped buffers this pipeline neither stages nor touches. -/
def rest4 (d : Dev nD) : sProp 𝕄 :=
  iprop((∃ f : Buf (Elt F) ((d : Thread nD τ).loc cc2_stg0_0), ((d : Thread nD τ).loc cc2_stg0_0) ↦{fullShare} f)
    ∗ (∃ f : Buf (Elt F) ((d : Thread nD τ).loc cc2_stg1_0), ((d : Thread nD τ).loc cc2_stg1_0) ↦{fullShare} f)
    ∗ (∃ f : Buf (Elt F) ((d : Thread nD τ).loc cc2_stg2_0), ((d : Thread nD τ).loc cc2_stg2_0) ↦{fullShare} f)
    ∗ (∃ f : Buf (Elt F) ((d : Thread nD τ).loc cc2_stg3_0), ((d : Thread nD τ).loc cc2_stg3_0) ↦{fullShare} f))

/-- The invariant before point `t`: the two scratch arrays — at anything before the first point, at their values after —
    and the scoped buffers the body does not touch. -/
def Φ0 (d : Dev nD) (V : Valuation τ sig (Elt F)) (t : Fin (cfg1.N + 1)) : sProp 𝕄 :=
  iprop((∃ f7, ⌜t.val ≠ 0 → f7 = shS d V t.val⌝ ∗ owns (d : Thread nD τ) (Memref.whole cc1_scratch0) fullShare f7)
    ∗ (∃ f8, ⌜t.val ≠ 0 → f8 = wsS d V t.val⌝ ∗ owns (d : Thread nD τ) (Memref.whole cc1_scratch1) fullShare f8)
    ∗ rest4 (F := F) d)

/-- The proof data on device `d`: the five arrays at the valuation; after the body each operand's buffer as fetched, the
    results' at what the last point stores; the invariant the scratch arrays at their values; nothing owed. -/
def dat0 (d : Dev nD) (V : Valuation τ sig (Elt F)) : Dat τ (Elt F) (HIx 1) ℕ UU ℕ cfg1 d where
  A w := VT d V (Pipeline.arrRef spec1 w)
  after w t := match w with
    | ⟨0, _⟩ => iblk0 d V 0 t
    | ⟨1, _⟩ => iblk0 d V 1 t
    | ⟨2, _⟩ => iblk0 d V 2 t
    | ⟨3, _⟩ => partOf (shS d V 27) (wsS d V 28)
    | ⟨4, _⟩ => shS d V 27
  Φ t := Φ0 d V t
  q _ := fullShare
  owed _ := 0
  recorded _ := recB (F := F) d

theorem after0_0 (d : Dev nD) (V : Valuation τ sig (Elt F)) (t : Fin cfg1.N) : (dat0 d V).after 0 t = iblk0 d V 0 t := by dsimp only [dat0]
theorem after0_1 (d : Dev nD) (V : Valuation τ sig (Elt F)) (t : Fin cfg1.N) : (dat0 d V).after 1 t = iblk0 d V 1 t := by dsimp only [dat0]
theorem after0_2 (d : Dev nD) (V : Valuation τ sig (Elt F)) (t : Fin cfg1.N) : (dat0 d V).after 2 t = iblk0 d V 2 t := by dsimp only [dat0]
theorem after0_3 (d : Dev nD) (V : Valuation τ sig (Elt F)) (t : Fin cfg1.N) : (dat0 d V).after 3 t = partOf (shS d V 27) (wsS d V 28) := by dsimp only [dat0]
theorem after0_4 (d : Dev nD) (V : Valuation τ sig (Elt F)) (t : Fin cfg1.N) : (dat0 d V).after 4 t = shS d V 27 := by dsimp only [dat0]

/-- An operand's buffer holds the array's block at every point, fetched there or not. -/
theorem before0_0' (d : Dev nD) (V : Valuation τ sig (Elt F)) (t : Fin cfg1.N) (x) : (dat0 d V).before 0 t x = iblk0 d V 0 t :=
  ((dat0 d V).before_in_eq_fetched 0 rfl (fun _ => rfl) (fun _ _ _ => rfl) (fun t => by rw [after0_0]; unfold Dat.blockOf iblk0; rfl) t x).trans
    (by unfold Dat.fetched Dat.blockOf iblk0; rfl)
theorem before0_1' (d : Dev nD) (V : Valuation τ sig (Elt F)) (t : Fin cfg1.N) (x) : (dat0 d V).before 1 t x = iblk0 d V 1 t :=
  ((dat0 d V).before_in_eq_fetched 1 rfl (fun _ => rfl) (fun _ _ _ => rfl) (fun t => by rw [after0_1]; unfold Dat.blockOf iblk0; rfl) t x).trans
    (by unfold Dat.fetched Dat.blockOf iblk0; rfl)
theorem before0_2 (d : Dev nD) (V : Valuation τ sig (Elt F)) (t : Fin cfg1.N) (x) : (dat0 d V).before 2 t x = wbS d V t :=
  ((dat0 d V).before_in_eq_fetched 2 rfl (fun _ => rfl) (fun _ _ _ => rfl) (fun t => by rw [after0_2]; unfold Dat.blockOf iblk0; rfl) t x).trans
    (by unfold Dat.fetched Dat.blockOf wbS iblk0; rfl)

/-- The whole-array windows' block index does not move: the staged contents are the first point's at every point. -/
theorem index0_0 : ∀ t : Fin cfg1.N, (cfg1.win 0).index t = (cfg1.win 0).index t1_0 := by decide +kernel
theorem index0_1 : ∀ t : Fin cfg1.N, (cfg1.win 1).index t = (cfg1.win 1).index t1_0 := by decide +kernel

theorem before0_0 (d : Dev nD) (V : Valuation τ sig (Elt F)) (t : Fin cfg1.N) (x) : (dat0 d V).before 0 t x = spS d V := by
  rw [before0_0']
  have h := (dat0 d V).fetched_congr 0 (index0_0 t) rfl x
  unfold Dat.fetched Dat.blockOf at h
  exact h
theorem before0_1 (d : Dev nD) (V : Valuation τ sig (Elt F)) (t : Fin cfg1.N) (x) : (dat0 d V).before 1 t x = hidS d V := by
  rw [before0_1']
  have h := (dat0 d V).fetched_congr 1 (index0_1 t) rfl x
  unfold Dat.fetched Dat.blockOf at h
  exact h

/-! ## The body obligation -/

/-- The result windows are idle before the last point and written back at it. -/
theorem idle0_3 (t : Fin cfg1.N) (h : t.val ≠ 27) : cfg1.idle 3 (cfg1.grid.coords t) = true := by
  show (!(k1_cond3 (grid1.coords t) == 1#1)) = true
  rw [Bool.not_eq_true', beq_eq_false_iff_ne]; exact fun e => h ((cond3_iff t).mp e)
theorem idle0_4 (t : Fin cfg1.N) (h : t.val ≠ 27) : cfg1.idle 4 (cfg1.grid.coords t) = true := idle0_3 t h
theorem live0_3 (t : Fin cfg1.N) (h : t.val = 27) : cfg1.idle 3 (cfg1.grid.coords t) = false := by
  show (!(k1_cond3 (grid1.coords t) == 1#1)) = false
  rw [Bool.not_eq_false', beq_iff_eq]; exact (cond3_iff t).mpr h
theorem live0_4 (t : Fin cfg1.N) (h : t.val = 27) : cfg1.idle 4 (cfg1.grid.coords t) = false := live0_3 t h
theorem noflush0_3 (t : Fin cfg1.N) (h : t.val ≠ 27) : (cfg1.win 3).flush t = false :=
  Bool.eq_false_iff.mpr fun e => h (by have h1 := (flush1_3 t).mp e; have h2 : t.val < 28 := lt_of_lt_of_eq t.isLt (show cfg1.N = 28 from N_1); omega)
theorem noflush0_4 (t : Fin cfg1.N) (h : t.val ≠ 27) : (cfg1.win 4).flush t = false :=
  Bool.eq_false_iff.mpr fun e => h (by have h1 := (flush1_4 t).mp e; have h2 : t.val < 28 := lt_of_lt_of_eq t.isLt (show cfg1.N = 28 from N_1); omega)

def bodyPre0 (d : Dev nD) (V : Valuation τ sig (Elt F)) (t : Fin cfg1.N) : sProp 𝕄 :=
  iprop((dat0 d V).Φ t.castSucc ∗ (dat0 d V).owesAt none t.castSucc
    ∗ (∃ x, owns (d : Thread nD τ) (st1_0 t) fullShare ((dat0 d V).before 0 t x))
    ∗ (∃ x, owns (d : Thread nD τ) (st1_1 t) fullShare ((dat0 d V).before 1 t x))
    ∗ (∃ x, owns (d : Thread nD τ) (st1_2 t) fullShare ((dat0 d V).before 2 t x))
    ∗ (∃ x, owns (d : Thread nD τ) (st1_3 t) fullShare ((dat0 d V).before 3 t x))
    ∗ (∃ x, owns (d : Thread nD τ) (st1_4 t) fullShare ((dat0 d V).before 4 t x)))

def bodyPost0 (d : Dev nD) (V : Valuation τ sig (Elt F)) (t : Fin cfg1.N) : sProp 𝕄 :=
  iprop((dat0 d V).Φ t.succ ∗ (dat0 d V).owesAt none t.succ
    ∗ owns (d : Thread nD τ) (st1_0 t) fullShare ((dat0 d V).after 0 t)
    ∗ owns (d : Thread nD τ) (st1_1 t) fullShare ((dat0 d V).after 1 t)
    ∗ owns (d : Thread nD τ) (st1_2 t) fullShare ((dat0 d V).after 2 t)
    ∗ (dat0 d V).leavesExact 3 t ∗ (dat0 d V).leavesExact 4 t)

/-- The scratch arrays after point `t`, from their values before it, case by case. -/
theorem shS_succ_pos (d : Dev nD) (V : Valuation τ sig (Elt F)) (t : Fin cfg1.N) (h : k1_cond2 (grid1.coords t) = 1#1) :
    shS d V (t.val + 1) = shNext (grid1.coords t) h (spS d V) (hidS d V) (shS d V t.val) := shAt_succ_pos _ _ t h
theorem shS_succ_neg (d : Dev nD) (V : Valuation τ sig (Elt F)) (t : Fin cfg1.N) (h : ¬ k1_cond2 (grid1.coords t) = 1#1) :
    shS d V (t.val + 1) = shS d V t.val := shAt_succ_neg _ _ t h
theorem wsS_succ (d : Dev nD) (V : Valuation τ sig (Elt F)) (t : Fin cfg1.N) :
    wsS d V (t.val + 1) = wsNext (grid1.coords t) (wsS d V t.val) (wbS d V t) := wsAt_succ _ t

set_option maxHeartbeats 1000000 in
theorem sound_body0 (d : Dev nD) (V : Valuation τ sig (Elt F)) (t : Fin cfg1.N) :
    bodyPre0 d V t ⊢ wp frame (wpE (defs₀ (F := F)) 𝒱₀ (d : Thread nD τ) none) Set.univ (bodyAt1 t) (fun _ => bodyPost0 d V t) := by
  unfold bodyPre0 bodyPost0 bodyAt1
  simp only [before0_0, before0_1, before0_2]
  have hN : t.val < 28 := lt_of_lt_of_eq t.isLt (show cfg1.N = 28 from N_1)
  rw [show (dat0 d V).owesAt none t.succ = (dat0 d V).owesAt none t.castSucc from rfl,
    show (dat0 d V).Φ t.castSucc = Φ0 d V t.castSucc from rfl, show (dat0 d V).Φ t.succ = Φ0 d V t.succ from rfl,
    after0_0, after0_1, after0_2]
  have hi0 : iblk0 d V 0 t = spS d V := (before0_0' d V t (fun _ => Classical.arbitrary _)).symm.trans (before0_0 d V t _)
  have hi1 : iblk0 d V 1 t = hidS d V := (before0_1' d V t (fun _ => Classical.arbitrary _)).symm.trans (before0_1 d V t _)
  rw [hi0, hi1, show iblk0 d V 2 t = wbS d V t from rfl]
  unfold Φ0
  rw [show (t.succ : Fin (cfg1.N + 1)).val = t.val + 1 from rfl, show (t.castSucc : Fin (cfg1.N + 1)).val = t.val from rfl]
  by_cases h27 : t.val = 27
  · -- the last point
    have hc1 : ¬ cond1 (grid1.coords t) := fun h => by have := (cond1_iff t).mp h; omega
    have hc2 : ¬ k1_cond2 (grid1.coords t) = 1#1 := fun h => by have := (cond2_iff t).mp h; omega
    have hc3 : k1_cond3 (grid1.coords t) = 1#1 := (cond3_iff t).mpr h27
    unfold Dat.leavesExact
    rw [live0_3 t h27]
    simp only [after0_3, after0_4]
    have e7 : shS d V 27 = shS d V t.val := by rw [h27]
    have e8 : wsS d V 28 = wsNext (grid1.coords t) (wsS d V t.val) (wbS d V t) := by rw [← wsS_succ d V t, h27]
    rw [e7, e8]
    iintro ⟨⟨⟨%f7, %hf7, H7⟩, ⟨%f8, %hf8, H8⟩, Hr⟩, HO, ⟨%y0, H0⟩, ⟨%y1, H1⟩, ⟨%y2, H2⟩, ⟨%y3, H3⟩, ⟨%y4, H4⟩⟩
    obtain rfl := hf7 (by omega); obtain rfl := hf8 (by omega)
    iapply (run1D d (grid1.coords t) _ _ _ _ _ _ _ _ _ _ _ _ _ _ hc1 hc2 hc3 (spS d V) (hidS d V) (wbS d V t) _ _ (shS d V t.val) (wsS d V t.val) _)
    isplitl [H0]; · iexact H0
    isplitl [H1]; · iexact H1
    isplitl [H2]; · iexact H2
    isplitl [H3]; · iexact H3
    isplitl [H4]; · iexact H4
    isplitl [H7]; · iexact H7
    isplitl [H8]; · iexact H8
    iintro ⟨H0, H1, H2, H3, H4, H7, H8⟩
    isplitl [H7 H8 Hr]
    · isplitl [H7]
      · iexists _; isplitr; swap; · iexact H7
        ipureintro; intro _; exact (shS_succ_neg d V t hc2).symm
      isplitl [H8]
      · iexists _; isplitr; swap; · iexact H8
        ipureintro; intro _; exact (wsS_succ d V t).symm
      iexact Hr
    isplitl [HO]; · iexact HO
    isplitl [H0]; · iexact H0
    isplitl [H1]; · iexact H1
    isplitl [H2]; · iexact H2
    isplitl [H3]; · iexact H3
    iexact H4
  · rw [Dat.leavesExact_idle _ 3 t (idle0_3 t h27) (noflush0_3 t h27), Dat.leavesExact_idle _ 4 t (idle0_4 t h27) (noflush0_4 t h27)]
    have hc3 : ¬ k1_cond3 (grid1.coords t) = 1#1 := fun h => h27 ((cond3_iff t).mp h)
    iintro ⟨⟨⟨%f7, %hf7, H7⟩, ⟨%f8, %hf8, H8⟩, Hr⟩, HO, ⟨%y0, H0⟩, ⟨%y1, H1⟩, ⟨%y2, H2⟩, ⟨%y3, H3⟩, ⟨%y4, H4⟩⟩
    by_cases h0 : t.val = 0
    · -- the first point
      have hc1 : cond1 (grid1.coords t) := (cond1_iff t).mpr h0
      have hc2 : k1_cond2 (grid1.coords t) = 1#1 := (cond2_iff t).mpr (by omega)
      iapply (run1A d (grid1.coords t) _ _ _ _ _ _ _ _ _ _ _ _ _ _ hc1 hc2 hc3 (spS d V) (hidS d V) (wbS d V t) _ _ f7 f8 _)
      isplitl [H0]; · iexact H0
      isplitl [H1]; · iexact H1
      isplitl [H2]; · iexact H2
      isplitl [H3]; · iexact H3
      isplitl [H4]; · iexact H4
      isplitl [H7]; · iexact H7
      isplitl [H8]; · iexact H8
      iintro ⟨H0, H1, H2, H3, H4, H7, H8⟩
      isplitl [H7 H8 Hr]
      · isplitl [H7]
        · iexists _; isplitr; swap; · iexact H7
          ipureintro; intro _
          rw [shS_succ_pos d V t hc2, h0]; rfl
        isplitl [H8]
        · iexists _; isplitr; swap; · iexact H8
          ipureintro; intro _
          rw [wsS_succ d V t, h0]; rfl
        iexact Hr
      isplitl [HO]; · iexact HO
      isplitl [H0]; · iexact H0
      isplitl [H1]; · iexact H1
      isplitl [H2]; · iexact H2
      isplitl [H3]; · iexists _; iexact H3
      iexists _; iexact H4
    · have hc1 : ¬ cond1 (grid1.coords t) := fun h => h0 ((cond1_iff t).mp h)
      obtain rfl := hf7 h0; obtain rfl := hf8 h0
      by_cases h16 : t.val < 16
      · -- a later point below 16
        have hc2 : k1_cond2 (grid1.coords t) = 1#1 := (cond2_iff t).mpr h16
        iapply (run1B d (grid1.coords t) _ _ _ _ _ _ _ _ _ _ _ _ _ _ hc1 hc2 hc3 (spS d V) (hidS d V) (wbS d V t) _ _ (shS d V t.val) (wsS d V t.val) _)
        isplitl [H0]; · iexact H0
        isplitl [H1]; · iexact H1
        isplitl [H2]; · iexact H2
        isplitl [H3]; · iexact H3
        isplitl [H4]; · iexact H4
        isplitl [H7]; · iexact H7
        isplitl [H8]; · iexact H8
        iintro ⟨H0, H1, H2, H3, H4, H7, H8⟩
        isplitl [H7 H8 Hr]
        · isplitl [H7]
          · iexists _; isplitr; swap; · iexact H7
            ipureintro; intro _; exact (shS_succ_pos d V t hc2).symm
          isplitl [H8]
          · iexists _; isplitr; swap; · iexact H8
            ipureintro; intro _; exact (wsS_succ d V t).symm
          iexact Hr
        isplitl [HO]; · iexact HO
        isplitl [H0]; · iexact H0
        isplitl [H1]; · iexact H1
        isplitl [H2]; · iexact H2
        isplitl [H3]; · iexists _; iexact H3
        iexists _; iexact H4
      · -- a point from 16 on, not the last
        have hc2 : ¬ k1_cond2 (grid1.coords t) = 1#1 := fun h => h16 ((cond2_iff t).mp h)
        iapply (run1C d (grid1.coords t) _ _ _ _ _ _ _ _ _ _ _ _ _ _ hc1 hc2 hc3 (spS d V) (hidS d V) (wbS d V t) _ _ (shS d V t.val) (wsS d V t.val) _)
        isplitl [H0]; · iexact H0
        isplitl [H1]; · iexact H1
        isplitl [H2]; · iexact H2
        isplitl [H3]; · iexact H3
        isplitl [H4]; · iexact H4
        isplitl [H7]; · iexact H7
        isplitl [H8]; · iexact H8
        iintro ⟨H0, H1, H2, H3, H4, H7, H8⟩
        isplitl [H7 H8 Hr]
        · isplitl [H7]
          · iexists _; isplitr; swap; · iexact H7
            ipureintro; intro _; exact (shS_succ_neg d V t hc2).symm
          isplitl [H8]
          · iexists _; isplitr; swap; · iexact H8
            ipureintro; intro _; exact (wsS_succ d V t).symm
          iexact Hr
        isplitl [HO]; · iexact HO
        isplitl [H0]; · iexact H0
        isplitl [H1]; · iexact H1
        isplitl [H2]; · iexact H2
        isplitl [H3]; · iexists _; iexact H3
        iexists _; iexact H4

/-- The library's body obligation at every point. -/
theorem body0 (d : Dev nD) (V : Valuation τ sig (Elt F)) : BodyObligation (dat0 d V) (defs₀ (F := F)) 𝒱₀ (none : HIx 1) Set.univ := fun t => by
  rw [bigSep_W1, bigSep_W1]
  exact sound_body0 d V t

/-! ## The region as a step between two valuations -/

/-- The other pipeline's entry of the family: never entered by this region; its data say nothing. -/
def datIdle1 (d : Dev nD) (V : Valuation τ sig (Elt F)) : Dat τ (Elt F) (HIx 1) ℕ UU ℕ cfg2 d where
  A w := VT d V (Pipeline.arrRef spec2 w)
  after _ _ := fun _ => Classical.arbitrary _
  Φ _ := iprop(emp)
  q _ := fullShare
  owed _ := 0

/-- The proof data of both pipelines, as the region rule asks: pipeline 0's is the grid kernel's. -/
def pdats0 (V : Valuation τ sig (Elt F)) : (p : Fin 2) → (c : Dev nD) → Dat τ (Elt F) (HIx 1) ℕ UU ℕ (Pipeline.pin (pcfgs (F := F)) adm p) c
  | ⟨0, _⟩ => fun c => dat0 c V
  | ⟨1, _⟩ => fun c => datIdle1 c V

/-- The two result arrays after the region, as the pipeline library computes them (one write-back each, at the last point). -/
def res0p (d : Dev nD) (V : Valuation τ sig (Elt F)) : Vec F S1x1 .f32 := (dat0 d V).arrAt 3 cfg1.N
def res0s (d : Dev nD) (V : Valuation τ sig (Elt F)) : Vec F S8x2048 .f32 := (dat0 d V).arrAt 4 cfg1.N

/-- The valuation after the region: the two result arrays at what was written back, everything else as before. -/
def upd0 (d : Dev nD) (V : Valuation τ sig (Elt F)) : Valuation τ sig (Elt F) :=
  Function.update (Function.update V (Proc.devRef .tc main_v5_0) (res0p d V)) (Proc.devRef .tc main_v5_1) (res0s d V)

theorem tcOwesR_owesAt0 (d : Dev nD) (V : Valuation τ sig (Elt F)) (t : Fin (cfg1.N + 1)) :
    tcOwesR (F := F) d ⊢ (dat0 d V).owesAt none t := by
  unfold tcOwesR Pipeline.Dat.owesAt Pipeline.owesWithin
  iintro ⟨%W, %hW, HO⟩
  iexists W; isplitr
  · ipureintro; exact fun p hp => Or.inl (hW p hp)
  · iexact HO

theorem owesAt0_tcOwesR (d : Dev nD) (V : Valuation τ sig (Elt F)) (t : Fin (cfg1.N + 1)) :
    (dat0 d V).owesAt none t ⊢ tcOwesR (F := F) d := by
  unfold tcOwesR Pipeline.Dat.owesAt Pipeline.owesWithin
  iintro ⟨%W, %hW, HO⟩
  iexists W; isplitr
  · ipureintro
    intro p hp
    rcases hW hp with h | ⟨w, s, rfl⟩
    · exact h
    · exact Nat.zero_le _
  · iexact HO

theorem share0 (d : Dev nD) (V : Valuation τ sig (Elt F)) (w : Fin cfg1.W) : (dat0 d V).share w = fullShare :=
  (dat0 d V).share_full (fun _ => rfl) w

/-- The unscoped buffers the region does not stage are the same under both valuations: neither result array is one of them. -/
theorem unscopedRest0_upd (d : Dev nD) (V : Valuation τ sig (Elt F)) :
    (Pipeline.unscopedRest (Ix := HIx 1) (Name := ℕ) (U := UU) (Lvl := ℕ) spec1 d (VT d (upd0 d V)) : sProp 𝕄)
      = Pipeline.unscopedRest (Ix := HIx 1) (Name := ℕ) (U := UU) (Lvl := ℕ) spec1 d (VT d V) := by
  rw [unscopedRest1_eq, unscopedRest1_eq]
  unfold VT upd0
  simp only [Function.update_of_ne (StableHlo.devRef_ne_of_ne (show main_arg0 ≠ main_v5_1 by decide)),
    Function.update_of_ne (StableHlo.devRef_ne_of_ne (show main_arg1 ≠ main_v5_1 by decide)),
    Function.update_of_ne (StableHlo.devRef_ne_of_ne (show main_arg2 ≠ main_v5_1 by decide)),
    Function.update_of_ne (StableHlo.devRef_ne_of_ne (show main_v3 ≠ main_v5_1 by decide)),
    Function.update_of_ne (StableHlo.devRef_ne_of_ne (show main_v4 ≠ main_v5_1 by decide)),
    Function.update_of_ne (StableHlo.devRef_ne_of_ne (show main_v6 ≠ main_v5_1 by decide)),
    Function.update_of_ne (StableHlo.devRef_ne_of_ne (show main_v7 ≠ main_v5_1 by decide)),
    Function.update_of_ne (StableHlo.devRef_ne_of_ne (show main_v8 ≠ main_v5_1 by decide)),
    Function.update_of_ne (StableHlo.devRef_ne_of_ne (show main_v9 ≠ main_v5_1 by decide)),
    Function.update_of_ne (StableHlo.devRef_ne_of_ne (show main_arg0 ≠ main_v5_0 by decide)),
    Function.update_of_ne (StableHlo.devRef_ne_of_ne (show main_arg1 ≠ main_v5_0 by decide)),
    Function.update_of_ne (StableHlo.devRef_ne_of_ne (show main_arg2 ≠ main_v5_0 by decide)),
    Function.update_of_ne (StableHlo.devRef_ne_of_ne (show main_v3 ≠ main_v5_0 by decide)),
    Function.update_of_ne (StableHlo.devRef_ne_of_ne (show main_v4 ≠ main_v5_0 by decide)),
    Function.update_of_ne (StableHlo.devRef_ne_of_ne (show main_v6 ≠ main_v5_0 by decide)),
    Function.update_of_ne (StableHlo.devRef_ne_of_ne (show main_v7 ≠ main_v5_0 by decide)),
    Function.update_of_ne (StableHlo.devRef_ne_of_ne (show main_v8 ≠ main_v5_0 by decide)),
    Function.update_of_ne (StableHlo.devRef_ne_of_ne (show main_v9 ≠ main_v5_0 by decide))]

/-- The arrays after the region are the new valuation's: the operands unchanged, the results at what was written back. -/
theorem arrAt0_upd (d : Dev nD) (V : Valuation τ sig (Elt F)) (w : Fin cfg1.W) :
    (dat0 d V).arrAt w cfg1.N = VT d (upd0 d V) (Pipeline.arrRef spec1 w) := by
  unfold VT upd0
  match w with
  | ⟨0, _⟩ => rw [Function.update_of_ne (StableHlo.devRef_ne_of_ne (show main_v1 ≠ main_v5_1 by decide)), Function.update_of_ne (StableHlo.devRef_ne_of_ne (show main_v1 ≠ main_v5_0 by decide))]; exact (dat0 d V).arrAt_in 0 rfl _
  | ⟨1, _⟩ => rw [Function.update_of_ne (StableHlo.devRef_ne_of_ne (show main_v0 ≠ main_v5_1 by decide)), Function.update_of_ne (StableHlo.devRef_ne_of_ne (show main_v0 ≠ main_v5_0 by decide))]; exact (dat0 d V).arrAt_in 1 rfl _
  | ⟨2, _⟩ => rw [Function.update_of_ne (StableHlo.devRef_ne_of_ne (show main_v2 ≠ main_v5_1 by decide)), Function.update_of_ne (StableHlo.devRef_ne_of_ne (show main_v2 ≠ main_v5_0 by decide))]; exact (dat0 d V).arrAt_in 2 rfl _
  | ⟨3, _⟩ => rw [Function.update_of_ne (StableHlo.devRef_ne_of_ne (show main_v5_0 ≠ main_v5_1 by decide)), Function.update_self]; rfl
  | ⟨4, _⟩ => rw [Function.update_self]; rfl

/-- The scoped buffers the pipeline does not stage: the two scratch arrays and the finishing kernel's staging buffers. -/
theorem scopedRest0_split (d : Dev nD) :
    (Pipeline.scopedRest (Ix := HIx 1) (Name := ℕ) (U := UU) (Lvl := ℕ) (Val := Elt F) spec1 d : sProp 𝕄)
      = iprop((∃ f : Buf (Elt F) ((d : Thread nD τ).loc cc1_scratch0), ((d : Thread nD τ).loc cc1_scratch0) ↦{fullShare} f)
          ∗ (∃ f : Buf (Elt F) ((d : Thread nD τ).loc cc1_scratch1), ((d : Thread nD τ).loc cc1_scratch1) ↦{fullShare} f) ∗ rest4 (F := F) d) := by
  rw [scopedRest1_eq]; rfl

-- the region's fields are stated over `pin pcfgs adm 0`, which is `cfg1` only after unfolding plain definitions in types
set_option backward.isDefEq.respectTransparency.types false in
/-- THE REGION: entered from the TensorCore's unscoped buffers at a valuation `V` and what it owes; the five arrays go
    into the pipeline, the other unscoped buffers bypass it, the scoped buffers it does not stage are the invariant; left
    with the buffers at `upd0 V`. -/
def reg0 (V : Valuation τ sig (Elt F)) :
    Pipeline.RegionSeg (pcfgs (F := F)) adm (pdats0 V) (none : HIx 1) defs₀ 𝒱₀ (K (F := F)).L (K (F := F)).lev 0 where
  win := winFacts1.to₀
  block_pos := block_pos1
  stage_whole := stage_whole1
  K := PEmpty
  osem := fun k => k.elim
  ho := Pipeline.OwnSemFacts.none _
  hbody c := (body0 c V).loose
  hwaits := Pipeline.hwaits_of_owed_zero _ _ _ _ _ _ 0 fun _ _ => rfl
  pre c := iprop(StableHlo.held (SparseCore.T (τ := τ) c) (Pipeline.ucRefs τ sig) V ∗ tcOwesR (F := F) c)
  post c := iprop(StableHlo.held (SparseCore.T (τ := τ) c) (Pipeline.ucRefs τ sig) (upd0 c V) ∗ tcOwesR (F := F) c)
  X _ := iprop(emp)
  Y _ := iprop(emp)
  Z c := Pipeline.unscopedRest (Ix := HIx 1) (Name := ℕ) (U := UU) (Lvl := ℕ) spec1 c (VT c V)
  hentry c := by
    rw [← Pipeline.unscopedBufs_held c V]
    have hsplit := Pipeline.arrays_of_unscopedBufs (pcfgs (F := F)) adm (pdats0 V) (p := 0) winFacts1 arr_whole1 c (share0 c V) (VT c V) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (tcOwesR_owesAt0 c V 0); iexact HO
    isplitr; · iempintro
    iexact Hrest
  hin c := by
    rw [show (pdats0 V 0 c).Φ 0 = Φ0 c V 0 from rfl, show (Pipeline.scopedRest (Ix := HIx 1) (Name := ℕ) (U := UU) (Lvl := ℕ) (Val := Elt F) (Pipeline.pin (pcfgs (F := F)) adm 0).spec c : sProp 𝕄) = _ from scopedRest0_split (F := F) c]
    unfold Φ0
    iintro ⟨-, -, ⟨%f7, H7⟩, ⟨%f8, H8⟩, Hr⟩
    isplitl [H7]
    · iexists f7; isplitr; · ipureintro; exact fun h => absurd rfl h
      rw [owns_whole]; iexact H7
    isplitl [H8]
    · iexists f8; isplitr; · ipureintro; exact fun h => absurd rfl h
      rw [owns_whole]; iexact H8
    iexact Hr
  hout c := by
    rw [show (pdats0 V 0 c).Φ (Fin.last (Pipeline.pin (pcfgs (F := F)) adm 0).N) = Φ0 c V (Fin.last cfg1.N) from rfl, show (Pipeline.scopedRest (Ix := HIx 1) (Name := ℕ) (U := UU) (Lvl := ℕ) (Val := Elt F) (Pipeline.pin (pcfgs (F := F)) adm 0).spec c : sProp 𝕄) = _ from scopedRest0_split (F := F) c]
    unfold Φ0
    simp only [owns_whole]
    iintro ⟨⟨%f7, -, H7⟩, ⟨%f8, -, H8⟩, Hr⟩
    isplitr; · iempintro
    isplitr; · unfold Pipeline.ownSems0; rw [show (Finset.univ : Finset PEmpty) = ∅ from rfl, BI.bigSep_empty]; iempintro
    isplitl [H7]; · iexists f7; iexact H7
    isplitl [H8]; · iexists f8; iexact H8
    iexact Hr
  hexit c := by
    have harr : iprop((pdats0 V 0 c).arrays ((pdats0 V 0 c).arrAt · (Pipeline.pin (pcfgs (F := F)) adm 0).N)
          ∗ Pipeline.unscopedRest (Ix := HIx 1) (Name := ℕ) (U := UU) (Lvl := ℕ) spec1 c (VT c V))
        ⊢ (StableHlo.held (SparseCore.T (τ := τ) c) (Pipeline.ucRefs τ sig) (upd0 c V) : sProp 𝕄) := by
      rw [← Pipeline.unscopedBufs_held c (upd0 c V),
        Pipeline.unscopedBufs_split (Pipeline.pin (pcfgs (F := F)) adm) 0 winFacts1.arr_unscoped winFacts1.arr_inj c,
        Pipeline.arrays_eq (Pipeline.pin (pcfgs (F := F)) adm) (pdats0 V) 0 c arr_whole1 (share0 c V)]
      exact BI.sep_mono (Entails.of_eq (bigSep_congr fun w _ => by
        show (_ ↦{fullShare} ((dat0 c V).arrAt w cfg1.N)) = _
        rw [arrAt0_upd c V w]; rfl))
        (Entails.of_eq (unscopedRest0_upd c V).symm)
    iintro ⟨Ha, HO, -, HZ⟩
    imodintro
    isplitr [HO]
    · iapply harr; isplitl [Ha] <;> iassumption
    · iapply (owesAt0_tcOwesR c V (Fin.last _)); iexact HO

/-! ## The step, as the SparseCore program's TensorCore meets it -/

set_option backward.isDefEq.respectTransparency.types false in
/-- The grid kernel's call in @main: from the region boundary, the unscoped buffers at `V`, nothing owed and the
    pipeline's staging cells' launch ghost state, to the boundary and the buffers at `upd0 d V`. -/
theorem region0_step (wc : (d : Dev nD) → Buf (Elt F) (wLoc d)) (out : (d : Dev nD) → Buf (Elt F) (oLoc d))
    (κ : GSem nD τ sig → ℕ) (d : Dev nD) (V : Valuation τ sig (Elt F)) (Φ : PUnit → sProp 𝕄) :
    iprop((K (F := F)).ctx EH (P wc out) κ ∗ boundary (SparseCore.T (τ := τ) d) ∗ StableHlo.held (SparseCore.T (τ := τ) d) (Pipeline.ucRefs τ sig) V ∗ tcOwesR (F := F) d
        ∗ Pipeline.cellsGhost cfgs (EP (F := F)) 0 d ∗ Pipeline.toksInit cfgs (EP (F := F)) 0 d
        ∗ (iprop(boundary (SparseCore.T (τ := τ) d) ∗ StableHlo.held (SparseCore.T (τ := τ) d) (Pipeline.ucRefs τ sig) (upd0 d V) ∗ tcOwesR (F := F) d) -∗ Φ ⟨⟩))
      ⊢ wp frame (wpE ((K (F := F)).defs (D (F := F))) 𝒱 (SparseCore.T (τ := τ) d) none) Set.univ
          (Prog.lift (.customCall (SparseCore.inner (Pipeline.entry 0)) ())) Φ := by
  iintro ⟨Hctx, Hb, Hh, HO, Hg, Ht, Hk⟩
  ihave Hlev := (SparseCore.Cfg.ctx_levAts κ) $$ Hctx
  iapply ((K (F := F)).wp_liftProg (D (F := F)) 𝒱 (SparseCore.T (τ := τ) d) Set.univ none (Prog.lift (.customCall (Pipeline.entry 0) ())) Φ)
  have key := Pipeline.RegionSeg.wp (pcfgs (F := F)) adm (pdats0 V) (none : HIx 1) cellOf_inj (EP (F := F)) defs₀ 𝒱₀ (K (F := F)).L (K (F := F)).lev
    (reg0 V) d none (fun _ h => nomatch h) (fun _ => .ret ⟨⟩) Φ
  rw [show (reg0 V).post d = iprop(StableHlo.held (SparseCore.T (τ := τ) d) (Pipeline.ucRefs τ sig) (upd0 d V) ∗ tcOwesR (F := F) d) from rfl,
    show (reg0 V).pre d = iprop(StableHlo.held (SparseCore.T (τ := τ) d) (Pipeline.ucRefs τ sig) V ∗ tcOwesR (F := F) d) from rfl] at key
  iapply key
  isplitl [Hk]
  · iintro ⟨Hb, Hh, HO⟩
    rw [wp_ret]
    imodintro
    iapply Hk
    isplitl [Hb]; · iexact Hb
    isplitl [Hh]; · iexact Hh
    iexact HO
  isplitl [Hb]; · iexact Hb
  isplitl [Hh HO]
  · isplitl [Hh]; · iexact Hh
    iexact HO
  isplitl [Hlev]; · iexact Hlev
  isplitl [Hg]; · iexact Hg
  iexact Ht

end Cert.Proof.KB

end
-- ==== Proof.KB.Region1.lean ====
import proofs.«216131_g62878321214323_cont_9to1c4b_752_23_alg».proof.Proof.KB.RegionSpec
import Idealize.ShloMosaic.Lib.Tactic

/-
  The finishing kernel's region (pipeline 1: one point, four whole-array windows — the partial sum [1,1], the first
  row of the token sums as a column [2048,1], the lane sums [2048,16], and the result [1,1]): the body's run, the proof
  data, and the region as a step of the TensorCore's program between two valuations of its unscoped buffers.
-/

noncomputable section

namespace Cert.Proof.KB

open Cert.Kernel Cert.Kernel.Gen

open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## The body, once, on any whole staging memrefs -/

/-- From the four staging memrefs held whole — the three operands at `x0`, `x1`, `x2`, the result at anything — the body
    runs to its return with the operands as they were and the result at `finV x0 x1 x2`. -/
theorem run2 (d : Dev nD) (M0 : Memref sig .tc .vmem S1x1 .f32) (h0 : M0.IsWhole) (M1 : Memref sig .tc .vmem S2048x1 .f32) (h1 : M1.IsWhole)
    (M2 : Memref sig .tc .vmem S2048x16 .f32) (h2 : M2.IsWhole) (M3 : Memref sig .tc .vmem S1x1 .f32) (h3 : M3.IsWhole)
    (x0 : Vec F S1x1 .f32) (x1 : Vec F S2048x1 .f32) (x2 : Vec F S2048x16 .f32) (x3 : Vec F S1x1 .f32) (Q : PUnit → sProp 𝕄) :
    iprop(owns (SparseCore.T (τ := τ) d) M0 fullShare x0 ∗ owns (SparseCore.T (τ := τ) d) M1 fullShare x1 ∗ owns (SparseCore.T (τ := τ) d) M2 fullShare x2 ∗ owns (SparseCore.T (τ := τ) d) M3 fullShare x3
        ∗ (iprop(owns (SparseCore.T (τ := τ) d) M0 fullShare x0 ∗ owns (SparseCore.T (τ := τ) d) M1 fullShare x1 ∗ owns (SparseCore.T (τ := τ) d) M2 fullShare x2 ∗ owns (SparseCore.T (τ := τ) d) M3 fullShare (finV x0 x1 x2)) -∗ Q ⟨⟩))
      ⊢ wp frame (wpE (defs₀ (F := F)) 𝒱₀ (SparseCore.T (τ := τ) d) none) Set.univ (cc2__fin_body M0 h0 M1 h1 M2 h2 M3 h3) Q := by
  simp only [cc2__fin_body_eq_skeleton]; unfold cc2__fin_body_skel
  unfold owns
  iintro ⟨⟨%f0, %hf0, H0⟩, ⟨%f1, %hf1, H1⟩, ⟨%f2, %hf2, H2⟩, ⟨%f3, %hf3, H3⟩, Hk⟩
  obtain rfl := h0.eq_unread hf0; obtain rfl := h1.eq_unread hf1; obtain rfl := h2.eq_unread hf2; obtain rfl := h3.eq_unread hf3
  sl_exec
  sl_step
  iapply Hk
  isplitl [H0]; · iexists _; isplitr; · ipureintro; exact h0.read_unread _
                  iexact H0
  isplitl [H1]; · iexists _; isplitr; · ipureintro; exact h1.read_unread _
                  iexact H1
  isplitl [H2]; · iexists _; isplitr; · ipureintro; exact h2.read_unread _
                  iexact H2
  iexists _; isplitr; swap; · iexact H3
  ipureintro
  rw [View.read_writes_eq_canon _ _ _ (fun y => ⟨_, List.mem_singleton_self _, View.mem_set_unit_zero hz2 inb_S1x1_S1x1_0_0 y⟩), View.canon_unit_zero hz2]
  unfold finV
  simp only [View.readAt_eq_ld, h0.read_unread, h1.read_unread, h2.read_unread]
  rw [View.ld_unit_zero (S := S2048x16) hz2, View.ld_unit_zero (S := S2048x1) hz2, View.ld_unit_zero (S := S1x1) hz2]

/-! ## The proof data -/

/-- What a fetch stages: the array's block at the point, read off the valuation. -/
def iblk1 (d : Dev nD) (V : Valuation τ sig (Elt F)) (w : Fin cfg2.W) (t : Fin cfg2.N) : ((cfg2.win w).xblock (cfg2.grid.coords t)).Idx → Elt F (cfg2.win w).elt :=
  ((cfg2.win w).blk t).view.read (Elt F) (VT d V (Pipeline.arrRef spec2 w))

/-- The proof data on device `d`: the four arrays at the valuation; after the body each operand's buffer as fetched and
    the result's at the kernel's value of the three; the invariant the scoped buffers the pipeline does not stage; nothing
    owed; the recorded pairs those of level at most 8. -/
def dat1 (d : Dev nD) (V : Valuation τ sig (Elt F)) : Dat τ (Elt F) (HIx 1) ℕ UU ℕ cfg2 d where
  A w := VT d V (Pipeline.arrRef spec2 w)
  after w t := match w with
    | ⟨0, _⟩ => iblk1 d V 0 t
    | ⟨1, _⟩ => iblk1 d V 1 t
    | ⟨2, _⟩ => iblk1 d V 2 t
    | ⟨3, _⟩ => finV (iblk1 d V 0 t) (iblk1 d V 1 t) (iblk1 d V 2 t)
  Φ _ := Pipeline.scopedRest (Ix := HIx 1) (Name := ℕ) (U := UU) (Lvl := ℕ) (Val := Elt F) spec2 d
  q _ := fullShare
  owed _ := 0
  recorded _ := recB (F := F) d

theorem after1_0 (d : Dev nD) (V : Valuation τ sig (Elt F)) (t : Fin cfg2.N) : (dat1 d V).after 0 t = iblk1 d V 0 t := by dsimp only [dat1]
theorem after1_1 (d : Dev nD) (V : Valuation τ sig (Elt F)) (t : Fin cfg2.N) : (dat1 d V).after 1 t = iblk1 d V 1 t := by dsimp only [dat1]
theorem after1_2 (d : Dev nD) (V : Valuation τ sig (Elt F)) (t : Fin cfg2.N) : (dat1 d V).after 2 t = iblk1 d V 2 t := by dsimp only [dat1]
theorem after1_3 (d : Dev nD) (V : Valuation τ sig (Elt F)) (t : Fin cfg2.N) :
    (dat1 d V).after 3 t = finV (iblk1 d V 0 t) (iblk1 d V 1 t) (iblk1 d V 2 t) := by dsimp only [dat1]

/-- Each operand is fetched at the one point: its buffer holds the array's block when the body runs. -/
theorem before1_0 (d : Dev nD) (V : Valuation τ sig (Elt F)) (t : Fin cfg2.N) (x) : (dat1 d V).before 0 t x = iblk1 d V 0 t := by
  unfold Dat.before; rw [if_pos (fetch2_0 t)]; unfold Dat.fetched Dat.blockOf iblk1; rfl
theorem before1_1 (d : Dev nD) (V : Valuation τ sig (Elt F)) (t : Fin cfg2.N) (x) : (dat1 d V).before 1 t x = iblk1 d V 1 t := by
  unfold Dat.before; rw [if_pos (fetch2_1 t)]; unfold Dat.fetched Dat.blockOf iblk1; rfl
theorem before1_2 (d : Dev nD) (V : Valuation τ sig (Elt F)) (t : Fin cfg2.N) (x) : (dat1 d V).before 2 t x = iblk1 d V 2 t := by
  unfold Dat.before; rw [if_pos (fetch2_2 t)]; unfold Dat.fetched Dat.blockOf iblk1; rfl

/-! ## The body obligation -/

def bodyPre1 (d : Dev nD) (V : Valuation τ sig (Elt F)) (t : Fin cfg2.N) : sProp 𝕄 :=
  iprop((dat1 d V).Φ t.castSucc ∗ (dat1 d V).owesAt none t.castSucc
    ∗ (∃ x, owns (d : Thread nD τ) (st2_0 t) fullShare ((dat1 d V).before 0 t x))
    ∗ (∃ x, owns (d : Thread nD τ) (st2_1 t) fullShare ((dat1 d V).before 1 t x))
    ∗ (∃ x, owns (d : Thread nD τ) (st2_2 t) fullShare ((dat1 d V).before 2 t x))
    ∗ (∃ x, owns (d : Thread nD τ) (st2_3 t) fullShare ((dat1 d V).before 3 t x)))

def bodyPost1 (d : Dev nD) (V : Valuation τ sig (Elt F)) (t : Fin cfg2.N) : sProp 𝕄 :=
  iprop((dat1 d V).Φ t.succ ∗ (dat1 d V).owesAt none t.succ
    ∗ owns (d : Thread nD τ) (st2_0 t) fullShare ((dat1 d V).after 0 t)
    ∗ owns (d : Thread nD τ) (st2_1 t) fullShare ((dat1 d V).after 1 t)
    ∗ owns (d : Thread nD τ) (st2_2 t) fullShare ((dat1 d V).after 2 t)
    ∗ owns (d : Thread nD τ) (st2_3 t) fullShare ((dat1 d V).after 3 t))

theorem sound_body1 (d : Dev nD) (V : Valuation τ sig (Elt F)) (t : Fin cfg2.N) :
    bodyPre1 d V t ⊢ wp frame (wpE (defs₀ (F := F)) 𝒱₀ (d : Thread nD τ) none) Set.univ (bodyAt2 t) (fun _ => bodyPost1 d V t) := by
  unfold bodyPre1 bodyPost1 bodyAt2
  simp only [before1_0, before1_1, before1_2]
  rw [show (dat1 d V).Φ t.succ = (dat1 d V).Φ t.castSucc from rfl,
    show (dat1 d V).owesAt none t.succ = (dat1 d V).owesAt none t.castSucc from rfl, after1_0, after1_1, after1_2, after1_3]
  iintro ⟨HΦ, HO, ⟨%x0, H0⟩, ⟨%x1, H1⟩, ⟨%x2, H2⟩, ⟨%x3, H3⟩⟩
  iapply (run2 d _ _ _ _ _ _ _ _ (iblk1 d V 0 t) (iblk1 d V 1 t) (iblk1 d V 2 t) _ _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexact H0
  isplitl [H1]; · iexact H1
  isplitl [H2]; · iexact H2
  iexact H3

/-- The library's body obligation at the one point. -/
theorem body1 (d : Dev nD) (V : Valuation τ sig (Elt F)) : BodyObligation (dat1 d V) (defs₀ (F := F)) 𝒱₀ (none : HIx 1) Set.univ := fun t => by
  rw [bigSep_W2, bigSep_W2]
  exact sound_body1 d V t

/-! ## The region as a step between two valuations -/

/-- The other pipeline's entry of the family: never entered by this region; its data say nothing. -/
def datIdle0 (d : Dev nD) (V : Valuation τ sig (Elt F)) : Dat τ (Elt F) (HIx 1) ℕ UU ℕ cfg1 d where
  A w := VT d V (Pipeline.arrRef spec1 w)
  after _ _ := fun _ => Classical.arbitrary _
  Φ _ := iprop(emp)
  q _ := fullShare
  owed _ := 0

/-- The proof data of both pipelines, as the region rule asks: pipeline 1's is the finishing kernel's. -/
def pdats1 (V : Valuation τ sig (Elt F)) : (p : Fin 2) → (c : Dev nD) → Dat τ (Elt F) (HIx 1) ℕ UU ℕ (Pipeline.pin (pcfgs (F := F)) adm p) c
  | ⟨0, _⟩ => fun c => datIdle0 c V
  | ⟨1, _⟩ => fun c => dat1 c V

/-- The result array after the region, as the pipeline library computes it (the one write-back). -/
def res1 (d : Dev nD) (V : Valuation τ sig (Elt F)) : Vec F S1x1 .f32 := (dat1 d V).arrAt 3 cfg2.N

/-- The valuation after the region: the result array at what the pipeline wrote back, everything else as before. -/
def upd1 (d : Dev nD) (V : Valuation τ sig (Elt F)) : Valuation τ sig (Elt F) :=
  Function.update V (Proc.devRef .tc main_v8) (res1 d V)

theorem tcOwesR_owesAt (d : Dev nD) (V : Valuation τ sig (Elt F)) (t : Fin (cfg2.N + 1)) :
    tcOwesR (F := F) d ⊢ (dat1 d V).owesAt none t := by
  unfold tcOwesR Pipeline.Dat.owesAt Pipeline.owesWithin
  iintro ⟨%W, %hW, HO⟩
  iexists W; isplitr
  · ipureintro; exact fun p hp => Or.inl (hW p hp)
  · iexact HO

theorem owesAt_tcOwesR (d : Dev nD) (V : Valuation τ sig (Elt F)) (t : Fin (cfg2.N + 1)) :
    (dat1 d V).owesAt none t ⊢ tcOwesR (F := F) d := by
  unfold tcOwesR Pipeline.Dat.owesAt Pipeline.owesWithin
  iintro ⟨%W, %hW, HO⟩
  iexists W; isplitr
  · ipureintro
    intro p hp
    rcases hW hp with h | ⟨w, s, rfl⟩
    · exact h
    · exact Nat.zero_le _
  · iexact HO

theorem share1 (d : Dev nD) (V : Valuation τ sig (Elt F)) (w : Fin cfg2.W) : (dat1 d V).share w = fullShare :=
  (dat1 d V).share_full (fun _ => rfl) w

/-- The unscoped buffers the region does not stage are the same under both valuations: the result array is none of them. -/
theorem unscopedRest1_upd (d : Dev nD) (V : Valuation τ sig (Elt F)) :
    (Pipeline.unscopedRest (Ix := HIx 1) (Name := ℕ) (U := UU) (Lvl := ℕ) spec2 d (VT d (upd1 d V)) : sProp 𝕄)
      = Pipeline.unscopedRest (Ix := HIx 1) (Name := ℕ) (U := UU) (Lvl := ℕ) spec2 d (VT d V) := by
  rw [unscopedRest2_eq, unscopedRest2_eq]
  unfold VT upd1
  simp only [Function.update_of_ne (StableHlo.devRef_ne_of_ne (show main_arg0 ≠ main_v8 by decide)),
    Function.update_of_ne (StableHlo.devRef_ne_of_ne (show main_arg1 ≠ main_v8 by decide)),
    Function.update_of_ne (StableHlo.devRef_ne_of_ne (show main_arg2 ≠ main_v8 by decide)),
    Function.update_of_ne (StableHlo.devRef_ne_of_ne (show main_v0 ≠ main_v8 by decide)),
    Function.update_of_ne (StableHlo.devRef_ne_of_ne (show main_v1 ≠ main_v8 by decide)),
    Function.update_of_ne (StableHlo.devRef_ne_of_ne (show main_v2 ≠ main_v8 by decide)),
    Function.update_of_ne (StableHlo.devRef_ne_of_ne (show main_v3 ≠ main_v8 by decide)),
    Function.update_of_ne (StableHlo.devRef_ne_of_ne (show main_v5_1 ≠ main_v8 by decide)),
    Function.update_of_ne (StableHlo.devRef_ne_of_ne (show main_v6 ≠ main_v8 by decide)),
    Function.update_of_ne (StableHlo.devRef_ne_of_ne (show main_v9 ≠ main_v8 by decide))]

/-- The arrays after the region are the new valuation's: the operands unchanged, the result at what was written back. -/
theorem arrAt1_upd (d : Dev nD) (V : Valuation τ sig (Elt F)) (w : Fin cfg2.W) :
    (dat1 d V).arrAt w cfg2.N = VT d (upd1 d V) (Pipeline.arrRef spec2 w) := by
  unfold VT upd1
  match w with
  | ⟨0, _⟩ => rw [Function.update_of_ne (StableHlo.devRef_ne_of_ne (show main_v5_0 ≠ main_v8 by decide))]; exact (dat1 d V).arrAt_in 0 rfl _
  | ⟨1, _⟩ => rw [Function.update_of_ne (StableHlo.devRef_ne_of_ne (show main_v7 ≠ main_v8 by decide))]; exact (dat1 d V).arrAt_in 1 rfl _
  | ⟨2, _⟩ => rw [Function.update_of_ne (StableHlo.devRef_ne_of_ne (show main_v4 ≠ main_v8 by decide))]; exact (dat1 d V).arrAt_in 2 rfl _
  | ⟨3, _⟩ => rw [Function.update_self]; rfl

-- the region's fields are stated over `pin pcfgs adm 1`, which is `cfg2` only after unfolding plain definitions in types
set_option backward.isDefEq.respectTransparency.types false in
/-- THE REGION: entered from the TensorCore's unscoped buffers at a valuation `V` and what it owes; the four arrays go
    into the pipeline, the other unscoped buffers bypass it, the scoped buffers it does not stage are the invariant; left
    with the buffers at `upd1 V`. -/
def reg1 (V : Valuation τ sig (Elt F)) :
    Pipeline.RegionSeg (pcfgs (F := F)) adm (pdats1 V) (none : HIx 1) defs₀ 𝒱₀ (K (F := F)).L (K (F := F)).lev 1 where
  win := winFacts2.to₀
  block_pos := block_pos2
  stage_whole := stage_whole2
  K := PEmpty
  osem := fun k => k.elim
  ho := Pipeline.OwnSemFacts.none _
  hbody c := (body1 c V).loose
  hwaits := Pipeline.hwaits_of_owed_zero _ _ _ _ _ _ 1 fun _ _ => rfl
  pre c := iprop(StableHlo.held (SparseCore.T (τ := τ) c) (Pipeline.ucRefs τ sig) V ∗ tcOwesR (F := F) c)
  post c := iprop(StableHlo.held (SparseCore.T (τ := τ) c) (Pipeline.ucRefs τ sig) (upd1 c V) ∗ tcOwesR (F := F) c)
  X _ := iprop(emp)
  Y _ := iprop(emp)
  Z c := Pipeline.unscopedRest (Ix := HIx 1) (Name := ℕ) (U := UU) (Lvl := ℕ) spec2 c (VT c V)
  hentry c := by
    rw [← Pipeline.unscopedBufs_held c V]
    have hsplit := Pipeline.arrays_of_unscopedBufs (pcfgs (F := F)) adm (pdats1 V) (p := 1) winFacts2 arr_whole2 c (share1 c V) (VT c V) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (tcOwesR_owesAt c V 0); iexact HO
    isplitr; · iempintro
    iexact Hrest
  hin c := by
    rw [show (pdats1 V 1 c).Φ 0 = Pipeline.scopedRest (Ix := HIx 1) (Name := ℕ) (U := UU) (Lvl := ℕ) (Val := Elt F) spec2 c from rfl]
    iintro ⟨-, -, Hr⟩; iexact Hr
  hout c := by
    rw [show (pdats1 V 1 c).Φ (Fin.last (Pipeline.pin (pcfgs (F := F)) adm 1).N) = Pipeline.scopedRest (Ix := HIx 1) (Name := ℕ) (U := UU) (Lvl := ℕ) (Val := Elt F) spec2 c from rfl]
    iintro Hr
    isplitr; · iempintro
    isplitr; · unfold Pipeline.ownSems0; rw [show (Finset.univ : Finset PEmpty) = ∅ from rfl, BI.bigSep_empty]; iempintro
    iexact Hr
  hexit c := by
    have harr : iprop((pdats1 V 1 c).arrays ((pdats1 V 1 c).arrAt · (Pipeline.pin (pcfgs (F := F)) adm 1).N)
          ∗ Pipeline.unscopedRest (Ix := HIx 1) (Name := ℕ) (U := UU) (Lvl := ℕ) spec2 c (VT c V))
        ⊢ (StableHlo.held (SparseCore.T (τ := τ) c) (Pipeline.ucRefs τ sig) (upd1 c V) : sProp 𝕄) := by
      rw [← Pipeline.unscopedBufs_held c (upd1 c V),
        Pipeline.unscopedBufs_split (Pipeline.pin (pcfgs (F := F)) adm) 1 winFacts2.arr_unscoped winFacts2.arr_inj c,
        Pipeline.arrays_eq (Pipeline.pin (pcfgs (F := F)) adm) (pdats1 V) 1 c arr_whole2 (share1 c V)]
      exact BI.sep_mono (Entails.of_eq (bigSep_congr fun w _ => by
        show (_ ↦{fullShare} ((dat1 c V).arrAt w cfg2.N)) = _
        rw [arrAt1_upd c V w]; rfl))
        (Entails.of_eq (unscopedRest1_upd c V).symm)
    iintro ⟨Ha, HO, -, HZ⟩
    imodintro
    isplitr [HO]
    · iapply harr; isplitl [Ha] <;> iassumption
    · iapply (owesAt_tcOwesR c V (Fin.last _)); iexact HO

/-! ## The step, as the SparseCore program's TensorCore meets it -/

set_option backward.isDefEq.respectTransparency.types false in
/-- The finishing kernel's call in @main: from the region boundary, the unscoped buffers at `V`, nothing owed and the
    pipeline's staging cells' launch ghost state, to the boundary and the buffers at `upd1 d V`. -/
theorem region1_step (wc : (d : Dev nD) → Buf (Elt F) (wLoc d)) (out : (d : Dev nD) → Buf (Elt F) (oLoc d))
    (κ : GSem nD τ sig → ℕ) (d : Dev nD) (V : Valuation τ sig (Elt F)) (Φ : PUnit → sProp 𝕄) :
    iprop((K (F := F)).ctx EH (P wc out) κ ∗ boundary (SparseCore.T (τ := τ) d) ∗ StableHlo.held (SparseCore.T (τ := τ) d) (Pipeline.ucRefs τ sig) V ∗ tcOwesR (F := F) d
        ∗ Pipeline.cellsGhost cfgs (EP (F := F)) 1 d ∗ Pipeline.toksInit cfgs (EP (F := F)) 1 d
        ∗ (iprop(boundary (SparseCore.T (τ := τ) d) ∗ StableHlo.held (SparseCore.T (τ := τ) d) (Pipeline.ucRefs τ sig) (upd1 d V) ∗ tcOwesR (F := F) d) -∗ Φ ⟨⟩))
      ⊢ wp frame (wpE ((K (F := F)).defs (D (F := F))) 𝒱 (SparseCore.T (τ := τ) d) none) Set.univ
          (Prog.lift (.customCall (SparseCore.inner (Pipeline.entry 1)) ())) Φ := by
  iintro ⟨Hctx, Hb, Hh, HO, Hg, Ht, Hk⟩
  ihave Hlev := (SparseCore.Cfg.ctx_levAts κ) $$ Hctx
  iapply ((K (F := F)).wp_liftProg (D (F := F)) 𝒱 (SparseCore.T (τ := τ) d) Set.univ none (Prog.lift (.customCall (Pipeline.entry 1) ())) Φ)
  have key := Pipeline.RegionSeg.wp (pcfgs (F := F)) adm (pdats1 V) (none : HIx 1) cellOf_inj (EP (F := F)) defs₀ 𝒱₀ (K (F := F)).L (K (F := F)).lev
    (reg1 V) d none (fun _ h => nomatch h) (fun _ => .ret ⟨⟩) Φ
  rw [show (reg1 V).post d = iprop(StableHlo.held (SparseCore.T (τ := τ) d) (Pipeline.ucRefs τ sig) (upd1 d V) ∗ tcOwesR (F := F) d) from rfl,
    show (reg1 V).pre d = iprop(StableHlo.held (SparseCore.T (τ := τ) d) (Pipeline.ucRefs τ sig) V ∗ tcOwesR (F := F) d) from rfl] at key
  iapply key
  isplitl [Hk]
  · iintro ⟨Hb, Hh, HO⟩
    rw [wp_ret]
    imodintro
    iapply Hk
    isplitl [Hb]; · iexact Hb
    isplitl [Hh]; · iexact Hh
    iexact HO
  isplitl [Hb]; · iexact Hb
  isplitl [Hh HO]
  · isplitl [Hh]; · iexact Hh
    iexact HO
  isplitl [Hlev]; · iexact Hlev
  isplitl [Hg]; · iexact Hg
  iexact Ht

end Cert.Proof.KB

end
-- ==== Proof.KB.Steps.lean ====
/-
  The two TensorCore regions as steps of @main, in the form @main's proof applies them, and the fact that they write
  only their result arrays.
-/
import proofs.«216131_g62878321214323_cont_9to1c4b_752_23_alg».proof.Proof.KB.Final
import proofs.«216131_g62878321214323_cont_9to1c4b_752_23_alg».proof.Proof.KB.Region0
import proofs.«216131_g62878321214323_cont_9to1c4b_752_23_alg».proof.Proof.KB.Region1

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.StableHlo (held)
open Idealize.ShloMosaic.Pipeline (ucRefs)

variable [FloatOps F]
variable (m : (ℓ : Loc nD τ sig) → Buf (Elt F) ℓ) (out : (d : Dev nD) → Buf (Elt F) (oLoc d))

/-- The grid kernel's region. -/
theorem step0 : RegionStep (F := F) m out 0 upd0 :=
  fun κ d W₀ Φ => region0_step (wcOf m) out κ d W₀ Φ

/-- The finishing kernel's region. -/
theorem step1 : RegionStep (F := F) m out 1 upd1 :=
  fun κ d W₀ Φ => region1_step (wcOf m) out κ d W₀ Φ

/-- Each region's valuation update touches its result arrays only. -/
theorem writesOnly : WritesOnly (F := F) upd0 upd1 :=
  ⟨fun d W b h0 h1 => by unfold upd0; rw [Function.update_of_ne h1, Function.update_of_ne h0],
    fun d W b h => by unfold upd1; rw [Function.update_of_ne h]⟩

end Cert.Proof.KB

end
-- ==== Proof.KB.TileSpec.lean ====
/-
  The lane sums of the weight matrix, as one whole-array function.

  A row of 4096 entries is cut into 256 pieces of 16 lanes (piece `q` holds columns `16 q … 16 q + 15`). Eight
  accumulators start at the zero vector; trip `k` (of 32) adds piece `8 k + j` to accumulator `j`. The row's lane
  sums are the balanced tree `((a0 + a1) + (a2 + a3)) + ((a4 + a5) + (a6 + a7))` of the eight accumulators. Every sum
  is the float instance's own addition, in this order.
-/
import proofs.«216131_g62878321214323_cont_9to1c4b_752_23_alg».proof.Kernel
import Idealize.ShloMosaic.Lib.ValueIdx

noncomputable section

namespace Cert.Proof.KB

open Cert.Kernel
open Idealize.ShloMosaic

variable {F : FTy → Type} [FloatOps F]

/-- The zero vector the accumulators start from, as the program spells it. -/
def zeroV : FVec F S16 .f32 := broadcast S16 (Scalar.ofBits .f32 0x00000000#32)

/-- Accumulator `j` after `k` trips over the pieces `p`: trip `i` adds piece `8 i + j`. -/
def accs (p : Nat → FVec F S16 .f32) (z : FVec F S16 .f32) (j : Nat) : Nat → FVec F S16 .f32
  | 0 => z
  | k + 1 => addf (accs p z j k) (p (8 * k + j))

/-- The balanced tree of seven additions over eight vectors. -/
def tree8 (a0 a1 a2 a3 a4 a5 a6 a7 : FVec F S16 .f32) : FVec F S16 .f32 :=
  addf (addf (addf a0 a1) (addf a2 a3)) (addf (addf a4 a5) (addf a6 a7))

/-- A row's lane sums from its pieces. -/
def rowSum (p : Nat → FVec F S16 .f32) : FVec F S16 .f32 :=
  tree8 (accs p zeroV 0 32) (accs p zeroV 1 32) (accs p zeroV 2 32) (accs p zeroV 3 32)
    (accs p zeroV 4 32) (accs p zeroV 5 32) (accs p zeroV 6 32) (accs p zeroV 7 32)

/-- Piece `q` of row `h` of the weight matrix: lane `l` is column `16 q + l` (read modulo the row's length, so that the
    function is total; the pieces used are `q < 256`). -/
def wPiece (w : (⟨S16384x4096, .f32⟩ : BufTy).Contents (Elt F)) (h : Fin 16384) (q : Nat) : FVec F S16 .f32 :=
  fun l => w (ValueIdx.ix2 h ⟨(16 * q + (l 0).val) % 4096, Nat.mod_lt _ (by decide)⟩)

/-- The lane sums: entry `(h, l)` is lane `l` of row `h`'s sum, for the first 2048 rows of the matrix. -/
def laneSums (w : (⟨S16384x4096, .f32⟩ : BufTy).Contents (Elt F)) : (⟨S2048x16, .f32⟩ : BufTy).Contents (Elt F) :=
  fun x => rowSum (wPiece w ⟨(x 0).val, Nat.lt_of_lt_of_le (x 0).isLt (by decide)⟩) (ValueIdx.ix1 (x 1))

end Cert.Proof.KB

end
-- ==== Proof.KB.TileLoop.lean ====
/-
  One row's counted loop, proved once: the trip's region as a function of the buffer and of the loop's own offset
  function, what a trip makes of the eight accumulators, and the invariant a run goes through the loop by.
-/
import proofs.«216131_g62878321214323_cont_9to1c4b_752_23_alg».proof.Proof.KB.Common
import proofs.«216131_g62878321214323_cont_9to1c4b_752_23_alg».proof.Proof.KB.TileSpec
import Idealize.ShloMosaic.Lib.Exec
import Idealize.ShloMosaic.Lib.Tactic

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## One trip of a row's loop, once

A trip loads eight 16-lane pieces of one row of an 8-row buffer and adds piece `r` to accumulator `r`. The pieces are
named by the loop's own offset function `off k r`. -/

/-- The eight accumulators a row's loop carries. -/
abbrev Acc8 (F : FTy → Type) : Type :=
  FVec F S16 .f32 × FVec F S16 .f32 × FVec F S16 .f32 × FVec F S16 .f32 × FVec F S16 .f32 × FVec F S16 .f32 × FVec F S16 .f32 × FVec F S16 .f32

/-- The piece a load at offsets `o` reads from the buffer's contents `f`, as a 16-lane vector. -/
def ldPiece (b : Memref sig .scVector .vmem S8x4096 .f32) (f : BufTy.Contents (Elt F) b.view.ty) (o : Fin 2 → Nat)
    (inb : ∀ a, o a + S1x16.size a ≤ S8x4096.size a) : FVec F S16 .f32 :=
  shapeCast S16 (b.view.readAt (Elt F) (Rect.unit (s := S8x4096) o S1x16.size inb).toLoadRect f) shapeCasts_S1x16_S16

/-- One trip's region. -/
def tripG (c : Fin τ.nSC) (s : Fin τ.nSub) (b : Memref sig .scVector .vmem S8x4096 .f32) (off : Fin 32 → BitVec 32 → Fin 2 → Nat)
    (inb : ∀ k : Fin 32, ∀ r : Fin 8, ∀ a, off k (BitVec.ofNat 32 r.val) a + S1x16.size a ≤ S8x4096.size a) :
    Fin 32 → Acc8 F → Prog (TpuEff nD τ sig (Elt F) Λ₀ (.scVector c s)) (Acc8 F) :=
  fun k (a0, a1, a2, a3, a4, a5, a6, a7) => do
    let v0 : Vec F S1x16 .f32 ← Prog.lift (.load b (Rect.unit (s := S8x4096) (off k 0#32) S1x16.size (inb k 0)).toLoadRect (View.loadsAt_vmem h_S1x16))
    let v1 : Vec F S1x16 .f32 ← Prog.lift (.load b (Rect.unit (s := S8x4096) (off k 1#32) S1x16.size (inb k 1)).toLoadRect (View.loadsAt_vmem h_S1x16))
    let v2 : Vec F S1x16 .f32 ← Prog.lift (.load b (Rect.unit (s := S8x4096) (off k 2#32) S1x16.size (inb k 2)).toLoadRect (View.loadsAt_vmem h_S1x16))
    let v3 : Vec F S1x16 .f32 ← Prog.lift (.load b (Rect.unit (s := S8x4096) (off k 3#32) S1x16.size (inb k 3)).toLoadRect (View.loadsAt_vmem h_S1x16))
    let v4 : Vec F S1x16 .f32 ← Prog.lift (.load b (Rect.unit (s := S8x4096) (off k 4#32) S1x16.size (inb k 4)).toLoadRect (View.loadsAt_vmem h_S1x16))
    let v5 : Vec F S1x16 .f32 ← Prog.lift (.load b (Rect.unit (s := S8x4096) (off k 5#32) S1x16.size (inb k 5)).toLoadRect (View.loadsAt_vmem h_S1x16))
    let v6 : Vec F S1x16 .f32 ← Prog.lift (.load b (Rect.unit (s := S8x4096) (off k 6#32) S1x16.size (inb k 6)).toLoadRect (View.loadsAt_vmem h_S1x16))
    let v7 : Vec F S1x16 .f32 ← Prog.lift (.load b (Rect.unit (s := S8x4096) (off k 7#32) S1x16.size (inb k 7)).toLoadRect (View.loadsAt_vmem h_S1x16))
    pure (addf a0 (shapeCast S16 v0 shapeCasts_S1x16_S16), addf a1 (shapeCast S16 v1 shapeCasts_S1x16_S16), addf a2 (shapeCast S16 v2 shapeCasts_S1x16_S16),
      addf a3 (shapeCast S16 v3 shapeCasts_S1x16_S16), addf a4 (shapeCast S16 v4 shapeCasts_S1x16_S16), addf a5 (shapeCast S16 v5 shapeCasts_S1x16_S16),
      addf a6 (shapeCast S16 v6 shapeCasts_S1x16_S16), addf a7 (shapeCast S16 v7 shapeCasts_S1x16_S16))

/-- What one trip makes of the accumulators, over the buffer's contents `f`. -/
def stepG (b : Memref sig .scVector .vmem S8x4096 .f32) (f : BufTy.Contents (Elt F) b.view.ty) (off : Fin 32 → BitVec 32 → Fin 2 → Nat)
    (inb : ∀ k : Fin 32, ∀ r : Fin 8, ∀ a, off k (BitVec.ofNat 32 r.val) a + S1x16.size a ≤ S8x4096.size a) (k : Fin 32) (a : Acc8 F) : Acc8 F :=
  (addf a.1 (ldPiece b f (off k 0#32) (inb k 0)), addf a.2.1 (ldPiece b f (off k 1#32) (inb k 1)), addf a.2.2.1 (ldPiece b f (off k 2#32) (inb k 2)),
    addf a.2.2.2.1 (ldPiece b f (off k 3#32) (inb k 3)), addf a.2.2.2.2.1 (ldPiece b f (off k 4#32) (inb k 4)), addf a.2.2.2.2.2.1 (ldPiece b f (off k 5#32) (inb k 5)),
    addf a.2.2.2.2.2.2.1 (ldPiece b f (off k 6#32) (inb k 6)), addf a.2.2.2.2.2.2.2 (ldPiece b f (off k 7#32) (inb k 7)))

/-- The accumulators before trip `k`, from `z`. -/
def stG (b : Memref sig .scVector .vmem S8x4096 .f32) (f : BufTy.Contents (Elt F) b.view.ty) (off : Fin 32 → BitVec 32 → Fin 2 → Nat)
    (inb : ∀ k : Fin 32, ∀ r : Fin 8, ∀ a, off k (BitVec.ofNat 32 r.val) a + S1x16.size a ≤ S8x4096.size a) (z : Acc8 F) : Nat → Acc8 F
  | 0 => z
  | k + 1 => if h : k < 32 then stepG b f off inb ⟨k, h⟩ (stG b f off inb z k) else stG b f off inb z k

theorem stG_succ (b : Memref sig .scVector .vmem S8x4096 .f32) (f : BufTy.Contents (Elt F) b.view.ty) (off : Fin 32 → BitVec 32 → Fin 2 → Nat)
    (inb : ∀ k : Fin 32, ∀ r : Fin 8, ∀ a, off k (BitVec.ofNat 32 r.val) a + S1x16.size a ≤ S8x4096.size a) (z : Acc8 F) (k : Fin 32) :
    stG b f off inb z (k.val + 1) = stepG b f off inb k (stG b f off inb z k.val) := by
  rw [stG, dif_pos k.isLt]

/-- The loop's invariant: the buffer held at `f`, the accumulators those of `k` trips. -/
def invG (d : Dev nD) (c : Fin τ.nSC) (s : Fin τ.nSub) (b : Memref sig .scVector .vmem S8x4096 .f32) (f : BufTy.Contents (Elt F) b.view.ty)
    (off : Fin 32 → BitVec 32 → Fin 2 → Nat)
    (inb : ∀ k : Fin 32, ∀ r : Fin 8, ∀ a, off k (BitVec.ofNat 32 r.val) a + S1x16.size a ≤ S8x4096.size a) (z : Acc8 F) (k : Nat) (acc : Acc8 F) : sProp 𝕄 :=
  iprop((b.view.loc (V d c s) ↦[b.view.set]{fullShare} f) ∗ ⌜acc = stG b f off inb z k⌝)

theorem trip_sound (d : Dev nD) (c : Fin τ.nSC) (s : Fin τ.nSub) (b : Memref sig .scVector .vmem S8x4096 .f32) (f : BufTy.Contents (Elt F) b.view.ty)
    (off : Fin 32 → BitVec 32 → Fin 2 → Nat)
    (inb : ∀ k : Fin 32, ∀ r : Fin 8, ∀ a, off k (BitVec.ofNat 32 r.val) a + S1x16.size a ≤ S8x4096.size a) (z : Acc8 F) (k : Fin 32) (acc : Acc8 F) :
    invG d c s b f off inb z k.val acc
      ⊢ wp frame (wpE (defs₀ (F := F)) 𝒱₀ (V d c s) none) Set.univ (tripG c s b off inb k acc) (invG d c s b f off inb z (k.val + 1)) := by
  obtain ⟨a0, a1, a2, a3, a4, a5, a6, a7⟩ := acc
  unfold invG tripG
  iintro ⟨Hb, %hacc⟩
  sl_exec
  sl_step
  isplitl [Hb]; · iexact Hb
  ipureintro
  rw [stG_succ, ← hacc]
  rfl

end Cert.Proof.KB

end
-- ==== Proof.KB.TileLoopTable.lean ====
/-
  The 64 row loops of the tile's body, each by the one invariant of a row's loop: loop N reads the first buffer in the
  even chunks and the second in the odd ones, through its own offset function.
-/
import proofs.«216131_g62878321214323_cont_9to1c4b_752_23_alg».proof.Proof.KB.TileLoop
import proofs.«216131_g62878321214323_cont_9to1c4b_752_23_alg».proof.Proof.Gen.Kernel.Skeleton

set_option maxRecDepth 65536
set_option warn.classDefReducibility false

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

@[sl_loop] def li_t1 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t1_loop.lb k0_t1_loop.ub k0_t1_loop.st k0_t1_ok z (k0_t1_body (F := F) i arg2 harg2 arg3 harg3 arg4 harg4 arg5 harg5 arg6 harg6 arg7 arg8 v1386_r0) where
  inv := invG d ((i 0).castLE hcore0) ((i 1).castLE hsub0) arg4 f k0_off3 k0_off3_inb z
  step k acc := trip_sound d ((i 0).castLE hcore0) ((i 1).castLE hsub0) arg4 f k0_off3 k0_off3_inb z k acc

@[sl_loop] def li_t2 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t2_loop.lb k0_t2_loop.ub k0_t2_loop.st k0_t2_ok z (k0_t2_body (F := F) i arg2 harg2 arg3 harg3 arg4 harg4 arg5 harg5 arg6 harg6 arg7 arg8 v1386_r0) where
  inv := invG d ((i 0).castLE hcore0) ((i 1).castLE hsub0) arg4 f k0_off4 k0_off4_inb z
  step k acc := trip_sound d ((i 0).castLE hcore0) ((i 1).castLE hsub0) arg4 f k0_off4 k0_off4_inb z k acc

@[sl_loop] def li_t3 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t3_loop.lb k0_t3_loop.ub k0_t3_loop.st k0_t3_ok z (k0_t3_body (F := F) i arg2 harg2 arg3 harg3 arg4 harg4 arg5 harg5 arg6 harg6 arg7 arg8 v1386_r0) where
  inv := invG d ((i 0).castLE hcore0) ((i 1).castLE hsub0) arg4 f k0_off5 k0_off5_inb z
  step k acc := trip_sound d ((i 0).castLE hcore0) ((i 1).castLE hsub0) arg4 f k0_off5 k0_off5_inb z k acc

@[sl_loop] def li_t4 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v61_4 : FVec F S16 .f32) (v61_5 : FVec F S16 .f32) (v61_6 : FVec F S16 .f32) (v61_7 : FVec F S16 .f32) (v62 : FVec F S16 .f32) (v63 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t4_loop.lb k0_t4_loop.ub k0_t4_loop.st k0_t4_ok z (k0_t4_body (F := F) i arg2 harg2 arg3 harg3 arg4 harg4 arg5 harg5 arg6 harg6 arg7 arg8 v1386_r0 v61_4 v61_5 v61_6 v61_7 v62 v63) where
  inv := invG d ((i 0).castLE hcore0) ((i 1).castLE hsub0) arg4 f k0_off6 k0_off6_inb z
  step k acc := trip_sound d ((i 0).castLE hcore0) ((i 1).castLE hsub0) arg4 f k0_off6 k0_off6_inb z k acc

@[sl_loop] def li_t5 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v94 : FVec F S16 .f32) (v95 : FVec F S16 .f32) (v96 : FVec F S16 .f32) (v97 : FVec F S16 .f32) (v98 : FVec F S16 .f32) (v99 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t5_loop.lb k0_t5_loop.ub k0_t5_loop.st k0_t5_ok z (k0_t5_body (F := F) i arg2 harg2 arg3 harg3 arg4 harg4 arg5 harg5 arg6 harg6 arg7 arg8 v1386_r0 v94 v95 v96 v97 v98 v99) where
  inv := invG d ((i 0).castLE hcore0) ((i 1).castLE hsub0) arg4 f k0_off7 k0_off7_inb z
  step k acc := trip_sound d ((i 0).castLE hcore0) ((i 1).castLE hsub0) arg4 f k0_off7 k0_off7_inb z k acc

@[sl_loop] def li_t6 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v94 : FVec F S16 .f32) (v95 : FVec F S16 .f32) (v96 : FVec F S16 .f32) (v97 : FVec F S16 .f32) (v98 : FVec F S16 .f32) (v99 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t6_loop.lb k0_t6_loop.ub k0_t6_loop.st k0_t6_ok z (k0_t6_body (F := F) i arg2 harg2 arg3 harg3 arg4 harg4 arg5 harg5 arg6 harg6 arg7 arg8 v1386_r0 v94 v95 v96 v97 v98 v99) where
  inv := invG d ((i 0).castLE hcore0) ((i 1).castLE hsub0) arg4 f k0_off8 k0_off8_inb z
  step k acc := trip_sound d ((i 0).castLE hcore0) ((i 1).castLE hsub0) arg4 f k0_off8 k0_off8_inb z k acc

@[sl_loop] def li_t7 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t7_loop.lb k0_t7_loop.ub k0_t7_loop.st k0_t7_ok z (k0_t7_body (F := F) i arg2 harg2 arg3 harg3 arg4 harg4 arg5 harg5 arg6 harg6 arg7 arg8 v1386_r0) where
  inv := invG d ((i 0).castLE hcore0) ((i 1).castLE hsub0) arg4 f k0_off9 k0_off9_inb z
  step k acc := trip_sound d ((i 0).castLE hcore0) ((i 1).castLE hsub0) arg4 f k0_off9 k0_off9_inb z k acc

@[sl_loop] def li_t8 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t8_loop.lb k0_t8_loop.ub k0_t8_loop.st k0_t8_ok z (k0_t8_body (F := F) i arg2 harg2 arg3 harg3 arg4 harg4 arg5 harg5 arg6 harg6 arg7 arg8 v1386_r0) where
  inv := invG d ((i 0).castLE hcore0) ((i 1).castLE hsub0) arg4 f k0_off10 k0_off10_inb z
  step k acc := trip_sound d ((i 0).castLE hcore0) ((i 1).castLE hsub0) arg4 f k0_off10 k0_off10_inb z k acc

@[sl_loop] def li_t9 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v2 : BitVec 32) (v166_4 : FVec F S16 .f32) (v166_5 : FVec F S16 .f32) (v166_6 : FVec F S16 .f32) (v166_7 : FVec F S16 .f32) (v167 : FVec F S16 .f32) (v168 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t9_loop.lb k0_t9_loop.ub k0_t9_loop.st k0_t9_ok z (k0_t9_body (F := F) i arg2 harg2 arg3 harg3 arg4 harg4 arg5 harg5 arg6 harg6 arg7 arg8 v1386_r0 v2 v166_4 v166_5 v166_6 v166_7 v167 v168) where
  inv := invG d ((i 0).castLE hcore0) ((i 1).castLE hsub0) arg5 f k0_off11 k0_off11_inb z
  step k acc := trip_sound d ((i 0).castLE hcore0) ((i 1).castLE hsub0) arg5 f k0_off11 k0_off11_inb z k acc

@[sl_loop] def li_t10 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t10_loop.lb k0_t10_loop.ub k0_t10_loop.st k0_t10_ok z (k0_t10_body (F := F) i arg2 harg2 arg3 harg3 arg4 harg4 arg5 harg5 arg6 harg6 arg7 arg8 v1386_r0) where
  inv := invG d ((i 0).castLE hcore0) ((i 1).castLE hsub0) arg5 f k0_off12 k0_off12_inb z
  step k acc := trip_sound d ((i 0).castLE hcore0) ((i 1).castLE hsub0) arg5 f k0_off12 k0_off12_inb z k acc

@[sl_loop] def li_t11 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t11_loop.lb k0_t11_loop.ub k0_t11_loop.st k0_t11_ok z (k0_t11_body (F := F) i arg2 harg2 arg3 harg3 arg4 harg4 arg5 harg5 arg6 harg6 arg7 arg8 v1386_r0) where
  inv := invG d ((i 0).castLE hcore0) ((i 1).castLE hsub0) arg5 f k0_off13 k0_off13_inb z
  step k acc := trip_sound d ((i 0).castLE hcore0) ((i 1).castLE hsub0) arg5 f k0_off13 k0_off13_inb z k acc

@[sl_loop] def li_t12 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v234_4 : FVec F S16 .f32) (v234_5 : FVec F S16 .f32) (v234_6 : FVec F S16 .f32) (v234_7 : FVec F S16 .f32) (v235 : FVec F S16 .f32) (v236 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t12_loop.lb k0_t12_loop.ub k0_t12_loop.st k0_t12_ok z (k0_t12_body (F := F) i arg2 harg2 arg3 harg3 arg4 harg4 arg5 harg5 arg6 harg6 arg7 arg8 v1386_r0 v234_4 v234_5 v234_6 v234_7 v235 v236) where
  inv := invG d ((i 0).castLE hcore0) ((i 1).castLE hsub0) arg5 f k0_off14 k0_off14_inb z
  step k acc := trip_sound d ((i 0).castLE hcore0) ((i 1).castLE hsub0) arg5 f k0_off14 k0_off14_inb z k acc

@[sl_loop] def li_t13 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v267 : FVec F S16 .f32) (v268 : FVec F S16 .f32) (v269 : FVec F S16 .f32) (v270 : FVec F S16 .f32) (v271 : FVec F S16 .f32) (v272 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t13_loop.lb k0_t13_loop.ub k0_t13_loop.st k0_t13_ok z (k0_t13_body (F := F) i arg2 harg2 arg3 harg3 arg4 harg4 arg5 harg5 arg6 harg6 arg7 arg8 v1386_r0 v267 v268 v269 v270 v271 v272) where
  inv := invG d ((i 0).castLE hcore0) ((i 1).castLE hsub0) arg5 f k0_off15 k0_off15_inb z
  step k acc := trip_sound d ((i 0).castLE hcore0) ((i 1).castLE hsub0) arg5 f k0_off15 k0_off15_inb z k acc

@[sl_loop] def li_t14 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v267 : FVec F S16 .f32) (v268 : FVec F S16 .f32) (v269 : FVec F S16 .f32) (v270 : FVec F S16 .f32) (v271 : FVec F S16 .f32) (v272 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t14_loop.lb k0_t14_loop.ub k0_t14_loop.st k0_t14_ok z (k0_t14_body (F := F) i arg2 harg2 arg3 harg3 arg4 harg4 arg5 harg5 arg6 harg6 arg7 arg8 v1386_r0 v267 v268 v269 v270 v271 v272) where
  inv := invG d ((i 0).castLE hcore0) ((i 1).castLE hsub0) arg5 f k0_off16 k0_off16_inb z
  step k acc := trip_sound d ((i 0).castLE hcore0) ((i 1).castLE hsub0) arg5 f k0_off16 k0_off16_inb z k acc

@[sl_loop] def li_t15 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t15_loop.lb k0_t15_loop.ub k0_t15_loop.st k0_t15_ok z (k0_t15_body (F := F) i arg2 harg2 arg3 harg3 arg4 harg4 arg5 harg5 arg6 harg6 arg7 arg8 v1386_r0) where
  inv := invG d ((i 0).castLE hcore0) ((i 1).castLE hsub0) arg5 f k0_off17 k0_off17_inb z
  step k acc := trip_sound d ((i 0).castLE hcore0) ((i 1).castLE hsub0) arg5 f k0_off17 k0_off17_inb z k acc

@[sl_loop] def li_t16 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t16_loop.lb k0_t16_loop.ub k0_t16_loop.st k0_t16_ok z (k0_t16_body (F := F) i arg2 harg2 arg3 harg3 arg4 harg4 arg5 harg5 arg6 harg6 arg7 arg8 v1386_r0) where
  inv := invG d ((i 0).castLE hcore0) ((i 1).castLE hsub0) arg5 f k0_off18 k0_off18_inb z
  step k acc := trip_sound d ((i 0).castLE hcore0) ((i 1).castLE hsub0) arg5 f k0_off18 k0_off18_inb z k acc

@[sl_loop] def li_t17 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v2 : BitVec 32) (v339_4 : FVec F S16 .f32) (v339_5 : FVec F S16 .f32) (v339_6 : FVec F S16 .f32) (v339_7 : FVec F S16 .f32) (v340 : FVec F S16 .f32) (v341 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t17_loop.lb k0_t17_loop.ub k0_t17_loop.st k0_t17_ok z (k0_t17_body (F := F) i arg2 harg2 arg3 harg3 arg4 harg4 arg5 harg5 arg6 harg6 arg7 arg8 v1386_r0 v2 v339_4 v339_5 v339_6 v339_7 v340 v341) where
  inv := invG d ((i 0).castLE hcore0) ((i 1).castLE hsub0) arg4 f k0_off19 k0_off19_inb z
  step k acc := trip_sound d ((i 0).castLE hcore0) ((i 1).castLE hsub0) arg4 f k0_off19 k0_off19_inb z k acc

@[sl_loop] def li_t18 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t18_loop.lb k0_t18_loop.ub k0_t18_loop.st k0_t18_ok z (k0_t18_body (F := F) i arg2 harg2 arg3 harg3 arg4 harg4 arg5 harg5 arg6 harg6 arg7 arg8 v1386_r0) where
  inv := invG d ((i 0).castLE hcore0) ((i 1).castLE hsub0) arg4 f k0_off20 k0_off20_inb z
  step k acc := trip_sound d ((i 0).castLE hcore0) ((i 1).castLE hsub0) arg4 f k0_off20 k0_off20_inb z k acc

@[sl_loop] def li_t19 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t19_loop.lb k0_t19_loop.ub k0_t19_loop.st k0_t19_ok z (k0_t19_body (F := F) i arg2 harg2 arg3 harg3 arg4 harg4 arg5 harg5 arg6 harg6 arg7 arg8 v1386_r0) where
  inv := invG d ((i 0).castLE hcore0) ((i 1).castLE hsub0) arg4 f k0_off21 k0_off21_inb z
  step k acc := trip_sound d ((i 0).castLE hcore0) ((i 1).castLE hsub0) arg4 f k0_off21 k0_off21_inb z k acc

@[sl_loop] def li_t20 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v407_4 : FVec F S16 .f32) (v407_5 : FVec F S16 .f32) (v407_6 : FVec F S16 .f32) (v407_7 : FVec F S16 .f32) (v408 : FVec F S16 .f32) (v409 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t20_loop.lb k0_t20_loop.ub k0_t20_loop.st k0_t20_ok z (k0_t20_body (F := F) i arg2 harg2 arg3 harg3 arg4 harg4 arg5 harg5 arg6 harg6 arg7 arg8 v1386_r0 v407_4 v407_5 v407_6 v407_7 v408 v409) where
  inv := invG d ((i 0).castLE hcore0) ((i 1).castLE hsub0) arg4 f k0_off22 k0_off22_inb z
  step k acc := trip_sound d ((i 0).castLE hcore0) ((i 1).castLE hsub0) arg4 f k0_off22 k0_off22_inb z k acc

@[sl_loop] def li_t21 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v440 : FVec F S16 .f32) (v441 : FVec F S16 .f32) (v442 : FVec F S16 .f32) (v443 : FVec F S16 .f32) (v444 : FVec F S16 .f32) (v445 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t21_loop.lb k0_t21_loop.ub k0_t21_loop.st k0_t21_ok z (k0_t21_body (F := F) i arg2 harg2 arg3 harg3 arg4 harg4 arg5 harg5 arg6 harg6 arg7 arg8 v1386_r0 v440 v441 v442 v443 v444 v445) where
  inv := invG d ((i 0).castLE hcore0) ((i 1).castLE hsub0) arg4 f k0_off23 k0_off23_inb z
  step k acc := trip_sound d ((i 0).castLE hcore0) ((i 1).castLE hsub0) arg4 f k0_off23 k0_off23_inb z k acc

@[sl_loop] def li_t22 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v440 : FVec F S16 .f32) (v441 : FVec F S16 .f32) (v442 : FVec F S16 .f32) (v443 : FVec F S16 .f32) (v444 : FVec F S16 .f32) (v445 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t22_loop.lb k0_t22_loop.ub k0_t22_loop.st k0_t22_ok z (k0_t22_body (F := F) i arg2 harg2 arg3 harg3 arg4 harg4 arg5 harg5 arg6 harg6 arg7 arg8 v1386_r0 v440 v441 v442 v443 v444 v445) where
  inv := invG d ((i 0).castLE hcore0) ((i 1).castLE hsub0) arg4 f k0_off24 k0_off24_inb z
  step k acc := trip_sound d ((i 0).castLE hcore0) ((i 1).castLE hsub0) arg4 f k0_off24 k0_off24_inb z k acc

@[sl_loop] def li_t23 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t23_loop.lb k0_t23_loop.ub k0_t23_loop.st k0_t23_ok z (k0_t23_body (F := F) i arg2 harg2 arg3 harg3 arg4 harg4 arg5 harg5 arg6 harg6 arg7 arg8 v1386_r0) where
  inv := invG d ((i 0).castLE hcore0) ((i 1).castLE hsub0) arg4 f k0_off25 k0_off25_inb z
  step k acc := trip_sound d ((i 0).castLE hcore0) ((i 1).castLE hsub0) arg4 f k0_off25 k0_off25_inb z k acc

@[sl_loop] def li_t24 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t24_loop.lb k0_t24_loop.ub k0_t24_loop.st k0_t24_ok z (k0_t24_body (F := F) i arg2 harg2 arg3 harg3 arg4 harg4 arg5 harg5 arg6 harg6 arg7 arg8 v1386_r0) where
  inv := invG d ((i 0).castLE hcore0) ((i 1).castLE hsub0) arg4 f k0_off26 k0_off26_inb z
  step k acc := trip_sound d ((i 0).castLE hcore0) ((i 1).castLE hsub0) arg4 f k0_off26 k0_off26_inb z k acc

@[sl_loop] def li_t25 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v2 : BitVec 32) (v512_4 : FVec F S16 .f32) (v512_5 : FVec F S16 .f32) (v512_6 : FVec F S16 .f32) (v512_7 : FVec F S16 .f32) (v513 : FVec F S16 .f32) (v514 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t25_loop.lb k0_t25_loop.ub k0_t25_loop.st k0_t25_ok z (k0_t25_body (F := F) i arg2 harg2 arg3 harg3 arg4 harg4 arg5 harg5 arg6 harg6 arg7 arg8 v1386_r0 v2 v512_4 v512_5 v512_6 v512_7 v513 v514) where
  inv := invG d ((i 0).castLE hcore0) ((i 1).castLE hsub0) arg5 f k0_off27 k0_off27_inb z
  step k acc := trip_sound d ((i 0).castLE hcore0) ((i 1).castLE hsub0) arg5 f k0_off27 k0_off27_inb z k acc

@[sl_loop] def li_t26 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t26_loop.lb k0_t26_loop.ub k0_t26_loop.st k0_t26_ok z (k0_t26_body (F := F) i arg2 harg2 arg3 harg3 arg4 harg4 arg5 harg5 arg6 harg6 arg7 arg8 v1386_r0) where
  inv := invG d ((i 0).castLE hcore0) ((i 1).castLE hsub0) arg5 f k0_off28 k0_off28_inb z
  step k acc := trip_sound d ((i 0).castLE hcore0) ((i 1).castLE hsub0) arg5 f k0_off28 k0_off28_inb z k acc

@[sl_loop] def li_t27 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t27_loop.lb k0_t27_loop.ub k0_t27_loop.st k0_t27_ok z (k0_t27_body (F := F) i arg2 harg2 arg3 harg3 arg4 harg4 arg5 harg5 arg6 harg6 arg7 arg8 v1386_r0) where
  inv := invG d ((i 0).castLE hcore0) ((i 1).castLE hsub0) arg5 f k0_off29 k0_off29_inb z
  step k acc := trip_sound d ((i 0).castLE hcore0) ((i 1).castLE hsub0) arg5 f k0_off29 k0_off29_inb z k acc

@[sl_loop] def li_t28 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v580_4 : FVec F S16 .f32) (v580_5 : FVec F S16 .f32) (v580_6 : FVec F S16 .f32) (v580_7 : FVec F S16 .f32) (v581 : FVec F S16 .f32) (v582 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t28_loop.lb k0_t28_loop.ub k0_t28_loop.st k0_t28_ok z (k0_t28_body (F := F) i arg2 harg2 arg3 harg3 arg4 harg4 arg5 harg5 arg6 harg6 arg7 arg8 v1386_r0 v580_4 v580_5 v580_6 v580_7 v581 v582) where
  inv := invG d ((i 0).castLE hcore0) ((i 1).castLE hsub0) arg5 f k0_off30 k0_off30_inb z
  step k acc := trip_sound d ((i 0).castLE hcore0) ((i 1).castLE hsub0) arg5 f k0_off30 k0_off30_inb z k acc

@[sl_loop] def li_t29 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v613 : FVec F S16 .f32) (v614 : FVec F S16 .f32) (v615 : FVec F S16 .f32) (v616 : FVec F S16 .f32) (v617 : FVec F S16 .f32) (v618 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t29_loop.lb k0_t29_loop.ub k0_t29_loop.st k0_t29_ok z (k0_t29_body (F := F) i arg2 harg2 arg3 harg3 arg4 harg4 arg5 harg5 arg6 harg6 arg7 arg8 v1386_r0 v613 v614 v615 v616 v617 v618) where
  inv := invG d ((i 0).castLE hcore0) ((i 1).castLE hsub0) arg5 f k0_off31 k0_off31_inb z
  step k acc := trip_sound d ((i 0).castLE hcore0) ((i 1).castLE hsub0) arg5 f k0_off31 k0_off31_inb z k acc

@[sl_loop] def li_t30 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v613 : FVec F S16 .f32) (v614 : FVec F S16 .f32) (v615 : FVec F S16 .f32) (v616 : FVec F S16 .f32) (v617 : FVec F S16 .f32) (v618 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t30_loop.lb k0_t30_loop.ub k0_t30_loop.st k0_t30_ok z (k0_t30_body (F := F) i arg2 harg2 arg3 harg3 arg4 harg4 arg5 harg5 arg6 harg6 arg7 arg8 v1386_r0 v613 v614 v615 v616 v617 v618) where
  inv := invG d ((i 0).castLE hcore0) ((i 1).castLE hsub0) arg5 f k0_off32 k0_off32_inb z
  step k acc := trip_sound d ((i 0).castLE hcore0) ((i 1).castLE hsub0) arg5 f k0_off32 k0_off32_inb z k acc

@[sl_loop] def li_t31 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t31_loop.lb k0_t31_loop.ub k0_t31_loop.st k0_t31_ok z (k0_t31_body (F := F) i arg2 harg2 arg3 harg3 arg4 harg4 arg5 harg5 arg6 harg6 arg7 arg8 v1386_r0) where
  inv := invG d ((i 0).castLE hcore0) ((i 1).castLE hsub0) arg5 f k0_off33 k0_off33_inb z
  step k acc := trip_sound d ((i 0).castLE hcore0) ((i 1).castLE hsub0) arg5 f k0_off33 k0_off33_inb z k acc

@[sl_loop] def li_t32 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t32_loop.lb k0_t32_loop.ub k0_t32_loop.st k0_t32_ok z (k0_t32_body (F := F) i arg2 harg2 arg3 harg3 arg4 harg4 arg5 harg5 arg6 harg6 arg7 arg8 v1386_r0) where
  inv := invG d ((i 0).castLE hcore0) ((i 1).castLE hsub0) arg5 f k0_off34 k0_off34_inb z
  step k acc := trip_sound d ((i 0).castLE hcore0) ((i 1).castLE hsub0) arg5 f k0_off34 k0_off34_inb z k acc

@[sl_loop] def li_t33 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v2 : BitVec 32) (v685_4 : FVec F S16 .f32) (v685_5 : FVec F S16 .f32) (v685_6 : FVec F S16 .f32) (v685_7 : FVec F S16 .f32) (v686 : FVec F S16 .f32) (v687 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t33_loop.lb k0_t33_loop.ub k0_t33_loop.st k0_t33_ok z (k0_t33_body (F := F) i arg2 harg2 arg3 harg3 arg4 harg4 arg5 harg5 arg6 harg6 arg7 arg8 v1386_r0 v2 v685_4 v685_5 v685_6 v685_7 v686 v687) where
  inv := invG d ((i 0).castLE hcore0) ((i 1).castLE hsub0) arg4 f k0_off35 k0_off35_inb z
  step k acc := trip_sound d ((i 0).castLE hcore0) ((i 1).castLE hsub0) arg4 f k0_off35 k0_off35_inb z k acc

@[sl_loop] def li_t34 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t34_loop.lb k0_t34_loop.ub k0_t34_loop.st k0_t34_ok z (k0_t34_body (F := F) i arg2 harg2 arg3 harg3 arg4 harg4 arg5 harg5 arg6 harg6 arg7 arg8 v1386_r0) where
  inv := invG d ((i 0).castLE hcore0) ((i 1).castLE hsub0) arg4 f k0_off36 k0_off36_inb z
  step k acc := trip_sound d ((i 0).castLE hcore0) ((i 1).castLE hsub0) arg4 f k0_off36 k0_off36_inb z k acc

@[sl_loop] def li_t35 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t35_loop.lb k0_t35_loop.ub k0_t35_loop.st k0_t35_ok z (k0_t35_body (F := F) i arg2 harg2 arg3 harg3 arg4 harg4 arg5 harg5 arg6 harg6 arg7 arg8 v1386_r0) where
  inv := invG d ((i 0).castLE hcore0) ((i 1).castLE hsub0) arg4 f k0_off37 k0_off37_inb z
  step k acc := trip_sound d ((i 0).castLE hcore0) ((i 1).castLE hsub0) arg4 f k0_off37 k0_off37_inb z k acc

@[sl_loop] def li_t36 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v753_4 : FVec F S16 .f32) (v753_5 : FVec F S16 .f32) (v753_6 : FVec F S16 .f32) (v753_7 : FVec F S16 .f32) (v754 : FVec F S16 .f32) (v755 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t36_loop.lb k0_t36_loop.ub k0_t36_loop.st k0_t36_ok z (k0_t36_body (F := F) i arg2 harg2 arg3 harg3 arg4 harg4 arg5 harg5 arg6 harg6 arg7 arg8 v1386_r0 v753_4 v753_5 v753_6 v753_7 v754 v755) where
  inv := invG d ((i 0).castLE hcore0) ((i 1).castLE hsub0) arg4 f k0_off38 k0_off38_inb z
  step k acc := trip_sound d ((i 0).castLE hcore0) ((i 1).castLE hsub0) arg4 f k0_off38 k0_off38_inb z k acc

@[sl_loop] def li_t37 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v786 : FVec F S16 .f32) (v787 : FVec F S16 .f32) (v788 : FVec F S16 .f32) (v789 : FVec F S16 .f32) (v790 : FVec F S16 .f32) (v791 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t37_loop.lb k0_t37_loop.ub k0_t37_loop.st k0_t37_ok z (k0_t37_body (F := F) i arg2 harg2 arg3 harg3 arg4 harg4 arg5 harg5 arg6 harg6 arg7 arg8 v1386_r0 v786 v787 v788 v789 v790 v791) where
  inv := invG d ((i 0).castLE hcore0) ((i 1).castLE hsub0) arg4 f k0_off39 k0_off39_inb z
  step k acc := trip_sound d ((i 0).castLE hcore0) ((i 1).castLE hsub0) arg4 f k0_off39 k0_off39_inb z k acc

@[sl_loop] def li_t38 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v786 : FVec F S16 .f32) (v787 : FVec F S16 .f32) (v788 : FVec F S16 .f32) (v789 : FVec F S16 .f32) (v790 : FVec F S16 .f32) (v791 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t38_loop.lb k0_t38_loop.ub k0_t38_loop.st k0_t38_ok z (k0_t38_body (F := F) i arg2 harg2 arg3 harg3 arg4 harg4 arg5 harg5 arg6 harg6 arg7 arg8 v1386_r0 v786 v787 v788 v789 v790 v791) where
  inv := invG d ((i 0).castLE hcore0) ((i 1).castLE hsub0) arg4 f k0_off40 k0_off40_inb z
  step k acc := trip_sound d ((i 0).castLE hcore0) ((i 1).castLE hsub0) arg4 f k0_off40 k0_off40_inb z k acc

@[sl_loop] def li_t39 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t39_loop.lb k0_t39_loop.ub k0_t39_loop.st k0_t39_ok z (k0_t39_body (F := F) i arg2 harg2 arg3 harg3 arg4 harg4 arg5 harg5 arg6 harg6 arg7 arg8 v1386_r0) where
  inv := invG d ((i 0).castLE hcore0) ((i 1).castLE hsub0) arg4 f k0_off41 k0_off41_inb z
  step k acc := trip_sound d ((i 0).castLE hcore0) ((i 1).castLE hsub0) arg4 f k0_off41 k0_off41_inb z k acc

@[sl_loop] def li_t40 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t40_loop.lb k0_t40_loop.ub k0_t40_loop.st k0_t40_ok z (k0_t40_body (F := F) i arg2 harg2 arg3 harg3 arg4 harg4 arg5 harg5 arg6 harg6 arg7 arg8 v1386_r0) where
  inv := invG d ((i 0).castLE hcore0) ((i 1).castLE hsub0) arg4 f k0_off42 k0_off42_inb z
  step k acc := trip_sound d ((i 0).castLE hcore0) ((i 1).castLE hsub0) arg4 f k0_off42 k0_off42_inb z k acc

@[sl_loop] def li_t41 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v2 : BitVec 32) (v858_4 : FVec F S16 .f32) (v858_5 : FVec F S16 .f32) (v858_6 : FVec F S16 .f32) (v858_7 : FVec F S16 .f32) (v859 : FVec F S16 .f32) (v860 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t41_loop.lb k0_t41_loop.ub k0_t41_loop.st k0_t41_ok z (k0_t41_body (F := F) i arg2 harg2 arg3 harg3 arg4 harg4 arg5 harg5 arg6 harg6 arg7 arg8 v1386_r0 v2 v858_4 v858_5 v858_6 v858_7 v859 v860) where
  inv := invG d ((i 0).castLE hcore0) ((i 1).castLE hsub0) arg5 f k0_off43 k0_off43_inb z
  step k acc := trip_sound d ((i 0).castLE hcore0) ((i 1).castLE hsub0) arg5 f k0_off43 k0_off43_inb z k acc

@[sl_loop] def li_t42 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t42_loop.lb k0_t42_loop.ub k0_t42_loop.st k0_t42_ok z (k0_t42_body (F := F) i arg2 harg2 arg3 harg3 arg4 harg4 arg5 harg5 arg6 harg6 arg7 arg8 v1386_r0) where
  inv := invG d ((i 0).castLE hcore0) ((i 1).castLE hsub0) arg5 f k0_off44 k0_off44_inb z
  step k acc := trip_sound d ((i 0).castLE hcore0) ((i 1).castLE hsub0) arg5 f k0_off44 k0_off44_inb z k acc

@[sl_loop] def li_t43 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t43_loop.lb k0_t43_loop.ub k0_t43_loop.st k0_t43_ok z (k0_t43_body (F := F) i arg2 harg2 arg3 harg3 arg4 harg4 arg5 harg5 arg6 harg6 arg7 arg8 v1386_r0) where
  inv := invG d ((i 0).castLE hcore0) ((i 1).castLE hsub0) arg5 f k0_off45 k0_off45_inb z
  step k acc := trip_sound d ((i 0).castLE hcore0) ((i 1).castLE hsub0) arg5 f k0_off45 k0_off45_inb z k acc

@[sl_loop] def li_t44 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v926_4 : FVec F S16 .f32) (v926_5 : FVec F S16 .f32) (v926_6 : FVec F S16 .f32) (v926_7 : FVec F S16 .f32) (v927 : FVec F S16 .f32) (v928 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t44_loop.lb k0_t44_loop.ub k0_t44_loop.st k0_t44_ok z (k0_t44_body (F := F) i arg2 harg2 arg3 harg3 arg4 harg4 arg5 harg5 arg6 harg6 arg7 arg8 v1386_r0 v926_4 v926_5 v926_6 v926_7 v927 v928) where
  inv := invG d ((i 0).castLE hcore0) ((i 1).castLE hsub0) arg5 f k0_off46 k0_off46_inb z
  step k acc := trip_sound d ((i 0).castLE hcore0) ((i 1).castLE hsub0) arg5 f k0_off46 k0_off46_inb z k acc

@[sl_loop] def li_t45 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v959 : FVec F S16 .f32) (v960 : FVec F S16 .f32) (v961 : FVec F S16 .f32) (v962 : FVec F S16 .f32) (v963 : FVec F S16 .f32) (v964 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t45_loop.lb k0_t45_loop.ub k0_t45_loop.st k0_t45_ok z (k0_t45_body (F := F) i arg2 harg2 arg3 harg3 arg4 harg4 arg5 harg5 arg6 harg6 arg7 arg8 v1386_r0 v959 v960 v961 v962 v963 v964) where
  inv := invG d ((i 0).castLE hcore0) ((i 1).castLE hsub0) arg5 f k0_off47 k0_off47_inb z
  step k acc := trip_sound d ((i 0).castLE hcore0) ((i 1).castLE hsub0) arg5 f k0_off47 k0_off47_inb z k acc

@[sl_loop] def li_t46 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v959 : FVec F S16 .f32) (v960 : FVec F S16 .f32) (v961 : FVec F S16 .f32) (v962 : FVec F S16 .f32) (v963 : FVec F S16 .f32) (v964 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t46_loop.lb k0_t46_loop.ub k0_t46_loop.st k0_t46_ok z (k0_t46_body (F := F) i arg2 harg2 arg3 harg3 arg4 harg4 arg5 harg5 arg6 harg6 arg7 arg8 v1386_r0 v959 v960 v961 v962 v963 v964) where
  inv := invG d ((i 0).castLE hcore0) ((i 1).castLE hsub0) arg5 f k0_off48 k0_off48_inb z
  step k acc := trip_sound d ((i 0).castLE hcore0) ((i 1).castLE hsub0) arg5 f k0_off48 k0_off48_inb z k acc

@[sl_loop] def li_t47 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t47_loop.lb k0_t47_loop.ub k0_t47_loop.st k0_t47_ok z (k0_t47_body (F := F) i arg2 harg2 arg3 harg3 arg4 harg4 arg5 harg5 arg6 harg6 arg7 arg8 v1386_r0) where
  inv := invG d ((i 0).castLE hcore0) ((i 1).castLE hsub0) arg5 f k0_off49 k0_off49_inb z
  step k acc := trip_sound d ((i 0).castLE hcore0) ((i 1).castLE hsub0) arg5 f k0_off49 k0_off49_inb z k acc

@[sl_loop] def li_t48 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t48_loop.lb k0_t48_loop.ub k0_t48_loop.st k0_t48_ok z (k0_t48_body (F := F) i arg2 harg2 arg3 harg3 arg4 harg4 arg5 harg5 arg6 harg6 arg7 arg8 v1386_r0) where
  inv := invG d ((i 0).castLE hcore0) ((i 1).castLE hsub0) arg5 f k0_off50 k0_off50_inb z
  step k acc := trip_sound d ((i 0).castLE hcore0) ((i 1).castLE hsub0) arg5 f k0_off50 k0_off50_inb z k acc

@[sl_loop] def li_t49 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v2 : BitVec 32) (v1031_4 : FVec F S16 .f32) (v1031_5 : FVec F S16 .f32) (v1031_6 : FVec F S16 .f32) (v1031_7 : FVec F S16 .f32) (v1032 : FVec F S16 .f32) (v1033 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t49_loop.lb k0_t49_loop.ub k0_t49_loop.st k0_t49_ok z (k0_t49_body (F := F) i arg2 harg2 arg3 harg3 arg4 harg4 arg5 harg5 arg6 harg6 arg7 arg8 v1386_r0 v2 v1031_4 v1031_5 v1031_6 v1031_7 v1032 v1033) where
  inv := invG d ((i 0).castLE hcore0) ((i 1).castLE hsub0) arg4 f k0_off51 k0_off51_inb z
  step k acc := trip_sound d ((i 0).castLE hcore0) ((i 1).castLE hsub0) arg4 f k0_off51 k0_off51_inb z k acc

@[sl_loop] def li_t50 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t50_loop.lb k0_t50_loop.ub k0_t50_loop.st k0_t50_ok z (k0_t50_body (F := F) i arg2 harg2 arg3 harg3 arg4 harg4 arg5 harg5 arg6 harg6 arg7 arg8 v1386_r0) where
  inv := invG d ((i 0).castLE hcore0) ((i 1).castLE hsub0) arg4 f k0_off52 k0_off52_inb z
  step k acc := trip_sound d ((i 0).castLE hcore0) ((i 1).castLE hsub0) arg4 f k0_off52 k0_off52_inb z k acc

@[sl_loop] def li_t51 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t51_loop.lb k0_t51_loop.ub k0_t51_loop.st k0_t51_ok z (k0_t51_body (F := F) i arg2 harg2 arg3 harg3 arg4 harg4 arg5 harg5 arg6 harg6 arg7 arg8 v1386_r0) where
  inv := invG d ((i 0).castLE hcore0) ((i 1).castLE hsub0) arg4 f k0_off53 k0_off53_inb z
  step k acc := trip_sound d ((i 0).castLE hcore0) ((i 1).castLE hsub0) arg4 f k0_off53 k0_off53_inb z k acc

@[sl_loop] def li_t52 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v1099_4 : FVec F S16 .f32) (v1099_5 : FVec F S16 .f32) (v1099_6 : FVec F S16 .f32) (v1099_7 : FVec F S16 .f32) (v1100 : FVec F S16 .f32) (v1101 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t52_loop.lb k0_t52_loop.ub k0_t52_loop.st k0_t52_ok z (k0_t52_body (F := F) i arg2 harg2 arg3 harg3 arg4 harg4 arg5 harg5 arg6 harg6 arg7 arg8 v1386_r0 v1099_4 v1099_5 v1099_6 v1099_7 v1100 v1101) where
  inv := invG d ((i 0).castLE hcore0) ((i 1).castLE hsub0) arg4 f k0_off54 k0_off54_inb z
  step k acc := trip_sound d ((i 0).castLE hcore0) ((i 1).castLE hsub0) arg4 f k0_off54 k0_off54_inb z k acc

@[sl_loop] def li_t53 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v1132 : FVec F S16 .f32) (v1133 : FVec F S16 .f32) (v1134 : FVec F S16 .f32) (v1135 : FVec F S16 .f32) (v1136 : FVec F S16 .f32) (v1137 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t53_loop.lb k0_t53_loop.ub k0_t53_loop.st k0_t53_ok z (k0_t53_body (F := F) i arg2 harg2 arg3 harg3 arg4 harg4 arg5 harg5 arg6 harg6 arg7 arg8 v1386_r0 v1132 v1133 v1134 v1135 v1136 v1137) where
  inv := invG d ((i 0).castLE hcore0) ((i 1).castLE hsub0) arg4 f k0_off55 k0_off55_inb z
  step k acc := trip_sound d ((i 0).castLE hcore0) ((i 1).castLE hsub0) arg4 f k0_off55 k0_off55_inb z k acc

@[sl_loop] def li_t54 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v1132 : FVec F S16 .f32) (v1133 : FVec F S16 .f32) (v1134 : FVec F S16 .f32) (v1135 : FVec F S16 .f32) (v1136 : FVec F S16 .f32) (v1137 : FVec F S16 .f32) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t54_loop.lb k0_t54_loop.ub k0_t54_loop.st k0_t54_ok z (k0_t54_body (F := F) i arg2 harg2 arg3 harg3 arg4 harg4 arg5 harg5 arg6 harg6 arg7 arg8 v1386_r0 v1132 v1133 v1134 v1135 v1136 v1137) where
  inv := invG d ((i 0).castLE hcore0) ((i 1).castLE hsub0) arg4 f k0_off56 k0_off56_inb z
  step k acc := trip_sound d ((i 0).castLE hcore0) ((i 1).castLE hsub0) arg4 f k0_off56 k0_off56_inb z k acc

@[sl_loop] def li_t55 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t55_loop.lb k0_t55_loop.ub k0_t55_loop.st k0_t55_ok z (k0_t55_body (F := F) i arg2 harg2 arg3 harg3 arg4 harg4 arg5 harg5 arg6 harg6 arg7 arg8 v1386_r0) where
  inv := invG d ((i 0).castLE hcore0) ((i 1).castLE hsub0) arg4 f k0_off57 k0_off57_inb z
  step k acc := trip_sound d ((i 0).castLE hcore0) ((i 1).castLE hsub0) arg4 f k0_off57 k0_off57_inb z k acc

@[sl_loop] def li_t56 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (f : BufTy.Contents (Elt F) arg4.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t56_loop.lb k0_t56_loop.ub k0_t56_loop.st k0_t56_ok z (k0_t56_body (F := F) i arg2 harg2 arg3 harg3 arg4 harg4 arg5 harg5 arg6 harg6 arg7 arg8 v1386_r0) where
  inv := invG d ((i 0).castLE hcore0) ((i 1).castLE hsub0) arg4 f k0_off58 k0_off58_inb z
  step k acc := trip_sound d ((i 0).castLE hcore0) ((i 1).castLE hsub0) arg4 f k0_off58 k0_off58_inb z k acc

@[sl_loop] def li_t57 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v1204_4 : FVec F S16 .f32) (v1204_5 : FVec F S16 .f32) (v1204_6 : FVec F S16 .f32) (v1204_7 : FVec F S16 .f32) (v1205 : FVec F S16 .f32) (v1206 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t57_loop.lb k0_t57_loop.ub k0_t57_loop.st k0_t57_ok z (k0_t57_body (F := F) i arg2 harg2 arg3 harg3 arg4 harg4 arg5 harg5 arg6 harg6 arg7 arg8 v1386_r0 v1204_4 v1204_5 v1204_6 v1204_7 v1205 v1206) where
  inv := invG d ((i 0).castLE hcore0) ((i 1).castLE hsub0) arg5 f k0_off59 k0_off59_inb z
  step k acc := trip_sound d ((i 0).castLE hcore0) ((i 1).castLE hsub0) arg5 f k0_off59 k0_off59_inb z k acc

@[sl_loop] def li_t58 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v1239 : FVec F S16 .f32) (v1240 : FVec F S16 .f32) (v1241 : FVec F S16 .f32) (cst_782 : F .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t58_loop.lb k0_t58_loop.ub k0_t58_loop.st k0_t58_ok z (k0_t58_body (F := F) i arg2 harg2 arg3 harg3 arg4 harg4 arg5 harg5 arg6 harg6 arg7 arg8 v1386_r0 v1239 v1240 v1241 cst_782) where
  inv := invG d ((i 0).castLE hcore0) ((i 1).castLE hsub0) arg5 f k0_off60 k0_off60_inb z
  step k acc := trip_sound d ((i 0).castLE hcore0) ((i 1).castLE hsub0) arg5 f k0_off60 k0_off60_inb z k acc

@[sl_loop] def li_t59 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v1239 : FVec F S16 .f32) (v1240 : FVec F S16 .f32) (v1241 : FVec F S16 .f32) (cst_782 : F .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t59_loop.lb k0_t59_loop.ub k0_t59_loop.st k0_t59_ok z (k0_t59_body (F := F) i arg2 harg2 arg3 harg3 arg4 harg4 arg5 harg5 arg6 harg6 arg7 arg8 v1386_r0 v1239 v1240 v1241 cst_782) where
  inv := invG d ((i 0).castLE hcore0) ((i 1).castLE hsub0) arg5 f k0_off61 k0_off61_inb z
  step k acc := trip_sound d ((i 0).castLE hcore0) ((i 1).castLE hsub0) arg5 f k0_off61 k0_off61_inb z k acc

@[sl_loop] def li_t60 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v1276 : FVec F S16 .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t60_loop.lb k0_t60_loop.ub k0_t60_loop.st k0_t60_ok z (k0_t60_body (F := F) i arg2 harg2 arg3 harg3 arg4 harg4 arg5 harg5 arg6 harg6 arg7 arg8 v1386_r0 v1276) where
  inv := invG d ((i 0).castLE hcore0) ((i 1).castLE hsub0) arg5 f k0_off62 k0_off62_inb z
  step k acc := trip_sound d ((i 0).castLE hcore0) ((i 1).castLE hsub0) arg5 f k0_off62 k0_off62_inb z k acc

@[sl_loop] def li_t61 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v1302 : FVec F S16 .f32) (v1303 : FVec F S16 .f32) (v1304 : FVec F S16 .f32) (v1305 : FVec F S16 .f32) (v1306 : FVec F S16 .f32) (v1307 : FVec F S16 .f32) (v1308 : FVec F S16 .f32) (v1309 : FVec F S16 .f32) (c0_i32_826 : BitVec 32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t61_loop.lb k0_t61_loop.ub k0_t61_loop.st k0_t61_ok z (k0_t61_body (F := F) i arg2 harg2 arg3 harg3 arg4 harg4 arg5 harg5 arg6 harg6 arg7 arg8 v1386_r0 v1302 v1303 v1304 v1305 v1306 v1307 v1308 v1309 c0_i32_826) where
  inv := invG d ((i 0).castLE hcore0) ((i 1).castLE hsub0) arg5 f k0_off63 k0_off63_inb z
  step k acc := trip_sound d ((i 0).castLE hcore0) ((i 1).castLE hsub0) arg5 f k0_off63 k0_off63_inb z k acc

@[sl_loop] def li_t62 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v1302 : FVec F S16 .f32) (v1303 : FVec F S16 .f32) (v1304 : FVec F S16 .f32) (v1305 : FVec F S16 .f32) (v1306 : FVec F S16 .f32) (v1307 : FVec F S16 .f32) (v1308 : FVec F S16 .f32) (v1309 : FVec F S16 .f32) (c0_i32_826 : BitVec 32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t62_loop.lb k0_t62_loop.ub k0_t62_loop.st k0_t62_ok z (k0_t62_body (F := F) i arg2 harg2 arg3 harg3 arg4 harg4 arg5 harg5 arg6 harg6 arg7 arg8 v1386_r0 v1302 v1303 v1304 v1305 v1306 v1307 v1308 v1309 c0_i32_826) where
  inv := invG d ((i 0).castLE hcore0) ((i 1).castLE hsub0) arg5 f k0_off64 k0_off64_inb z
  step k acc := trip_sound d ((i 0).castLE hcore0) ((i 1).castLE hsub0) arg5 f k0_off64 k0_off64_inb z k acc

@[sl_loop] def li_t63 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v1344 : FVec F S16 .f32) (v1345 : FVec F S16 .f32) (v1346 : FVec F S16 .f32) (cst_847 : F .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t63_loop.lb k0_t63_loop.ub k0_t63_loop.st k0_t63_ok z (k0_t63_body (F := F) i arg2 harg2 arg3 harg3 arg4 harg4 arg5 harg5 arg6 harg6 arg7 arg8 v1386_r0 v1344 v1345 v1346 cst_847) where
  inv := invG d ((i 0).castLE hcore0) ((i 1).castLE hsub0) arg5 f k0_off65 k0_off65_inb z
  step k acc := trip_sound d ((i 0).castLE hcore0) ((i 1).castLE hsub0) arg5 f k0_off65 k0_off65_inb z k acc

@[sl_loop] def li_t64 (d : Dev nD) (i : grid0.Coords) (arg2 : Memref sig .scVector .hbm S16384x4096 .f32) (harg2 : arg2.IsWhole) (arg3 : Memref sig .scVector .hbm S2048x16 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S64x16 .f32) (harg6 : arg6.IsWhole) (arg7 : DmaSems sig S_) (arg8 : DmaSems sig S_) (v1386_r0 : DmaSems sig S_) (v1344 : FVec F S16 .f32) (v1345 : FVec F S16 .f32) (v1346 : FVec F S16 .f32) (cst_847 : F .f32) (f : BufTy.Contents (Elt F) arg5.view.ty) (z : Acc8 F) :
    LoopInv (M := MT nD τ sig (HIx 1) (Elt F) ℕ UU ℕ) Idealize.ShloMosaic.frame (wpE (defs₀ (F := F)) 𝒱₀ (V d ((i 0).castLE hcore0) ((i 1).castLE hsub0)) none) Set.univ
      k0_t64_loop.lb k0_t64_loop.ub k0_t64_loop.st k0_t64_ok z (k0_t64_body (F := F) i arg2 harg2 arg3 harg3 arg4 harg4 arg5 harg5 arg6 harg6 arg7 arg8 v1386_r0 v1344 v1345 v1346 cst_847) where
  inv := invG d ((i 0).castLE hcore0) ((i 1).castLE hsub0) arg5 f k0_off66 k0_off66_inb z
  step k acc := trip_sound d ((i 0).castLE hcore0) ((i 1).castLE hsub0) arg5 f k0_off66 k0_off66_inb z k acc

end Cert.Proof.KB

end
-- ==== Proof.KB.TileFrame.lean ====
/-
  The tile's body at a symbolic tile: from the tile's read share of the weight matrix, its 64 rows of the result at any
  contents, its own scratch and semaphores, the body runs to its end and hands all of it back.

  The protocol is local: two buffers of eight rows with one semaphore each, copy `ci + 1` issued into the other buffer
  before the wait for copy `ci`, one copy at a time on each semaphore; a third semaphore for the one copy of the 64 summed
  rows out to the result. The 64 row loops go by the one invariant of a row's loop.
-/
import proofs.«216131_g62878321214323_cont_9to1c4b_752_23_alg».proof.Proof.KB.Common
import proofs.«216131_g62878321214323_cont_9to1c4b_752_23_alg».proof.Proof.KB.TileSpec
import proofs.«216131_g62878321214323_cont_9to1c4b_752_23_alg».proof.Proof.KB.TileLoopTable
import proofs.«216131_g62878321214323_cont_9to1c4b_752_23_alg».proof.Proof.Gen.Kernel.Skeleton
import Idealize.ShloMosaic.Lib.Exec
import Idealize.ShloMosaic.Lib.Tactic

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The tile's thread, its memrefs and its cells -/

section Tile

variable (wc : (d : Dev nD) → Buf (Elt F) (wLoc d)) (d : Dev nD) (c : Fin (grid0.bound 0)) (s : Fin (grid0.bound 1))

abbrev cV : Fin τ.nSC := ((coordsV c s) 0).castLE hcore0
abbrev jV : Fin τ.nSub := ((coordsV c s) 1).castLE hsub0
/-- The tile's thread. -/
abbrev thrV : Thread nD τ := V d (cV c s) (jV c s)

abbrev wV : Memref sig .scVector .hbm S16384x4096 .f32 := Memref.whole main_v3_scv
abbrev oV : Memref sig .scVector .hbm S2048x16 .f32 := Memref.whole main_v4_scv
abbrev sA : Memref sig .scVector .vmem S8x4096 .f32 := Memref.whole cc0_scratch0
abbrev sB : Memref sig .scVector .vmem S8x4096 .f32 := Memref.whole cc0_scratch1
abbrev sC : Memref sig .scVector .vmem S64x16 .f32 := Memref.whole cc0_scratch2

abbrev cellA : GSem nD τ sig := (thrV d c s, .dma cc0_scratch3.sem)
abbrev cellB : GSem nD τ sig := (thrV d c s, .dma cc0_scratch4.sem)
abbrev cellC : GSem nD τ sig := (thrV d c s, .dma cc0_scoped0.sem)

omit [FloatOps F] in
/-- The weight matrix as the tile's memref addresses it is the TensorCore's array, -/
theorem pts_w (q : PosShare TreeShare) (f : Buf (Elt F) (wLoc d)) :
    ((wV).view.loc (thrV d c s) ↦{q} f : sProp 𝕄) = wLoc d ↦{q} f := by
  simp only [Memref.view_whole, View.set_whole]
omit [FloatOps F] in
/-- and the tile's rows of the result, as the program slices them, are the TensorCore's array on those rows. -/
theorem pts_o (f : Buf (Elt F) (oLoc d)) :
    ((oSlice c s).view.loc (thrV d c s) ↦[(oSlice c s).view.set]{fullShare} f : sProp 𝕄) = oLoc d ↦[(oSlice c s).view.set]{fullShare} f := rfl
omit [FloatOps F] in
theorem pts_sA (f : Buf (Elt F) ((thrV d c s).loc cc0_scratch0)) :
    ((sA).view.loc (thrV d c s) ↦[(sA).view.set]{fullShare} f : sProp 𝕄) = (thrV d c s).loc cc0_scratch0 ↦{fullShare} f := by
  simp only [Memref.view_whole, View.set_whole]
omit [FloatOps F] in
theorem pts_sB (f : Buf (Elt F) ((thrV d c s).loc cc0_scratch1)) :
    ((sB).view.loc (thrV d c s) ↦[(sB).view.set]{fullShare} f : sProp 𝕄) = (thrV d c s).loc cc0_scratch1 ↦{fullShare} f := by
  simp only [Memref.view_whole, View.set_whole]
omit [FloatOps F] in
theorem pts_sC (f : Buf (Elt F) ((thrV d c s).loc cc0_scratch2)) :
    ((sC).view.loc (thrV d c s) ↦[(sC).view.set]{fullShare} f : sProp 𝕄) = (thrV d c s).loc cc0_scratch2 ↦{fullShare} f := by
  simp only [Memref.view_whole, View.set_whole]

omit [FloatOps F] in
/-- The tile's three DMA semaphores are among its own cells: they, at zero, and the rest. -/
theorem ownSems0_V :
    (ownSems0 (thrV d c s) : sProp 𝕄)
      = iprop(semVal (cellA d c s) 0 ∗ semVal (cellB d c s) 0 ∗ semVal (cellC d c s) 0
          ∗ bigSep ((((ownCells (thrV d c s)).erase (cellA d c s)).erase (cellB d c s)).erase (cellC d c s)) fun g => semVal g 0) := by
  unfold SparseCore.Cfg.ownSems0
  rw [SparseCore.bigSep_erase' ((mem_ownCells (g := cellA d c s)).mpr ⟨rfl, by
      show (SemLoc.dma cc0_scratch3.sem : SemLoc sig).isScoped .scVector = true; decide⟩),
    SparseCore.bigSep_erase' (Finset.mem_erase.mpr ⟨by simp [cellA, cellB]; decide, (mem_ownCells (g := cellB d c s)).mpr ⟨rfl, by
      show (SemLoc.dma cc0_scratch4.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d c s)).mpr ⟨rfl, by show (SemLoc.dma cc0_scoped0.sem : SemLoc sig).isScoped .scVector = true; decide⟩⟩⟩)]

omit [FloatOps F] in
/-- The three scratch buffers are among the tile's own: they, at some contents, and the rest. -/
theorem ownBufs_V :
    (ownBufs (thrV d c s) : sProp 𝕄)
      = iprop((∃ f, (thrV d c s).loc cc0_scratch0 ↦{fullShare} f) ∗ (∃ f, (thrV d c s).loc cc0_scratch1 ↦{fullShare} f)
          ∗ (∃ f, (thrV d c s).loc cc0_scratch2 ↦{fullShare} f)
          ∗ bigSep ((((ownRefs (τ := τ) (.scVector (cV c s) (jV c s))).erase ((Proc.scVector (cV c s) (jV c s)).devRef cc0_scratch0)).erase
              ((Proc.scVector (cV c s) (jV c s)).devRef cc0_scratch1)).erase ((Proc.scVector (cV c s) (jV c s)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV c s) (jV c s))
    (b := (Proc.scVector (cV c s) (jV c s)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV c s) (jV c s)) (b := (Proc.scVector (cV c s) (jV c s)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV c s) (jV c s)) (b := (Proc.scVector (cV c s) (jV c s)).devRef cc0_scratch2) rfl⟩⟩)]

set_option maxRecDepth 65536 in
theorem tile_body_frame (O : CellTallies nD τ sig (HIx 1)) (W : Waits sig (HIx 1)) (hO : ∀ g, O g none = 0) :
    (iprop(levAts (K (F := F)).L (K (F := F)).lev ∗ emp
        ∗ ((wLoc d ↦{wTok c s} wc d) ∗ ∃ g : Buf (Elt F) (oLoc d), oLoc d ↦[(oSlice c s).view.set]{fullShare} g)
        ∗ scopedBufs (thrV d c s) ∗ scopedSems0 (thrV d c s) ∗ owes (thrV d c s) O W) : sProp 𝕄)
      ⊢ wp frame (wpE (defs₀ (F := F)) 𝒱₀ (thrV d c s) none) Set.univ
          (cc0__sc_body (coordsV c s) wV (Memref.isWhole_whole _) oV (Memref.isWhole_whole _) sA (Memref.isWhole_whole _) sB (Memref.isWhole_whole _)
            sC (Memref.isWhole_whole _) cc0_scratch3 cc0_scratch4 cc0_scoped0)
          fun _ => iprop(((wLoc d ↦{wTok c s} wc d) ∗ ∃ g : Buf (Elt F) (oLoc d), oLoc d ↦[(oSlice c s).view.set]{fullShare} g)
            ∗ scopedBufs (thrV d c s) ∗ scopedSems0 (thrV d c s)
            ∗ ∃ W', ⌜∀ p ∈ W', p ∈ W ∨ p.2 = none⌝ ∗ owes (thrV d c s) O W') := by
  simp only [cc0__sc_body_eq_skeleton]; unfold cc0__sc_body_skel
  rw [(K (F := F)).scopedBufs_V facts d (cV c s) (jV c s), SparseCore.Cfg.scopedSems0_V (Val := Elt F) d (cV c s) (jV c s), ownSems0_V, ownBufs_V]
  iintro ⟨#Hlv, -, ⟨Hw, %g, Ho⟩, ⟨⟨%fa, Ha⟩, ⟨%fb, Hb⟩, ⟨%fc, Hc⟩, Hbufs⟩, ⟨HsemA, HsemB, HsemC, Hsems⟩, HO⟩
  ihave Hmw := ((K (F := F)).mayWaits_none (thr := thrV d c s) hO) $$ Hlv
  ihave Hw' := (Entails.of_eq (pts_w (F := F) d c s _ _).symm) $$ Hw
  ihave Ho' := (Entails.of_eq (pts_o (F := F) d c s _).symm) $$ Ho
  ihave Ha' := (Entails.of_eq (pts_sA (F := F) d c s _).symm) $$ Ha
  ihave Hb' := (Entails.of_eq (pts_sB (F := F) d c s _).symm) $$ Hb
  ihave Hc' := (Entails.of_eq (pts_sC (F := F) d c s _).symm) $$ Hc
  sl_exec_parts
  sl_step
  isplitl [Hw' Ho']
  · isplitl [Hw']
    · iapply (Entails.of_eq (pts_w (F := F) d c s _ _)); iexact Hw'
    · iexists _; iapply (Entails.of_eq (pts_o (F := F) d c s _)); iexact Ho'
  isplitl [Ha' Hb' Hc' Hbufs]
  · isplitl [Ha']; · iexists _; iapply (Entails.of_eq (pts_sA (F := F) d c s _)); iexact Ha'
    isplitl [Hb']; · iexists _; iapply (Entails.of_eq (pts_sB (F := F) d c s _)); iexact Hb'
    isplitl [Hc']; · iexists _; iapply (Entails.of_eq (pts_sC (F := F) d c s _)); iexact Hc'
    iexact Hbufs
  isplitl [HsemA HsemB HsemC Hsems]
  · isplitl [HsemA]; · iexact HsemA
    isplitl [HsemB]; · iexact HsemB
    isplitl [HsemC]; · iexact HsemC
    iexact Hsems
  iexists _; isplitr
  swap
  · iexact HO
  · ipureintro; intro p hp
    repeat (rcases Finset.mem_insert.mp hp with rfl | hp; · exact .inr rfl)
    exact .inl hp

end Tile

/-! ## The launch theorem's obligation -/

theorem defs₀_vector (c : Fin τ.nSC) (s : Fin τ.nSub) :
    defs₀ (F := F) (.scVector c s) 0 ()
      = SparseCore.onTile hcore0 hsub0 (fun c s => cc0__sc_body (coordsV c s) wV (Memref.isWhole_whole _) oV (Memref.isWhole_whole _)
          sA (Memref.isWhole_whole _) sB (Memref.isWhole_whole _) sC (Memref.isWhole_whole _) cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (wc : (d : Dev nD) → Buf (Elt F) (wLoc d))

/-- The call's payload with the tiles' results at SOME contents: what the frame alone hands back. -/
def Pfr : (K (F := F)).Pay (nD := nD) (Val := Elt F) (Name := ℕ) (U := UU) where
  st := fun q d c => match q with | 0 => bigSep Finset.univ fun s : Fin 16 => tileIn wc d (Fin.cast nCore_zero c) s
  dn := fun q d c => match q with | 0 => bigSep Finset.univ fun s : Fin 16 => tileIn wc d (Fin.cast nCore_zero c) s
  go := fun q d c i => match q with | 0 => tileIn wc d (Fin.cast nCore_zero c) (Fin.cast nSub_zero i)
  td := fun q d c i => match q with | 0 => tileIn wc d (Fin.cast nCore_zero c) (Fin.cast nSub_zero i)
  x := fun _ _ => iprop(emp)

theorem tileObl_frame : (K (F := F)).TileObl (D (F := F)) 𝒱 (Pfr (F := F) wc) v₀ 0 := by
  intro d c i O W hO _ _
  -- the kernel owes nothing for a protocol of its own
  simp only [show (Pfr (F := F) wc).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body_frame wc d ⟨_, hc.1⟩ ⟨_, hc.2⟩ O W hO).trans (wp_mono frame _ _ fun _ => obl_post)

end Cert.Proof.KB

end
-- ==== Proof.KB.TileValue.lean ====
/-
  The value of a stored row: a load of a copied-in buffer reads the weight matrix, a row's loop sums the row's pieces
  in the lane sums' own order, and the tree of its accumulators is the lane sums' row.
-/
import proofs.«216131_g62878321214323_cont_9to1c4b_752_23_alg».proof.Proof.KB.Common
import proofs.«216131_g62878321214323_cont_9to1c4b_752_23_alg».proof.Proof.KB.TileSpec
import proofs.«216131_g62878321214323_cont_9to1c4b_752_23_alg».proof.Proof.KB.TileFrame
import Idealize.ShloMosaic.Lib.Writes
import Idealize.ShloMosaic.Lib.Pipeline.Value
import Idealize.ShloMosaic.Lib.Exec
import Idealize.ShloMosaic.Lib.Tactic

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What a load of a copied-in buffer reads -/

omit [FloatOps F] in
/-- Lane `l` of a one-row block read as a 16-lane vector is the block's element `(0, l)`, -/
theorem cast_S1x16 (v : Vec F S1x16 .f32) (l : S16.Idx) :
    shapeCast S16 v shapeCasts_S1x16_S16 l = v (ValueIdx.ix2 0 (l 0)) := by
  refine shapeCast_apply v shapeCasts_S1x16_S16 l (ValueIdx.ix2 0 (l 0)) ?_
  rw [Shape.rowMajor_val_two, Shape.rowMajor_val_one]
  show (0 : Nat) * 16 + (l 0).val = (l 0).val
  omega

omit [FloatOps F] in
/-- and element `x` of a 16-lane vector read as a one-row block is the vector's lane `x 1`. -/
theorem cast_S16 (v : FVec F S16 .f32) (x : S1x16.Idx) :
    shapeCast S1x16 v shapeCasts_S16_S1x16 x = v (ValueIdx.ix1 (x 1)) := by
  refine shapeCast_apply v shapeCasts_S16_S1x16 x (ValueIdx.ix1 (x 1)) ?_
  rw [Shape.rowMajor_val_two, Shape.rowMajor_val_one]
  have hx0 : (x 0).val < 1 := (x 0).isLt
  show (x 1).val = (x 0).val * 16 + (x 1).val
  omega

/-- A buffer whose last write is a whole-buffer copy `X` reads `X`: the first buffer, -/
theorem ldPiece_sA (X : S8x4096.Idx → Elt F .f32) (L : List (View.Piece (Elt F) S8x4096 .f32)) (o : Fin 2 → Nat)
    (inb : ∀ a, o a + S1x16.size a ≤ S8x4096.size a) (l : S16.Idx) :
    ldPiece sA (sA.view.writes (Elt F) sA.view.junk (⟨Rect.whole S8x4096, X⟩ :: L)) o inb l
      = X ((Rect.unit (s := S8x4096) o S1x16.size inb).emb (ValueIdx.ix2 0 (l 0))) := by
  unfold ldPiece
  rw [cast_S1x16, View.readAt_apply]
  have h := View.read_writes_cons_emb (Val := Elt F) sA.view sA.view.junk (Rect.whole S8x4096) X L
    ((Rect.unit (s := S8x4096) o S1x16.size inb).emb (ValueIdx.ix2 0 (l 0)))
  rw [Rect.emb_whole_apply] at h
  exact h

/-- and the second. -/
theorem ldPiece_sB (X : S8x4096.Idx → Elt F .f32) (L : List (View.Piece (Elt F) S8x4096 .f32)) (o : Fin 2 → Nat)
    (inb : ∀ a, o a + S1x16.size a ≤ S8x4096.size a) (l : S16.Idx) :
    ldPiece sB (sB.view.writes (Elt F) sB.view.junk (⟨Rect.whole S8x4096, X⟩ :: L)) o inb l
      = X ((Rect.unit (s := S8x4096) o S1x16.size inb).emb (ValueIdx.ix2 0 (l 0))) := by
  unfold ldPiece
  rw [cast_S1x16, View.readAt_apply]
  have h := View.read_writes_cons_emb (Val := Elt F) sB.view sB.view.junk (Rect.whole S8x4096) X L
    ((Rect.unit (s := S8x4096) o S1x16.size inb).emb (ValueIdx.ix2 0 (l 0)))
  rw [Rect.emb_whole_apply] at h
  exact h

omit [FloatOps F] in
/-- The copy of the eight rows at offsets `o8` of the weight matrix reads the matrix there. -/
theorem copy_apply (d : Dev nD) (w : Buf (Elt F) (wLoc d)) (o8 : Fin 2 → Nat) (h8 : ∀ a, o8 a + S8x4096.size a ≤ S16384x4096.size a)
    (h8' : ∀ a, (Rect.unit (s := S16384x4096) o8 S8x4096.size h8).stride a = 1) (y : S8x4096.Idx) :
    ReadAs.same.apply (View.read (Elt F) (wV.slice (Rect.unit (s := S16384x4096) o8 S8x4096.size h8) h8').view w) y
      = w ((Rect.unit (s := S16384x4096) o8 S8x4096.size h8).emb y) := rfl

/-! ## A row's loop sums the row's pieces -/
theorem stG_accs (b : Memref sig .scVector .vmem S8x4096 .f32) (f : BufTy.Contents (Elt F) b.view.ty) (off : Fin 32 → BitVec 32 → Fin 2 → Nat)
    (inb : ∀ k : Fin 32, ∀ r : Fin 8, ∀ a, off k (BitVec.ofNat 32 r.val) a + S1x16.size a ≤ S8x4096.size a)
    (p : Nat → FVec F S16 .f32) (z : FVec F S16 .f32)
    (hp : ∀ (k : Fin 32) (r : Fin 8), ldPiece b f (off k (BitVec.ofNat 32 r.val)) (inb k r) = p (8 * k.val + r.val)) :
    ∀ n, n ≤ 32 → stG b f off inb (z, z, z, z, z, z, z, z) n
      = (accs p z 0 n, accs p z 1 n, accs p z 2 n, accs p z 3 n, accs p z 4 n, accs p z 5 n, accs p z 6 n, accs p z 7 n) := by
  intro n
  induction n with
  | zero => intro _; rfl
  | succ n ih =>
    intro hn
    have h : n < 32 := hn
    rw [stG, dif_pos h, ih (Nat.le_of_lt h)]
    have h0 := hp ⟨n, h⟩ 0
    have h1 := hp ⟨n, h⟩ 1
    have h2 := hp ⟨n, h⟩ 2
    have h3 := hp ⟨n, h⟩ 3
    have h4 := hp ⟨n, h⟩ 4
    have h5 := hp ⟨n, h⟩ 5
    have h6 := hp ⟨n, h⟩ 6
    have h7 := hp ⟨n, h⟩ 7
    show (addf _ (ldPiece b f (off ⟨n, h⟩ 0#32) (inb ⟨n, h⟩ 0)), addf _ (ldPiece b f (off ⟨n, h⟩ 1#32) (inb ⟨n, h⟩ 1)),
      addf _ (ldPiece b f (off ⟨n, h⟩ 2#32) (inb ⟨n, h⟩ 2)), addf _ (ldPiece b f (off ⟨n, h⟩ 3#32) (inb ⟨n, h⟩ 3)),
      addf _ (ldPiece b f (off ⟨n, h⟩ 4#32) (inb ⟨n, h⟩ 4)), addf _ (ldPiece b f (off ⟨n, h⟩ 5#32) (inb ⟨n, h⟩ 5)),
      addf _ (ldPiece b f (off ⟨n, h⟩ 6#32) (inb ⟨n, h⟩ 6)), addf _ (ldPiece b f (off ⟨n, h⟩ 7#32) (inb ⟨n, h⟩ 7))) = _
    rw [show ldPiece b f (off ⟨n, h⟩ 0#32) (inb ⟨n, h⟩ 0) = p (8 * n + 0) from h0,
      show ldPiece b f (off ⟨n, h⟩ 1#32) (inb ⟨n, h⟩ 1) = p (8 * n + 1) from h1,
      show ldPiece b f (off ⟨n, h⟩ 2#32) (inb ⟨n, h⟩ 2) = p (8 * n + 2) from h2,
      show ldPiece b f (off ⟨n, h⟩ 3#32) (inb ⟨n, h⟩ 3) = p (8 * n + 3) from h3,
      show ldPiece b f (off ⟨n, h⟩ 4#32) (inb ⟨n, h⟩ 4) = p (8 * n + 4) from h4,
      show ldPiece b f (off ⟨n, h⟩ 5#32) (inb ⟨n, h⟩ 5) = p (8 * n + 5) from h5,
      show ldPiece b f (off ⟨n, h⟩ 6#32) (inb ⟨n, h⟩ 6) = p (8 * n + 6) from h6,
      show ldPiece b f (off ⟨n, h⟩ 7#32) (inb ⟨n, h⟩ 7) = p (8 * n + 7) from h7]
    rfl

/-! ## Closed forms, as classes the unifier can read a stored row's loop and copy from -/

/-- A loop's offset function in closed form: row `row` of the buffer, trip `k`'s piece `r` at column `128 k + 16 r`. -/
class RowOff (off : Fin 32 → BitVec 32 → Fin 2 → Nat) (row : outParam Nat) : Prop where
  eq : ∀ (k : Fin 32) (r : Fin 8), off k (BitVec.ofNat 32 r.val) = ![row, 128 * k.val + 16 * r.val]

/-- A copy's slice offsets in closed form: eight rows of the matrix from row `base`. -/
class ChunkOff (o8 : Fin 2 → Nat) (base : outParam Nat) : Prop where
  eq : o8 = ![base, 0]

/-- A load, in the first buffer after a copy of eight rows of the matrix from row `base`, through a loop's offset function for the
    buffer's row `row`: trip `k`'s piece `r` is piece `8 k + r` of the matrix's row `base + row`. -/
theorem ldPiece_copy_sA (d : Dev nD) (w : Buf (Elt F) (wLoc d)) (o8 : Fin 2 → Nat) (h8 : ∀ a, o8 a + S8x4096.size a ≤ S16384x4096.size a)
    (h8' : ∀ a, (Rect.unit (s := S16384x4096) o8 S8x4096.size h8).stride a = 1) (L : List (View.Piece (Elt F) S8x4096 .f32))
    (off : Fin 32 → BitVec 32 → Fin 2 → Nat)
    (inb : ∀ k : Fin 32, ∀ r : Fin 8, ∀ a, off k (BitVec.ofNat 32 r.val) a + S1x16.size a ≤ S8x4096.size a)
    (row base : Nat) [RowOff off row] [ChunkOff o8 base] (hlt : base + row < 16384) (k : Fin 32) (r : Fin 8) :
    ldPiece sA (sA.view.writes (Elt F) sA.view.junk (⟨Rect.whole S8x4096,
        ReadAs.same.apply (View.read (Elt F) (wV.slice (Rect.unit (s := S16384x4096) o8 S8x4096.size h8) h8').view w)⟩ :: L))
        (off k (BitVec.ofNat 32 r.val)) (inb k r)
      = wPiece w ⟨base + row, hlt⟩ (8 * k.val + r.val) := by
  funext l
  rw [ldPiece_sA, copy_apply]
  unfold wPiece
  have hk := k.isLt
  have hr := r.isLt
  have hl : (l 0).val < 16 := (l 0).isLt
  refine congrArg w (funext fun a => Fin.ext ?_)
  match a with
  | ⟨0, _⟩ =>
    show o8 0 + 1 * (off k (BitVec.ofNat 32 r.val) 0 + 1 * 0) = base + row
    rw [RowOff.eq (off := off) k r, ChunkOff.eq (o8 := o8)]
    simp only [Matrix.cons_val_zero]
    omega
  | ⟨1, _⟩ =>
    show o8 1 + 1 * (off k (BitVec.ofNat 32 r.val) 1 + 1 * (l 0).val) = (16 * (8 * k.val + r.val) + (l 0).val) % 4096
    rw [RowOff.eq (off := off) k r, ChunkOff.eq (o8 := o8)]
    simp only [Matrix.cons_val_one, Matrix.cons_val_zero, Matrix.head_cons]
    omega

/-- A load, in the second buffer after a copy of eight rows of the matrix from row `base`, through a loop's offset function for the
    buffer's row `row`: trip `k`'s piece `r` is piece `8 k + r` of the matrix's row `base + row`. -/
theorem ldPiece_copy_sB (d : Dev nD) (w : Buf (Elt F) (wLoc d)) (o8 : Fin 2 → Nat) (h8 : ∀ a, o8 a + S8x4096.size a ≤ S16384x4096.size a)
    (h8' : ∀ a, (Rect.unit (s := S16384x4096) o8 S8x4096.size h8).stride a = 1) (L : List (View.Piece (Elt F) S8x4096 .f32))
    (off : Fin 32 → BitVec 32 → Fin 2 → Nat)
    (inb : ∀ k : Fin 32, ∀ r : Fin 8, ∀ a, off k (BitVec.ofNat 32 r.val) a + S1x16.size a ≤ S8x4096.size a)
    (row base : Nat) [RowOff off row] [ChunkOff o8 base] (hlt : base + row < 16384) (k : Fin 32) (r : Fin 8) :
    ldPiece sB (sB.view.writes (Elt F) sB.view.junk (⟨Rect.whole S8x4096,
        ReadAs.same.apply (View.read (Elt F) (wV.slice (Rect.unit (s := S16384x4096) o8 S8x4096.size h8) h8').view w)⟩ :: L))
        (off k (BitVec.ofNat 32 r.val)) (inb k r)
      = wPiece w ⟨base + row, hlt⟩ (8 * k.val + r.val) := by
  funext l
  rw [ldPiece_sB, copy_apply]
  unfold wPiece
  have hk := k.isLt
  have hr := r.isLt
  have hl : (l 0).val < 16 := (l 0).isLt
  refine congrArg w (funext fun a => Fin.ext ?_)
  match a with
  | ⟨0, _⟩ =>
    show o8 0 + 1 * (off k (BitVec.ofNat 32 r.val) 0 + 1 * 0) = base + row
    rw [RowOff.eq (off := off) k r, ChunkOff.eq (o8 := o8)]
    simp only [Matrix.cons_val_zero]
    omega
  | ⟨1, _⟩ =>
    show o8 1 + 1 * (off k (BitVec.ofNat 32 r.val) 1 + 1 * (l 0).val) = (16 * (8 * k.val + r.val) + (l 0).val) % 4096
    rw [RowOff.eq (off := off) k r, ChunkOff.eq (o8 := o8)]
    simp only [Matrix.cons_val_one, Matrix.cons_val_zero, Matrix.head_cons]
    omega

/-! ## The target on the scratch, and a stored row -/

section Row
variable (wc : (d : Dev nD) → Buf (Elt F) (wLoc d)) (d : Dev nD) (c : Fin (grid0.bound 0)) (s : Fin (grid0.bound 1))

/-- The tile's lane sums as a function on its 64-row scratch: row `y 0` is the matrix's row `128 s + 64 c + y 0`. -/
def rowG (y : S64x16.Idx) : Elt F .f32 :=
  rowSum (wPiece (wc d) ⟨(128 * ((coordsV c s) 1).val + 64 * ((coordsV c s) 0).val + (y 0).val) % 16384, Nat.mod_lt _ (by decide)⟩) (ValueIdx.ix1 (y 1))

/-- A stored row from the first buffer: the tree of the row loop's eight accumulators, cast to a one-row block, is the
    target on the scratch's row `R`. -/
theorem row_piece_sA (L : List (View.Piece (Elt F) S8x4096 .f32))
    (off : Fin 32 → BitVec 32 → Fin 2 → Nat)
    (inb : ∀ k : Fin 32, ∀ r : Fin 8, ∀ a, off k (BitVec.ofNat 32 r.val) a + S1x16.size a ≤ S8x4096.size a)
    (z8 : Acc8 F) (n : Nat) (R : Nat) (inbR : ∀ a, (![R, 0] : Fin 2 → Nat) a + S1x16.size a ≤ S64x16.size a)
    (o8 : Fin 2 → Nat) (h8 : ∀ a, o8 a + S8x4096.size a ≤ S16384x4096.size a)
    (h8' : ∀ a, (Rect.unit (s := S16384x4096) o8 S8x4096.size h8).stride a = 1)
    (row base : Nat) [RowOff off row] [ChunkOff o8 base]
    (hz : z8 = (zeroV, zeroV, zeroV, zeroV, zeroV, zeroV, zeroV, zeroV)) (hn : n = 32)
    (hb : base + row = 128 * ((coordsV c s) 1).val + 64 * ((coordsV c s) 0).val + R) (hR : R < 64) (x : S1x16.Idx) :
    shapeCast S1x16 (tree8
        (stG sA (sA.view.writes (Elt F) sA.view.junk (⟨Rect.whole S8x4096, (ReadAs.same.apply (View.read (Elt F) (wV.slice (Rect.unit (s := S16384x4096) o8 S8x4096.size h8) h8').view (wc d)))⟩ :: L)) off inb z8 n).1
        (stG sA (sA.view.writes (Elt F) sA.view.junk (⟨Rect.whole S8x4096, (ReadAs.same.apply (View.read (Elt F) (wV.slice (Rect.unit (s := S16384x4096) o8 S8x4096.size h8) h8').view (wc d)))⟩ :: L)) off inb z8 n).2.1
        (stG sA (sA.view.writes (Elt F) sA.view.junk (⟨Rect.whole S8x4096, (ReadAs.same.apply (View.read (Elt F) (wV.slice (Rect.unit (s := S16384x4096) o8 S8x4096.size h8) h8').view (wc d)))⟩ :: L)) off inb z8 n).2.2.1
        (stG sA (sA.view.writes (Elt F) sA.view.junk (⟨Rect.whole S8x4096, (ReadAs.same.apply (View.read (Elt F) (wV.slice (Rect.unit (s := S16384x4096) o8 S8x4096.size h8) h8').view (wc d)))⟩ :: L)) off inb z8 n).2.2.2.1
        (stG sA (sA.view.writes (Elt F) sA.view.junk (⟨Rect.whole S8x4096, (ReadAs.same.apply (View.read (Elt F) (wV.slice (Rect.unit (s := S16384x4096) o8 S8x4096.size h8) h8').view (wc d)))⟩ :: L)) off inb z8 n).2.2.2.2.1
        (stG sA (sA.view.writes (Elt F) sA.view.junk (⟨Rect.whole S8x4096, (ReadAs.same.apply (View.read (Elt F) (wV.slice (Rect.unit (s := S16384x4096) o8 S8x4096.size h8) h8').view (wc d)))⟩ :: L)) off inb z8 n).2.2.2.2.2.1
        (stG sA (sA.view.writes (Elt F) sA.view.junk (⟨Rect.whole S8x4096, (ReadAs.same.apply (View.read (Elt F) (wV.slice (Rect.unit (s := S16384x4096) o8 S8x4096.size h8) h8').view (wc d)))⟩ :: L)) off inb z8 n).2.2.2.2.2.2.1
        (stG sA (sA.view.writes (Elt F) sA.view.junk (⟨Rect.whole S8x4096, (ReadAs.same.apply (View.read (Elt F) (wV.slice (Rect.unit (s := S16384x4096) o8 S8x4096.size h8) h8').view (wc d)))⟩ :: L)) off inb z8 n).2.2.2.2.2.2.2) shapeCasts_S16_S1x16 x
      = rowG wc d c s ((Rect.unit (s := S64x16) ![R, 0] S1x16.size inbR).emb x) := by
  have hs : ((coordsV c s) 1).val < 16 := s.isLt
  have hcc : ((coordsV c s) 0).val < 2 := c.isLt
  have hlt : base + row < 16384 := by omega
  subst hz hn
  rw [stG_accs sA _ off inb (wPiece (wc d) ⟨base + row, hlt⟩) zeroV
    (fun k r => ldPiece_copy_sA d (wc d) o8 h8 h8' L off inb row base hlt k r) 32 (Nat.le_refl _)]
  rw [cast_S16]
  have hx0 : (x 0).val < 1 := (x 0).isLt
  have e0 : (⟨base + row, hlt⟩ : Fin 16384)
      = ⟨(128 * ((coordsV c s) 1).val + 64 * ((coordsV c s) 0).val + (((Rect.unit (s := S64x16) ![R, 0] S1x16.size inbR).emb x) 0).val) % 16384,
          Nat.mod_lt _ (by decide)⟩ := by
    refine Fin.ext ?_
    show base + row = (128 * ((coordsV c s) 1).val + 64 * ((coordsV c s) 0).val + (R + 1 * (x 0).val)) % 16384
    omega
  have e1 : (x 1) = (((Rect.unit (s := S64x16) ![R, 0] S1x16.size inbR).emb x) 1) := by
    refine Fin.ext ?_
    show (x 1).val = 0 + 1 * (x 1).val
    omega
  unfold rowG
  rw [← e0, ← e1]
  rfl

/-- A stored row from the second buffer: the tree of the row loop's eight accumulators, cast to a one-row block, is the
    target on the scratch's row `R`. -/
theorem row_piece_sB (L : List (View.Piece (Elt F) S8x4096 .f32))
    (off : Fin 32 → BitVec 32 → Fin 2 → Nat)
    (inb : ∀ k : Fin 32, ∀ r : Fin 8, ∀ a, off k (BitVec.ofNat 32 r.val) a + S1x16.size a ≤ S8x4096.size a)
    (z8 : Acc8 F) (n : Nat) (R : Nat) (inbR : ∀ a, (![R, 0] : Fin 2 → Nat) a + S1x16.size a ≤ S64x16.size a)
    (o8 : Fin 2 → Nat) (h8 : ∀ a, o8 a + S8x4096.size a ≤ S16384x4096.size a)
    (h8' : ∀ a, (Rect.unit (s := S16384x4096) o8 S8x4096.size h8).stride a = 1)
    (row base : Nat) [RowOff off row] [ChunkOff o8 base]
    (hz : z8 = (zeroV, zeroV, zeroV, zeroV, zeroV, zeroV, zeroV, zeroV)) (hn : n = 32)
    (hb : base + row = 128 * ((coordsV c s) 1).val + 64 * ((coordsV c s) 0).val + R) (hR : R < 64) (x : S1x16.Idx) :
    shapeCast S1x16 (tree8
        (stG sB (sB.view.writes (Elt F) sB.view.junk (⟨Rect.whole S8x4096, (ReadAs.same.apply (View.read (Elt F) (wV.slice (Rect.unit (s := S16384x4096) o8 S8x4096.size h8) h8').view (wc d)))⟩ :: L)) off inb z8 n).1
        (stG sB (sB.view.writes (Elt F) sB.view.junk (⟨Rect.whole S8x4096, (ReadAs.same.apply (View.read (Elt F) (wV.slice (Rect.unit (s := S16384x4096) o8 S8x4096.size h8) h8').view (wc d)))⟩ :: L)) off inb z8 n).2.1
        (stG sB (sB.view.writes (Elt F) sB.view.junk (⟨Rect.whole S8x4096, (ReadAs.same.apply (View.read (Elt F) (wV.slice (Rect.unit (s := S16384x4096) o8 S8x4096.size h8) h8').view (wc d)))⟩ :: L)) off inb z8 n).2.2.1
        (stG sB (sB.view.writes (Elt F) sB.view.junk (⟨Rect.whole S8x4096, (ReadAs.same.apply (View.read (Elt F) (wV.slice (Rect.unit (s := S16384x4096) o8 S8x4096.size h8) h8').view (wc d)))⟩ :: L)) off inb z8 n).2.2.2.1
        (stG sB (sB.view.writes (Elt F) sB.view.junk (⟨Rect.whole S8x4096, (ReadAs.same.apply (View.read (Elt F) (wV.slice (Rect.unit (s := S16384x4096) o8 S8x4096.size h8) h8').view (wc d)))⟩ :: L)) off inb z8 n).2.2.2.2.1
        (stG sB (sB.view.writes (Elt F) sB.view.junk (⟨Rect.whole S8x4096, (ReadAs.same.apply (View.read (Elt F) (wV.slice (Rect.unit (s := S16384x4096) o8 S8x4096.size h8) h8').view (wc d)))⟩ :: L)) off inb z8 n).2.2.2.2.2.1
        (stG sB (sB.view.writes (Elt F) sB.view.junk (⟨Rect.whole S8x4096, (ReadAs.same.apply (View.read (Elt F) (wV.slice (Rect.unit (s := S16384x4096) o8 S8x4096.size h8) h8').view (wc d)))⟩ :: L)) off inb z8 n).2.2.2.2.2.2.1
        (stG sB (sB.view.writes (Elt F) sB.view.junk (⟨Rect.whole S8x4096, (ReadAs.same.apply (View.read (Elt F) (wV.slice (Rect.unit (s := S16384x4096) o8 S8x4096.size h8) h8').view (wc d)))⟩ :: L)) off inb z8 n).2.2.2.2.2.2.2) shapeCasts_S16_S1x16 x
      = rowG wc d c s ((Rect.unit (s := S64x16) ![R, 0] S1x16.size inbR).emb x) := by
  have hs : ((coordsV c s) 1).val < 16 := s.isLt
  have hcc : ((coordsV c s) 0).val < 2 := c.isLt
  have hlt : base + row < 16384 := by omega
  subst hz hn
  rw [stG_accs sB _ off inb (wPiece (wc d) ⟨base + row, hlt⟩) zeroV
    (fun k r => ldPiece_copy_sB d (wc d) o8 h8 h8' L off inb row base hlt k r) 32 (Nat.le_refl _)]
  rw [cast_S16]
  have hx0 : (x 0).val < 1 := (x 0).isLt
  have e0 : (⟨base + row, hlt⟩ : Fin 16384)
      = ⟨(128 * ((coordsV c s) 1).val + 64 * ((coordsV c s) 0).val + (((Rect.unit (s := S64x16) ![R, 0] S1x16.size inbR).emb x) 0).val) % 16384,
          Nat.mod_lt _ (by decide)⟩ := by
    refine Fin.ext ?_
    show base + row = (128 * ((coordsV c s) 1).val + 64 * ((coordsV c s) 0).val + (R + 1 * (x 0).val)) % 16384
    omega
  have e1 : (x 1) = (((Rect.unit (s := S64x16) ![R, 0] S1x16.size inbR).emb x) 1) := by
    refine Fin.ext ?_
    show (x 1).val = 0 + 1 * (x 1).val
    omega
  unfold rowG
  rw [← e0, ← e1]
  rfl

end Row

end Cert.Proof.KB

end
-- ==== Proof.KB.TileOffTable.lean ====
/-
  The row loops' offset functions and the copies' slice offsets in closed form, as instances: loop N reads the buffer's row
  (N - 1) mod 8; copy 0 starts at the tile's first row, copy ci at eight rows times ci further.
-/
import proofs.«216131_g62878321214323_cont_9to1c4b_752_23_alg».proof.Proof.KB.TileValue

namespace Cert.Proof.KB

open Cert.Kernel Cert.Kernel.Gen
open Idealize.ShloMosaic

instance : RowOff k0_off3 0 := ⟨k0_off3_eq⟩
instance : RowOff k0_off4 1 := ⟨k0_off4_eq⟩
instance : RowOff k0_off5 2 := ⟨k0_off5_eq⟩
instance : RowOff k0_off6 3 := ⟨k0_off6_eq⟩
instance : RowOff k0_off7 4 := ⟨k0_off7_eq⟩
instance : RowOff k0_off8 5 := ⟨k0_off8_eq⟩
instance : RowOff k0_off9 6 := ⟨k0_off9_eq⟩
instance : RowOff k0_off10 7 := ⟨k0_off10_eq⟩
instance : RowOff k0_off11 0 := ⟨k0_off11_eq⟩
instance : RowOff k0_off12 1 := ⟨k0_off12_eq⟩
instance : RowOff k0_off13 2 := ⟨k0_off13_eq⟩
instance : RowOff k0_off14 3 := ⟨k0_off14_eq⟩
instance : RowOff k0_off15 4 := ⟨k0_off15_eq⟩
instance : RowOff k0_off16 5 := ⟨k0_off16_eq⟩
instance : RowOff k0_off17 6 := ⟨k0_off17_eq⟩
instance : RowOff k0_off18 7 := ⟨k0_off18_eq⟩
instance : RowOff k0_off19 0 := ⟨k0_off19_eq⟩
instance : RowOff k0_off20 1 := ⟨k0_off20_eq⟩
instance : RowOff k0_off21 2 := ⟨k0_off21_eq⟩
instance : RowOff k0_off22 3 := ⟨k0_off22_eq⟩
instance : RowOff k0_off23 4 := ⟨k0_off23_eq⟩
instance : RowOff k0_off24 5 := ⟨k0_off24_eq⟩
instance : RowOff k0_off25 6 := ⟨k0_off25_eq⟩
instance : RowOff k0_off26 7 := ⟨k0_off26_eq⟩
instance : RowOff k0_off27 0 := ⟨k0_off27_eq⟩
instance : RowOff k0_off28 1 := ⟨k0_off28_eq⟩
instance : RowOff k0_off29 2 := ⟨k0_off29_eq⟩
instance : RowOff k0_off30 3 := ⟨k0_off30_eq⟩
instance : RowOff k0_off31 4 := ⟨k0_off31_eq⟩
instance : RowOff k0_off32 5 := ⟨k0_off32_eq⟩
instance : RowOff k0_off33 6 := ⟨k0_off33_eq⟩
instance : RowOff k0_off34 7 := ⟨k0_off34_eq⟩
instance : RowOff k0_off35 0 := ⟨k0_off35_eq⟩
instance : RowOff k0_off36 1 := ⟨k0_off36_eq⟩
instance : RowOff k0_off37 2 := ⟨k0_off37_eq⟩
instance : RowOff k0_off38 3 := ⟨k0_off38_eq⟩
instance : RowOff k0_off39 4 := ⟨k0_off39_eq⟩
instance : RowOff k0_off40 5 := ⟨k0_off40_eq⟩
instance : RowOff k0_off41 6 := ⟨k0_off41_eq⟩
instance : RowOff k0_off42 7 := ⟨k0_off42_eq⟩
instance : RowOff k0_off43 0 := ⟨k0_off43_eq⟩
instance : RowOff k0_off44 1 := ⟨k0_off44_eq⟩
instance : RowOff k0_off45 2 := ⟨k0_off45_eq⟩
instance : RowOff k0_off46 3 := ⟨k0_off46_eq⟩
instance : RowOff k0_off47 4 := ⟨k0_off47_eq⟩
instance : RowOff k0_off48 5 := ⟨k0_off48_eq⟩
instance : RowOff k0_off49 6 := ⟨k0_off49_eq⟩
instance : RowOff k0_off50 7 := ⟨k0_off50_eq⟩
instance : RowOff k0_off51 0 := ⟨k0_off51_eq⟩
instance : RowOff k0_off52 1 := ⟨k0_off52_eq⟩
instance : RowOff k0_off53 2 := ⟨k0_off53_eq⟩
instance : RowOff k0_off54 3 := ⟨k0_off54_eq⟩
instance : RowOff k0_off55 4 := ⟨k0_off55_eq⟩
instance : RowOff k0_off56 5 := ⟨k0_off56_eq⟩
instance : RowOff k0_off57 6 := ⟨k0_off57_eq⟩
instance : RowOff k0_off58 7 := ⟨k0_off58_eq⟩
instance : RowOff k0_off59 0 := ⟨k0_off59_eq⟩
instance : RowOff k0_off60 1 := ⟨k0_off60_eq⟩
instance : RowOff k0_off61 2 := ⟨k0_off61_eq⟩
instance : RowOff k0_off62 3 := ⟨k0_off62_eq⟩
instance : RowOff k0_off63 4 := ⟨k0_off63_eq⟩
instance : RowOff k0_off64 5 := ⟨k0_off64_eq⟩
instance : RowOff k0_off65 6 := ⟨k0_off65_eq⟩
instance : RowOff k0_off66 7 := ⟨k0_off66_eq⟩

instance (i : grid0.Coords) : ChunkOff (k0_off1 i) (128 * (i 1).val + 64 * (i 0).val) := ⟨k0_off1_eq i⟩
instance (i : grid0.Coords) : ChunkOff (k0_off2 i (BitVec.ofNat 32 8)) (128 * (i 1).val + 64 * (i 0).val + 8 * 0 + 8) := ⟨k0_off2_eq i ⟨0, by decide⟩⟩
instance (i : grid0.Coords) : ChunkOff (k0_off2 i (BitVec.ofNat 32 16)) (128 * (i 1).val + 64 * (i 0).val + 8 * 1 + 8) := ⟨k0_off2_eq i ⟨1, by decide⟩⟩
instance (i : grid0.Coords) : ChunkOff (k0_off2 i (BitVec.ofNat 32 24)) (128 * (i 1).val + 64 * (i 0).val + 8 * 2 + 8) := ⟨k0_off2_eq i ⟨2, by decide⟩⟩
instance (i : grid0.Coords) : ChunkOff (k0_off2 i (BitVec.ofNat 32 32)) (128 * (i 1).val + 64 * (i 0).val + 8 * 3 + 8) := ⟨k0_off2_eq i ⟨3, by decide⟩⟩
instance (i : grid0.Coords) : ChunkOff (k0_off2 i (BitVec.ofNat 32 40)) (128 * (i 1).val + 64 * (i 0).val + 8 * 4 + 8) := ⟨k0_off2_eq i ⟨4, by decide⟩⟩
instance (i : grid0.Coords) : ChunkOff (k0_off2 i (BitVec.ofNat 32 48)) (128 * (i 1).val + 64 * (i 0).val + 8 * 5 + 8) := ⟨k0_off2_eq i ⟨5, by decide⟩⟩
instance (i : grid0.Coords) : ChunkOff (k0_off2 i (BitVec.ofNat 32 56)) (128 * (i 1).val + 64 * (i 0).val + 8 * 6 + 8) := ⟨k0_off2_eq i ⟨6, by decide⟩⟩

end Cert.Proof.KB
-- ==== Proof.KB.TileBody.lean ====
/-
  The tile's body with its value: the run of the frame, and at its end the tile's 64 rows of the result hold the lane
  sums of its 64 rows of the weight matrix.

  The copy-out writes the rows whole from the scratch; the scratch's 64 stored rows are each the tree of a row loop's
  eight accumulators over a buffer whose last write is the copy of eight rows of the matrix, which is that row's lane
  sums; the stored rows tile the scratch, so the scratch is the lane sums' function on the tile's rows.
-/
import proofs.«216131_g62878321214323_cont_9to1c4b_752_23_alg».proof.Proof.KB.Common
import proofs.«216131_g62878321214323_cont_9to1c4b_752_23_alg».proof.Proof.KB.TileSpec
import proofs.«216131_g62878321214323_cont_9to1c4b_752_23_alg».proof.Proof.KB.TileOffTable
import proofs.«216131_g62878321214323_cont_9to1c4b_752_23_alg».proof.Proof.Gen.Kernel.Skeleton
import Idealize.ShloMosaic.Lib.Writes
import Idealize.ShloMosaic.Lib.Exec
import Idealize.ShloMosaic.Lib.Tactic

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- One stored row whose loop read the first buffer, -/
macro "row_A" : tactic => `(tactic| (intro x; exact row_piece_sA _ _ _ _ _ _ _ _ _ _ (by decide) _ _ _ _ _ rfl rfl (by omega) (by decide) x))
/-- and one whose loop read the second. -/
macro "row_B" : tactic => `(tactic| (intro x; exact row_piece_sB _ _ _ _ _ _ _ _ _ _ (by decide) _ _ _ _ _ rfl rfl (by omega) (by decide) x))

section TileV

variable (wc : (d : Dev nD) → Buf (Elt F) (wLoc d)) (d : Dev nD) (c : Fin (grid0.bound 0)) (s : Fin (grid0.bound 1))

/-! ## The result rows after the copy-out -/

omit [FloatOps F] in
theorem oSlice_emb_val (y : S64x16.Idx) (a : Fin 2) :
    (((oSlice c s).view.emb y) a : Nat) = k0_off67 (coordsV c s) a + 1 * (y a).val := rfl

/-- Rows written whole by a copy of a scratch that is the target function hold the lane sums. -/
theorem out_congr (g : Buf (Elt F) (oLoc d)) (X : S64x16.Idx → Elt F .f32) (hX : ∀ y, X y = rowG wc d c s y) :
    ((oSlice c s).view.loc (thrV d c s) ↦[(oSlice c s).view.set]{fullShare} (oSlice c s).view.writes (Elt F) g [⟨Rect.whole S64x16, X⟩] : sProp 𝕄)
      = ((oSlice c s).view.loc (thrV d c s) ↦[(oSlice c s).view.set]{fullShare} (laneSums (wc d) : Buf (Elt F) (oLoc d))) := by
  refine pointsTo_congr fun i hi => ?_
  obtain ⟨y, -, rfl⟩ := Finset.mem_map.mp hi
  have h := View.read_writes_cons_emb (Val := Elt F) (oSlice c s).view g (Rect.whole S64x16) X [] y
  rw [Rect.emb_whole_apply, View.read_apply] at h
  have hs : ((coordsV c s) 1).val < 16 := s.isLt
  have hcc : ((coordsV c s) 0).val < 2 := c.isLt
  have hy0 : (y 0).val < 64 := (y 0).isLt
  have hy1 : (y 1).val < 16 := (y 1).isLt
  have v0 : (((oSlice c s).view.emb y) 0 : Nat) = 128 * ((coordsV c s) 1).val + 64 * ((coordsV c s) 0).val + (y 0).val :=
    (oSlice_emb_val c s y 0).trans (by rw [k0_off67_eq]; simp only [Matrix.cons_val_zero]; omega)
  have v1 : (((oSlice c s).view.emb y) 1 : Nat) = (y 1).val :=
    (oSlice_emb_val c s y 1).trans (by rw [k0_off67_eq]; simp only [Matrix.cons_val_one, Matrix.cons_val_zero, Matrix.head_cons]; omega)
  refine h.trans ((hX y).trans ?_)
  unfold rowG laneSums
  have e0 : (⟨(128 * ((coordsV c s) 1).val + 64 * ((coordsV c s) 0).val + (y 0).val) % 16384, Nat.mod_lt _ (by decide)⟩ : Fin 16384)
      = ⟨(((oSlice c s).view.emb y) 0).val, Nat.lt_of_lt_of_le (((oSlice c s).view.emb y) 0).isLt (show (2048 : Nat) ≤ 16384 by decide)⟩ := by
    refine Fin.ext ?_
    show (128 * ((coordsV c s) 1).val + 64 * ((coordsV c s) 0).val + (y 0).val) % 16384 = (((oSlice c s).view.emb y) 0 : Nat)
    rw [v0]; omega
  have e1 : (y 1) = (((oSlice c s).view.emb y) 1) := Fin.ext v1.symm
  rw [e0, e1]

set_option maxHeartbeats 1600000 in
set_option maxRecDepth 65536 in
theorem tile_body (O : CellTallies nD τ sig (HIx 1)) (W : Waits sig (HIx 1)) (hO : ∀ g, O g none = 0) :
    (iprop(levAts (K (F := F)).L (K (F := F)).lev ∗ emp
        ∗ ((wLoc d ↦{wTok c s} wc d) ∗ ∃ g : Buf (Elt F) (oLoc d), oLoc d ↦[(oSlice c s).view.set]{fullShare} g)
        ∗ scopedBufs (thrV d c s) ∗ scopedSems0 (thrV d c s) ∗ owes (thrV d c s) O W) : sProp 𝕄)
      ⊢ wp frame (wpE (defs₀ (F := F)) 𝒱₀ (thrV d c s) none) Set.univ
          (cc0__sc_body (coordsV c s) wV (Memref.isWhole_whole _) oV (Memref.isWhole_whole _) sA (Memref.isWhole_whole _) sB (Memref.isWhole_whole _)
            sC (Memref.isWhole_whole _) cc0_scratch3 cc0_scratch4 cc0_scoped0)
          fun _ => iprop(((wLoc d ↦{wTok c s} wc d) ∗ oLoc d ↦[(oSlice c s).view.set]{fullShare} (laneSums (wc d) : Buf (Elt F) (oLoc d)))
            ∗ scopedBufs (thrV d c s) ∗ scopedSems0 (thrV d c s)
            ∗ ∃ W', ⌜∀ p ∈ W', p ∈ W ∨ p.2 = none⌝ ∗ owes (thrV d c s) O W') := by
  simp only [cc0__sc_body_eq_skeleton]; unfold cc0__sc_body_skel
  rw [(K (F := F)).scopedBufs_V facts d (cV c s) (jV c s), SparseCore.Cfg.scopedSems0_V (Val := Elt F) d (cV c s) (jV c s), ownSems0_V, ownBufs_V]
  iintro ⟨#Hlv, -, ⟨Hw, %g, Ho⟩, ⟨⟨%fa, Ha⟩, ⟨%fb, Hb⟩, ⟨%fc, Hc⟩, Hbufs⟩, ⟨HsemA, HsemB, HsemC, Hsems⟩, HO⟩
  ihave Hmw := ((K (F := F)).mayWaits_none (thr := thrV d c s) hO) $$ Hlv
  ihave Hw' := (Entails.of_eq (pts_w (F := F) d c s _ _).symm) $$ Hw
  ihave Ho' := (Entails.of_eq (pts_o (F := F) d c s _).symm) $$ Ho
  ihave Ha' := (Entails.of_eq (pts_sA (F := F) d c s _).symm) $$ Ha
  ihave Hb' := (Entails.of_eq (pts_sB (F := F) d c s _).symm) $$ Hb
  ihave Hc' := (Entails.of_eq (pts_sC (F := F) d c s _).symm) $$ Hc
  sl_exec_parts
  sl_step
  isplitl [Hw' Ho']
  · isplitl [Hw']
    · iapply (Entails.of_eq (pts_w (F := F) d c s _ _)); iexact Hw'
    · iapply (Entails.of_eq (pts_o (F := F) d c s _))
      iapply (Entails.of_eq (out_congr (F := F) wc d c s g _ ?hX)) $$ Ho'
      case hX =>
        intro y
        refine View.read_writes_apply_of_pieces (Val := Elt F) sC.view fc (rowG wc d c s) _ ?hp y (View.cover_of_tiled _ ![1, 16] rfl y)
        repeat' (first | exact fun _ h => absurd h List.not_mem_nil | refine List.forall_mem_cons.mpr ⟨?_, ?_⟩)
        -- the rows come last first: chunks 7, 5, 3, 1 went through the second buffer, chunks 6, 4, 2, 0 through the first
        iterate 8 row_B
        iterate 8 row_A
        iterate 8 row_B
        iterate 8 row_A
        iterate 8 row_B
        iterate 8 row_A
        iterate 8 row_B
        iterate 8 row_A
  isplitl [Ha' Hb' Hc' Hbufs]
  · isplitl [Ha']; · iexists _; iapply (Entails.of_eq (pts_sA (F := F) d c s _)); iexact Ha'
    isplitl [Hb']; · iexists _; iapply (Entails.of_eq (pts_sB (F := F) d c s _)); iexact Hb'
    isplitl [Hc']; · iexists _; iapply (Entails.of_eq (pts_sC (F := F) d c s _)); iexact Hc'
    iexact Hbufs
  isplitl [HsemA HsemB HsemC Hsems]
  · isplitl [HsemA]; · iexact HsemA
    isplitl [HsemB]; · iexact HsemB
    isplitl [HsemC]; · iexact HsemC
    iexact Hsems
  iexists _; isplitr
  swap
  · iexact HO
  · ipureintro; intro p hp
    repeat (rcases Finset.mem_insert.mp hp with rfl | hp; · exact .inr rfl)
    exact .inl hp

end TileV

/-! ## The launch theorem's obligation, with the value -/

variable (wc : (d : Dev nD) → Buf (Elt F) (wLoc d))

theorem tileObl : (K (F := F)).TileObl (D (F := F)) 𝒱 (P (F := F) wc fun d => (laneSums (wc d) : Buf (Elt F) (oLoc d))) v₀ 0 := by
  intro d c i O W hO _ _
  -- the kernel owes nothing for a protocol of its own
  simp only [show (P (F := F) wc fun d => (laneSums (wc d) : Buf (Elt F) (oLoc d))).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body wc d ⟨_, hc.1⟩ ⟨_, hc.2⟩ O W hO).trans (wp_mono frame _ _ fun _ => obl_post)

end Cert.Proof.KB

end
-- ==== Proof.lean ====
/-
  The certificate's five claims. Both printed kernels are the same program — four reshapes, one SparseCore call
  whose 32 tiles sum each of the first 2048 weight rows into 16 lane sums, a TensorCore region of 28 points that
  accumulates the token sums sh[e,h] = Σ_t sp[e,t]·hid[t,h] and the column sums ws[e',h] = Σ_o W[e'+1,h,o] and
  stores Σ_{e',h} sh[e'+1,h]·ws[e',h], a slice and a reshape, a second TensorCore region adding
  Σ_{h,l} lanes[h,l]·sh[0,h], and a last reshape — so one run theorem, generic in the float instance, gives each
  kernel's frame (the arguments are written by no step) and, at the exact instance, the result as a pure function of
  the arguments. Over the extended reals with finite inputs that function is Σ_{e,t,h,o} sp[e,t]·hid[t,h]·W[e,h,o]
  regrouped (distributivity, which is where finiteness is used), and so is the reference's Σ_{e,t,o} (Σ_h W·hid)·sp.
-/
import proofs.«216131_g62878321214323_cont_9to1c4b_752_23_alg».proof.Defs
import proofs.«216131_g62878321214323_cont_9to1c4b_752_23_alg».proof.Proof.Gen.Kernel
import proofs.«216131_g62878321214323_cont_9to1c4b_752_23_alg».proof.Proof.Gen.KernelIdeal
import proofs.«216131_g62878321214323_cont_9to1c4b_752_23_alg».proof.Proof.Gen.ReferenceIdeal
import proofs.«216131_g62878321214323_cont_9to1c4b_752_23_alg».proof.Proof.Gen.Pre_finite_inputs
import proofs.«216131_g62878321214323_cont_9to1c4b_752_23_alg».proof.Proof.RefSide
import proofs.«216131_g62878321214323_cont_9to1c4b_752_23_alg».proof.Proof.SpecRef
import proofs.«216131_g62878321214323_cont_9to1c4b_752_23_alg».proof.Proof.Finite
import proofs.«216131_g62878321214323_cont_9to1c4b_752_23_alg».proof.Proof.KI.Steps
import proofs.«216131_g62878321214323_cont_9to1c4b_752_23_alg».proof.Proof.KI.TileBody
import proofs.«216131_g62878321214323_cont_9to1c4b_752_23_alg».proof.Proof.KI.ValueEnd
import proofs.«216131_g62878321214323_cont_9to1c4b_752_23_alg».proof.Proof.KB.Steps
import proofs.«216131_g62878321214323_cont_9to1c4b_752_23_alg».proof.Proof.KB.TileBody

noncomputable section

namespace Cert.Proof

open Idealize.ShloMosaic Idealize.ShloMosaic.TcCoe Idealize.SL.Sem

/-- The word-level kernel runs to its end and leaves its arguments as they were. -/
theorem frame_k : Cert.frame_Kernel (hKernel := Cert.Kernel.Gen.facts) (hPre_finite_inputs := Cert.Pre_finite_inputs.Gen.facts) := fun m ρ _ =>
  (θ_run (Cert.Kernel.defs (F := Bits)) _ _).mono (fun _ h c => (h c).2)
    (KB.run_claim (F := Bits) m ρ (fun d => KB.laneSums (KB.wcOf m d)) KB.upd0 KB.upd1 KB.writesOnly
      (KB.tileObl (KB.wcOf m)) (KB.step0 m _) (KB.step1 m _))

/-- The idealized kernel runs to its end and leaves its arguments as they were. -/
theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun _ h c => (h c).2)
    (KI.run_claim (F := Ideal) m ρ (fun d => KI.laneSums (KI.wcOf m d)) KI.upd0 KI.upd1 KI.writesOnly
      (KI.tileObl (KI.wcOf m)) (KI.step0 m _) (KI.step1 m _))

/-- At the exact instance both programs end with the same scalar: the kernel's final valuation at its result is
    the regrouped sum, the reference's generated run read through its stages is the same sum. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => KI.ValEnd (F := Ideal) m (fun d => KI.laneSums (KI.wcOf m d)) KI.upd0 KI.upd1 c KI.r9',
    KI.run_claim (F := Ideal) m ρ (fun d => KI.laneSums (KI.wcOf m d)) KI.upd0 KI.upd1 KI.writesOnly
      (KI.tileObl (KI.wcOf m)) (KI.step0 m _) (KI.step1 m _), ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Spec.allReal_of_finite_inputs _ _ _ (hpre c)
  rw [(hagree c).1, (hagree c).2.1, (hagree c).2.2, Cert.ReferenceIdeal.Read.val_main_v5_eq]
  exact ((KI.valEnd_ideal m c).trans (Spec.kernelVal_fun_eq_ref _ _ _ h0 h1 h2)).symm

theorem claim : Cert.Claim :=
  ⟨Cert.Kernel.Gen.facts, Cert.KernelIdeal.Gen.facts, Cert.ReferenceIdeal.Gen.facts, Cert.Pre_finite_inputs.Gen.facts,
    frame_k, frame_ki, RefSide.frame_ri, trivial, algebraic⟩

end Cert.Proof

end
